-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 138
  | .vmem => 50
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S50000x128, .f32⟩
  | 87 => ⟨S50000x128, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x128, .f32⟩
  | 97 => ⟨S850000x1, .f32⟩
  | 98 => ⟨S850000x128, .f32⟩
  | 99 => ⟨S850000x128, .f32⟩
  | 100 => ⟨S_, .f32⟩
  | 101 => ⟨S50000x128, .f32⟩
  | 102 => ⟨S850000x1, .i32⟩
  | 103 => ⟨S50000x128, .f32⟩
  | 104 => ⟨S1x128, .f32⟩
  | 105 => ⟨S50000x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S50000x128, .f32⟩
  | 119 => ⟨S50000x64, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x64, .f32⟩
  | 1 => ⟨S850000x1, .f32⟩
  | 2 => ⟨S850000x64, .f32⟩
  | 3 => ⟨S850000x64, .f32⟩
  | 4 => ⟨S_, .f32⟩
  | 5 => ⟨S50000x64, .f32⟩
  | 6 => ⟨S850000x1, .i32⟩
  | 7 => ⟨S50000x64, .f32⟩
  | 8 => ⟨S1x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_v47_2 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72_0 : Ref sig .tc := ⟨.hbm, 105, rfl⟩
abbrev main_v72_1 : Ref sig .tc := ⟨.hbm, 106, rfl⟩
abbrev main_v72_2 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_c_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def k1_cond2 (i : grid1.Coords) : BitVec 1 :=
  let arg0 : BitVec 32 := BitVec.ofNat 32 (i 0).val
  let c0_i32_7 : BitVec 32 := 0#32
  let v15 : BitVec 1 := Scalar.cmpi .ne arg0 c0_i32_7
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond1 (i : grid4.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def k4_cond2 (i : grid4.Coords) : BitVec 1 :=
  let arg0 : BitVec 32 := BitVec.ofNat 32 (i 0).val
  let c0_i32_7 : BitVec 32 := 0#32
  let v15 : BitVec 1 := Scalar.cmpi .ne arg0 c0_i32_7
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond1 i == 1#1) && !(k1_cond2 i == 1#1) | 4 => fun i => !(k1_cond1 i == 1#1) && !(k1_cond2 i == 1#1) | ⟨_ + 5, h⟩ => absurd h (Nat.not_lt.2 (Nat.le_add_left _ _))

abbrev win2_0 : Pipeline.Window sig grid2 :=
  Pipeline.Window.ofSpec (Memref.whole main_v47_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S2000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond1 i == 1#1) && !(k4_cond2 i == 1#1) | 4 => fun i => !(k4_cond1 i == 1#1) && !(k4_cond2 i == 1#1) | ⟨_ + 5, h⟩ => absurd h (Nat.not_lt.2 (Nat.le_add_left _ _))

abbrev win5_0 : Pipeline.Window sig grid5 :=
  Pipeline.Window.ofSpec (Memref.whole main_v72_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v81) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v97) S2000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 224
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x64, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x64, .f32⟩
  | 71 => ⟨S850000x1, .f32⟩
  | 72 => ⟨S850000x64, .f32⟩
  | 73 => ⟨S850000x64, .f32⟩
  | 74 => ⟨S_, .f32⟩
  | 75 => ⟨S50000x64, .f32⟩
  | 76 => ⟨S850000x1, .i32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x64, .f32⟩
  | 88 => ⟨S50000x64, .f32⟩
  | 89 => ⟨S50000x64, .f32⟩
  | 90 => ⟨S_, .f32⟩
  | 91 => ⟨S50000, .f32⟩
  | 92 => ⟨S50000x1, .f32⟩
  | 93 => ⟨S50000x1, .f32⟩
  | 94 => ⟨S50000x64, .f32⟩
  | 95 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_13 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_call2_cst : Ref sig .tc := ⟨.hbm, 119, rfl⟩
abbrev main_call2_v0 : Ref sig .tc := ⟨.hbm, 120, rfl⟩
abbrev main_v68 : Ref sig .tc := ⟨.hbm, 121, rfl⟩
abbrev main_v69 : Ref sig .tc := ⟨.hbm, 122, rfl⟩
abbrev main_c_14 : Ref sig .tc := ⟨.hbm, 123, rfl⟩
abbrev main_v70 : Ref sig .tc := ⟨.hbm, 124, rfl⟩
abbrev main_v71 : Ref sig .tc := ⟨.hbm, 125, rfl⟩
abbrev main_c_15 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_16 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_17 : Ref sig .tc := ⟨.hbm, 142, rfl⟩
abbrev main_v86 : Ref sig .tc := ⟨.hbm, 143, rfl⟩
abbrev main_cst_18 : Ref sig .tc := ⟨.hbm, 144, rfl⟩
abbrev main_v87 : Ref sig .tc := ⟨.hbm, 145, rfl⟩
abbrev main_v88 : Ref sig .tc := ⟨.hbm, 146, rfl⟩
abbrev main_c_19 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_cst_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_v6 : Ref sig .tc := ⟨.hbm, 156, rfl⟩
abbrev main_call3_v7 : Ref sig .tc := ⟨.hbm, 157, rfl⟩
abbrev main_call3_cst_1 : Ref sig .tc := ⟨.hbm, 158, rfl⟩
abbrev main_call3_v8 : Ref sig .tc := ⟨.hbm, 159, rfl⟩
abbrev main_call3_cst_2 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_cst_3 : Ref sig .tc := ⟨.hbm, 164, rfl⟩
abbrev main_call3_v12 : Ref sig .tc := ⟨.hbm, 165, rfl⟩
abbrev main_call3_cst_4 : Ref sig .tc := ⟨.hbm, 166, rfl⟩
abbrev main_call3_call0_v0 : Ref sig .tc := ⟨.hbm, 167, rfl⟩
abbrev main_call3_call0_v1 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_cst_20 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_call4_cst : Ref sig .tc := ⟨.hbm, 186, rfl⟩
abbrev main_call4_v0 : Ref sig .tc := ⟨.hbm, 187, rfl⟩
abbrev main_v105 : Ref sig .tc := ⟨.hbm, 188, rfl⟩
abbrev main_v106 : Ref sig .tc := ⟨.hbm, 189, rfl⟩
abbrev main_c_21 : Ref sig .tc := ⟨.hbm, 190, rfl⟩
abbrev main_v107 : Ref sig .tc := ⟨.hbm, 191, rfl⟩
abbrev main_v108 : Ref sig .tc := ⟨.hbm, 192, rfl⟩
abbrev main_c_22 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_cst_23 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_call5_cst : Ref sig .tc := ⟨.hbm, 209, rfl⟩
abbrev main_call5_v0 : Ref sig .tc := ⟨.hbm, 210, rfl⟩
abbrev main_call5_cst_0 : Ref sig .tc := ⟨.hbm, 211, rfl⟩
abbrev main_call5_v1 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_v5 : Ref sig .tc := ⟨.hbm, 216, rfl⟩
abbrev main_call5_v6 : Ref sig .tc := ⟨.hbm, 217, rfl⟩
abbrev main_call5_cst_1 : Ref sig .tc := ⟨.hbm, 218, rfl⟩
abbrev main_call5_v7 : Ref sig .tc := ⟨.hbm, 219, rfl⟩
abbrev main_call5_v8 : Ref sig .tc := ⟨.hbm, 220, rfl⟩
abbrev main_call5_v9 : Ref sig .tc := ⟨.hbm, 221, rfl⟩
abbrev main_call5_v10 : Ref sig .tc := ⟨.hbm, 222, rfl⟩
abbrev main_v123 : Ref sig .tc := ⟨.hbm, 223, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.K.R0.lean ====
/-
  Region 0 of @main: a row block of the activations times the whole weight matrix.
  At a parameter `V`, the contents of the core's buffers when the region is entered: each window's block at a grid
  point, what the body leaves in the output block (the product of the point's row block with the weights), the body's
  triple, the pipeline's proof data and the body obligation at every point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Every access of the body is of a whole block. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_o : Rect S2000x128 := Rect.unit (s := S2000x128) ![0, 0] S2000x128.size inb_S2000x128_S2000x128_0_0

/-- The output block after the body: one store, over the whole block, of the body's value of the input blocks. -/
def out0_2 (x0 : Vec F S2000x128 .f32) (x1 : Vec F S128x128 .f32) : Vec F S2000x128 .f32 :=
  View.canon [⟨r0_o, k0_pay1 (View.ld x0 r0_0) (View.ld x1 r0_1)⟩]

/-- The one store covers the block. -/
theorem cover0_2 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole staging memrefs, the inputs' at given contents and the output's at anything, returns with the
    inputs' as they were and the output's at `out0_2` of them. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover0_2 _)

/-- The proof data of the pipeline on core `c`: the arrays as the region finds them; after the body at point `t` each
    input's buffer at its block and the output's at the body's value of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%dd, Hout⟩⟩
  iapply (sound_kernel0 c Set.univ _ _ _ _ _ _ _ (iblk0 V c 0 t) (iblk0 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Stats1.lean ====
/-
  The frame half of the column-statistics kernel (the second pallas_call of @main and, with the region number
  changed, the fifth): a grid of 25 points over blocks of 2000 rows of a [50000, 128] array.  Each point adds the
  bias row to its block and stores the block; it also folds the block's column sums and column sums of squares into
  two [1, 128] outputs whose block index is (0, 0) at every point, so their staging buffers are kept from point to
  point and written back once, after the last point.  The first point STORES the block's sums; every later point
  loads the running sums, ADDS the block's sums and stores the result.

  What this module states, at a parameter `V` (the TensorCore's buffer contents when the region is entered) and at
  any float instance `F`: the proof data `dat1` — the inputs' buffers at their blocks, the rows' output at the biased
  block, the two sums' outputs at the running sums `acc1_3` / `acc1_4` defined by recursion on the point — and the
  body obligation for it: the body's triple in each of the two control cases the grid meets, the two conditions
  decided over the grid, and what the sums' buffers hold when the body is entered at a later point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics kernel (pipeline 1 of @main), at the entry contents `V`

Each of the 25 grid points adds the bias row to a block of 2000 rows, stores the block, and folds the block's
column sums and column sums of squares into two one-row outputs whose block never moves: the first point
stores the block's sums, every later point adds its block's sums to what the point before left. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two control cases, decided over the grid -/

/-- The first conditional (store the block's sums) is taken at the first point only, -/
theorem hcond1_1 : ∀ t : Fin cfg1.N, k1_cond1 (grid1.coords t) = 1#1 ↔ t.val % 25 = 0 :=
  (by decide +kernel : ∀ t : Fin grid1.N, k1_cond1 (grid1.coords t) = 1#1 ↔ t.val % 25 = 0)
/-- the second (add the block's sums to the running ones) at every other point. -/
theorem hcond1_2 : ∀ t : Fin cfg1.N, k1_cond2 (grid1.coords t) = 1#1 ↔ ¬t.val % 25 = 0 :=
  (by decide +kernel : ∀ t : Fin grid1.N, k1_cond2 (grid1.coords t) = 1#1 ↔ ¬t.val % 25 = 0)
/-- The inputs' windows and the rows' output are stored (or left in place) at every point; -/
theorem live1_0 : ∀ t : Fin cfg1.N, cfg1.idle 0 (cfg1.grid.coords t) = false := fun _ => rfl
theorem live1_1 : ∀ t : Fin cfg1.N, cfg1.idle 1 (cfg1.grid.coords t) = false := fun _ => rfl
theorem live1_2 : ∀ t : Fin cfg1.N, cfg1.idle 2 (cfg1.grid.coords t) = false := fun _ => rfl
/-- and at every point one of the two conditionals stores into the sums' windows: neither is ever idle. -/
theorem live1_3 : ∀ t : Fin cfg1.N, cfg1.idle 3 (cfg1.grid.coords t) = false :=
  (by decide +kernel : ∀ t : Fin grid1.N, idle1 3 (grid1.coords t) = false)
theorem live1_4 : ∀ t : Fin cfg1.N, cfg1.idle 4 (cfg1.grid.coords t) = false :=
  (by decide +kernel : ∀ t : Fin grid1.N, idle1 4 (grid1.coords t) = false)

/-! ## Whole-buffer loads and stores -/

theorem hz1 : (![0, 0] : Fin 2 → Nat) = fun _ => 0 := funext fun a => by fin_cases a <;> rfl

/-- One store through the whole-shape rectangle leaves its payload, whatever the buffer held. -/
theorem read_store_whole1 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load through the whole-shape rectangle of a whole buffer holding `X` reads `X`. -/
theorem load_whole1 {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

/-! ## The body's triple, case by case -/

set_option maxHeartbeats 1000000 in
/-- THE FIRST POINT (the first conditional taken, the second not): on whole staging memrefs, the inputs' at their
    contents `x0` (the block of rows) and `x1` (the bias row) and the outputs' at anything, the body runs to the
    continuation holding the inputs' as they were, the rows' output at the biased block and the two sums' outputs at
    the block's column sums and column sums of squares. -/
theorem kernelRun1_A (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : k1_cond1 i = 1#1) (hc2 : ¬k1_cond2 i = 1#1)
    (x0 : Vec F S2000x128 .f32) (x1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k1_pay1 x0 x1)
            ∗ owns (c : Thread nD τ) arg4 fullShare (k1_pay2 x0 x1)
            ∗ owns (c : Thread nD τ) arg5 fullShare (k1_pay3 x0 x1)) -∗ K ⟨⟩))
      ⊢ wp frame (wpE (defs₀ (F := F)) Variants.none c none) E (cc1__stats_bias_kernel i arg1 harg1 arg2 harg2 arg3 harg3 arg4 harg4 arg5 harg5) K := by
  simp only [cc1__stats_bias_kernel_eq_skeleton]; unfold cc1__stats_bias_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole1 _ _ hz1 _ _).trans (by rw [load_whole1 _ harg1 hz1, load_whole1 _ harg2 hz1])
  isplitl [H3]
  · iexists _; isplitr; swap; · iexact H3
    ipureintro
    exact (read_store_whole1 _ _ hz1 _ _).trans (by rw [load_whole1 _ harg1 hz1, load_whole1 _ harg2 hz1])
  iexists _; isplitr; swap; · iexact H4
  ipureintro
  exact (read_store_whole1 _ _ hz1 _ _).trans (by rw [load_whole1 _ harg1 hz1, load_whole1 _ harg2 hz1])

set_option maxHeartbeats 1000000 in
/-- EVERY LATER POINT (the first conditional not taken, the second taken): the same, the two sums' staging memrefs
    holding the running sums `xo3` and `xo4` the point before left; the body leaves them at the running sums plus
    the block's. -/
theorem kernelRun1_B (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : ¬k1_cond1 i = 1#1) (hc2 : k1_cond2 i = 1#1)
    (x0 : Vec F S2000x128 .f32) (x1 : Vec F S1x128 .f32) (xo3 xo4 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo3
        ∗ owns (c : Thread nD τ) arg5 fullShare xo4
        ∗ (iprop(owns (c : Thread nD τ) arg1 fullShare x0 ∗ owns (c : Thread nD τ) arg2 fullShare x1
            ∗ owns (c : Thread nD τ) arg3 fullShare (k1_pay1 x0 x1)
            ∗ owns (c : Thread nD τ) arg4 fullShare (k1_pay4 x0 x1 xo3)
            ∗ owns (c : Thread nD τ) arg5 fullShare (k1_pay5 x0 x1 xo4)) -∗ K ⟨⟩))
      ⊢ wp frame (wpE (defs₀ (F := F)) Variants.none c none) E (cc1__stats_bias_kernel i arg1 harg1 arg2 harg2 arg3 harg3 arg4 harg4 arg5 harg5) K := by
  simp only [cc1__stats_bias_kernel_eq_skeleton]; unfold cc1__stats_bias_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole1 _ _ hz1 _ _).trans (by rw [load_whole1 _ harg1 hz1, load_whole1 _ harg2 hz1])
  isplitl [H3]
  · iexists _; isplitr; swap; · iexact H3
    ipureintro
    exact (read_store_whole1 _ _ hz1 _ _).trans (by rw [load_whole1 _ harg1 hz1, load_whole1 _ harg2 hz1, load_whole1 _ harg4 hz1])
  iexists _; isplitr; swap; · iexact H4
  ipureintro
  exact (read_store_whole1 _ _ hz1 _ _).trans (by rw [load_whole1 _ harg1 hz1, load_whole1 _ harg2 hz1, load_whole1 _ harg5 hz1])

/-! ## What the two sums' windows hold after each point -/

/-- The running column sums after the body at position `n`: the first block's column sums, then at every later point
    what the point before left plus that point's block's column sums. -/
def acc1_3 (c : Dev nD) : (n : ℕ) → n < cfg1.N → Vec F S1x128 .f32
  | 0, hn => k1_pay2 (iblk1 V c 0 ⟨0, hn⟩) (iblk1 V c 1 ⟨0, hn⟩)
  | n + 1, hn => k1_pay4 (iblk1 V c 0 ⟨n + 1, hn⟩) (iblk1 V c 1 ⟨n + 1, hn⟩) (acc1_3 c n (Nat.lt_of_succ_lt hn))

/-- The running column sums of squares, likewise. -/
def acc1_4 (c : Dev nD) : (n : ℕ) → n < cfg1.N → Vec F S1x128 .f32
  | 0, hn => k1_pay3 (iblk1 V c 0 ⟨0, hn⟩) (iblk1 V c 1 ⟨0, hn⟩)
  | n + 1, hn => k1_pay5 (iblk1 V c 0 ⟨n + 1, hn⟩) (iblk1 V c 1 ⟨n + 1, hn⟩) (acc1_4 c n (Nat.lt_of_succ_lt hn))

theorem acc1_3_A (c : Dev nD) (t : Fin cfg1.N) (h0 : t.val % 25 = 0) :
    acc1_3 V c t.val t.isLt = k1_pay2 (iblk1 V c 0 t) (iblk1 V c 1 t) := by
  have hN : t.val < 25 := lt_of_lt_of_eq t.isLt (show cfg1.N = 25 from N_1)
  obtain ⟨n, hn⟩ := t
  cases n with
  | zero => rfl
  | succ n => exact absurd h0 (by dsimp only at hN ⊢; omega)

theorem acc1_3_B (c : Dev nD) (t : Fin cfg1.N) (h0 : ¬t.val % 25 = 0) :
    acc1_3 V c t.val t.isLt = k1_pay4 (iblk1 V c 0 t) (iblk1 V c 1 t) (acc1_3 V c (t.val - 1) (Nat.lt_of_le_of_lt (Nat.sub_le _ _) t.isLt)) := by
  obtain ⟨n, hn⟩ := t
  cases n with
  | zero => exact absurd (Nat.zero_mod _) h0
  | succ n => rfl

theorem acc1_4_A (c : Dev nD) (t : Fin cfg1.N) (h0 : t.val % 25 = 0) :
    acc1_4 V c t.val t.isLt = k1_pay3 (iblk1 V c 0 t) (iblk1 V c 1 t) := by
  have hN : t.val < 25 := lt_of_lt_of_eq t.isLt (show cfg1.N = 25 from N_1)
  obtain ⟨n, hn⟩ := t
  cases n with
  | zero => rfl
  | succ n => exact absurd h0 (by dsimp only at hN ⊢; omega)

theorem acc1_4_B (c : Dev nD) (t : Fin cfg1.N) (h0 : ¬t.val % 25 = 0) :
    acc1_4 V c t.val t.isLt = k1_pay5 (iblk1 V c 0 t) (iblk1 V c 1 t) (acc1_4 V c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The proof data of pipeline 1 on core `c`: the arrays as the region finds them (`V`); after the body at point `t`
    each input's buffer at its block, the rows' output at the biased block, the two sums' outputs at the running sums;
    the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
    | ⟨3, _⟩ => acc1_3 V c t.val t.isLt
    | ⟨4, _⟩ => acc1_4 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem after1_3 (c : Dev nD) (t : Fin cfg1.N) : (dat1 V c).after 3 t = acc1_3 V c t.val t.isLt := by dsimp only [dat1]
theorem after1_4 (c : Dev nD) (t : Fin cfg1.N) : (dat1 V c).after 4 t = acc1_4 V c t.val t.isLt := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- After the first point the column sums' current staging buffer holds what the body left at the point before: the
    block index never moves, the buffer is written back after the last point only, the window is uncut, and the point
    before stored into it. -/
theorem before1_3_B (c : Dev nD) (t : Fin cfg1.N) (h0 : ¬t.val % 25 = 0) (d) :
    (dat1 V c).before 3 t d = acc1_3 V c (t.val - 1) (Nat.lt_of_le_of_lt (Nat.sub_le _ _) t.isLt) := by
  have hN : t.val < 25 := lt_of_lt_of_eq t.isLt (show cfg1.N = 25 from N_1)
  rw [Dat.before_of_pos _ 3 t (by omega) ((cfg1.win 3).fetch_out rfl t),
    if_neg (fun h => by have := (flush1_3 _).mp h; dsimp only at this; omega)]
  unfold Dat.left
  rw [live1_3]
  dsimp only
  unfold Dat.kept
  rw [Pipeline.fill_of_clip_none 3 _ (fun _ => rfl) d ((dat1 V c).after 3 _), Window.fill_cut, after1_3]

/-- The column sums of squares' likewise. -/
theorem before1_4_B (c : Dev nD) (t : Fin cfg1.N) (h0 : ¬t.val % 25 = 0) (d) :
    (dat1 V c).before 4 t d = acc1_4 V c (t.val - 1) (Nat.lt_of_le_of_lt (Nat.sub_le _ _) t.isLt) := by
  have hN : t.val < 25 := lt_of_lt_of_eq t.isLt (show cfg1.N = 25 from N_1)
  rw [Dat.before_of_pos _ 4 t (by omega) ((cfg1.win 4).fetch_out rfl t),
    if_neg (fun h => by have := (flush1_4 _).mp h; dsimp only at this; omega)]
  unfold Dat.left
  rw [live1_4]
  dsimp only
  unfold Dat.kept
  rw [Pipeline.fill_of_clip_none 4 _ (fun _ => rfl) d ((dat1 V c).after 4 _), Window.fill_cut, after1_4]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: every window's buffer at what the body leaves there. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 800000 in
/-- The body at any point: the inputs' memrefs hold their blocks; the point is the first or a later one; at a later
    one the sums' memrefs hold what the point before left; so that case's run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  rw [show (dat1 V c).leavesExact 2 t = owns (c : Thread nD τ) (st1_2 t) fullShare ((dat1 V c).after 2 t) from by
      unfold Dat.leavesExact; rw [live1_2 t], after1_2]
  rw [show (dat1 V c).leavesExact 3 t = owns (c : Thread nD τ) (st1_3 t) fullShare ((dat1 V c).after 3 t) from by
      unfold Dat.leavesExact; rw [live1_3 t], after1_3]
  rw [show (dat1 V c).leavesExact 4 t = owns (c : Thread nD τ) (st1_4 t) fullShare ((dat1 V c).after 4 t) from by
      unfold Dat.leavesExact; rw [live1_4 t], after1_4]
  by_cases h0 : t.val % 25 = 0
  · rw [acc1_3_A V c t h0, acc1_4_A V c t h0]
    iintro ⟨HΦ, Ho, ⟨%d0, H0⟩, ⟨%d1, H1⟩, ⟨%d2, H2⟩, ⟨%d3, H3⟩, ⟨%d4, H4⟩⟩
    iapply (kernelRun1_A c (grid1.coords t) _ _ _ _ _ _ _ _ _ _ ((hcond1_1 t).mpr h0) (fun h => (hcond1_2 t).mp h h0)
      (iblk1 V c 0 t) (iblk1 V c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc1_3_B V c t h0, acc1_4_B V c t h0]
    simp only [before1_3_B V c t h0, before1_4_B V c t h0]
    iintro ⟨HΦ, Ho, ⟨%d0, H0⟩, ⟨%d1, H1⟩, ⟨%d2, H2⟩, ⟨%d3, H3⟩, ⟨%d4, H4⟩⟩
    iapply (kernelRun1_B c (grid1.coords t) _ _ _ _ _ _ _ _ _ _ (fun h => h0 ((hcond1_1 t).mp h)) ((hcond1_2 t).mpr h0)
      (iblk1 V c 0 t) (iblk1 V c 1 t) _ _ Set.univ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of @main: batch normalisation and rectification of a row block, column by column:
  max(g · (h − mean) · rsqrt(var + ε) + β, 0), the four column vectors given as rows of one line.
  At a parameter `V`, the contents of the core's buffers when the region is entered: each window's block at a grid
  point, what the body leaves in the output block, the body's triple, the pipeline's proof data and the body obligation
  at every point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not fetched the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Every access of the body is of a whole block. -/
abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_o : Rect S2000x128 := Rect.unit (s := S2000x128) ![0, 0] S2000x128.size inb_S2000x128_S2000x128_0_0

/-- The output block after the body: one store, over the whole block, of the body's value of the input blocks. -/
def out2_5 (x0 : Vec F S2000x128 .f32) (x1 : Vec F S1x128 .f32) (x2 : Vec F S1x128 .f32) (x3 : Vec F S1x128 .f32) (x4 : Vec F S1x128 .f32) : Vec F S2000x128 .f32 :=
  View.canon [⟨r2_o, k2_pay1 (View.ld x0 r2_0) (View.ld x1 r2_1) (View.ld x2 r2_2) (View.ld x3 r2_3) (View.ld x4 r2_4)⟩]

/-- The one store covers the block. -/
theorem cover2_5 (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

set_option maxHeartbeats 1000000 in
/-- The body on whole staging memrefs, the inputs' at given contents and the output's at anything, returns with the
    inputs' as they were and the output's at `out2_5` of them. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dd, %fo, -, Ho⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact Ho
  ipureintro
  exact View.read_writes_eq_canon _ _ _ (cover2_5 _)

/-- The proof data of the pipeline on core `c`: the arrays as the region finds them; after the body at point `t` each
    input's buffer at its block and the output's at the body's value of the point's input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%dd, Hout⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [Hout]; · iexists _; iexact Hout
  iintro ⟨H0, H1, H2, H3, H4, Hout⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact Hout

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3 of @main: a row block of the activations times the whole weight matrix.
  At a parameter `V`, the contents of the core's buffers when the region is entered: each window's block at a grid
  point, what the body leaves in the output block (the product of the point's row block with the weights), the body's
  triple, the pipeline's proof data and the body obligation at every point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not fetched the
    block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Every access of the body is of a whole block. -/
abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_o : Rect S2000x128 := Rect.unit (s := S2000x128) ![0, 0] S2000x128.size inb_S2000x128_S2000x128_0_0

/-- The output block after the body: one store, over the whole block, of the body's value of the input blocks. -/
def out3_2 (x0 : Vec F S2000x128 .f32) (x1 : Vec F S128x128 .f32) : Vec F S2000x128 .f32 :=
  View.canon [⟨r3_o, k3_pay1 (View.ld x0 r3_0) (View.ld x1 r3_1)⟩]

/-- The one store covers the block. -/
theorem cover3_2 (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y

set_option maxHeartbeats 1000000 in
/-- The body on whole staging memrefs, the inputs' at given contents and the output's at anything, returns with the
    inputs' as they were and the output's at `out3_2` of them. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover3_2 _)

/-- The proof data of the pipeline on core `c`: the arrays as the region finds them; after the body at point `t` each
    input's buffer at its block and the output's at the body's value of the point's input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%dd, Hout⟩⟩
  iapply (sound_kernel3 c Set.univ _ _ _ _ _ _ _ (iblk3 V c 0 t) (iblk3 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Stats4.lean ====
/-
  The frame half of the column-statistics kernel (the fifth pallas_call of @main and, with the region number
  changed, the second): a grid of 25 points over blocks of 2000 rows of a [50000, 128] array.  Each point adds the
  bias row to its block and stores the block; it also folds the block's column sums and column sums of squares into
  two [1, 128] outputs whose block index is (0, 0) at every point, so their staging buffers are kept from point to
  point and written back once, after the last point.  The first point STORES the block's sums; every later point
  loads the running sums, ADDS the block's sums and stores the result.

  What this module states, at a parameter `V` (the TensorCore's buffer contents when the region is entered) and at
  any float instance `F`: the proof data `dat4` — the inputs' buffers at their blocks, the rows' output at the biased
  block, the two sums' outputs at the running sums `acc4_3` / `acc4_4` defined by recursion on the point — and the
  body obligation for it: the body's triple in each of the two control cases the grid meets, the two conditions
  decided over the grid, and what the sums' buffers hold when the body is entered at a later point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics kernel (pipeline 4 of @main), at the entry contents `V`

Each of the 25 grid points adds the bias row to a block of 2000 rows, stores the block, and folds the block's
column sums and column sums of squares into two one-row outputs whose block never moves: the first point
stores the block's sums, every later point adds its block's sums to what the point before left. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two control cases, decided over the grid -/

/-- The first conditional (store the block's sums) is taken at the first point only, -/
theorem hcond4_1 : ∀ t : Fin cfg4.N, k4_cond1 (grid4.coords t) = 1#1 ↔ t.val % 25 = 0 :=
  (by decide +kernel : ∀ t : Fin grid4.N, k4_cond1 (grid4.coords t) = 1#1 ↔ t.val % 25 = 0)
/-- the second (add the block's sums to the running ones) at every other point. -/
theorem hcond4_2 : ∀ t : Fin cfg4.N, k4_cond2 (grid4.coords t) = 1#1 ↔ ¬t.val % 25 = 0 :=
  (by decide +kernel : ∀ t : Fin grid4.N, k4_cond2 (grid4.coords t) = 1#1 ↔ ¬t.val % 25 = 0)
/-- The inputs' windows and the rows' output are stored (or left in place) at every point; -/
theorem live4_0 : ∀ t : Fin cfg4.N, cfg4.idle 0 (cfg4.grid.coords t) = false := fun _ => rfl
theorem live4_1 : ∀ t : Fin cfg4.N, cfg4.idle 1 (cfg4.grid.coords t) = false := fun _ => rfl
theorem live4_2 : ∀ t : Fin cfg4.N, cfg4.idle 2 (cfg4.grid.coords t) = false := fun _ => rfl
/-- and at every point one of the two conditionals stores into the sums' windows: neither is ever idle. -/
theorem live4_3 : ∀ t : Fin cfg4.N, cfg4.idle 3 (cfg4.grid.coords t) = false :=
  (by decide +kernel : ∀ t : Fin grid4.N, idle4 3 (grid4.coords t) = false)
theorem live4_4 : ∀ t : Fin cfg4.N, cfg4.idle 4 (cfg4.grid.coords t) = false :=
  (by decide +kernel : ∀ t : Fin grid4.N, idle4 4 (grid4.coords t) = false)

/-! ## Whole-buffer loads and stores -/

theorem hz4 : (![0, 0] : Fin 2 → Nat) = fun _ => 0 := funext fun a => by fin_cases a <;> rfl

/-- One store through the whole-shape rectangle leaves its payload, whatever the buffer held. -/
theorem read_store_whole4 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load through the whole-shape rectangle of a whole buffer holding `X` reads `X`. -/
theorem load_whole4 {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

/-! ## The body's triple, case by case -/

set_option maxHeartbeats 1000000 in
/-- THE FIRST POINT (the first conditional taken, the second not): on whole staging memrefs, the inputs' at their
    contents `x0` (the block of rows) and `x1` (the bias row) and the outputs' at anything, the body runs to the
    continuation holding the inputs' as they were, the rows' output at the biased block and the two sums' outputs at
    the block's column sums and column sums of squares. -/
theorem kernelRun4_A (c : Dev nD) (i : grid4.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : k4_cond1 i = 1#1) (hc2 : ¬k4_cond2 i = 1#1)
    (x0 : Vec F S2000x128 .f32) (x1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k4_pay1 x0 x1)
            ∗ owns (c : Thread nD τ) arg4 fullShare (k4_pay2 x0 x1)
            ∗ owns (c : Thread nD τ) arg5 fullShare (k4_pay3 x0 x1)) -∗ K ⟨⟩))
      ⊢ wp frame (wpE (defs₀ (F := F)) Variants.none c none) E (cc4__stats_bias_kernel i arg1 harg1 arg2 harg2 arg3 harg3 arg4 harg4 arg5 harg5) K := by
  simp only [cc4__stats_bias_kernel_eq_skeleton]; unfold cc4__stats_bias_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole4 _ _ hz4 _ _).trans (by rw [load_whole4 _ harg1 hz4, load_whole4 _ harg2 hz4])
  isplitl [H3]
  · iexists _; isplitr; swap; · iexact H3
    ipureintro
    exact (read_store_whole4 _ _ hz4 _ _).trans (by rw [load_whole4 _ harg1 hz4, load_whole4 _ harg2 hz4])
  iexists _; isplitr; swap; · iexact H4
  ipureintro
  exact (read_store_whole4 _ _ hz4 _ _).trans (by rw [load_whole4 _ harg1 hz4, load_whole4 _ harg2 hz4])

set_option maxHeartbeats 1000000 in
/-- EVERY LATER POINT (the first conditional not taken, the second taken): the same, the two sums' staging memrefs
    holding the running sums `xo3` and `xo4` the point before left; the body leaves them at the running sums plus
    the block's. -/
theorem kernelRun4_B (c : Dev nD) (i : grid4.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : ¬k4_cond1 i = 1#1) (hc2 : k4_cond2 i = 1#1)
    (x0 : Vec F S2000x128 .f32) (x1 : Vec F S1x128 .f32) (xo3 xo4 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo3
        ∗ owns (c : Thread nD τ) arg5 fullShare xo4
        ∗ (iprop(owns (c : Thread nD τ) arg1 fullShare x0 ∗ owns (c : Thread nD τ) arg2 fullShare x1
            ∗ owns (c : Thread nD τ) arg3 fullShare (k4_pay1 x0 x1)
            ∗ owns (c : Thread nD τ) arg4 fullShare (k4_pay4 x0 x1 xo3)
            ∗ owns (c : Thread nD τ) arg5 fullShare (k4_pay5 x0 x1 xo4)) -∗ K ⟨⟩))
      ⊢ wp frame (wpE (defs₀ (F := F)) Variants.none c none) E (cc4__stats_bias_kernel i arg1 harg1 arg2 harg2 arg3 harg3 arg4 harg4 arg5 harg5) K := by
  simp only [cc4__stats_bias_kernel_eq_skeleton]; unfold cc4__stats_bias_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole4 _ _ hz4 _ _).trans (by rw [load_whole4 _ harg1 hz4, load_whole4 _ harg2 hz4])
  isplitl [H3]
  · iexists _; isplitr; swap; · iexact H3
    ipureintro
    exact (read_store_whole4 _ _ hz4 _ _).trans (by rw [load_whole4 _ harg1 hz4, load_whole4 _ harg2 hz4, load_whole4 _ harg4 hz4])
  iexists _; isplitr; swap; · iexact H4
  ipureintro
  exact (read_store_whole4 _ _ hz4 _ _).trans (by rw [load_whole4 _ harg1 hz4, load_whole4 _ harg2 hz4, load_whole4 _ harg5 hz4])

/-! ## What the two sums' windows hold after each point -/

/-- The running column sums after the body at position `n`: the first block's column sums, then at every later point
    what the point before left plus that point's block's column sums. -/
def acc4_3 (c : Dev nD) : (n : ℕ) → n < cfg4.N → Vec F S1x128 .f32
  | 0, hn => k4_pay2 (iblk4 V c 0 ⟨0, hn⟩) (iblk4 V c 1 ⟨0, hn⟩)
  | n + 1, hn => k4_pay4 (iblk4 V c 0 ⟨n + 1, hn⟩) (iblk4 V c 1 ⟨n + 1, hn⟩) (acc4_3 c n (Nat.lt_of_succ_lt hn))

/-- The running column sums of squares, likewise. -/
def acc4_4 (c : Dev nD) : (n : ℕ) → n < cfg4.N → Vec F S1x128 .f32
  | 0, hn => k4_pay3 (iblk4 V c 0 ⟨0, hn⟩) (iblk4 V c 1 ⟨0, hn⟩)
  | n + 1, hn => k4_pay5 (iblk4 V c 0 ⟨n + 1, hn⟩) (iblk4 V c 1 ⟨n + 1, hn⟩) (acc4_4 c n (Nat.lt_of_succ_lt hn))

theorem acc4_3_A (c : Dev nD) (t : Fin cfg4.N) (h0 : t.val % 25 = 0) :
    acc4_3 V c t.val t.isLt = k4_pay2 (iblk4 V c 0 t) (iblk4 V c 1 t) := by
  have hN : t.val < 25 := lt_of_lt_of_eq t.isLt (show cfg4.N = 25 from N_4)
  obtain ⟨n, hn⟩ := t
  cases n with
  | zero => rfl
  | succ n => exact absurd h0 (by dsimp only at hN ⊢; omega)

theorem acc4_3_B (c : Dev nD) (t : Fin cfg4.N) (h0 : ¬t.val % 25 = 0) :
    acc4_3 V c t.val t.isLt = k4_pay4 (iblk4 V c 0 t) (iblk4 V c 1 t) (acc4_3 V c (t.val - 1) (Nat.lt_of_le_of_lt (Nat.sub_le _ _) t.isLt)) := by
  obtain ⟨n, hn⟩ := t
  cases n with
  | zero => exact absurd (Nat.zero_mod _) h0
  | succ n => rfl

theorem acc4_4_A (c : Dev nD) (t : Fin cfg4.N) (h0 : t.val % 25 = 0) :
    acc4_4 V c t.val t.isLt = k4_pay3 (iblk4 V c 0 t) (iblk4 V c 1 t) := by
  have hN : t.val < 25 := lt_of_lt_of_eq t.isLt (show cfg4.N = 25 from N_4)
  obtain ⟨n, hn⟩ := t
  cases n with
  | zero => rfl
  | succ n => exact absurd h0 (by dsimp only at hN ⊢; omega)

theorem acc4_4_B (c : Dev nD) (t : Fin cfg4.N) (h0 : ¬t.val % 25 = 0) :
    acc4_4 V c t.val t.isLt = k4_pay5 (iblk4 V c 0 t) (iblk4 V c 1 t) (acc4_4 V c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The proof data of pipeline 1 on core `c`: the arrays as the region finds them (`V`); after the body at point `t`
    each input's buffer at its block, the rows' output at the biased block, the two sums' outputs at the running sums;
    the invariant is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
    | ⟨3, _⟩ => acc4_3 V c t.val t.isLt
    | ⟨4, _⟩ => acc4_4 V c t.val t.isLt
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay1 (iblk4 V c 0 t) (iblk4 V c 1 t) := by dsimp only [dat4]
theorem after4_3 (c : Dev nD) (t : Fin cfg4.N) : (dat4 V c).after 3 t = acc4_3 V c t.val t.isLt := by dsimp only [dat4]
theorem after4_4 (c : Dev nD) (t : Fin cfg4.N) : (dat4 V c).after 4 t = acc4_4 V c t.val t.isLt := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- After the first point the column sums' current staging buffer holds what the body left at the point before: the
    block index never moves, the buffer is written back after the last point only, the window is uncut, and the point
    before stored into it. -/
theorem before4_3_B (c : Dev nD) (t : Fin cfg4.N) (h0 : ¬t.val % 25 = 0) (d) :
    (dat4 V c).before 3 t d = acc4_3 V c (t.val - 1) (Nat.lt_of_le_of_lt (Nat.sub_le _ _) t.isLt) := by
  have hN : t.val < 25 := lt_of_lt_of_eq t.isLt (show cfg4.N = 25 from N_4)
  rw [Dat.before_of_pos _ 3 t (by omega) ((cfg4.win 3).fetch_out rfl t),
    if_neg (fun h => by have := (flush4_3 _).mp h; dsimp only at this; omega)]
  unfold Dat.left
  rw [live4_3]
  dsimp only
  unfold Dat.kept
  rw [Pipeline.fill_of_clip_none 3 _ (fun _ => rfl) d ((dat4 V c).after 3 _), Window.fill_cut, after4_3]

/-- The column sums of squares' likewise. -/
theorem before4_4_B (c : Dev nD) (t : Fin cfg4.N) (h0 : ¬t.val % 25 = 0) (d) :
    (dat4 V c).before 4 t d = acc4_4 V c (t.val - 1) (Nat.lt_of_le_of_lt (Nat.sub_le _ _) t.isLt) := by
  have hN : t.val < 25 := lt_of_lt_of_eq t.isLt (show cfg4.N = 25 from N_4)
  rw [Dat.before_of_pos _ 4 t (by omega) ((cfg4.win 4).fetch_out rfl t),
    if_neg (fun h => by have := (flush4_4 _).mp h; dsimp only at this; omega)]
  unfold Dat.left
  rw [live4_4]
  dsimp only
  unfold Dat.kept
  rw [Pipeline.fill_of_clip_none 4 _ (fun _ => rfl) d ((dat4 V c).after 4 _), Window.fill_cut, after4_4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns: every window's buffer at what the body leaves there. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 800000 in
/-- The body at any point: the inputs' memrefs hold their blocks; the point is the first or a later one; at a later
    one the sums' memrefs hold what the point before left; so that case's run applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl]
  rw [show (dat4 V c).leavesExact 0 t = owns (c : Thread nD τ) (st4_0 t) fullShare ((dat4 V c).after 0 t) from by
      unfold Dat.leavesExact; rw [live4_0 t], after4_0]
  rw [show (dat4 V c).leavesExact 1 t = owns (c : Thread nD τ) (st4_1 t) fullShare ((dat4 V c).after 1 t) from by
      unfold Dat.leavesExact; rw [live4_1 t], after4_1]
  rw [show (dat4 V c).leavesExact 2 t = owns (c : Thread nD τ) (st4_2 t) fullShare ((dat4 V c).after 2 t) from by
      unfold Dat.leavesExact; rw [live4_2 t], after4_2]
  rw [show (dat4 V c).leavesExact 3 t = owns (c : Thread nD τ) (st4_3 t) fullShare ((dat4 V c).after 3 t) from by
      unfold Dat.leavesExact; rw [live4_3 t], after4_3]
  rw [show (dat4 V c).leavesExact 4 t = owns (c : Thread nD τ) (st4_4 t) fullShare ((dat4 V c).after 4 t) from by
      unfold Dat.leavesExact; rw [live4_4 t], after4_4]
  by_cases h0 : t.val % 25 = 0
  · rw [acc4_3_A V c t h0, acc4_4_A V c t h0]
    iintro ⟨HΦ, Ho, ⟨%d0, H0⟩, ⟨%d1, H1⟩, ⟨%d2, H2⟩, ⟨%d3, H3⟩, ⟨%d4, H4⟩⟩
    iapply (kernelRun4_A c (grid4.coords t) _ _ _ _ _ _ _ _ _ _ ((hcond4_1 t).mpr h0) (fun h => (hcond4_2 t).mp h h0)
      (iblk4 V c 0 t) (iblk4 V c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc4_3_B V c t h0, acc4_4_B V c t h0]
    simp only [before4_3_B V c t h0, before4_4_B V c t h0]
    iintro ⟨HΦ, Ho, ⟨%d0, H0⟩, ⟨%d1, H1⟩, ⟨%d2, H2⟩, ⟨%d3, H3⟩, ⟨%d4, H4⟩⟩
    iapply (kernelRun4_B c (grid4.coords t) _ _ _ _ _ _ _ _ _ _ (fun h => h0 ((hcond4_1 t).mp h)) ((hcond4_2 t).mpr h0)
      (iblk4 V c 0 t) (iblk4 V c 1 t) _ _ Set.univ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/-
  Region 5 of @main: batch normalisation and rectification of a row block, column by column:
  max(g · (h − mean) · rsqrt(var + ε) + β, 0), the four column vectors given as rows of one line.
  At a parameter `V`, the contents of the core's buffers when the region is entered: each window's block at a grid
  point, what the body leaves in the output block, the body's triple, the pipeline's proof data and the body obligation
  at every point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: where it is not fetched the
    block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Every access of the body is of a whole block. -/
abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0
abbrev r5_2 : Rect S1x128 := Rect.unit (s := S1x128) ![0, 0] S1x128.size inb_S1x128_S1x128_0_0
abbrev r5_3 : Rect S1x128 := Rect.unit (s := S1x128) ![0, 0] S1x128.size inb_S1x128_S1x128_0_0
abbrev r5_4 : Rect S1x128 := Rect.unit (s := S1x128) ![0, 0] S1x128.size inb_S1x128_S1x128_0_0
abbrev r5_o : Rect S2000x128 := Rect.unit (s := S2000x128) ![0, 0] S2000x128.size inb_S2000x128_S2000x128_0_0

/-- The output block after the body: one store, over the whole block, of the body's value of the input blocks. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_o, k5_pay1 (View.ld x0 r5_0) (View.ld x1 r5_1) (View.ld x2 r5_2) (View.ld x3 r5_3) (View.ld x4 r5_4)⟩]

/-- The one store covers the block. -/
theorem cover5_5 (p0 : Vec F S2000x128 .f32) (y : S2000x128.Idx) :
    ∃ pc ∈ ([⟨r5_o, p0⟩] : List (View.Piece (Elt F) S2000x128 .f32)), y ∈ pc.1.set :=
  View.cover_of_tiled [⟨r5_o, p0⟩] S2000x128.size (by rfl) y

set_option maxHeartbeats 1000000 in
/-- The body on whole staging memrefs, the inputs' at given contents and the output's at anything, returns with the
    inputs' as they were and the output's at `out5_5` of them. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dd, %fo, -, Ho⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact Ho
  ipureintro
  exact View.read_writes_eq_canon _ _ _ (cover5_5 _)

/-- The proof data of the pipeline on core `c`: the arrays as the region finds them; after the body at point `t` each
    input's buffer at its block and the output's at the body's value of the point's input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%dd, Hout⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [Hout]; · iexists _; iexact Hout
  iintro ⟨H0, H1, H2, H3, H4, Hout⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact Hout

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/-
  Region 6 of @main: a row block of the activations times the whole weight matrix.
  At a parameter `V`, the contents of the core's buffers when the region is entered: each window's block at a grid
  point, what the body leaves in the output block (the product of the point's row block with the weights), the body's
  triple, the pipeline's proof data and the body obligation at every point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: where it is not fetched the
    block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Every access of the body is of a whole block. -/
abbrev r6_0 : Rect S2000x128 := Rect.unit (s := S2000x128) ![0, 0] S2000x128.size inb_S2000x128_S2000x128_0_0
abbrev r6_1 : Rect S128x64 := Rect.unit (s := S128x64) ![0, 0] S128x64.size inb_S128x64_S128x64_0_0
abbrev r6_o : Rect S2000x64 := Rect.unit (s := S2000x64) ![0, 0] S2000x64.size inb_S2000x64_S2000x64_0_0

/-- The output block after the body: one store, over the whole block, of the body's value of the input blocks. -/
def out6_2 (x0 : Vec F S2000x128 .f32) (x1 : Vec F S128x64 .f32) : Vec F S2000x64 .f32 :=
  View.canon [⟨r6_o, k6_pay1 (View.ld x0 r6_0) (View.ld x1 r6_1)⟩]

/-- The one store covers the block. -/
theorem cover6_2 (p0 : Vec F S2000x64 .f32) (y : S2000x64.Idx) :
    ∃ pc ∈ ([⟨r6_o, p0⟩] : List (View.Piece (Elt F) S2000x64 .f32)), y ∈ pc.1.set :=
  View.cover_of_tiled [⟨r6_o, p0⟩] S2000x64.size (by rfl) y

set_option maxHeartbeats 1000000 in
/-- The body on whole staging memrefs, the inputs' at given contents and the output's at anything, returns with the
    inputs' as they were and the output's at `out6_2` of them. -/
theorem sound_kernel6 (c : Dev nD) (E : Set ℕ) (i : grid6.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover6_2 _)

/-- The proof data of the pipeline on core `c`: the arrays as the region finds them; after the body at point `t` each
    input's buffer at its block and the output's at the body's value of the point's input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%dd, Hout⟩⟩
  iapply (sound_kernel6 c Set.univ _ _ _ _ _ _ _ (iblk6 V c 0 t) (iblk6 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/-
  Region 7 of @main: bias and log-softmax of a row block, row by row:
  with z = h + b, z − max z − log Σ exp(z − max z) along each row.
  At a parameter `V`, the contents of the core's buffers when the region is entered: each window's block at a grid
  point, what the body leaves in the output block, the body's triple, the pipeline's proof data and the body obligation
  at every point.
-/
import proofs.«111771_j80977313399687_1_alg».proof.Proof.Gen.Kernel.Launch
import proofs.«111771_j80977313399687_1_alg».proof.Proof.Gen.Kernel.Skeleton
import proofs.«111771_j80977313399687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: where it is not fetched the
    block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Every access of the body is of a whole block. -/
abbrev r7_0 : Rect S2000x64 := Rect.unit (s := S2000x64) ![0, 0] S2000x64.size inb_S2000x64_S2000x64_0_0
abbrev r7_1 : Rect S1x64 := Rect.unit (s := S1x64) ![0, 0] S1x64.size inb_S1x64_S1x64_0_0
abbrev r7_o : Rect S2000x64 := Rect.unit (s := S2000x64) ![0, 0] S2000x64.size inb_S2000x64_S2000x64_0_0

/-- The output block after the body: one store, over the whole block, of the body's value of the input blocks. -/
def out7_2 (x0 : Vec F S2000x64 .f32) (x1 : Vec F S1x64 .f32) : Vec F S2000x64 .f32 :=
  View.canon [⟨r7_o, k7_pay1 (View.ld x0 r7_0) (View.ld x1 r7_1)⟩]

/-- The one store covers the block. -/
theorem cover7_2 (p0 : Vec F S2000x64 .f32) (y : S2000x64.Idx) :
    ∃ pc ∈ ([⟨r7_o, p0⟩] : List (View.Piece (Elt F) S2000x64 .f32)), y ∈ pc.1.set :=
  View.cover_of_tiled [⟨r7_o, p0⟩] S2000x64.size (by rfl) y

set_option maxHeartbeats 1000000 in
/-- The body on whole staging memrefs, the inputs' at given contents and the output's at anything, returns with the
    inputs' as they were and the output's at `out7_2` of them. -/
theorem sound_kernel7 (c : Dev nD) (E : Set ℕ) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_logsoftmax_kernel i arg1 harg1 arg2 harg2 arg3 harg3) K := by
  simp only [cc7__bias_logsoftmax_kernel_eq_skeleton]; unfold cc7__bias_logsoftmax_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover7_2 _)

/-- The proof data of the pipeline on core `c`: the arrays as the region finds them; after the body at point `t` each
    input's buffer at its block and the output's at the body's value of the point's input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%dd, Hout⟩⟩
  iapply (sound_kernel7 c Set.univ _ _ _ _ _ _ _ (iblk7 V c 0 t) (iblk7 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Run.Chain.lean ====
/-
  The contents of a core's buffers at every boundary of @main's sixteen items (eight stretches of host operations and
  eight kernel regions), as a fold from the launch memory: a host stretch applies its operations; a region leaves its
  input arrays as entered and each output array at what its write-backs leave, every other buffer untouched. Each item
  keeps every buffer it does not write, so the twelve argument arrays reach the end as launched. Then every pipeline's
  proof data at its region's entry contents, and what rides beside the buffers through every item.
-/
import proofs.«111771_j80977313399687_1_alg».proof.Proof.K.R0
import proofs.«111771_j80977313399687_1_alg».proof.Proof.K.Stats1
import proofs.«111771_j80977313399687_1_alg».proof.Proof.K.R2
import proofs.«111771_j80977313399687_1_alg».proof.Proof.K.R3
import proofs.«111771_j80977313399687_1_alg».proof.Proof.K.Stats4
import proofs.«111771_j80977313399687_1_alg».proof.Proof.K.R5
import proofs.«111771_j80977313399687_1_alg».proof.Proof.K.R6
import proofs.«111771_j80977313399687_1_alg».proof.Proof.K.R7
import proofs.«111771_j80977313399687_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c r = W0 m ρ c r :=
  StableHlo.after_of_writes_sub hostOps0 _ hostOps0_writes h
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_keep (c : Dev nD) (r : Ref sig .tc) (h : r ∉ hostOps0_1_W) : W2 m ρ c r = W1 m ρ c r :=
  StableHlo.after_of_writes_sub hostOps0_1 _ hostOps0_1_writes h
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps0_2_W) : W3 m ρ c r = W2 m ρ c r :=
  StableHlo.after_of_writes_sub hostOps0_2 _ hostOps0_2_writes h
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- Region 0 keeps every buffer that is not one of its output arrays: an input array is read, never written. -/
theorem W4_keep (c : Dev nD) (r : Ref sig .tc) (hb : r ∉ ([main_v32] : List (Ref sig .tc))) : W4 m ρ c r = W3 m ρ c r := by
  by_cases h : ∃ w, Pipeline.arrRef spec0 w = r
  · obtain ⟨w, rfl⟩ := h
    rw [W4_arr]
    match w with
    | ⟨0, _⟩ => exact ((dat0 (V3 m ρ) c).arrAt_in 0 rfl _).trans (A_eq0 (V3 m ρ) c 0)
    | ⟨1, _⟩ => exact ((dat0 (V3 m ρ) c).arrAt_in 1 rfl _).trans (A_eq0 (V3 m ρ) c 1)
    | ⟨2, _⟩ => exact absurd (show (main_v32 : Ref sig .tc) ∈ ([main_v32] : List (Ref sig .tc)) from by decide) hb
  · exact W4_of_ne m ρ c r fun w e => h ⟨w, e⟩
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_keep (c : Dev nD) (r : Ref sig .tc) (h : r ∉ hostOps1_W) : W5 m ρ c r = W4 m ρ c r :=
  StableHlo.after_of_writes_sub hostOps1 _ hostOps1_writes h
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- Region 1 keeps every buffer that is not one of its output arrays: an input array is read, never written. -/
theorem W6_keep (c : Dev nD) (r : Ref sig .tc) (hb : r ∉ ([main_v47_0, main_v47_1, main_v47_2] : List (Ref sig .tc))) : W6 m ρ c r = W5 m ρ c r := by
  by_cases h : ∃ w, Pipeline.arrRef spec1 w = r
  · obtain ⟨w, rfl⟩ := h
    rw [W6_arr]
    match w with
    | ⟨0, _⟩ => exact ((dat1 (V5 m ρ) c).arrAt_in 0 rfl _).trans (A_eq1 (V5 m ρ) c 0)
    | ⟨1, _⟩ => exact ((dat1 (V5 m ρ) c).arrAt_in 1 rfl _).trans (A_eq1 (V5 m ρ) c 1)
    | ⟨2, _⟩ => exact absurd (show (main_v47_0 : Ref sig .tc) ∈ ([main_v47_0, main_v47_1, main_v47_2] : List (Ref sig .tc)) from by decide) hb
    | ⟨3, _⟩ => exact absurd (show (main_v47_1 : Ref sig .tc) ∈ ([main_v47_0, main_v47_1, main_v47_2] : List (Ref sig .tc)) from by decide) hb
    | ⟨4, _⟩ => exact absurd (show (main_v47_2 : Ref sig .tc) ∈ ([main_v47_0, main_v47_1, main_v47_2] : List (Ref sig .tc)) from by decide) hb
  · exact W6_of_ne m ρ c r fun w e => h ⟨w, e⟩
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_keep (c : Dev nD) (r : Ref sig .tc) (h : r ∉ hostOps2_W) : W7 m ρ c r = W6 m ρ c r :=
  StableHlo.after_of_writes_sub hostOps2 _ hostOps2_writes h
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- Region 2 keeps every buffer that is not one of its output arrays: an input array is read, never written. -/
theorem W8_keep (c : Dev nD) (r : Ref sig .tc) (hb : r ∉ ([main_v56] : List (Ref sig .tc))) : W8 m ρ c r = W7 m ρ c r := by
  by_cases h : ∃ w, Pipeline.arrRef spec2 w = r
  · obtain ⟨w, rfl⟩ := h
    rw [W8_arr]
    match w with
    | ⟨0, _⟩ => exact ((dat2 (V7 m ρ) c).arrAt_in 0 rfl _).trans (A_eq2 (V7 m ρ) c 0)
    | ⟨1, _⟩ => exact ((dat2 (V7 m ρ) c).arrAt_in 1 rfl _).trans (A_eq2 (V7 m ρ) c 1)
    | ⟨2, _⟩ => exact ((dat2 (V7 m ρ) c).arrAt_in 2 rfl _).trans (A_eq2 (V7 m ρ) c 2)
    | ⟨3, _⟩ => exact ((dat2 (V7 m ρ) c).arrAt_in 3 rfl _).trans (A_eq2 (V7 m ρ) c 3)
    | ⟨4, _⟩ => exact ((dat2 (V7 m ρ) c).arrAt_in 4 rfl _).trans (A_eq2 (V7 m ρ) c 4)
    | ⟨5, _⟩ => exact absurd (show (main_v56 : Ref sig .tc) ∈ ([main_v56] : List (Ref sig .tc)) from by decide) hb
  · exact W8_of_ne m ρ c r fun w e => h ⟨w, e⟩
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- Region 3 keeps every buffer that is not one of its output arrays: an input array is read, never written. -/
theorem W9_keep (c : Dev nD) (r : Ref sig .tc) (hb : r ∉ ([main_v57] : List (Ref sig .tc))) : W9 m ρ c r = W8 m ρ c r := by
  by_cases h : ∃ w, Pipeline.arrRef spec3 w = r
  · obtain ⟨w, rfl⟩ := h
    rw [W9_arr]
    match w with
    | ⟨0, _⟩ => exact ((dat3 (V8 m ρ) c).arrAt_in 0 rfl _).trans (A_eq3 (V8 m ρ) c 0)
    | ⟨1, _⟩ => exact ((dat3 (V8 m ρ) c).arrAt_in 1 rfl _).trans (A_eq3 (V8 m ρ) c 1)
    | ⟨2, _⟩ => exact absurd (show (main_v57 : Ref sig .tc) ∈ ([main_v57] : List (Ref sig .tc)) from by decide) hb
  · exact W9_of_ne m ρ c r fun w e => h ⟨w, e⟩
/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps4_W) : W10 m ρ c r = W9 m ρ c r :=
  StableHlo.after_of_writes_sub hostOps4 _ hostOps4_writes h
/-- At region 4's exit: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- Region 4 keeps every buffer that is not one of its output arrays: an input array is read, never written. -/
theorem W11_keep (c : Dev nD) (r : Ref sig .tc) (hb : r ∉ ([main_v72_0, main_v72_1, main_v72_2] : List (Ref sig .tc))) : W11 m ρ c r = W10 m ρ c r := by
  by_cases h : ∃ w, Pipeline.arrRef spec4 w = r
  · obtain ⟨w, rfl⟩ := h
    rw [W11_arr]
    match w with
    | ⟨0, _⟩ => exact ((dat4 (V10 m ρ) c).arrAt_in 0 rfl _).trans (A_eq4 (V10 m ρ) c 0)
    | ⟨1, _⟩ => exact ((dat4 (V10 m ρ) c).arrAt_in 1 rfl _).trans (A_eq4 (V10 m ρ) c 1)
    | ⟨2, _⟩ => exact absurd (show (main_v72_0 : Ref sig .tc) ∈ ([main_v72_0, main_v72_1, main_v72_2] : List (Ref sig .tc)) from by decide) hb
    | ⟨3, _⟩ => exact absurd (show (main_v72_1 : Ref sig .tc) ∈ ([main_v72_0, main_v72_1, main_v72_2] : List (Ref sig .tc)) from by decide) hb
    | ⟨4, _⟩ => exact absurd (show (main_v72_2 : Ref sig .tc) ∈ ([main_v72_0, main_v72_1, main_v72_2] : List (Ref sig .tc)) from by decide) hb
  · exact W11_of_ne m ρ c r fun w e => h ⟨w, e⟩
/-- After the host stretch `hostOps5`. -/
abbrev W12 : Dev nD → Valuation τ sig (Elt F) := fun c => StableHlo.after hostOps5 (W11 m ρ c)
abbrev V12 : (c : Dev nD) → (b : Ref sig .tc) → Buf (Elt F) ((c : Thread nD τ).loc b) := fun c b => W12 m ρ c b
theorem W12_keep (c : Dev nD) (r : Ref sig .tc) (h : r ∉ hostOps5_W) : W12 m ρ c r = W11 m ρ c r :=
  StableHlo.after_of_writes_sub hostOps5 _ hostOps5_writes h
/-- At region 5's exit: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)
/-- Region 5 keeps every buffer that is not one of its output arrays: an input array is read, never written. -/
theorem W13_keep (c : Dev nD) (r : Ref sig .tc) (hb : r ∉ ([main_v81] : List (Ref sig .tc))) : W13 m ρ c r = W12 m ρ c r := by
  by_cases h : ∃ w, Pipeline.arrRef spec5 w = r
  · obtain ⟨w, rfl⟩ := h
    rw [W13_arr]
    match w with
    | ⟨0, _⟩ => exact ((dat5 (V12 m ρ) c).arrAt_in 0 rfl _).trans (A_eq5 (V12 m ρ) c 0)
    | ⟨1, _⟩ => exact ((dat5 (V12 m ρ) c).arrAt_in 1 rfl _).trans (A_eq5 (V12 m ρ) c 1)
    | ⟨2, _⟩ => exact ((dat5 (V12 m ρ) c).arrAt_in 2 rfl _).trans (A_eq5 (V12 m ρ) c 2)
    | ⟨3, _⟩ => exact ((dat5 (V12 m ρ) c).arrAt_in 3 rfl _).trans (A_eq5 (V12 m ρ) c 3)
    | ⟨4, _⟩ => exact ((dat5 (V12 m ρ) c).arrAt_in 4 rfl _).trans (A_eq5 (V12 m ρ) c 4)
    | ⟨5, _⟩ => exact absurd (show (main_v81 : Ref sig .tc) ∈ ([main_v81] : List (Ref sig .tc)) from by decide) hb
  · exact W13_of_ne m ρ c r fun w e => h ⟨w, e⟩
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- Region 6 keeps every buffer that is not one of its output arrays: an input array is read, never written. -/
theorem W14_keep (c : Dev nD) (r : Ref sig .tc) (hb : r ∉ ([main_v82] : List (Ref sig .tc))) : W14 m ρ c r = W13 m ρ c r := by
  by_cases h : ∃ w, Pipeline.arrRef spec6 w = r
  · obtain ⟨w, rfl⟩ := h
    rw [W14_arr]
    match w with
    | ⟨0, _⟩ => exact ((dat6 (V13 m ρ) c).arrAt_in 0 rfl _).trans (A_eq6 (V13 m ρ) c 0)
    | ⟨1, _⟩ => exact ((dat6 (V13 m ρ) c).arrAt_in 1 rfl _).trans (A_eq6 (V13 m ρ) c 1)
    | ⟨2, _⟩ => exact absurd (show (main_v82 : Ref sig .tc) ∈ ([main_v82] : List (Ref sig .tc)) from by decide) hb
  · exact W14_of_ne m ρ c r fun w e => h ⟨w, e⟩
/-- After the host stretch `hostOps7`. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
theorem W15_keep (c : Dev nD) (r : Ref sig .tc) (h : r ∉ hostOps7_W) : W15 m ρ c r = W14 m ρ c r :=
  StableHlo.after_of_writes_sub hostOps7 _ hostOps7_writes h
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- Region 7 keeps every buffer that is not one of its output arrays: an input array is read, never written. -/
theorem W16_keep (c : Dev nD) (r : Ref sig .tc) (hb : r ∉ ([main_v97] : List (Ref sig .tc))) : W16 m ρ c r = W15 m ρ c r := by
  by_cases h : ∃ w, Pipeline.arrRef spec7 w = r
  · obtain ⟨w, rfl⟩ := h
    rw [W16_arr]
    match w with
    | ⟨0, _⟩ => exact ((dat7 (V15 m ρ) c).arrAt_in 0 rfl _).trans (A_eq7 (V15 m ρ) c 0)
    | ⟨1, _⟩ => exact ((dat7 (V15 m ρ) c).arrAt_in 1 rfl _).trans (A_eq7 (V15 m ρ) c 1)
    | ⟨2, _⟩ => exact absurd (show (main_v97 : Ref sig .tc) ∈ ([main_v97] : List (Ref sig .tc)) from by decide) hb
  · exact W16_of_ne m ρ c r fun w e => h ⟨w, e⟩
theorem W16_main_arg0 (c : Dev nD) : W16 m ρ c main_arg0 = m ((c : Thread nD τ).loc main_arg0) :=
  (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl
theorem W16_main_arg1 (c : Dev nD) : W16 m ρ c main_arg1 = m ((c : Thread nD τ).loc main_arg1) :=
  (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl
theorem W16_main_arg2 (c : Dev nD) : W16 m ρ c main_arg2 = m ((c : Thread nD τ).loc main_arg2) :=
  (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl
theorem W16_main_arg3 (c : Dev nD) : W16 m ρ c main_arg3 = m ((c : Thread nD τ).loc main_arg3) :=
  (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl
theorem W16_main_arg4 (c : Dev nD) : W16 m ρ c main_arg4 = m ((c : Thread nD τ).loc main_arg4) :=
  (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl
theorem W16_main_arg5 (c : Dev nD) : W16 m ρ c main_arg5 = m ((c : Thread nD τ).loc main_arg5) :=
  (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl
theorem W16_main_arg6 (c : Dev nD) : W16 m ρ c main_arg6 = m ((c : Thread nD τ).loc main_arg6) :=
  (W16_keep m ρ c main_arg6 (by decide)).trans <| (W15_keep m ρ c main_arg6 (by decide)).trans <| (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl
theorem W16_main_arg7 (c : Dev nD) : W16 m ρ c main_arg7 = m ((c : Thread nD τ).loc main_arg7) :=
  (W16_keep m ρ c main_arg7 (by decide)).trans <| (W15_keep m ρ c main_arg7 (by decide)).trans <| (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem W16_main_arg8 (c : Dev nD) : W16 m ρ c main_arg8 = m ((c : Thread nD τ).loc main_arg8) :=
  (W16_keep m ρ c main_arg8 (by decide)).trans <| (W15_keep m ρ c main_arg8 (by decide)).trans <| (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl
theorem W16_main_arg9 (c : Dev nD) : W16 m ρ c main_arg9 = m ((c : Thread nD τ).loc main_arg9) :=
  (W16_keep m ρ c main_arg9 (by decide)).trans <| (W15_keep m ρ c main_arg9 (by decide)).trans <| (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl
theorem W16_main_arg10 (c : Dev nD) : W16 m ρ c main_arg10 = m ((c : Thread nD τ).loc main_arg10) :=
  (W16_keep m ρ c main_arg10 (by decide)).trans <| (W15_keep m ρ c main_arg10 (by decide)).trans <| (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl
theorem W16_main_arg11 (c : Dev nD) : W16 m ρ c main_arg11 = m ((c : Thread nD τ).loc main_arg11) :=
  (W16_keep m ρ c main_arg11 (by decide)).trans <| (W15_keep m ρ c main_arg11 (by decide)).trans <| (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

/-! ## The proof data family and what rides beside the buffers -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V8 m ρ) c
  | ⟨4, _⟩ => fun c => dat4 (V10 m ρ) c
  | ⟨5, _⟩ => fun c => dat5 (V12 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at the last boundary's contents, the generator register at some state. -/
abbrev Tₙ (c : Dev nD) : sProp 𝕄 := iprop(StableHlo.held (c : Thread nD τ) (Pipeline.ucRefs τ sig) (W16 m ρ c) ∗ ∃ r, prngReg c r)

end Cert.Kernel.Hand

end
-- ==== Proof.K.Run.Reg0.lean ====
/-
  Region 0 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.Reg1.lean ====
/-
  Region 1 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.Reg2.lean ====
/-
  Region 2 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.Reg3.lean ====
/-
  Region 3 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.Reg4.lean ====
/-
  Region 4 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.Reg5.lean ====
/-
  Region 5 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.Reg6.lean ====
/-
  Region 6 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.Reg7.lean ====
/-
  Region 7 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.K.Run.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.Main.lean ====
/-
  @main as its sixteen segments, and the run: from any memory with zero counters every weakly fair execution of @main on
  the TensorCore terminates, nothing faulting, and the final memory holds every unscoped buffer at the last boundary's
  contents `W16`. The frame claim follows: each argument array is read back through the fold to its launch contents.
-/
import proofs.«111771_j80977313399687_1_alg».proof.Proof.K.Run.Reg0
import proofs.«111771_j80977313399687_1_alg».proof.Proof.K.Run.Reg1
import proofs.«111771_j80977313399687_1_alg».proof.Proof.K.Run.Reg2
import proofs.«111771_j80977313399687_1_alg».proof.Proof.K.Run.Reg3
import proofs.«111771_j80977313399687_1_alg».proof.Proof.K.Run.Reg4
import proofs.«111771_j80977313399687_1_alg».proof.Proof.K.Run.Reg5
import proofs.«111771_j80977313399687_1_alg».proof.Proof.K.Run.Reg6
import proofs.«111771_j80977313399687_1_alg».proof.Proof.K.Run.Reg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's sixteen segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .region (reg6 m ρ),
    .host (hseg hostOps7 hostOps7_sub hostOps7_fresh (W14 m ρ)),
    .region (reg7 m ρ) ]

/-- @main is the run of the segments. -/
theorem main_run (c : Dev nD) : main (F := F) c = Pipeline.Seg.run (segs m ρ) := (main_chain c).trans (by chain_rfl)

set_option backward.isDefEq.respectTransparency.types false in
/-- THE RUN: every unscoped buffer ends at `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c),
      (h c _ (mem_uc main_arg7 (by decide))).trans (W16_main_arg7 m ρ c),
      (h c _ (mem_uc main_arg8 (by decide))).trans (W16_main_arg8 m ρ c),
      (h c _ (mem_uc main_arg9 (by decide))).trans (W16_main_arg9 m ρ c),
      (h c _ (mem_uc main_arg10 (by decide))).trans (W16_main_arg10 m ρ c),
      (h c _ (mem_uc main_arg11 (by decide))).trans (W16_main_arg11 m ρ c)⟩) (run_all m ρ)

end Cert.Kernel.Hand

end
-- ==== Proof.KI.R0.lean ====
/-
  Region 0 of @main: a row block of the activations times the whole weight matrix.
  At a parameter `V`, the contents of the core's buffers when the region is entered: each window's block at a grid
  point, what the body leaves in the output block (the product of the point's row block with the weights), the body's
  triple, the pipeline's proof data and the body obligation at every point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Every access of the body is of a whole block. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_o : Rect S2000x128 := Rect.unit (s := S2000x128) ![0, 0] S2000x128.size inb_S2000x128_S2000x128_0_0

/-- The output block after the body: one store, over the whole block, of the body's value of the input blocks. -/
def out0_2 (x0 : Vec F S2000x128 .f32) (x1 : Vec F S128x128 .f32) : Vec F S2000x128 .f32 :=
  View.canon [⟨r0_o, k0_pay1 (View.ld x0 r0_0) (View.ld x1 r0_1)⟩]

/-- The one store covers the block. -/
theorem cover0_2 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole staging memrefs, the inputs' at given contents and the output's at anything, returns with the
    inputs' as they were and the output's at `out0_2` of them. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover0_2 _)

/-- The proof data of the pipeline on core `c`: the arrays as the region finds them; after the body at point `t` each
    input's buffer at its block and the output's at the body's value of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%dd, Hout⟩⟩
  iapply (sound_kernel0 c Set.univ _ _ _ _ _ _ _ (iblk0 V c 0 t) (iblk0 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Stats1.lean ====
/-
  The frame half of the column-statistics kernel (the second pallas_call of @main and, with the region number
  changed, the fifth): a grid of 25 points over blocks of 2000 rows of a [50000, 128] array.  Each point adds the
  bias row to its block and stores the block; it also folds the block's column sums and column sums of squares into
  two [1, 128] outputs whose block index is (0, 0) at every point, so their staging buffers are kept from point to
  point and written back once, after the last point.  The first point STORES the block's sums; every later point
  loads the running sums, ADDS the block's sums and stores the result.

  What this module states, at a parameter `V` (the TensorCore's buffer contents when the region is entered) and at
  any float instance `F`: the proof data `dat1` — the inputs' buffers at their blocks, the rows' output at the biased
  block, the two sums' outputs at the running sums `acc1_3` / `acc1_4` defined by recursion on the point — and the
  body obligation for it: the body's triple in each of the two control cases the grid meets, the two conditions
  decided over the grid, and what the sums' buffers hold when the body is entered at a later point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics kernel (pipeline 1 of @main), at the entry contents `V`

Each of the 25 grid points adds the bias row to a block of 2000 rows, stores the block, and folds the block's
column sums and column sums of squares into two one-row outputs whose block never moves: the first point
stores the block's sums, every later point adds its block's sums to what the point before left. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two control cases, decided over the grid -/

/-- The first conditional (store the block's sums) is taken at the first point only, -/
theorem hcond1_1 : ∀ t : Fin cfg1.N, k1_cond1 (grid1.coords t) = 1#1 ↔ t.val % 25 = 0 :=
  (by decide +kernel : ∀ t : Fin grid1.N, k1_cond1 (grid1.coords t) = 1#1 ↔ t.val % 25 = 0)
/-- the second (add the block's sums to the running ones) at every other point. -/
theorem hcond1_2 : ∀ t : Fin cfg1.N, k1_cond2 (grid1.coords t) = 1#1 ↔ ¬t.val % 25 = 0 :=
  (by decide +kernel : ∀ t : Fin grid1.N, k1_cond2 (grid1.coords t) = 1#1 ↔ ¬t.val % 25 = 0)
/-- The inputs' windows and the rows' output are stored (or left in place) at every point; -/
theorem live1_0 : ∀ t : Fin cfg1.N, cfg1.idle 0 (cfg1.grid.coords t) = false := fun _ => rfl
theorem live1_1 : ∀ t : Fin cfg1.N, cfg1.idle 1 (cfg1.grid.coords t) = false := fun _ => rfl
theorem live1_2 : ∀ t : Fin cfg1.N, cfg1.idle 2 (cfg1.grid.coords t) = false := fun _ => rfl
/-- and at every point one of the two conditionals stores into the sums' windows: neither is ever idle. -/
theorem live1_3 : ∀ t : Fin cfg1.N, cfg1.idle 3 (cfg1.grid.coords t) = false :=
  (by decide +kernel : ∀ t : Fin grid1.N, idle1 3 (grid1.coords t) = false)
theorem live1_4 : ∀ t : Fin cfg1.N, cfg1.idle 4 (cfg1.grid.coords t) = false :=
  (by decide +kernel : ∀ t : Fin grid1.N, idle1 4 (grid1.coords t) = false)

/-! ## Whole-buffer loads and stores -/

theorem hz1 : (![0, 0] : Fin 2 → Nat) = fun _ => 0 := funext fun a => by fin_cases a <;> rfl

/-- One store through the whole-shape rectangle leaves its payload, whatever the buffer held. -/
theorem read_store_whole1 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load through the whole-shape rectangle of a whole buffer holding `X` reads `X`. -/
theorem load_whole1 {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

/-! ## The body's triple, case by case -/

set_option maxHeartbeats 1000000 in
/-- THE FIRST POINT (the first conditional taken, the second not): on whole staging memrefs, the inputs' at their
    contents `x0` (the block of rows) and `x1` (the bias row) and the outputs' at anything, the body runs to the
    continuation holding the inputs' as they were, the rows' output at the biased block and the two sums' outputs at
    the block's column sums and column sums of squares. -/
theorem kernelRun1_A (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : k1_cond1 i = 1#1) (hc2 : ¬k1_cond2 i = 1#1)
    (x0 : Vec F S2000x128 .f32) (x1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k1_pay1 x0 x1)
            ∗ owns (c : Thread nD τ) arg4 fullShare (k1_pay2 x0 x1)
            ∗ owns (c : Thread nD τ) arg5 fullShare (k1_pay3 x0 x1)) -∗ K ⟨⟩))
      ⊢ wp frame (wpE (defs₀ (F := F)) Variants.none c none) E (cc1__stats_bias_kernel i arg1 harg1 arg2 harg2 arg3 harg3 arg4 harg4 arg5 harg5) K := by
  simp only [cc1__stats_bias_kernel_eq_skeleton]; unfold cc1__stats_bias_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole1 _ _ hz1 _ _).trans (by rw [load_whole1 _ harg1 hz1, load_whole1 _ harg2 hz1])
  isplitl [H3]
  · iexists _; isplitr; swap; · iexact H3
    ipureintro
    exact (read_store_whole1 _ _ hz1 _ _).trans (by rw [load_whole1 _ harg1 hz1, load_whole1 _ harg2 hz1])
  iexists _; isplitr; swap; · iexact H4
  ipureintro
  exact (read_store_whole1 _ _ hz1 _ _).trans (by rw [load_whole1 _ harg1 hz1, load_whole1 _ harg2 hz1])

set_option maxHeartbeats 1000000 in
/-- EVERY LATER POINT (the first conditional not taken, the second taken): the same, the two sums' staging memrefs
    holding the running sums `xo3` and `xo4` the point before left; the body leaves them at the running sums plus
    the block's. -/
theorem kernelRun1_B (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : ¬k1_cond1 i = 1#1) (hc2 : k1_cond2 i = 1#1)
    (x0 : Vec F S2000x128 .f32) (x1 : Vec F S1x128 .f32) (xo3 xo4 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo3
        ∗ owns (c : Thread nD τ) arg5 fullShare xo4
        ∗ (iprop(owns (c : Thread nD τ) arg1 fullShare x0 ∗ owns (c : Thread nD τ) arg2 fullShare x1
            ∗ owns (c : Thread nD τ) arg3 fullShare (k1_pay1 x0 x1)
            ∗ owns (c : Thread nD τ) arg4 fullShare (k1_pay4 x0 x1 xo3)
            ∗ owns (c : Thread nD τ) arg5 fullShare (k1_pay5 x0 x1 xo4)) -∗ K ⟨⟩))
      ⊢ wp frame (wpE (defs₀ (F := F)) Variants.none c none) E (cc1__stats_bias_kernel i arg1 harg1 arg2 harg2 arg3 harg3 arg4 harg4 arg5 harg5) K := by
  simp only [cc1__stats_bias_kernel_eq_skeleton]; unfold cc1__stats_bias_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole1 _ _ hz1 _ _).trans (by rw [load_whole1 _ harg1 hz1, load_whole1 _ harg2 hz1])
  isplitl [H3]
  · iexists _; isplitr; swap; · iexact H3
    ipureintro
    exact (read_store_whole1 _ _ hz1 _ _).trans (by rw [load_whole1 _ harg1 hz1, load_whole1 _ harg2 hz1, load_whole1 _ harg4 hz1])
  iexists _; isplitr; swap; · iexact H4
  ipureintro
  exact (read_store_whole1 _ _ hz1 _ _).trans (by rw [load_whole1 _ harg1 hz1, load_whole1 _ harg2 hz1, load_whole1 _ harg5 hz1])

/-! ## What the two sums' windows hold after each point -/

/-- The running column sums after the body at position `n`: the first block's column sums, then at every later point
    what the point before left plus that point's block's column sums. -/
def acc1_3 (c : Dev nD) : (n : ℕ) → n < cfg1.N → Vec F S1x128 .f32
  | 0, hn => k1_pay2 (iblk1 V c 0 ⟨0, hn⟩) (iblk1 V c 1 ⟨0, hn⟩)
  | n + 1, hn => k1_pay4 (iblk1 V c 0 ⟨n + 1, hn⟩) (iblk1 V c 1 ⟨n + 1, hn⟩) (acc1_3 c n (Nat.lt_of_succ_lt hn))

/-- The running column sums of squares, likewise. -/
def acc1_4 (c : Dev nD) : (n : ℕ) → n < cfg1.N → Vec F S1x128 .f32
  | 0, hn => k1_pay3 (iblk1 V c 0 ⟨0, hn⟩) (iblk1 V c 1 ⟨0, hn⟩)
  | n + 1, hn => k1_pay5 (iblk1 V c 0 ⟨n + 1, hn⟩) (iblk1 V c 1 ⟨n + 1, hn⟩) (acc1_4 c n (Nat.lt_of_succ_lt hn))

theorem acc1_3_A (c : Dev nD) (t : Fin cfg1.N) (h0 : t.val % 25 = 0) :
    acc1_3 V c t.val t.isLt = k1_pay2 (iblk1 V c 0 t) (iblk1 V c 1 t) := by
  have hN : t.val < 25 := lt_of_lt_of_eq t.isLt (show cfg1.N = 25 from N_1)
  obtain ⟨n, hn⟩ := t
  cases n with
  | zero => rfl
  | succ n => exact absurd h0 (by dsimp only at hN ⊢; omega)

theorem acc1_3_B (c : Dev nD) (t : Fin cfg1.N) (h0 : ¬t.val % 25 = 0) :
    acc1_3 V c t.val t.isLt = k1_pay4 (iblk1 V c 0 t) (iblk1 V c 1 t) (acc1_3 V c (t.val - 1) (Nat.lt_of_le_of_lt (Nat.sub_le _ _) t.isLt)) := by
  obtain ⟨n, hn⟩ := t
  cases n with
  | zero => exact absurd (Nat.zero_mod _) h0
  | succ n => rfl

theorem acc1_4_A (c : Dev nD) (t : Fin cfg1.N) (h0 : t.val % 25 = 0) :
    acc1_4 V c t.val t.isLt = k1_pay3 (iblk1 V c 0 t) (iblk1 V c 1 t) := by
  have hN : t.val < 25 := lt_of_lt_of_eq t.isLt (show cfg1.N = 25 from N_1)
  obtain ⟨n, hn⟩ := t
  cases n with
  | zero => rfl
  | succ n => exact absurd h0 (by dsimp only at hN ⊢; omega)

theorem acc1_4_B (c : Dev nD) (t : Fin cfg1.N) (h0 : ¬t.val % 25 = 0) :
    acc1_4 V c t.val t.isLt = k1_pay5 (iblk1 V c 0 t) (iblk1 V c 1 t) (acc1_4 V c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The proof data of pipeline 1 on core `c`: the arrays as the region finds them (`V`); after the body at point `t`
    each input's buffer at its block, the rows' output at the biased block, the two sums' outputs at the running sums;
    the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
    | ⟨3, _⟩ => acc1_3 V c t.val t.isLt
    | ⟨4, _⟩ => acc1_4 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem after1_3 (c : Dev nD) (t : Fin cfg1.N) : (dat1 V c).after 3 t = acc1_3 V c t.val t.isLt := by dsimp only [dat1]
theorem after1_4 (c : Dev nD) (t : Fin cfg1.N) : (dat1 V c).after 4 t = acc1_4 V c t.val t.isLt := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- After the first point the column sums' current staging buffer holds what the body left at the point before: the
    block index never moves, the buffer is written back after the last point only, the window is uncut, and the point
    before stored into it. -/
theorem before1_3_B (c : Dev nD) (t : Fin cfg1.N) (h0 : ¬t.val % 25 = 0) (d) :
    (dat1 V c).before 3 t d = acc1_3 V c (t.val - 1) (Nat.lt_of_le_of_lt (Nat.sub_le _ _) t.isLt) := by
  have hN : t.val < 25 := lt_of_lt_of_eq t.isLt (show cfg1.N = 25 from N_1)
  rw [Dat.before_of_pos _ 3 t (by omega) ((cfg1.win 3).fetch_out rfl t),
    if_neg (fun h => by have := (flush1_3 _).mp h; dsimp only at this; omega)]
  unfold Dat.left
  rw [live1_3]
  dsimp only
  unfold Dat.kept
  rw [Pipeline.fill_of_clip_none 3 _ (fun _ => rfl) d ((dat1 V c).after 3 _), Window.fill_cut, after1_3]

/-- The column sums of squares' likewise. -/
theorem before1_4_B (c : Dev nD) (t : Fin cfg1.N) (h0 : ¬t.val % 25 = 0) (d) :
    (dat1 V c).before 4 t d = acc1_4 V c (t.val - 1) (Nat.lt_of_le_of_lt (Nat.sub_le _ _) t.isLt) := by
  have hN : t.val < 25 := lt_of_lt_of_eq t.isLt (show cfg1.N = 25 from N_1)
  rw [Dat.before_of_pos _ 4 t (by omega) ((cfg1.win 4).fetch_out rfl t),
    if_neg (fun h => by have := (flush1_4 _).mp h; dsimp only at this; omega)]
  unfold Dat.left
  rw [live1_4]
  dsimp only
  unfold Dat.kept
  rw [Pipeline.fill_of_clip_none 4 _ (fun _ => rfl) d ((dat1 V c).after 4 _), Window.fill_cut, after1_4]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: every window's buffer at what the body leaves there. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 800000 in
/-- The body at any point: the inputs' memrefs hold their blocks; the point is the first or a later one; at a later
    one the sums' memrefs hold what the point before left; so that case's run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  rw [show (dat1 V c).leavesExact 2 t = owns (c : Thread nD τ) (st1_2 t) fullShare ((dat1 V c).after 2 t) from by
      unfold Dat.leavesExact; rw [live1_2 t], after1_2]
  rw [show (dat1 V c).leavesExact 3 t = owns (c : Thread nD τ) (st1_3 t) fullShare ((dat1 V c).after 3 t) from by
      unfold Dat.leavesExact; rw [live1_3 t], after1_3]
  rw [show (dat1 V c).leavesExact 4 t = owns (c : Thread nD τ) (st1_4 t) fullShare ((dat1 V c).after 4 t) from by
      unfold Dat.leavesExact; rw [live1_4 t], after1_4]
  by_cases h0 : t.val % 25 = 0
  · rw [acc1_3_A V c t h0, acc1_4_A V c t h0]
    iintro ⟨HΦ, Ho, ⟨%d0, H0⟩, ⟨%d1, H1⟩, ⟨%d2, H2⟩, ⟨%d3, H3⟩, ⟨%d4, H4⟩⟩
    iapply (kernelRun1_A c (grid1.coords t) _ _ _ _ _ _ _ _ _ _ ((hcond1_1 t).mpr h0) (fun h => (hcond1_2 t).mp h h0)
      (iblk1 V c 0 t) (iblk1 V c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc1_3_B V c t h0, acc1_4_B V c t h0]
    simp only [before1_3_B V c t h0, before1_4_B V c t h0]
    iintro ⟨HΦ, Ho, ⟨%d0, H0⟩, ⟨%d1, H1⟩, ⟨%d2, H2⟩, ⟨%d3, H3⟩, ⟨%d4, H4⟩⟩
    iapply (kernelRun1_B c (grid1.coords t) _ _ _ _ _ _ _ _ _ _ (fun h => h0 ((hcond1_1 t).mp h)) ((hcond1_2 t).mpr h0)
      (iblk1 V c 0 t) (iblk1 V c 1 t) _ _ Set.univ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of @main: batch normalisation and rectification of a row block, column by column:
  max(g · (h − mean) · rsqrt(var + ε) + β, 0), the four column vectors given as rows of one line.
  At a parameter `V`, the contents of the core's buffers when the region is entered: each window's block at a grid
  point, what the body leaves in the output block, the body's triple, the pipeline's proof data and the body obligation
  at every point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not fetched the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Every access of the body is of a whole block. -/
abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_o : Rect S2000x128 := Rect.unit (s := S2000x128) ![0, 0] S2000x128.size inb_S2000x128_S2000x128_0_0

/-- The output block after the body: one store, over the whole block, of the body's value of the input blocks. -/
def out2_5 (x0 : Vec F S2000x128 .f32) (x1 : Vec F S1x128 .f32) (x2 : Vec F S1x128 .f32) (x3 : Vec F S1x128 .f32) (x4 : Vec F S1x128 .f32) : Vec F S2000x128 .f32 :=
  View.canon [⟨r2_o, k2_pay1 (View.ld x0 r2_0) (View.ld x1 r2_1) (View.ld x2 r2_2) (View.ld x3 r2_3) (View.ld x4 r2_4)⟩]

/-- The one store covers the block. -/
theorem cover2_5 (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

set_option maxHeartbeats 1000000 in
/-- The body on whole staging memrefs, the inputs' at given contents and the output's at anything, returns with the
    inputs' as they were and the output's at `out2_5` of them. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dd, %fo, -, Ho⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact Ho
  ipureintro
  exact View.read_writes_eq_canon _ _ _ (cover2_5 _)

/-- The proof data of the pipeline on core `c`: the arrays as the region finds them; after the body at point `t` each
    input's buffer at its block and the output's at the body's value of the point's input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%dd, Hout⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [Hout]; · iexists _; iexact Hout
  iintro ⟨H0, H1, H2, H3, H4, Hout⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact Hout

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of @main: a row block of the activations times the whole weight matrix.
  At a parameter `V`, the contents of the core's buffers when the region is entered: each window's block at a grid
  point, what the body leaves in the output block (the product of the point's row block with the weights), the body's
  triple, the pipeline's proof data and the body obligation at every point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not fetched the
    block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Every access of the body is of a whole block. -/
abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_o : Rect S2000x128 := Rect.unit (s := S2000x128) ![0, 0] S2000x128.size inb_S2000x128_S2000x128_0_0

/-- The output block after the body: one store, over the whole block, of the body's value of the input blocks. -/
def out3_2 (x0 : Vec F S2000x128 .f32) (x1 : Vec F S128x128 .f32) : Vec F S2000x128 .f32 :=
  View.canon [⟨r3_o, k3_pay1 (View.ld x0 r3_0) (View.ld x1 r3_1)⟩]

/-- The one store covers the block. -/
theorem cover3_2 (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y

set_option maxHeartbeats 1000000 in
/-- The body on whole staging memrefs, the inputs' at given contents and the output's at anything, returns with the
    inputs' as they were and the output's at `out3_2` of them. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover3_2 _)

/-- The proof data of the pipeline on core `c`: the arrays as the region finds them; after the body at point `t` each
    input's buffer at its block and the output's at the body's value of the point's input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%dd, Hout⟩⟩
  iapply (sound_kernel3 c Set.univ _ _ _ _ _ _ _ (iblk3 V c 0 t) (iblk3 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Stats4.lean ====
/-
  The frame half of the column-statistics kernel (the fifth pallas_call of @main and, with the region number
  changed, the second): a grid of 25 points over blocks of 2000 rows of a [50000, 128] array.  Each point adds the
  bias row to its block and stores the block; it also folds the block's column sums and column sums of squares into
  two [1, 128] outputs whose block index is (0, 0) at every point, so their staging buffers are kept from point to
  point and written back once, after the last point.  The first point STORES the block's sums; every later point
  loads the running sums, ADDS the block's sums and stores the result.

  What this module states, at a parameter `V` (the TensorCore's buffer contents when the region is entered) and at
  any float instance `F`: the proof data `dat4` — the inputs' buffers at their blocks, the rows' output at the biased
  block, the two sums' outputs at the running sums `acc4_3` / `acc4_4` defined by recursion on the point — and the
  body obligation for it: the body's triple in each of the two control cases the grid meets, the two conditions
  decided over the grid, and what the sums' buffers hold when the body is entered at a later point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics kernel (pipeline 4 of @main), at the entry contents `V`

Each of the 25 grid points adds the bias row to a block of 2000 rows, stores the block, and folds the block's
column sums and column sums of squares into two one-row outputs whose block never moves: the first point
stores the block's sums, every later point adds its block's sums to what the point before left. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two control cases, decided over the grid -/

/-- The first conditional (store the block's sums) is taken at the first point only, -/
theorem hcond4_1 : ∀ t : Fin cfg4.N, k4_cond1 (grid4.coords t) = 1#1 ↔ t.val % 25 = 0 :=
  (by decide +kernel : ∀ t : Fin grid4.N, k4_cond1 (grid4.coords t) = 1#1 ↔ t.val % 25 = 0)
/-- the second (add the block's sums to the running ones) at every other point. -/
theorem hcond4_2 : ∀ t : Fin cfg4.N, k4_cond2 (grid4.coords t) = 1#1 ↔ ¬t.val % 25 = 0 :=
  (by decide +kernel : ∀ t : Fin grid4.N, k4_cond2 (grid4.coords t) = 1#1 ↔ ¬t.val % 25 = 0)
/-- The inputs' windows and the rows' output are stored (or left in place) at every point; -/
theorem live4_0 : ∀ t : Fin cfg4.N, cfg4.idle 0 (cfg4.grid.coords t) = false := fun _ => rfl
theorem live4_1 : ∀ t : Fin cfg4.N, cfg4.idle 1 (cfg4.grid.coords t) = false := fun _ => rfl
theorem live4_2 : ∀ t : Fin cfg4.N, cfg4.idle 2 (cfg4.grid.coords t) = false := fun _ => rfl
/-- and at every point one of the two conditionals stores into the sums' windows: neither is ever idle. -/
theorem live4_3 : ∀ t : Fin cfg4.N, cfg4.idle 3 (cfg4.grid.coords t) = false :=
  (by decide +kernel : ∀ t : Fin grid4.N, idle4 3 (grid4.coords t) = false)
theorem live4_4 : ∀ t : Fin cfg4.N, cfg4.idle 4 (cfg4.grid.coords t) = false :=
  (by decide +kernel : ∀ t : Fin grid4.N, idle4 4 (grid4.coords t) = false)

/-! ## Whole-buffer loads and stores -/

theorem hz4 : (![0, 0] : Fin 2 → Nat) = fun _ => 0 := funext fun a => by fin_cases a <;> rfl

/-- One store through the whole-shape rectangle leaves its payload, whatever the buffer held. -/
theorem read_store_whole4 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load through the whole-shape rectangle of a whole buffer holding `X` reads `X`. -/
theorem load_whole4 {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

/-! ## The body's triple, case by case -/

set_option maxHeartbeats 1000000 in
/-- THE FIRST POINT (the first conditional taken, the second not): on whole staging memrefs, the inputs' at their
    contents `x0` (the block of rows) and `x1` (the bias row) and the outputs' at anything, the body runs to the
    continuation holding the inputs' as they were, the rows' output at the biased block and the two sums' outputs at
    the block's column sums and column sums of squares. -/
theorem kernelRun4_A (c : Dev nD) (i : grid4.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : k4_cond1 i = 1#1) (hc2 : ¬k4_cond2 i = 1#1)
    (x0 : Vec F S2000x128 .f32) (x1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k4_pay1 x0 x1)
            ∗ owns (c : Thread nD τ) arg4 fullShare (k4_pay2 x0 x1)
            ∗ owns (c : Thread nD τ) arg5 fullShare (k4_pay3 x0 x1)) -∗ K ⟨⟩))
      ⊢ wp frame (wpE (defs₀ (F := F)) Variants.none c none) E (cc4__stats_bias_kernel i arg1 harg1 arg2 harg2 arg3 harg3 arg4 harg4 arg5 harg5) K := by
  simp only [cc4__stats_bias_kernel_eq_skeleton]; unfold cc4__stats_bias_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole4 _ _ hz4 _ _).trans (by rw [load_whole4 _ harg1 hz4, load_whole4 _ harg2 hz4])
  isplitl [H3]
  · iexists _; isplitr; swap; · iexact H3
    ipureintro
    exact (read_store_whole4 _ _ hz4 _ _).trans (by rw [load_whole4 _ harg1 hz4, load_whole4 _ harg2 hz4])
  iexists _; isplitr; swap; · iexact H4
  ipureintro
  exact (read_store_whole4 _ _ hz4 _ _).trans (by rw [load_whole4 _ harg1 hz4, load_whole4 _ harg2 hz4])

set_option maxHeartbeats 1000000 in
/-- EVERY LATER POINT (the first conditional not taken, the second taken): the same, the two sums' staging memrefs
    holding the running sums `xo3` and `xo4` the point before left; the body leaves them at the running sums plus
    the block's. -/
theorem kernelRun4_B (c : Dev nD) (i : grid4.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole)
    (hc1 : ¬k4_cond1 i = 1#1) (hc2 : k4_cond2 i = 1#1)
    (x0 : Vec F S2000x128 .f32) (x1 : Vec F S1x128 .f32) (xo3 xo4 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo3
        ∗ owns (c : Thread nD τ) arg5 fullShare xo4
        ∗ (iprop(owns (c : Thread nD τ) arg1 fullShare x0 ∗ owns (c : Thread nD τ) arg2 fullShare x1
            ∗ owns (c : Thread nD τ) arg3 fullShare (k4_pay1 x0 x1)
            ∗ owns (c : Thread nD τ) arg4 fullShare (k4_pay4 x0 x1 xo3)
            ∗ owns (c : Thread nD τ) arg5 fullShare (k4_pay5 x0 x1 xo4)) -∗ K ⟨⟩))
      ⊢ wp frame (wpE (defs₀ (F := F)) Variants.none c none) E (cc4__stats_bias_kernel i arg1 harg1 arg2 harg2 arg3 harg3 arg4 harg4 arg5 harg5) K := by
  simp only [cc4__stats_bias_kernel_eq_skeleton]; unfold cc4__stats_bias_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_store_whole4 _ _ hz4 _ _).trans (by rw [load_whole4 _ harg1 hz4, load_whole4 _ harg2 hz4])
  isplitl [H3]
  · iexists _; isplitr; swap; · iexact H3
    ipureintro
    exact (read_store_whole4 _ _ hz4 _ _).trans (by rw [load_whole4 _ harg1 hz4, load_whole4 _ harg2 hz4, load_whole4 _ harg4 hz4])
  iexists _; isplitr; swap; · iexact H4
  ipureintro
  exact (read_store_whole4 _ _ hz4 _ _).trans (by rw [load_whole4 _ harg1 hz4, load_whole4 _ harg2 hz4, load_whole4 _ harg5 hz4])

/-! ## What the two sums' windows hold after each point -/

/-- The running column sums after the body at position `n`: the first block's column sums, then at every later point
    what the point before left plus that point's block's column sums. -/
def acc4_3 (c : Dev nD) : (n : ℕ) → n < cfg4.N → Vec F S1x128 .f32
  | 0, hn => k4_pay2 (iblk4 V c 0 ⟨0, hn⟩) (iblk4 V c 1 ⟨0, hn⟩)
  | n + 1, hn => k4_pay4 (iblk4 V c 0 ⟨n + 1, hn⟩) (iblk4 V c 1 ⟨n + 1, hn⟩) (acc4_3 c n (Nat.lt_of_succ_lt hn))

/-- The running column sums of squares, likewise. -/
def acc4_4 (c : Dev nD) : (n : ℕ) → n < cfg4.N → Vec F S1x128 .f32
  | 0, hn => k4_pay3 (iblk4 V c 0 ⟨0, hn⟩) (iblk4 V c 1 ⟨0, hn⟩)
  | n + 1, hn => k4_pay5 (iblk4 V c 0 ⟨n + 1, hn⟩) (iblk4 V c 1 ⟨n + 1, hn⟩) (acc4_4 c n (Nat.lt_of_succ_lt hn))

theorem acc4_3_A (c : Dev nD) (t : Fin cfg4.N) (h0 : t.val % 25 = 0) :
    acc4_3 V c t.val t.isLt = k4_pay2 (iblk4 V c 0 t) (iblk4 V c 1 t) := by
  have hN : t.val < 25 := lt_of_lt_of_eq t.isLt (show cfg4.N = 25 from N_4)
  obtain ⟨n, hn⟩ := t
  cases n with
  | zero => rfl
  | succ n => exact absurd h0 (by dsimp only at hN ⊢; omega)

theorem acc4_3_B (c : Dev nD) (t : Fin cfg4.N) (h0 : ¬t.val % 25 = 0) :
    acc4_3 V c t.val t.isLt = k4_pay4 (iblk4 V c 0 t) (iblk4 V c 1 t) (acc4_3 V c (t.val - 1) (Nat.lt_of_le_of_lt (Nat.sub_le _ _) t.isLt)) := by
  obtain ⟨n, hn⟩ := t
  cases n with
  | zero => exact absurd (Nat.zero_mod _) h0
  | succ n => rfl

theorem acc4_4_A (c : Dev nD) (t : Fin cfg4.N) (h0 : t.val % 25 = 0) :
    acc4_4 V c t.val t.isLt = k4_pay3 (iblk4 V c 0 t) (iblk4 V c 1 t) := by
  have hN : t.val < 25 := lt_of_lt_of_eq t.isLt (show cfg4.N = 25 from N_4)
  obtain ⟨n, hn⟩ := t
  cases n with
  | zero => rfl
  | succ n => exact absurd h0 (by dsimp only at hN ⊢; omega)

theorem acc4_4_B (c : Dev nD) (t : Fin cfg4.N) (h0 : ¬t.val % 25 = 0) :
    acc4_4 V c t.val t.isLt = k4_pay5 (iblk4 V c 0 t) (iblk4 V c 1 t) (acc4_4 V c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The proof data of pipeline 1 on core `c`: the arrays as the region finds them (`V`); after the body at point `t`
    each input's buffer at its block, the rows' output at the biased block, the two sums' outputs at the running sums;
    the invariant is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
    | ⟨3, _⟩ => acc4_3 V c t.val t.isLt
    | ⟨4, _⟩ => acc4_4 V c t.val t.isLt
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay1 (iblk4 V c 0 t) (iblk4 V c 1 t) := by dsimp only [dat4]
theorem after4_3 (c : Dev nD) (t : Fin cfg4.N) : (dat4 V c).after 3 t = acc4_3 V c t.val t.isLt := by dsimp only [dat4]
theorem after4_4 (c : Dev nD) (t : Fin cfg4.N) : (dat4 V c).after 4 t = acc4_4 V c t.val t.isLt := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- After the first point the column sums' current staging buffer holds what the body left at the point before: the
    block index never moves, the buffer is written back after the last point only, the window is uncut, and the point
    before stored into it. -/
theorem before4_3_B (c : Dev nD) (t : Fin cfg4.N) (h0 : ¬t.val % 25 = 0) (d) :
    (dat4 V c).before 3 t d = acc4_3 V c (t.val - 1) (Nat.lt_of_le_of_lt (Nat.sub_le _ _) t.isLt) := by
  have hN : t.val < 25 := lt_of_lt_of_eq t.isLt (show cfg4.N = 25 from N_4)
  rw [Dat.before_of_pos _ 3 t (by omega) ((cfg4.win 3).fetch_out rfl t),
    if_neg (fun h => by have := (flush4_3 _).mp h; dsimp only at this; omega)]
  unfold Dat.left
  rw [live4_3]
  dsimp only
  unfold Dat.kept
  rw [Pipeline.fill_of_clip_none 3 _ (fun _ => rfl) d ((dat4 V c).after 3 _), Window.fill_cut, after4_3]

/-- The column sums of squares' likewise. -/
theorem before4_4_B (c : Dev nD) (t : Fin cfg4.N) (h0 : ¬t.val % 25 = 0) (d) :
    (dat4 V c).before 4 t d = acc4_4 V c (t.val - 1) (Nat.lt_of_le_of_lt (Nat.sub_le _ _) t.isLt) := by
  have hN : t.val < 25 := lt_of_lt_of_eq t.isLt (show cfg4.N = 25 from N_4)
  rw [Dat.before_of_pos _ 4 t (by omega) ((cfg4.win 4).fetch_out rfl t),
    if_neg (fun h => by have := (flush4_4 _).mp h; dsimp only at this; omega)]
  unfold Dat.left
  rw [live4_4]
  dsimp only
  unfold Dat.kept
  rw [Pipeline.fill_of_clip_none 4 _ (fun _ => rfl) d ((dat4 V c).after 4 _), Window.fill_cut, after4_4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns: every window's buffer at what the body leaves there. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 800000 in
/-- The body at any point: the inputs' memrefs hold their blocks; the point is the first or a later one; at a later
    one the sums' memrefs hold what the point before left; so that case's run applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl]
  rw [show (dat4 V c).leavesExact 0 t = owns (c : Thread nD τ) (st4_0 t) fullShare ((dat4 V c).after 0 t) from by
      unfold Dat.leavesExact; rw [live4_0 t], after4_0]
  rw [show (dat4 V c).leavesExact 1 t = owns (c : Thread nD τ) (st4_1 t) fullShare ((dat4 V c).after 1 t) from by
      unfold Dat.leavesExact; rw [live4_1 t], after4_1]
  rw [show (dat4 V c).leavesExact 2 t = owns (c : Thread nD τ) (st4_2 t) fullShare ((dat4 V c).after 2 t) from by
      unfold Dat.leavesExact; rw [live4_2 t], after4_2]
  rw [show (dat4 V c).leavesExact 3 t = owns (c : Thread nD τ) (st4_3 t) fullShare ((dat4 V c).after 3 t) from by
      unfold Dat.leavesExact; rw [live4_3 t], after4_3]
  rw [show (dat4 V c).leavesExact 4 t = owns (c : Thread nD τ) (st4_4 t) fullShare ((dat4 V c).after 4 t) from by
      unfold Dat.leavesExact; rw [live4_4 t], after4_4]
  by_cases h0 : t.val % 25 = 0
  · rw [acc4_3_A V c t h0, acc4_4_A V c t h0]
    iintro ⟨HΦ, Ho, ⟨%d0, H0⟩, ⟨%d1, H1⟩, ⟨%d2, H2⟩, ⟨%d3, H3⟩, ⟨%d4, H4⟩⟩
    iapply (kernelRun4_A c (grid4.coords t) _ _ _ _ _ _ _ _ _ _ ((hcond4_1 t).mpr h0) (fun h => (hcond4_2 t).mp h h0)
      (iblk4 V c 0 t) (iblk4 V c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc4_3_B V c t h0, acc4_4_B V c t h0]
    simp only [before4_3_B V c t h0, before4_4_B V c t h0]
    iintro ⟨HΦ, Ho, ⟨%d0, H0⟩, ⟨%d1, H1⟩, ⟨%d2, H2⟩, ⟨%d3, H3⟩, ⟨%d4, H4⟩⟩
    iapply (kernelRun4_B c (grid4.coords t) _ _ _ _ _ _ _ _ _ _ (fun h => h0 ((hcond4_1 t).mp h)) ((hcond4_2 t).mpr h0)
      (iblk4 V c 0 t) (iblk4 V c 1 t) _ _ Set.univ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/-
  Region 5 of @main: batch normalisation and rectification of a row block, column by column:
  max(g · (h − mean) · rsqrt(var + ε) + β, 0), the four column vectors given as rows of one line.
  At a parameter `V`, the contents of the core's buffers when the region is entered: each window's block at a grid
  point, what the body leaves in the output block, the body's triple, the pipeline's proof data and the body obligation
  at every point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: where it is not fetched the
    block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Every access of the body is of a whole block. -/
abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0
abbrev r5_2 : Rect S1x128 := Rect.unit (s := S1x128) ![0, 0] S1x128.size inb_S1x128_S1x128_0_0
abbrev r5_3 : Rect S1x128 := Rect.unit (s := S1x128) ![0, 0] S1x128.size inb_S1x128_S1x128_0_0
abbrev r5_4 : Rect S1x128 := Rect.unit (s := S1x128) ![0, 0] S1x128.size inb_S1x128_S1x128_0_0
abbrev r5_o : Rect S2000x128 := Rect.unit (s := S2000x128) ![0, 0] S2000x128.size inb_S2000x128_S2000x128_0_0

/-- The output block after the body: one store, over the whole block, of the body's value of the input blocks. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_o, k5_pay1 (View.ld x0 r5_0) (View.ld x1 r5_1) (View.ld x2 r5_2) (View.ld x3 r5_3) (View.ld x4 r5_4)⟩]

/-- The one store covers the block. -/
theorem cover5_5 (p0 : Vec F S2000x128 .f32) (y : S2000x128.Idx) :
    ∃ pc ∈ ([⟨r5_o, p0⟩] : List (View.Piece (Elt F) S2000x128 .f32)), y ∈ pc.1.set :=
  View.cover_of_tiled [⟨r5_o, p0⟩] S2000x128.size (by rfl) y

set_option maxHeartbeats 1000000 in
/-- The body on whole staging memrefs, the inputs' at given contents and the output's at anything, returns with the
    inputs' as they were and the output's at `out5_5` of them. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dd, %fo, -, Ho⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact Ho
  ipureintro
  exact View.read_writes_eq_canon _ _ _ (cover5_5 _)

/-- The proof data of the pipeline on core `c`: the arrays as the region finds them; after the body at point `t` each
    input's buffer at its block and the output's at the body's value of the point's input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%dd, Hout⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [Hout]; · iexists _; iexact Hout
  iintro ⟨H0, H1, H2, H3, H4, Hout⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact Hout

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/-
  Region 6 of @main: a row block of the activations times the whole weight matrix.
  At a parameter `V`, the contents of the core's buffers when the region is entered: each window's block at a grid
  point, what the body leaves in the output block (the product of the point's row block with the weights), the body's
  triple, the pipeline's proof data and the body obligation at every point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: where it is not fetched the
    block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Every access of the body is of a whole block. -/
abbrev r6_0 : Rect S2000x128 := Rect.unit (s := S2000x128) ![0, 0] S2000x128.size inb_S2000x128_S2000x128_0_0
abbrev r6_1 : Rect S128x64 := Rect.unit (s := S128x64) ![0, 0] S128x64.size inb_S128x64_S128x64_0_0
abbrev r6_o : Rect S2000x64 := Rect.unit (s := S2000x64) ![0, 0] S2000x64.size inb_S2000x64_S2000x64_0_0

/-- The output block after the body: one store, over the whole block, of the body's value of the input blocks. -/
def out6_2 (x0 : Vec F S2000x128 .f32) (x1 : Vec F S128x64 .f32) : Vec F S2000x64 .f32 :=
  View.canon [⟨r6_o, k6_pay1 (View.ld x0 r6_0) (View.ld x1 r6_1)⟩]

/-- The one store covers the block. -/
theorem cover6_2 (p0 : Vec F S2000x64 .f32) (y : S2000x64.Idx) :
    ∃ pc ∈ ([⟨r6_o, p0⟩] : List (View.Piece (Elt F) S2000x64 .f32)), y ∈ pc.1.set :=
  View.cover_of_tiled [⟨r6_o, p0⟩] S2000x64.size (by rfl) y

set_option maxHeartbeats 1000000 in
/-- The body on whole staging memrefs, the inputs' at given contents and the output's at anything, returns with the
    inputs' as they were and the output's at `out6_2` of them. -/
theorem sound_kernel6 (c : Dev nD) (E : Set ℕ) (i : grid6.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover6_2 _)

/-- The proof data of the pipeline on core `c`: the arrays as the region finds them; after the body at point `t` each
    input's buffer at its block and the output's at the body's value of the point's input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%dd, Hout⟩⟩
  iapply (sound_kernel6 c Set.univ _ _ _ _ _ _ _ (iblk6 V c 0 t) (iblk6 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/-
  Region 7 of @main: bias and log-softmax of a row block, row by row:
  with z = h + b, z − max z − log Σ exp(z − max z) along each row.
  At a parameter `V`, the contents of the core's buffers when the region is entered: each window's block at a grid
  point, what the body leaves in the output block, the body's triple, the pipeline's proof data and the body obligation
  at every point.
-/
import proofs.«111771_j80977313399687_1_alg».proof.Proof.Gen.KernelIdeal.Launch
import proofs.«111771_j80977313399687_1_alg».proof.Proof.Gen.KernelIdeal.Skeleton
import proofs.«111771_j80977313399687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: where it is not fetched the
    block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Every access of the body is of a whole block. -/
abbrev r7_0 : Rect S2000x64 := Rect.unit (s := S2000x64) ![0, 0] S2000x64.size inb_S2000x64_S2000x64_0_0
abbrev r7_1 : Rect S1x64 := Rect.unit (s := S1x64) ![0, 0] S1x64.size inb_S1x64_S1x64_0_0
abbrev r7_o : Rect S2000x64 := Rect.unit (s := S2000x64) ![0, 0] S2000x64.size inb_S2000x64_S2000x64_0_0

/-- The output block after the body: one store, over the whole block, of the body's value of the input blocks. -/
def out7_2 (x0 : Vec F S2000x64 .f32) (x1 : Vec F S1x64 .f32) : Vec F S2000x64 .f32 :=
  View.canon [⟨r7_o, k7_pay1 (View.ld x0 r7_0) (View.ld x1 r7_1)⟩]

/-- The one store covers the block. -/
theorem cover7_2 (p0 : Vec F S2000x64 .f32) (y : S2000x64.Idx) :
    ∃ pc ∈ ([⟨r7_o, p0⟩] : List (View.Piece (Elt F) S2000x64 .f32)), y ∈ pc.1.set :=
  View.cover_of_tiled [⟨r7_o, p0⟩] S2000x64.size (by rfl) y

set_option maxHeartbeats 1000000 in
/-- The body on whole staging memrefs, the inputs' at given contents and the output's at anything, returns with the
    inputs' as they were and the output's at `out7_2` of them. -/
theorem sound_kernel7 (c : Dev nD) (E : Set ℕ) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_logsoftmax_kernel i arg1 harg1 arg2 harg2 arg3 harg3) K := by
  simp only [cc7__bias_logsoftmax_kernel_eq_skeleton]; unfold cc7__bias_logsoftmax_kernel_skel
  unfold owns
  iintro ⟨⟨%f0, %hf0, H0⟩, ⟨%f1, %hf1, H1⟩, ⟨%dd, %fo, -, Ho⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover7_2 _)

/-- The proof data of the pipeline on core `c`: the arrays as the region finds them; after the body at point `t` each
    input's buffer at its block and the output's at the body's value of the point's input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%dd, Hout⟩⟩
  iapply (sound_kernel7 c Set.univ _ _ _ _ _ _ _ (iblk7 V c 0 t) (iblk7 V c 1 t) _)
  isplitl [H0]; · iexact H0
  isplitl [H1]; · iexact H1
  isplitl [Hout]; · iexists _; iexact Hout
  iintro ⟨H0, H1, Hout⟩
  isplitl [HΦ]; · iexact HΦ
  isplitl [Ho]; · iexact Ho
  isplitl [H0]; · iexact H0
  isplitl [H1]; · iexact H1
  iexact Hout

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Run.Chain.lean ====
/-
  The contents of a core's buffers at every boundary of @main's sixteen items (eight stretches of host operations and
  eight kernel regions), as a fold from the launch memory: a host stretch applies its operations; a region leaves its
  input arrays as entered and each output array at what its write-backs leave, every other buffer untouched. Each item
  keeps every buffer it does not write, so the twelve argument arrays reach the end as launched. Then every pipeline's
  proof data at its region's entry contents, and what rides beside the buffers through every item.
-/
import proofs.«111771_j80977313399687_1_alg».proof.Proof.KI.R0
import proofs.«111771_j80977313399687_1_alg».proof.Proof.KI.Stats1
import proofs.«111771_j80977313399687_1_alg».proof.Proof.KI.R2
import proofs.«111771_j80977313399687_1_alg».proof.Proof.KI.R3
import proofs.«111771_j80977313399687_1_alg».proof.Proof.KI.Stats4
import proofs.«111771_j80977313399687_1_alg».proof.Proof.KI.R5
import proofs.«111771_j80977313399687_1_alg».proof.Proof.KI.R6
import proofs.«111771_j80977313399687_1_alg».proof.Proof.KI.R7
import proofs.«111771_j80977313399687_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c r = W0 m ρ c r :=
  StableHlo.after_of_writes_sub hostOps0 _ hostOps0_writes h
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_keep (c : Dev nD) (r : Ref sig .tc) (h : r ∉ hostOps0_1_W) : W2 m ρ c r = W1 m ρ c r :=
  StableHlo.after_of_writes_sub hostOps0_1 _ hostOps0_1_writes h
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps0_2_W) : W3 m ρ c r = W2 m ρ c r :=
  StableHlo.after_of_writes_sub hostOps0_2 _ hostOps0_2_writes h
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- Region 0 keeps every buffer that is not one of its output arrays: an input array is read, never written. -/
theorem W4_keep (c : Dev nD) (r : Ref sig .tc) (hb : r ∉ ([main_v32] : List (Ref sig .tc))) : W4 m ρ c r = W3 m ρ c r := by
  by_cases h : ∃ w, Pipeline.arrRef spec0 w = r
  · obtain ⟨w, rfl⟩ := h
    rw [W4_arr]
    match w with
    | ⟨0, _⟩ => exact ((dat0 (V3 m ρ) c).arrAt_in 0 rfl _).trans (A_eq0 (V3 m ρ) c 0)
    | ⟨1, _⟩ => exact ((dat0 (V3 m ρ) c).arrAt_in 1 rfl _).trans (A_eq0 (V3 m ρ) c 1)
    | ⟨2, _⟩ => exact absurd (show (main_v32 : Ref sig .tc) ∈ ([main_v32] : List (Ref sig .tc)) from by decide) hb
  · exact W4_of_ne m ρ c r fun w e => h ⟨w, e⟩
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_keep (c : Dev nD) (r : Ref sig .tc) (h : r ∉ hostOps1_W) : W5 m ρ c r = W4 m ρ c r :=
  StableHlo.after_of_writes_sub hostOps1 _ hostOps1_writes h
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- Region 1 keeps every buffer that is not one of its output arrays: an input array is read, never written. -/
theorem W6_keep (c : Dev nD) (r : Ref sig .tc) (hb : r ∉ ([main_v47_0, main_v47_1, main_v47_2] : List (Ref sig .tc))) : W6 m ρ c r = W5 m ρ c r := by
  by_cases h : ∃ w, Pipeline.arrRef spec1 w = r
  · obtain ⟨w, rfl⟩ := h
    rw [W6_arr]
    match w with
    | ⟨0, _⟩ => exact ((dat1 (V5 m ρ) c).arrAt_in 0 rfl _).trans (A_eq1 (V5 m ρ) c 0)
    | ⟨1, _⟩ => exact ((dat1 (V5 m ρ) c).arrAt_in 1 rfl _).trans (A_eq1 (V5 m ρ) c 1)
    | ⟨2, _⟩ => exact absurd (show (main_v47_0 : Ref sig .tc) ∈ ([main_v47_0, main_v47_1, main_v47_2] : List (Ref sig .tc)) from by decide) hb
    | ⟨3, _⟩ => exact absurd (show (main_v47_1 : Ref sig .tc) ∈ ([main_v47_0, main_v47_1, main_v47_2] : List (Ref sig .tc)) from by decide) hb
    | ⟨4, _⟩ => exact absurd (show (main_v47_2 : Ref sig .tc) ∈ ([main_v47_0, main_v47_1, main_v47_2] : List (Ref sig .tc)) from by decide) hb
  · exact W6_of_ne m ρ c r fun w e => h ⟨w, e⟩
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_keep (c : Dev nD) (r : Ref sig .tc) (h : r ∉ hostOps2_W) : W7 m ρ c r = W6 m ρ c r :=
  StableHlo.after_of_writes_sub hostOps2 _ hostOps2_writes h
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- Region 2 keeps every buffer that is not one of its output arrays: an input array is read, never written. -/
theorem W8_keep (c : Dev nD) (r : Ref sig .tc) (hb : r ∉ ([main_v56] : List (Ref sig .tc))) : W8 m ρ c r = W7 m ρ c r := by
  by_cases h : ∃ w, Pipeline.arrRef spec2 w = r
  · obtain ⟨w, rfl⟩ := h
    rw [W8_arr]
    match w with
    | ⟨0, _⟩ => exact ((dat2 (V7 m ρ) c).arrAt_in 0 rfl _).trans (A_eq2 (V7 m ρ) c 0)
    | ⟨1, _⟩ => exact ((dat2 (V7 m ρ) c).arrAt_in 1 rfl _).trans (A_eq2 (V7 m ρ) c 1)
    | ⟨2, _⟩ => exact ((dat2 (V7 m ρ) c).arrAt_in 2 rfl _).trans (A_eq2 (V7 m ρ) c 2)
    | ⟨3, _⟩ => exact ((dat2 (V7 m ρ) c).arrAt_in 3 rfl _).trans (A_eq2 (V7 m ρ) c 3)
    | ⟨4, _⟩ => exact ((dat2 (V7 m ρ) c).arrAt_in 4 rfl _).trans (A_eq2 (V7 m ρ) c 4)
    | ⟨5, _⟩ => exact absurd (show (main_v56 : Ref sig .tc) ∈ ([main_v56] : List (Ref sig .tc)) from by decide) hb
  · exact W8_of_ne m ρ c r fun w e => h ⟨w, e⟩
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- Region 3 keeps every buffer that is not one of its output arrays: an input array is read, never written. -/
theorem W9_keep (c : Dev nD) (r : Ref sig .tc) (hb : r ∉ ([main_v57] : List (Ref sig .tc))) : W9 m ρ c r = W8 m ρ c r := by
  by_cases h : ∃ w, Pipeline.arrRef spec3 w = r
  · obtain ⟨w, rfl⟩ := h
    rw [W9_arr]
    match w with
    | ⟨0, _⟩ => exact ((dat3 (V8 m ρ) c).arrAt_in 0 rfl _).trans (A_eq3 (V8 m ρ) c 0)
    | ⟨1, _⟩ => exact ((dat3 (V8 m ρ) c).arrAt_in 1 rfl _).trans (A_eq3 (V8 m ρ) c 1)
    | ⟨2, _⟩ => exact absurd (show (main_v57 : Ref sig .tc) ∈ ([main_v57] : List (Ref sig .tc)) from by decide) hb
  · exact W9_of_ne m ρ c r fun w e => h ⟨w, e⟩
/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps4_W) : W10 m ρ c r = W9 m ρ c r :=
  StableHlo.after_of_writes_sub hostOps4 _ hostOps4_writes h
/-- At region 4's exit: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- Region 4 keeps every buffer that is not one of its output arrays: an input array is read, never written. -/
theorem W11_keep (c : Dev nD) (r : Ref sig .tc) (hb : r ∉ ([main_v72_0, main_v72_1, main_v72_2] : List (Ref sig .tc))) : W11 m ρ c r = W10 m ρ c r := by
  by_cases h : ∃ w, Pipeline.arrRef spec4 w = r
  · obtain ⟨w, rfl⟩ := h
    rw [W11_arr]
    match w with
    | ⟨0, _⟩ => exact ((dat4 (V10 m ρ) c).arrAt_in 0 rfl _).trans (A_eq4 (V10 m ρ) c 0)
    | ⟨1, _⟩ => exact ((dat4 (V10 m ρ) c).arrAt_in 1 rfl _).trans (A_eq4 (V10 m ρ) c 1)
    | ⟨2, _⟩ => exact absurd (show (main_v72_0 : Ref sig .tc) ∈ ([main_v72_0, main_v72_1, main_v72_2] : List (Ref sig .tc)) from by decide) hb
    | ⟨3, _⟩ => exact absurd (show (main_v72_1 : Ref sig .tc) ∈ ([main_v72_0, main_v72_1, main_v72_2] : List (Ref sig .tc)) from by decide) hb
    | ⟨4, _⟩ => exact absurd (show (main_v72_2 : Ref sig .tc) ∈ ([main_v72_0, main_v72_1, main_v72_2] : List (Ref sig .tc)) from by decide) hb
  · exact W11_of_ne m ρ c r fun w e => h ⟨w, e⟩
/-- After the host stretch `hostOps5`. -/
abbrev W12 : Dev nD → Valuation τ sig (Elt F) := fun c => StableHlo.after hostOps5 (W11 m ρ c)
abbrev V12 : (c : Dev nD) → (b : Ref sig .tc) → Buf (Elt F) ((c : Thread nD τ).loc b) := fun c b => W12 m ρ c b
theorem W12_keep (c : Dev nD) (r : Ref sig .tc) (h : r ∉ hostOps5_W) : W12 m ρ c r = W11 m ρ c r :=
  StableHlo.after_of_writes_sub hostOps5 _ hostOps5_writes h
/-- At region 5's exit: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)
/-- Region 5 keeps every buffer that is not one of its output arrays: an input array is read, never written. -/
theorem W13_keep (c : Dev nD) (r : Ref sig .tc) (hb : r ∉ ([main_v81] : List (Ref sig .tc))) : W13 m ρ c r = W12 m ρ c r := by
  by_cases h : ∃ w, Pipeline.arrRef spec5 w = r
  · obtain ⟨w, rfl⟩ := h
    rw [W13_arr]
    match w with
    | ⟨0, _⟩ => exact ((dat5 (V12 m ρ) c).arrAt_in 0 rfl _).trans (A_eq5 (V12 m ρ) c 0)
    | ⟨1, _⟩ => exact ((dat5 (V12 m ρ) c).arrAt_in 1 rfl _).trans (A_eq5 (V12 m ρ) c 1)
    | ⟨2, _⟩ => exact ((dat5 (V12 m ρ) c).arrAt_in 2 rfl _).trans (A_eq5 (V12 m ρ) c 2)
    | ⟨3, _⟩ => exact ((dat5 (V12 m ρ) c).arrAt_in 3 rfl _).trans (A_eq5 (V12 m ρ) c 3)
    | ⟨4, _⟩ => exact ((dat5 (V12 m ρ) c).arrAt_in 4 rfl _).trans (A_eq5 (V12 m ρ) c 4)
    | ⟨5, _⟩ => exact absurd (show (main_v81 : Ref sig .tc) ∈ ([main_v81] : List (Ref sig .tc)) from by decide) hb
  · exact W13_of_ne m ρ c r fun w e => h ⟨w, e⟩
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- Region 6 keeps every buffer that is not one of its output arrays: an input array is read, never written. -/
theorem W14_keep (c : Dev nD) (r : Ref sig .tc) (hb : r ∉ ([main_v82] : List (Ref sig .tc))) : W14 m ρ c r = W13 m ρ c r := by
  by_cases h : ∃ w, Pipeline.arrRef spec6 w = r
  · obtain ⟨w, rfl⟩ := h
    rw [W14_arr]
    match w with
    | ⟨0, _⟩ => exact ((dat6 (V13 m ρ) c).arrAt_in 0 rfl _).trans (A_eq6 (V13 m ρ) c 0)
    | ⟨1, _⟩ => exact ((dat6 (V13 m ρ) c).arrAt_in 1 rfl _).trans (A_eq6 (V13 m ρ) c 1)
    | ⟨2, _⟩ => exact absurd (show (main_v82 : Ref sig .tc) ∈ ([main_v82] : List (Ref sig .tc)) from by decide) hb
  · exact W14_of_ne m ρ c r fun w e => h ⟨w, e⟩
/-- After the host stretch `hostOps7`. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
theorem W15_keep (c : Dev nD) (r : Ref sig .tc) (h : r ∉ hostOps7_W) : W15 m ρ c r = W14 m ρ c r :=
  StableHlo.after_of_writes_sub hostOps7 _ hostOps7_writes h
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- Region 7 keeps every buffer that is not one of its output arrays: an input array is read, never written. -/
theorem W16_keep (c : Dev nD) (r : Ref sig .tc) (hb : r ∉ ([main_v97] : List (Ref sig .tc))) : W16 m ρ c r = W15 m ρ c r := by
  by_cases h : ∃ w, Pipeline.arrRef spec7 w = r
  · obtain ⟨w, rfl⟩ := h
    rw [W16_arr]
    match w with
    | ⟨0, _⟩ => exact ((dat7 (V15 m ρ) c).arrAt_in 0 rfl _).trans (A_eq7 (V15 m ρ) c 0)
    | ⟨1, _⟩ => exact ((dat7 (V15 m ρ) c).arrAt_in 1 rfl _).trans (A_eq7 (V15 m ρ) c 1)
    | ⟨2, _⟩ => exact absurd (show (main_v97 : Ref sig .tc) ∈ ([main_v97] : List (Ref sig .tc)) from by decide) hb
  · exact W16_of_ne m ρ c r fun w e => h ⟨w, e⟩
theorem W16_main_arg0 (c : Dev nD) : W16 m ρ c main_arg0 = m ((c : Thread nD τ).loc main_arg0) :=
  (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl
theorem W16_main_arg1 (c : Dev nD) : W16 m ρ c main_arg1 = m ((c : Thread nD τ).loc main_arg1) :=
  (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl
theorem W16_main_arg2 (c : Dev nD) : W16 m ρ c main_arg2 = m ((c : Thread nD τ).loc main_arg2) :=
  (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl
theorem W16_main_arg3 (c : Dev nD) : W16 m ρ c main_arg3 = m ((c : Thread nD τ).loc main_arg3) :=
  (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl
theorem W16_main_arg4 (c : Dev nD) : W16 m ρ c main_arg4 = m ((c : Thread nD τ).loc main_arg4) :=
  (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl
theorem W16_main_arg5 (c : Dev nD) : W16 m ρ c main_arg5 = m ((c : Thread nD τ).loc main_arg5) :=
  (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl
theorem W16_main_arg6 (c : Dev nD) : W16 m ρ c main_arg6 = m ((c : Thread nD τ).loc main_arg6) :=
  (W16_keep m ρ c main_arg6 (by decide)).trans <| (W15_keep m ρ c main_arg6 (by decide)).trans <| (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl
theorem W16_main_arg7 (c : Dev nD) : W16 m ρ c main_arg7 = m ((c : Thread nD τ).loc main_arg7) :=
  (W16_keep m ρ c main_arg7 (by decide)).trans <| (W15_keep m ρ c main_arg7 (by decide)).trans <| (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem W16_main_arg8 (c : Dev nD) : W16 m ρ c main_arg8 = m ((c : Thread nD τ).loc main_arg8) :=
  (W16_keep m ρ c main_arg8 (by decide)).trans <| (W15_keep m ρ c main_arg8 (by decide)).trans <| (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl
theorem W16_main_arg9 (c : Dev nD) : W16 m ρ c main_arg9 = m ((c : Thread nD τ).loc main_arg9) :=
  (W16_keep m ρ c main_arg9 (by decide)).trans <| (W15_keep m ρ c main_arg9 (by decide)).trans <| (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl
theorem W16_main_arg10 (c : Dev nD) : W16 m ρ c main_arg10 = m ((c : Thread nD τ).loc main_arg10) :=
  (W16_keep m ρ c main_arg10 (by decide)).trans <| (W15_keep m ρ c main_arg10 (by decide)).trans <| (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl
theorem W16_main_arg11 (c : Dev nD) : W16 m ρ c main_arg11 = m ((c : Thread nD τ).loc main_arg11) :=
  (W16_keep m ρ c main_arg11 (by decide)).trans <| (W15_keep m ρ c main_arg11 (by decide)).trans <| (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

/-! ## The proof data family and what rides beside the buffers -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V8 m ρ) c
  | ⟨4, _⟩ => fun c => dat4 (V10 m ρ) c
  | ⟨5, _⟩ => fun c => dat5 (V12 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at the last boundary's contents, the generator register at some state. -/
abbrev Tₙ (c : Dev nD) : sProp 𝕄 := iprop(StableHlo.held (c : Thread nD τ) (Pipeline.ucRefs τ sig) (W16 m ρ c) ∗ ∃ r, prngReg c r)

end Cert.KernelIdeal.Hand

end
-- ==== Proof.KI.Run.Reg0.lean ====
/-
  Region 0 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg1.lean ====
/-
  Region 1 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg2.lean ====
/-
  Region 2 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg3.lean ====
/-
  Region 3 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg4.lean ====
/-
  Region 4 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg5.lean ====
/-
  Region 5 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg6.lean ====
/-
  Region 6 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.Reg7.lean ====
/-
  Region 7 of @main as a segment of the run: entered with every unscoped buffer at the contents of the boundary
  before it, left with them at the contents after it. Its arrays are split out of the unscoped buffers at entry and put
  back at exit; the generator register goes into the pipeline's invariant and comes out; nothing is owed and the kernel
  has no semaphore of its own.
-/
import proofs.«111771_j80977313399687_1_alg».proof.Proof.KI.Run.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.Main.lean ====
/-
  @main as its sixteen segments, and the run: from any memory with zero counters every weakly fair execution of @main on
  the TensorCore terminates, nothing faulting, and the final memory holds every unscoped buffer at the last boundary's
  contents `W16`. The frame claim follows: each argument array is read back through the fold to its launch contents.
-/
import proofs.«111771_j80977313399687_1_alg».proof.Proof.KI.Run.Reg0
import proofs.«111771_j80977313399687_1_alg».proof.Proof.KI.Run.Reg1
import proofs.«111771_j80977313399687_1_alg».proof.Proof.KI.Run.Reg2
import proofs.«111771_j80977313399687_1_alg».proof.Proof.KI.Run.Reg3
import proofs.«111771_j80977313399687_1_alg».proof.Proof.KI.Run.Reg4
import proofs.«111771_j80977313399687_1_alg».proof.Proof.KI.Run.Reg5
import proofs.«111771_j80977313399687_1_alg».proof.Proof.KI.Run.Reg6
import proofs.«111771_j80977313399687_1_alg».proof.Proof.KI.Run.Reg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's sixteen segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .region (reg6 m ρ),
    .host (hseg hostOps7 hostOps7_sub hostOps7_fresh (W14 m ρ)),
    .region (reg7 m ρ) ]

/-- @main is the run of the segments. -/
theorem main_run (c : Dev nD) : main (F := F) c = Pipeline.Seg.run (segs m ρ) := (main_chain c).trans (by chain_rfl)

set_option backward.isDefEq.respectTransparency.types false in
/-- THE RUN: every unscoped buffer ends at `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c),
      (h c _ (mem_uc main_arg7 (by decide))).trans (W16_main_arg7 m ρ c),
      (h c _ (mem_uc main_arg8 (by decide))).trans (W16_main_arg8 m ρ c),
      (h c _ (mem_uc main_arg9 (by decide))).trans (W16_main_arg9 m ρ c),
      (h c _ (mem_uc main_arg10 (by decide))).trans (W16_main_arg10 m ρ c),
      (h c _ (mem_uc main_arg11 (by decide))).trans (W16_main_arg11 m ρ c)⟩) (run_all m ρ)

end Cert.KernelIdeal.Hand

end
-- ==== Proof.RefRun.Stages.lean ====
/- The reference's value, stage by stage: one definition per source step of the reference function
   (index vectors, degree normalisation, graph convolution, batch statistics, normalisation with
   rectification, log-softmax), each over plain arrays, written with the program's own host operations
   and dimension records, for any float family. -/
import proofs.«111771_j80977313399687_1_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

/-! ## Index vectors -/

/-- The node numbers `0 … N-1`: the self-loop each node gets. -/
def loops : (⟨S50000, .i32⟩ : BufTy).Contents (Elt F) := iotaInDim S50000 32 0

/-- Row `0` of the edge table as a vector: the given edges' sources. -/
def edgeRow0 (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row `1` of the edge table as a vector: the given edges' targets. -/
def edgeRow1 (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- Message sources: the given edges' sources, then one self-loop per node. -/
def src (ei : (⟨S2x800000, .i32⟩ : BufTy).Contents (Elt F)) : (⟨S850000, .i32⟩ : BufTy).Contents (Elt F) :=
  concatenate S850000 0 [⟨S800000, edgeRow0 ei⟩, ⟨S50000, loops (F := F)⟩] concatenates_S800000_S50000_S850000_d0

/-- Aggregation targets: the given edges' targets, then one self-loop per node. -/
def dst (ei : (⟨S2x800000, .i32⟩ : BufTy).Contents (Elt F)) : (⟨S850000, .i32⟩ : BufTy).Contents (Elt F) :=
  concatenate S850000 0 [⟨S800000, edgeRow1 ei⟩, ⟨S50000, loops (F := F)⟩] concatenates_S800000_S50000_S850000_d0

/-- An index vector as the one-column index table a scatter reads. -/
def colIdx (i : (⟨S850000, .i32⟩ : BufTy).Contents (Elt F)) : (⟨S850000x1, .i32⟩ : BufTy).Contents (Elt F) :=
  broadcastInDim S850000x1 ![0] bcast_S850000_S850000x1_0 i

/-- An index vector as the one-column index table a gather reads: a negative index counts from the end
    (`i + N` where `i < 0`), as array indexing does. -/
def wrapIdx (i : (⟨S850000, .i32⟩ : BufTy).Contents (Elt F)) : (⟨S850000x1, .i32⟩ : BufTy).Contents (Elt F) :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-! ## Symmetric normalisation -/

/-- The degree of each node: the number of edges (self-loops included) that end in it, a scatter-add of ones. -/
def deg (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (colIdx d)
    (broadcastInDim S850000 ![] bcast_S_S850000 (constant S_ .f32 0x3F800000#32))

/-- `deg^(-1/2)` where the degree is positive, `0` elsewhere. -/
def dis (dg : (⟨S50000, .f32⟩ : BufTy).Contents (Elt F)) : (⟨S50000, .f32⟩ : BufTy).Contents (Elt F) :=
  select (cmpf .ogt dg (broadcastInDim S50000 ![] bcast_S_S50000 (constant S_ .f32 0x00000000#32)))
    (Host.rsqrt (maximumf dg (broadcastInDim S50000 ![] bcast_S_S50000 (constant S_ .f32 0x3F800000#32))))
    (broadcastInDim S50000 ![] bcast_S_S50000 (constant S_ .f32 0x00000000#32))

/-- The edge weights from a per-node factor: the factor at the source times the factor at the target. -/
def normFrom (ds : (⟨S50000, .f32⟩ : BufTy).Contents (Elt F)) (s d : (⟨S850000, .i32⟩ : BufTy).Contents (Elt F)) : (⟨S850000, .f32⟩ : BufTy).Contents (Elt F) :=
  mulf (Host.gather gather_S50000_S850000x1_S850000_n_0_n_n_0_1_1 ds (wrapIdx s))
    (Host.gather gather_S50000_S850000x1_S850000_n_0_n_n_0_1_1 ds (wrapIdx d))

/-- The edge weights `dis[src] * dis[dst]`, `dis` the inverse square root of the degree counted at the targets. -/
def norm (s d : (⟨S850000, .i32⟩ : BufTy).Contents (Elt F)) : (⟨S850000, .f32⟩ : BufTy).Contents (Elt F) :=
  normFrom (dis (deg d)) s d

/-! ## Graph convolution -/

/-- A feature vector repeated on every node's row (128 wide). -/
def rows128 (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- A feature vector repeated on every node's row (64 wide). -/
def rows64 (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- An edge weight repeated along its edge's feature row (128 wide). -/
def edgeCols128 (n : (⟨S850000, .f32⟩ : BufTy).Contents (Elt F)) : (⟨S850000x128, .f32⟩ : BufTy).Contents (Elt F) :=
  broadcastInDim S850000x128 ![0, 1] bcast_S850000x1_S850000x128_0_1 (broadcastInDim S850000x1 ![0] bcast_S850000_S850000x1_0 n)

/-- An edge weight repeated along its edge's feature row (64 wide). -/
def edgeCols64 (n : (⟨S850000, .f32⟩ : BufTy).Contents (Elt F)) : (⟨S850000x64, .f32⟩ : BufTy).Contents (Elt F) :=
  broadcastInDim S850000x64 ![0, 1] bcast_S850000x1_S850000x64_0_1 (broadcastInDim S850000x1 ![0] bcast_S850000_S850000x1_0 n)

/-- The dense layer `h @ W` (128 → 128). -/
def linear128 (h : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none h W

/-- The dense layer `h @ W` (128 → 64). -/
def linear64 (h : (⟨S50000x128, .f32⟩ : BufTy).Contents (Elt F)) (W : (⟨S128x64, .f32⟩ : BufTy).Contents (Elt F)) : (⟨S50000x64, .f32⟩ : BufTy).Contents (Elt F) :=
  Host.dotGeneral dot_S50000x128_S128x64_S50000x64_1_0_0_1_n_n none h W

/-- Neighbourhood aggregation, 128 wide: each edge carries its source's row times the edge's weight, and
    the rows arriving at a node are summed (a scatter-add into zeros). -/
def aggregate128 (s d : (⟨S850000, .i32⟩ : BufTy).Contents (Elt F)) (nrm : (⟨S850000, .f32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (colIdx d)
    (mulf (Host.gather gather_S50000x128_S850000x1_S850000x128_1_0_n_n_0_1_1128 h (wrapIdx s)) (edgeCols128 nrm))

/-- Neighbourhood aggregation, 64 wide. -/
def aggregate64 (s d : (⟨S850000, .i32⟩ : BufTy).Contents (Elt F)) (nrm : (⟨S850000, .f32⟩ : BufTy).Contents (Elt F)) (h : (⟨S50000x64, .f32⟩ : BufTy).Contents (Elt F)) :
    (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (colIdx d)
    (mulf (Host.gather gather_S50000x64_S850000x1_S850000x64_1_0_n_n_0_1_164 h (wrapIdx s)) (edgeCols64 nrm))

/-- The bias added to every node's row (128 wide). -/
def addBias128 (a : (⟨S50000x128, .f32⟩ : BufTy).Contents (Elt F)) (b : (⟨S128, .f32⟩ : BufTy).Contents (Elt F)) : (⟨S50000x128, .f32⟩ : BufTy).Contents (Elt F) :=
  addf a (rows128 b)

/-- The bias added to every node's row (64 wide). -/
def addBias64 (a : (⟨S50000x64, .f32⟩ : BufTy).Contents (Elt F)) (b : (⟨S64, .f32⟩ : BufTy).Contents (Elt F)) : (⟨S50000x64, .f32⟩ : BufTy).Contents (Elt F) :=
  addf a (rows64 b)

/-- One graph convolution, 128 → 128: dense layer, aggregation over the edges, bias. -/
def conv128 (ei : (⟨S2x800000, .i32⟩ : BufTy).Contents (Elt F)) (h : (⟨S50000x128, .f32⟩ : BufTy).Contents (Elt F)) (W : (⟨S128x128, .f32⟩ : BufTy).Contents (Elt F))
    (b : (⟨S128, .f32⟩ : BufTy).Contents (Elt F)) : (⟨S50000x128, .f32⟩ : BufTy).Contents (Elt F) :=
  addBias128 (aggregate128 (src ei) (dst ei) (norm (src ei) (dst ei)) (linear128 h W)) b

/-- One graph convolution, 128 → 64. -/
def conv64 (ei : (⟨S2x800000, .i32⟩ : BufTy).Contents (Elt F)) (h : (⟨S50000x128, .f32⟩ : BufTy).Contents (Elt F)) (W : (⟨S128x64, .f32⟩ : BufTy).Contents (Elt F))
    (b : (⟨S64, .f32⟩ : BufTy).Contents (Elt F)) : (⟨S50000x64, .f32⟩ : BufTy).Contents (Elt F) :=
  addBias64 (aggregate64 (src ei) (dst ei) (norm (src ei) (dst ei)) (linear64 h W)) b

/-! ## Batch statistics over the nodes -/

/-- The column means: each column's sum over the nodes, divided by the number of nodes. -/
def colMean (h : (⟨S50000x128, .f32⟩ : BufTy).Contents (Elt F)) : (⟨S128, .f32⟩ : BufTy).Contents (Elt F) :=
  Host.divf (Host.reduceAdd h (constant S_ .f32 0x00000000#32) reducesTo_S50000x128_S128_d0 h_S_)
    (broadcastInDim S128 ![] bcast_S_S128 (constant S_ .f32 0x47435000#32))

/-- The rows less the column means, the means taken as the variance computes them (a row of sums divided by a row of counts). -/
def centered (h : (⟨S50000x128, .f32⟩ : BufTy).Contents (Elt F)) : (⟨S50000x128, .f32⟩ : BufTy).Contents (Elt F) :=
  subf h (broadcastInDim S50000x128 ![0, 1] bcast_S1x128_S50000x128_0_1
    (Host.divf (broadcastInDim S1x128 ![1] bcast_S128_S1x128_1 (Host.reduceAdd h (constant S_ .f32 0x00000000#32) reducesTo_S50000x128_S128_d0 h_S_))
      (broadcastInDim S1x128 ![] bcast_S_S1x128 (constant S_ .f32 0x47435000#32))))

/-- The variance's divisor: the number of nodes less the correction, which is `0` (the biased variance). -/
def varCount : (⟨S_, .f32⟩ : BufTy).Contents (Elt F) :=
  subf (constant S_ .f32 0x47435000#32) (sitofp .f32 (constantI S_ 32 0#32))

/-- The column variances (biased): the column sums of the squared centered rows over the count where the count is
    positive, not-a-number elsewhere. -/
def colVar (h : (⟨S50000x128, .f32⟩ : BufTy).Contents (Elt F)) : (⟨S128, .f32⟩ : BufTy).Contents (Elt F) :=
  select (broadcastInDim S128 ![] bcast_S_S128 (cmpf .ogt (varCount (F := F)) (constant S_ .f32 0x00000000#32)))
    (Host.divf (Host.reduceAdd (mulf (centered h) (centered h)) (constant S_ .f32 0x00000000#32) reducesTo_S50000x128_S128_d0 h_S_)
      (broadcastInDim S128 ![] bcast_S_S128 (varCount (F := F))))
    (broadcastInDim S128 ![] bcast_S_S128 (constant S_ .f32 0x7FC00000#32))

/-! ## Normalisation, scale, shift and rectification -/

/-- The batch-norm epsilon on every column. -/
def epsVec : (⟨S128, .f32⟩ : BufTy).Contents (Elt F) :=
  broadcastInDim S128 ![] bcast_S_S128 (constant S_ .f32 0x3727C5AC#32)

/-- `g * (h - mean)`, row by row. -/
def scaled (h : (⟨S50000x128, .f32⟩ : BufTy).Contents (Elt F)) (mean g : (⟨S128, .f32⟩ : BufTy).Contents (Elt F)) : (⟨S50000x128, .f32⟩ : BufTy).Contents (Elt F) :=
  mulf (rows128 g) (subf h (rows128 mean))

/-- From the scaled centered rows: times `rsqrt(var + eps)`, plus `beta`, rectified. -/
def bnReluFrom (sc : (⟨S50000x128, .f32⟩ : BufTy).Contents (Elt F)) (ev var beta : (⟨S128, .f32⟩ : BufTy).Contents (Elt F)) : (⟨S50000x128, .f32⟩ : BufTy).Contents (Elt F) :=
  maximumf (addf (mulf sc (rows128 (Host.rsqrt (addf var ev)))) (rows128 beta))
    (broadcastInDim S50000x128 ![] bcast_S_S50000x128 (constant S_ .f32 0x00000000#32))

/-- `relu(g * (h - mean) * rsqrt(var + eps) + beta)`. -/
def bnRelu (h : (⟨S50000x128, .f32⟩ : BufTy).Contents (Elt F)) (mean var g beta : (⟨S128, .f32⟩ : BufTy).Contents (Elt F)) : (⟨S50000x128, .f32⟩ : BufTy).Contents (Elt F) :=
  bnReluFrom (scaled h mean g) epsVec var beta

/-- Batch normalisation over the nodes (the batch's own mean and biased variance), then rectification. -/
def bnLayer (h : (⟨S50000x128, .f32⟩ : BufTy).Contents (Elt F)) (g beta : (⟨S128, .f32⟩ : BufTy).Contents (Elt F)) : (⟨S50000x128, .f32⟩ : BufTy).Contents (Elt F) :=
  bnRelu h (colMean h) (colVar h) g beta

/-! ## Log-softmax along the features -/

/-- Each row's maximum (never below `-∞`). -/
def rowMax (h : (⟨S50000x64, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf h (constant S_ .f32 0xFF800000#32) reducesTo_S50000x64_S50000_d1 h_S_)

/-- The rows less their maxima. -/
def shifted (h : (⟨S50000x64, .f32⟩ : BufTy).Contents (Elt F)) : (⟨S50000x64, .f32⟩ : BufTy).Contents (Elt F) :=
  subf h (broadcastInDim S50000x64 ![0, 1] bcast_S50000x1_S50000x64_0_1 (broadcastInDim S50000x1 ![0] bcast_S50000_S50000x1_0 (rowMax h)))

/-- `log_softmax` along the features: the shifted rows less the logarithm of the sum of their exponentials. -/
def logSoftmax (h : (⟨S50000x64, .f32⟩ : BufTy).Contents (Elt F)) : (⟨S50000x64, .f32⟩ : BufTy).Contents (Elt F) :=
  subf (shifted h)
    (broadcastInDim S50000x64 ![0, 1] bcast_S50000x1_S50000x64_0_1
      (Host.log (broadcastInDim S50000x1 ![0] bcast_S50000_S50000x1_0
        (Host.reduceAdd (Host.exp (shifted h)) (constant S_ .f32 0x00000000#32) reducesTo_S50000x64_S50000_d1 h_S_))))

/-! ## The whole network -/

/-- The reference's result: two convolution + batch-norm + rectification layers, a third convolution, log-softmax. -/
def result (x : (⟨S50000x128, .f32⟩ : BufTy).Contents (Elt F)) (ei : (⟨S2x800000, .i32⟩ : BufTy).Contents (Elt F))
    (W1 : (⟨S128x128, .f32⟩ : BufTy).Contents (Elt F)) (b1 g1 beta1 : (⟨S128, .f32⟩ : BufTy).Contents (Elt F))
    (W2 : (⟨S128x128, .f32⟩ : BufTy).Contents (Elt F)) (b2 g2 beta2 : (⟨S128, .f32⟩ : BufTy).Contents (Elt F))
    (W3 : (⟨S128x64, .f32⟩ : BufTy).Contents (Elt F)) (b3 : (⟨S64, .f32⟩ : BufTy).Contents (Elt F)) : (⟨S50000x64, .f32⟩ : BufTy).Contents (Elt F) :=
  logSoftmax (conv64 ei (bnLayer (conv128 ei (bnLayer (conv128 ei x W1 b1) g1 beta1) W2 b2) g2 beta2) W3 b3)

end Cert.ReferenceIdeal.RefValue

end
-- ==== Proof.RefRun.Ops.lean ====
/- The reference's @main as lists of its host operations, the calls of its module-local functions unfolded at
   their call sites over each call's own buffers, cut into consecutive stretches that each compute one
   stage of the reference; for each stretch: the buffers it writes, that every other buffer keeps its
   contents through it, that it touches TensorCore buffers only, and that each operation determines its result. -/
import proofs.«111771_j80977313399687_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations run in turn are the second's after the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Operations 1 … 7 of 212: the two index vectors: the edge table's rows, each followed by the self-loops. -/
abbrev w1 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The buffers those operations write. -/
abbrev w1_W : List (Ref sig .tc) := [main_v0, main_v1, main_v2, main_v3, main_v4, main_v5, main_v6]

set_option maxRecDepth 8192 in
theorem w1_writes : (w1 : List (HloOp τ sig (Elt F))).Forall fun op => op.writes ⊆ (w1_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w1_keep (V : Valuation τ sig (Elt F)) (r : Ref sig .tc) (h : r ∉ w1_W) :
    after w1 V (Proc.devRef .tc r) = V (Proc.devRef .tc r) :=
  after_of_writes_sub w1 V w1_writes h

set_option maxRecDepth 8192 in
theorem w1_sub : (w1 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩

set_option maxRecDepth 8192 in
theorem w1_fresh : ∀ op ∈ (w1 : List (HloOp τ sig (Elt F))), op.fresh = ∅ := by
  intro _ h; (repeat (cases h with | head => rfl | tail _ h => ?_)); exact nomatch h

/-- Operations 8 … 24 of 212: the degrees (a scatter-add of ones at the targets) and their inverse square roots where positive. -/
abbrev w2 : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v15 : StableHlo.TRef sig ⟨S50000, .f32⟩) main_call0.v1 main_call0.v2 select ]

/-- The buffers those operations write. -/
abbrev w2_W : List (Ref sig .tc) := [main_cst, main_v7, main_cst_0, main_v8, main_v9, main_v10, main_cst_1, main_v11, main_v12, main_cst_2, main_v13, main_v14, main_v15, main_cst_3, main_call0_v0, main_call0_v1, main_v16]

set_option maxRecDepth 8192 in
theorem w2_writes : (w2 : List (HloOp τ sig (Elt F))).Forall fun op => op.writes ⊆ (w2_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w2_keep (V : Valuation τ sig (Elt F)) (r : Ref sig .tc) (h : r ∉ w2_W) :
    after w2 V (Proc.devRef .tc r) = V (Proc.devRef .tc r) :=
  after_of_writes_sub w2 V w2_writes h

set_option maxRecDepth 8192 in
theorem w2_sub : (w2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

set_option maxRecDepth 8192 in
theorem w2_fresh : ∀ op ∈ (w2 : List (HloOp τ sig (Elt F))), op.fresh = ∅ := by
  intro _ h; (repeat (cases h with | head => rfl | tail _ h => ?_)); exact nomatch h

/-- Operations 25 … 43 of 212: the edge weights: the per-node factor gathered at the sources and at the targets, multiplied. -/
abbrev w3 : List (HloOp τ sig (Elt F)) :=
  [ StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)) ]

/-- The buffers those operations write. -/
abbrev w3_W : List (Ref sig .tc) := [main_c, main_v17, main_v18, main_c_4, main_v19, main_v20, main_v21, main_v22, main_v23, main_c_5, main_v24, main_v25, main_c_6, main_v26, main_v27, main_v28, main_v29, main_v30, main_v31]

set_option maxRecDepth 8192 in
theorem w3_writes : (w3 : List (HloOp τ sig (Elt F))).Forall fun op => op.writes ⊆ (w3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w3_keep (V : Valuation τ sig (Elt F)) (r : Ref sig .tc) (h : r ∉ w3_W) :
    after w3 V (Proc.devRef .tc r) = V (Proc.devRef .tc r) :=
  after_of_writes_sub w3 V w3_writes h

set_option maxRecDepth 8192 in
theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem w3_fresh : ∀ op ∈ (w3 : List (HloOp τ sig (Elt F))), op.fresh = ∅ := by
  intro _ h; (repeat (cases h with | head => rfl | tail _ h => ?_)); exact nomatch h

/-- Operations 44 … 62 of 212: layer 1's dense product, its rows gathered at the sources, weighted, scatter-added at the targets; the bias as rows. -/
abbrev w4 : List (HloOp τ sig (Elt F)) :=
  [ StableHlo.binary main_arg0 main_arg2 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)) ]

/-- The buffers those operations write. -/
abbrev w4_W : List (Ref sig .tc) := [main_v32, main_c_7, main_v33, main_v34, main_c_8, main_v35, main_v36, main_v37, main_v38, main_v39, main_v40, main_v41, main_v42, main_cst_9, main_v43, main_v44, main_v45, main_v46, main_v47]

set_option maxRecDepth 8192 in
theorem w4_writes : (w4 : List (HloOp τ sig (Elt F))).Forall fun op => op.writes ⊆ (w4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w4_keep (V : Valuation τ sig (Elt F)) (r : Ref sig .tc) (h : r ∉ w4_W) :
    after w4 V (Proc.devRef .tc r) = V (Proc.devRef .tc r) :=
  after_of_writes_sub w4 V w4_writes h

set_option maxRecDepth 8192 in
theorem w4_sub : (w4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩

set_option maxRecDepth 8192 in
theorem w4_fresh : ∀ op ∈ (w4 : List (HloOp τ sig (Elt F))), op.fresh = ∅ := by
  intro _ h; (repeat (cases h with | head => rfl | tail _ h => ?_)); exact nomatch h

/-- Operations 63 … 68 of 212: layer 1's bias added; the column means. -/
abbrev w5 : List (HloOp τ sig (Elt F)) :=
  [ StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v48 main_cst_10 main_v49 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)) ]

/-- The buffers those operations write. -/
abbrev w5_W : List (Ref sig .tc) := [main_v48, main_cst_10, main_v49, main_cst_11, main_v50, main_v51]

set_option maxRecDepth 8192 in
theorem w5_writes : (w5 : List (HloOp τ sig (Elt F))).Forall fun op => op.writes ⊆ (w5_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w5_keep (V : Valuation τ sig (Elt F)) (r : Ref sig .tc) (h : r ∉ w5_W) :
    after w5 V (Proc.devRef .tc r) = V (Proc.devRef .tc r) :=
  after_of_writes_sub w5 V w5_writes h

set_option maxRecDepth 8192 in
theorem w5_sub : (w5 : List (HloOp τ sig (Elt F))).Forall fun op => op.bufs ⊆ tcRefs τ sig :=
  ⟨binary_bufs_sub .., nullary_bufs_sub .., binary_bufs_sub .., nullary_bufs_sub .., unary_bufs_sub .., binary_bufs_sub ..⟩

set_option maxRecDepth 8192 in
theorem w5_fresh : ∀ op ∈ (w5 : List (HloOp τ sig (Elt F))), op.fresh = ∅ := by
  intro _ h; (repeat (cases h with | head => rfl | tail _ h => ?_)); exact nomatch h

/-- Operations 69 … 91 of 212: layer 1's column variances (the variance function's operations, the correction 0). -/
abbrev w6 : List (HloOp τ sig (Elt F)) :=
  [ StableHlo.nullary main_c_12 (constantI S_ 32 0#32),
    StableHlo.TRef.nullary main_call1.cst (constant S_ .f32 0x00000000#32),
    StableHlo.TRef.binary (.of main_v48 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v48 : StableHlo.TRef sig ⟨S50000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- The buffers those operations write. -/
abbrev w6_W : List (Ref sig .tc) := [main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52]

set_option maxRecDepth 8192 in
theorem w6_writes : (w6 : List (HloOp τ sig (Elt F))).Forall fun op => op.writes ⊆ (w6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w6_keep (V : Valuation τ sig (Elt F)) (r : Ref sig .tc) (h : r ∉ w6_W) :
    after w6 V (Proc.devRef .tc r) = V (Proc.devRef .tc r) :=
  after_of_writes_sub w6 V w6_writes h

set_option maxRecDepth 8192 in
theorem w6_sub : (w6 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem w6_fresh : ∀ op ∈ (w6 : List (HloOp τ sig (Elt F))), op.fresh = ∅ := by
  intro _ h; (repeat (cases h with | head => rfl | tail _ h => ?_)); exact nomatch h

/-- Operations 92 … 110 of 212: layer 1's normalisation, scale, shift and rectification. -/
abbrev w7 : List (HloOp τ sig (Elt F)) :=
  [ StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v54 main_v55 (subf : (⟨S50000x128, .f32⟩ : BufTy).Contents (Elt F) → (⟨S50000x128, .f32⟩ : BufTy).Contents (Elt F) → (⟨S50000x128, .f32⟩ : BufTy).Contents (Elt F)),
    StableHlo.unary main_arg4 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v55 main_v58 (mulf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v59 (broadcastInDim S128 ![] bcast_S_S128 : (⟨S_, .f32⟩ : BufTy).Contents (Elt F) → (⟨S128, .f32⟩ : BufTy).Contents (Elt F)),
    StableHlo.binary main_v52 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v67 : StableHlo.TRef sig ⟨S50000x128, .f32⟩) main_call2.v0 main_call2.v1 maximumf ]

/-- The buffers those operations write. -/
abbrev w7_W : List (Ref sig .tc) := [main_v53, main_v54, main_v55, main_v56, main_v57, main_v58, main_cst_13, main_v59, main_v60, main_v61, main_v62, main_v63, main_v64, main_v65, main_v66, main_v67, main_call2_cst, main_call2_v0, main_v68]

set_option maxRecDepth 8192 in
theorem w7_writes : (w7 : List (HloOp τ sig (Elt F))).Forall fun op => op.writes ⊆ (w7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w7_keep (V : Valuation τ sig (Elt F)) (r : Ref sig .tc) (h : r ∉ w7_W) :
    after w7 V (Proc.devRef .tc r) = V (Proc.devRef .tc r) :=
  after_of_writes_sub w7 V w7_writes h

set_option maxRecDepth 8192 in
theorem w7_sub : (w7 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem w7_fresh : ∀ op ∈ (w7 : List (HloOp τ sig (Elt F))), op.fresh = ∅ := by
  intro _ h; (repeat (cases h with | head => rfl | tail _ h => ?_)); exact nomatch h

/-- Operations 111 … 130 of 212: layer 2's dense product, aggregation and bias. -/
abbrev w8 : List (HloOp τ sig (Elt F)) :=
  [ StableHlo.binary main_v68 main_arg6 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_14 (constantI S_ 32 0#32),
    StableHlo.unary main_c_14 main_v70 (broadcastInDim S850000 ![] bcast_S_S850000 : (⟨S_, .i32⟩ : BufTy).Contents (Elt F) → (⟨S850000, .i32⟩ : BufTy).Contents (Elt F)),
    StableHlo.binary main_v3 main_v70 main_v71 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v72 (broadcastInDim S850000 ![] bcast_S_S850000 : (⟨S_, .i32⟩ : BufTy).Contents (Elt F) → (⟨S850000, .i32⟩ : BufTy).Contents (Elt F)),
    StableHlo.binary main_v3 main_v72 main_v73 (addi : (⟨S850000, .i32⟩ : BufTy).Contents (Elt F) → (⟨S850000, .i32⟩ : BufTy).Contents (Elt F) → (⟨S850000, .i32⟩ : BufTy).Contents (Elt F)),
    StableHlo.ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v74 main_v75 (broadcastInDim S850000x1 ![0] bcast_S850000_S850000x1_0 : (⟨S850000, .i32⟩ : BufTy).Contents (Elt F) → (⟨S850000x1, .i32⟩ : BufTy).Contents (Elt F)),
    StableHlo.binary main_v69 main_v75 main_v76 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v77 (broadcastInDim S850000x1 ![0] bcast_S850000_S850000x1_0 : (⟨S850000, .f32⟩ : BufTy).Contents (Elt F) → (⟨S850000x1, .f32⟩ : BufTy).Contents (Elt F)),
    StableHlo.unary main_v77 main_v78 (broadcastInDim S850000x128 ![0, 1] bcast_S850000x1_S850000x128_0_1 : (⟨S850000x1, .f32⟩ : BufTy).Contents (Elt F) → (⟨S850000x128, .f32⟩ : BufTy).Contents (Elt F)),
    StableHlo.binary main_v76 main_v78 main_v79 (mulf : (⟨S850000x128, .f32⟩ : BufTy).Contents (Elt F) → (⟨S850000x128, .f32⟩ : BufTy).Contents (Elt F) → (⟨S850000x128, .f32⟩ : BufTy).Contents (Elt F)),
    StableHlo.nullary main_cst_16 (constant S_ .f32 0x00000000#32),
    StableHlo.unary main_cst_16 main_v80 (broadcastInDim S50000x128 ![] bcast_S_S50000x128 : (⟨S_, .f32⟩ : BufTy).Contents (Elt F) → (⟨S50000x128, .f32⟩ : BufTy).Contents (Elt F)),
    StableHlo.unary main_v6 main_v81 (broadcastInDim S850000x1 ![0] bcast_S850000_S850000x1_0 : (⟨S850000, .i32⟩ : BufTy).Contents (Elt F) → (⟨S850000x1, .i32⟩ : BufTy).Contents (Elt F)),
    StableHlo.ternary main_v80 main_v81 main_v79 main_v82 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev w8_W : List (Ref sig .tc) := [main_v69, main_c_14, main_v70, main_v71, main_c_15, main_v72, main_v73, main_v74, main_v75, main_v76, main_v77, main_v78, main_v79, main_cst_16, main_v80, main_v81, main_v82, main_v83, main_v84, main_v85]

set_option maxRecDepth 8192 in
theorem w8_writes : (w8 : List (HloOp τ sig (Elt F))).Forall fun op => op.writes ⊆ (w8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w8_keep (V : Valuation τ sig (Elt F)) (r : Ref sig .tc) (h : r ∉ w8_W) :
    after w8 V (Proc.devRef .tc r) = V (Proc.devRef .tc r) :=
  after_of_writes_sub w8 V w8_writes h

set_option maxRecDepth 8192 in
theorem w8_sub : (w8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
theorem w8_fresh : ∀ op ∈ (w8 : List (HloOp τ sig (Elt F))), op.fresh = ∅ := by
  intro _ h; (repeat (cases h with | head => rfl | tail _ h => ?_)); exact nomatch h

/-- Operations 131 … 135 of 212: layer 2's column means. -/
abbrev w9 : List (HloOp τ sig (Elt F)) :=
  [ StableHlo.nullary main_cst_17 (constant S_ .f32 0x00000000#32),
    StableHlo.binary main_v85 main_cst_17 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_18 (constant S_ .f32 0x47435000#32),
    StableHlo.unary main_cst_18 main_v87 (broadcastInDim S128 ![] bcast_S_S128 : (⟨S_, .f32⟩ : BufTy).Contents (Elt F) → (⟨S128, .f32⟩ : BufTy).Contents (Elt F)),
    StableHlo.binary main_v86 main_v87 main_v88 (Host.divf : (⟨S128, .f32⟩ : BufTy).Contents (Elt F) → (⟨S128, .f32⟩ : BufTy).Contents (Elt F) → (⟨S128, .f32⟩ : BufTy).Contents (Elt F)) ]

/-- The buffers those operations write. -/
abbrev w9_W : List (Ref sig .tc) := [main_cst_17, main_v86, main_cst_18, main_v87, main_v88]

set_option maxRecDepth 8192 in
theorem w9_writes : (w9 : List (HloOp τ sig (Elt F))).Forall fun op => op.writes ⊆ (w9_W.map (Proc.devRef (τ := τ) .tc)).toFinset := by
  simp only [List.Forall]
  refine ⟨?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w9_keep (V : Valuation τ sig (Elt F)) (r : Ref sig .tc) (h : r ∉ w9_W) :
    after w9 V (Proc.devRef .tc r) = V (Proc.devRef .tc r) :=
  after_of_writes_sub w9 V w9_writes h

set_option maxRecDepth 8192 in
theorem w9_sub : (w9 : List (HloOp τ sig (Elt F))).Forall fun op => op.bufs ⊆ tcRefs τ sig :=
  ⟨nullary_bufs_sub .., binary_bufs_sub .., nullary_bufs_sub .., unary_bufs_sub .., binary_bufs_sub ..⟩

set_option maxRecDepth 8192 in
theorem w9_fresh : ∀ op ∈ (w9 : List (HloOp τ sig (Elt F))), op.fresh = ∅ := by
  intro _ h; (repeat (cases h with | head => rfl | tail _ h => ?_)); exact nomatch h

/-- Operations 136 … 158 of 212: layer 2's column variances. -/
abbrev w10 : List (HloOp τ sig (Elt F)) :=
  [ StableHlo.nullary main_c_19 (constantI S_ 32 0#32),
    StableHlo.TRef.nullary main_call3.cst (constant S_ .f32 0x00000000#32),
    StableHlo.TRef.binary (.of main_v85 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v85 : StableHlo.TRef sig ⟨S50000x128, .f32⟩) main_call3.v4 main_call3.v5 subf,
    StableHlo.TRef.binary main_call3.v5 main_call3.v5 main_call3.v6 mulf,
    StableHlo.TRef.unary (.of main_c_19 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

/-- The buffers those operations write. -/
abbrev w10_W : List (Ref sig .tc) := [main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v89]

set_option maxRecDepth 8192 in
theorem w10_writes : (w10 : List (HloOp τ sig (Elt F))).Forall fun op => op.writes ⊆ (w10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w10_keep (V : Valuation τ sig (Elt F)) (r : Ref sig .tc) (h : r ∉ w10_W) :
    after w10 V (Proc.devRef .tc r) = V (Proc.devRef .tc r) :=
  after_of_writes_sub w10 V w10_writes h

set_option maxRecDepth 8192 in
theorem w10_sub : (w10 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem w10_fresh : ∀ op ∈ (w10 : List (HloOp τ sig (Elt F))), op.fresh = ∅ := by
  intro _ h; (repeat (cases h with | head => rfl | tail _ h => ?_)); exact nomatch h

/-- Operations 159 … 166 of 212: layer 2's centered rows scaled; the epsilon on every column. -/
abbrev w11 : List (HloOp τ sig (Elt F)) :=
  [ StableHlo.unary main_v88 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v91 main_v92 (subf : (⟨S50000x128, .f32⟩ : BufTy).Contents (Elt F) → (⟨S50000x128, .f32⟩ : BufTy).Contents (Elt F) → (⟨S50000x128, .f32⟩ : BufTy).Contents (Elt F)),
    StableHlo.unary main_arg8 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v92 main_v95 (mulf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x3727C5AC#32),
    StableHlo.unary main_cst_20 main_v96 (broadcastInDim S128 ![] bcast_S_S128 : (⟨S_, .f32⟩ : BufTy).Contents (Elt F) → (⟨S128, .f32⟩ : BufTy).Contents (Elt F)) ]

/-- The buffers those operations write. -/
abbrev w11_W : List (Ref sig .tc) := [main_v90, main_v91, main_v92, main_v93, main_v94, main_v95, main_cst_20, main_v96]

set_option maxRecDepth 8192 in
theorem w11_writes : (w11 : List (HloOp τ sig (Elt F))).Forall fun op => op.writes ⊆ (w11_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w11_keep (V : Valuation τ sig (Elt F)) (r : Ref sig .tc) (h : r ∉ w11_W) :
    after w11 V (Proc.devRef .tc r) = V (Proc.devRef .tc r) :=
  after_of_writes_sub w11 V w11_writes h

set_option maxRecDepth 8192 in
theorem w11_sub : (w11 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub ..⟩

set_option maxRecDepth 8192 in
theorem w11_fresh : ∀ op ∈ (w11 : List (HloOp τ sig (Elt F))), op.fresh = ∅ := by
  intro _ h; (repeat (cases h with | head => rfl | tail _ h => ?_)); exact nomatch h

/-- Operations 167 … 177 of 212: layer 2's normalisation by the variance, shift and rectification. -/
abbrev w12 : List (HloOp τ sig (Elt F)) :=
  [ StableHlo.binary main_v89 main_v96 main_v97 (addf : (⟨S128, .f32⟩ : BufTy).Contents (Elt F) → (⟨S128, .f32⟩ : BufTy).Contents (Elt F) → (⟨S128, .f32⟩ : BufTy).Contents (Elt F)),
    StableHlo.unary main_v97 main_v98 (Host.rsqrt : (⟨S128, .f32⟩ : BufTy).Contents (Elt F) → (⟨S128, .f32⟩ : BufTy).Contents (Elt F)),
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v95 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_arg9 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v103 main_v104 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v104 : StableHlo.TRef sig ⟨S50000x128, .f32⟩) main_call4.v0 main_call4.v1 maximumf ]

/-- The buffers those operations write. -/
abbrev w12_W : List (Ref sig .tc) := [main_v97, main_v98, main_v99, main_v100, main_v101, main_v102, main_v103, main_v104, main_call4_cst, main_call4_v0, main_v105]

set_option maxRecDepth 8192 in
theorem w12_writes : (w12 : List (HloOp τ sig (Elt F))).Forall fun op => op.writes ⊆ (w12_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w12_keep (V : Valuation τ sig (Elt F)) (r : Ref sig .tc) (h : r ∉ w12_W) :
    after w12 V (Proc.devRef .tc r) = V (Proc.devRef .tc r) :=
  after_of_writes_sub w12 V w12_writes h

set_option maxRecDepth 8192 in
theorem w12_sub : (w12 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem w12_fresh : ∀ op ∈ (w12 : List (HloOp τ sig (Elt F))), op.fresh = ∅ := by
  intro _ h; (repeat (cases h with | head => rfl | tail _ h => ?_)); exact nomatch h

/-- Operations 178 … 197 of 212: layer 3's dense product, aggregation and bias (64 wide). -/
abbrev w13 : List (HloOp τ sig (Elt F)) :=
  [ StableHlo.binary main_v105 main_arg10 main_v106 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_21 (constantI S_ 32 0#32),
    StableHlo.unary main_c_21 main_v107 (broadcastInDim S850000 ![] bcast_S_S850000 : (⟨S_, .i32⟩ : BufTy).Contents (Elt F) → (⟨S850000, .i32⟩ : BufTy).Contents (Elt F)),
    StableHlo.binary main_v3 main_v107 main_v108 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32),
    StableHlo.unary main_c_22 main_v109 (broadcastInDim S850000 ![] bcast_S_S850000 : (⟨S_, .i32⟩ : BufTy).Contents (Elt F) → (⟨S850000, .i32⟩ : BufTy).Contents (Elt F)),
    StableHlo.binary main_v3 main_v109 main_v110 (addi : (⟨S850000, .i32⟩ : BufTy).Contents (Elt F) → (⟨S850000, .i32⟩ : BufTy).Contents (Elt F) → (⟨S850000, .i32⟩ : BufTy).Contents (Elt F)),
    StableHlo.ternary main_v108 main_v110 main_v3 main_v111 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v111 main_v112 (broadcastInDim S850000x1 ![0] bcast_S850000_S850000x1_0 : (⟨S850000, .i32⟩ : BufTy).Contents (Elt F) → (⟨S850000x1, .i32⟩ : BufTy).Contents (Elt F)),
    StableHlo.binary main_v106 main_v112 main_v113 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v31 main_v114 (broadcastInDim S850000x1 ![0] bcast_S850000_S850000x1_0 : (⟨S850000, .f32⟩ : BufTy).Contents (Elt F) → (⟨S850000x1, .f32⟩ : BufTy).Contents (Elt F)),
    StableHlo.unary main_v114 main_v115 (broadcastInDim S850000x64 ![0, 1] bcast_S850000x1_S850000x64_0_1 : (⟨S850000x1, .f32⟩ : BufTy).Contents (Elt F) → (⟨S850000x64, .f32⟩ : BufTy).Contents (Elt F)),
    StableHlo.binary main_v113 main_v115 main_v116 (mulf : (⟨S850000x64, .f32⟩ : BufTy).Contents (Elt F) → (⟨S850000x64, .f32⟩ : BufTy).Contents (Elt F) → (⟨S850000x64, .f32⟩ : BufTy).Contents (Elt F)),
    StableHlo.nullary main_cst_23 (constant S_ .f32 0x00000000#32),
    StableHlo.unary main_cst_23 main_v117 (broadcastInDim S50000x64 ![] bcast_S_S50000x64 : (⟨S_, .f32⟩ : BufTy).Contents (Elt F) → (⟨S50000x64, .f32⟩ : BufTy).Contents (Elt F)),
    StableHlo.unary main_v6 main_v118 (broadcastInDim S850000x1 ![0] bcast_S850000_S850000x1_0 : (⟨S850000, .i32⟩ : BufTy).Contents (Elt F) → (⟨S850000x1, .i32⟩ : BufTy).Contents (Elt F)),
    StableHlo.ternary main_v117 main_v118 main_v116 main_v119 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg11 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S50000x64 ![0, 1] bcast_S1x64_S50000x64_0_1 : (⟨S1x64, .f32⟩ : BufTy).Contents (Elt F) → (⟨S50000x64, .f32⟩ : BufTy).Contents (Elt F)),
    StableHlo.binary main_v119 main_v121 main_v122 (addf : (⟨S50000x64, .f32⟩ : BufTy).Contents (Elt F) → (⟨S50000x64, .f32⟩ : BufTy).Contents (Elt F) → (⟨S50000x64, .f32⟩ : BufTy).Contents (Elt F)) ]

/-- The buffers those operations write. -/
abbrev w13_W : List (Ref sig .tc) := [main_v106, main_c_21, main_v107, main_v108, main_c_22, main_v109, main_v110, main_v111, main_v112, main_v113, main_v114, main_v115, main_v116, main_cst_23, main_v117, main_v118, main_v119, main_v120, main_v121, main_v122]

set_option maxRecDepth 8192 in
theorem w13_writes : (w13 : List (HloOp τ sig (Elt F))).Forall fun op => op.writes ⊆ (w13_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w13_keep (V : Valuation τ sig (Elt F)) (r : Ref sig .tc) (h : r ∉ w13_W) :
    after w13 V (Proc.devRef .tc r) = V (Proc.devRef .tc r) :=
  after_of_writes_sub w13 V w13_writes h

set_option maxRecDepth 8192 in
theorem w13_sub : (w13 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
theorem w13_fresh : ∀ op ∈ (w13 : List (HloOp τ sig (Elt F))), op.fresh = ∅ := by
  intro _ h; (repeat (cases h with | head => rfl | tail _ h => ?_)); exact nomatch h

/-- Operations 198 … 212 of 212: the log-softmax along the features. -/
abbrev w14 : List (HloOp τ sig (Elt F)) :=
  [ StableHlo.TRef.nullary main_call5.cst (constant S_ .f32 0xFF800000#32),
    StableHlo.TRef.binary (.of main_v122 : StableHlo.TRef sig ⟨S50000x64, .f32⟩) main_call5.cst main_call5.v0 (fun x v => Host.reduce FloatOps.maximumf x v reducesTo_S50000x64_S50000_d1 h_S_),
    StableHlo.TRef.nullary main_call5.cst_0 (constant S_ .f32 0xFF800000#32),
    StableHlo.TRef.unary main_call5.cst_0 main_call5.v1 (broadcastInDim S50000 ![] bcast_S_S50000),
    StableHlo.TRef.binary main_call5.v1 main_call5.v0 main_call5.v2 maximumf,
    StableHlo.TRef.unary main_call5.v2 main_call5.v3 (broadcastInDim S50000x1 ![0] bcast_S50000_S50000x1_0),
    StableHlo.TRef.unary main_call5.v3 main_call5.v4 (broadcastInDim S50000x64 ![0, 1] bcast_S50000x1_S50000x64_0_1),
    StableHlo.TRef.binary (.of main_v122 : StableHlo.TRef sig ⟨S50000x64, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S50000x64_S50000_d1 h_S_),
    StableHlo.TRef.unary main_call5.v7 main_call5.v8 (broadcastInDim S50000x1 ![0] bcast_S50000_S50000x1_0),
    StableHlo.TRef.unary main_call5.v8 main_call5.v9 Host.log,
    StableHlo.TRef.unary main_call5.v9 main_call5.v10 (broadcastInDim S50000x64 ![0, 1] bcast_S50000x1_S50000x64_0_1),
    StableHlo.TRef.binary main_call5.v5 main_call5.v10 main_call5.v11 subf ]

/-- The buffers those operations write. -/
abbrev w14_W : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v123]

set_option maxRecDepth 8192 in
theorem w14_writes : (w14 : List (HloOp τ sig (Elt F))).Forall fun op => op.writes ⊆ (w14_W.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, quaternary_writes, reshape_writes,
      Finset.singleton_subset_iff, List.mem_toFinset]; exact List.mem_map_of_mem (by decide))

/-- A buffer those operations do not write keeps its contents through them. -/
theorem w14_keep (V : Valuation τ sig (Elt F)) (r : Ref sig .tc) (h : r ∉ w14_W) :
    after w14 V (Proc.devRef .tc r) = V (Proc.devRef .tc r) :=
  after_of_writes_sub w14 V w14_writes h

set_option maxRecDepth 8192 in
theorem w14_sub : (w14 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem w14_fresh : ∀ op ∈ (w14 : List (HloOp τ sig (Elt F))), op.fresh = ∅ := by
  intro _ h; (repeat (cases h with | head => rfl | tail _ h => ?_)); exact nomatch h

end Cert.ReferenceIdeal.RefValue

end
-- ==== Proof.RefRun.MainEq.lean ====
/- The reference's @main is the straight line of its operations: each of its three parts is the sequence of its
   stretches' operations (the module-local functions unfold at their calls), and @main runs the parts in turn. -/
import proofs.«111771_j80977313399687_1_alg».proof.Proof.RefRun.Ops

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of @main's first part. -/
def opsP0 : List (HloOp τ sig (Elt F)) := w1 ++ (w2 ++ (w3 ++ w4))
/-- The operations of @main's second part. -/
def opsP1 : List (HloOp τ sig (Elt F)) := w5 ++ (w6 ++ (w7 ++ (w8 ++ (w9 ++ (w10 ++ w11)))))
/-- The operations of @main's third part. -/
def opsP2 : List (HloOp τ sig (Elt F)) := w12 ++ (w13 ++ w14)
/-- @main's 212 operations, in order. -/
def ops : List (HloOp τ sig (Elt F)) := opsP0 ++ (opsP1 ++ opsP2)

set_option maxRecDepth 16384 in
set_option maxHeartbeats 4000000 in
theorem main_part0_eq (c : Dev nD) : main_part0 (F := F) c = seq opsP0 := rfl

set_option maxRecDepth 16384 in
set_option maxHeartbeats 4000000 in
theorem main_part1_eq (c : Dev nD) : main_part1 (F := F) c = seq opsP1 := rfl

set_option maxRecDepth 16384 in
set_option maxHeartbeats 4000000 in
theorem main_part2_eq (c : Dev nD) : main_part2 (F := F) c = seq opsP2 := rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- An operation of @main is an operation of one of the stretches. -/
theorem mem_ops {op : HloOp τ sig (Elt F)} (h : op ∈ (ops : List (HloOp τ sig (Elt F)))) :
    op ∈ (w1 : List (HloOp τ sig (Elt F))) ∨ op ∈ (w2 : List (HloOp τ sig (Elt F))) ∨ op ∈ (w3 : List (HloOp τ sig (Elt F))) ∨ op ∈ (w4 : List (HloOp τ sig (Elt F))) ∨ op ∈ (w5 : List (HloOp τ sig (Elt F))) ∨ op ∈ (w6 : List (HloOp τ sig (Elt F))) ∨ op ∈ (w7 : List (HloOp τ sig (Elt F))) ∨ op ∈ (w8 : List (HloOp τ sig (Elt F))) ∨ op ∈ (w9 : List (HloOp τ sig (Elt F))) ∨ op ∈ (w10 : List (HloOp τ sig (Elt F))) ∨ op ∈ (w11 : List (HloOp τ sig (Elt F))) ∨ op ∈ (w12 : List (HloOp τ sig (Elt F))) ∨ op ∈ (w13 : List (HloOp τ sig (Elt F))) ∨ op ∈ (w14 : List (HloOp τ sig (Elt F))) := by
  simp only [ops, opsP0, opsP1, opsP2, List.mem_append, or_assoc] at h
  exact h

theorem ops_sub : (ops : List (HloOp τ sig (Elt F))).Forall fun op => op.bufs ⊆ tcRefs τ sig :=
  List.forall_iff_forall_mem.mpr fun op h => by
    rcases mem_ops h with h | h | h | h | h | h | h | h | h | h | h | h | h | h
    exacts [List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h]

theorem ops_fresh : ∀ op ∈ (ops : List (HloOp τ sig (Elt F))), op.fresh = ∅ := fun op h => by
  rcases mem_ops h with h | h | h | h | h | h | h | h | h | h | h | h | h | h
  exacts [w1_fresh op h, w2_fresh op h, w3_fresh op h, w4_fresh op h, w5_fresh op h, w6_fresh op h, w7_fresh op h, w8_fresh op h, w9_fresh op h, w10_fresh op h, w11_fresh op h, w12_fresh op h, w13_fresh op h, w14_fresh op h]

/-- The contents after all of @main's operations: the stretches' in turn. -/
theorem after_ops (V : Valuation τ sig (Elt F)) :
    after ops V = after w14 (after w13 (after w12 (after w11 (after w10 (after w9 (after w8 (after w7 (after w6 (after w5 (after w4 (after w3 (after w2 (after w1 V))))))))))))) := by
  simp only [ops, opsP0, opsP1, opsP2, after_app]

end Cert.ReferenceIdeal.RefValue

end
-- ==== Proof.RefRun.W1.lean ====
/- What one stretch of the reference's operations computes, from any buffer contents: the two index vectors: the edge table's rows, each followed by the self-loops.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w1_main_v3 (V : Valuation τ sig (Elt F)) : after w1 V (Proc.devRef .tc main_v3) = src (V (Proc.devRef .tc main_arg1)) := by
  simp only [w1]
  after_results_simp <;> rfl

attribute [local irreducible] Host.reduce Host.reduceAdd Host.gather Host.scatterAdd in
set_option maxRecDepth 8192 in
set_option maxHeartbeats 2000000 in
theorem w1_main_v6 (V : Valuation τ sig (Elt F)) : after w1 V (Proc.devRef .tc main_v6) = dst (V (Proc.devRef .tc main_arg1)) := by
  simp only [w1]
  after_results_simp <;> rfl

end Cert.ReferenceIdeal.RefValue

end
-- ==== Proof.RefRun.W2.lean ====
/- What one stretch of the reference's operations computes, from any buffer contents: the degrees (a scatter-add of ones at the targets) and their inverse square roots where positive.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w2_main_v16 (V : Valuation τ sig (Elt F)) : after w2 V (Proc.devRef .tc main_v16) = dis (deg (V (Proc.devRef .tc main_v6))) := by
  simp only [w2]
  after_results_simp <;> rfl

end Cert.ReferenceIdeal.RefValue

end
-- ==== Proof.RefRun.W3.lean ====
/- What one stretch of the reference's operations computes, from any buffer contents: the edge weights: the per-node factor gathered at the sources and at the targets, multiplied.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w3_main_v31 (V : Valuation τ sig (Elt F)) : after w3 V (Proc.devRef .tc main_v31) = normFrom (V (Proc.devRef .tc main_v16)) (V (Proc.devRef .tc main_v3)) (V (Proc.devRef .tc main_v6)) := by
  simp only [w3]
  after_results_simp <;> rfl

end Cert.ReferenceIdeal.RefValue

end
-- ==== Proof.RefRun.W4.lean ====
/- What one stretch of the reference's operations computes, from any buffer contents: layer 1's dense product, its rows gathered at the sources, weighted, scatter-added at the targets; the bias as rows.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w4_main_v45 (V : Valuation τ sig (Elt F)) : after w4 V (Proc.devRef .tc main_v45) = aggregate128 (V (Proc.devRef .tc main_v3)) (V (Proc.devRef .tc main_v6)) (V (Proc.devRef .tc main_v31)) (linear128 (V (Proc.devRef .tc main_arg0)) (V (Proc.devRef .tc main_arg2))) := by
  simp only [w4]
  after_results_simp <;> rfl

attribute [local irreducible] Host.reduce Host.reduceAdd Host.gather Host.scatterAdd in
set_option maxRecDepth 8192 in
set_option maxHeartbeats 2000000 in
theorem w4_main_v47 (V : Valuation τ sig (Elt F)) : after w4 V (Proc.devRef .tc main_v47) = rows128 (V (Proc.devRef .tc main_arg3)) := by
  simp only [w4]
  after_results_simp <;> rfl

end Cert.ReferenceIdeal.RefValue

end
-- ==== Proof.RefRun.W5.lean ====
/- What one stretch of the reference's operations computes, from any buffer contents: layer 1's bias added; the column means.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w5_main_v48 (V : Valuation τ sig (Elt F)) : after w5 V (Proc.devRef .tc main_v48) = addf (V (Proc.devRef .tc main_v45)) (V (Proc.devRef .tc main_v47)) := by
  simp only [w5]
  after_results_simp <;> rfl

attribute [local irreducible] Host.reduce Host.reduceAdd Host.gather Host.scatterAdd in
set_option maxRecDepth 8192 in
set_option maxHeartbeats 2000000 in
theorem w5_main_v51 (V : Valuation τ sig (Elt F)) : after w5 V (Proc.devRef .tc main_v51) = colMean (addf (V (Proc.devRef .tc main_v45)) (V (Proc.devRef .tc main_v47))) := by
  simp only [w5]
  after_results_simp <;> rfl

end Cert.ReferenceIdeal.RefValue

end
-- ==== Proof.RefRun.W6.lean ====
/- What one stretch of the reference's operations computes, from any buffer contents: layer 1's column variances (the variance function's operations, the correction 0).
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w6_main_v52 (V : Valuation τ sig (Elt F)) : after w6 V (Proc.devRef .tc main_v52) = colVar (V (Proc.devRef .tc main_v48)) := by
  simp only [w6]
  after_results_simp <;> rfl

end Cert.ReferenceIdeal.RefValue

end
-- ==== Proof.RefRun.W7.lean ====
/- What one stretch of the reference's operations computes, from any buffer contents: layer 1's normalisation, scale, shift and rectification.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w7_main_v68 (V : Valuation τ sig (Elt F)) : after w7 V (Proc.devRef .tc main_v68) = bnRelu (V (Proc.devRef .tc main_v48)) (V (Proc.devRef .tc main_v51)) (V (Proc.devRef .tc main_v52)) (V (Proc.devRef .tc main_arg4)) (V (Proc.devRef .tc main_arg5)) := by
  simp only [w7]
  after_results_simp <;> rfl

end Cert.ReferenceIdeal.RefValue

end
-- ==== Proof.RefRun.W8.lean ====
/- What one stretch of the reference's operations computes, from any buffer contents: layer 2's dense product, aggregation and bias.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w8_main_v85 (V : Valuation τ sig (Elt F)) : after w8 V (Proc.devRef .tc main_v85) = addBias128 (aggregate128 (V (Proc.devRef .tc main_v3)) (V (Proc.devRef .tc main_v6)) (V (Proc.devRef .tc main_v31)) (linear128 (V (Proc.devRef .tc main_v68)) (V (Proc.devRef .tc main_arg6)))) (V (Proc.devRef .tc main_arg7)) := by
  simp only [w8]
  after_results_simp <;> rfl

end Cert.ReferenceIdeal.RefValue

end
-- ==== Proof.RefRun.W9.lean ====
/- What one stretch of the reference's operations computes, from any buffer contents: layer 2's column means.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w9_main_v88 (V : Valuation τ sig (Elt F)) : after w9 V (Proc.devRef .tc main_v88) = colMean (V (Proc.devRef .tc main_v85)) := by
  simp only [w9]
  after_results_simp <;> rfl

end Cert.ReferenceIdeal.RefValue

end
-- ==== Proof.RefRun.W10.lean ====
/- What one stretch of the reference's operations computes, from any buffer contents: layer 2's column variances.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w10_main_v89 (V : Valuation τ sig (Elt F)) : after w10 V (Proc.devRef .tc main_v89) = colVar (V (Proc.devRef .tc main_v85)) := by
  simp only [w10]
  after_results_simp <;> rfl

end Cert.ReferenceIdeal.RefValue

end
-- ==== Proof.RefRun.W11.lean ====
/- What one stretch of the reference's operations computes, from any buffer contents: layer 2's centered rows scaled; the epsilon on every column.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w11_main_v95 (V : Valuation τ sig (Elt F)) : after w11 V (Proc.devRef .tc main_v95) = scaled (V (Proc.devRef .tc main_v85)) (V (Proc.devRef .tc main_v88)) (V (Proc.devRef .tc main_arg8)) := by
  simp only [w11]
  after_results_simp <;> rfl

attribute [local irreducible] Host.reduce Host.reduceAdd Host.gather Host.scatterAdd in
set_option maxRecDepth 8192 in
set_option maxHeartbeats 2000000 in
theorem w11_main_v96 (V : Valuation τ sig (Elt F)) : after w11 V (Proc.devRef .tc main_v96) = epsVec := by
  simp only [w11]
  after_results_simp <;> rfl

end Cert.ReferenceIdeal.RefValue

end
-- ==== Proof.RefRun.W12.lean ====
/- What one stretch of the reference's operations computes, from any buffer contents: layer 2's normalisation by the variance, shift and rectification.
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w12_main_v105 (V : Valuation τ sig (Elt F)) : after w12 V (Proc.devRef .tc main_v105) = bnReluFrom (V (Proc.devRef .tc main_v95)) (V (Proc.devRef .tc main_v96)) (V (Proc.devRef .tc main_v89)) (V (Proc.devRef .tc main_arg9)) := by
  simp only [w12]
  after_results_simp <;> rfl

end Cert.ReferenceIdeal.RefValue

end
-- ==== Proof.RefRun.W13.lean ====
/- What one stretch of the reference's operations computes, from any buffer contents: layer 3's dense product, aggregation and bias (64 wide).
   The fold over the stretch is unrolled, each operation's result read at the buffer it writes, and what is left is
   the stage's definition unfolded. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 2000000 in
theorem w13_main_v122 (V : Valuation τ sig (Elt F)) : after w13 V (Proc.devRef .tc main_v122) = addBias64 (aggregate64 (V (Proc.devRef .tc main_v3)) (V (Proc.devRef .tc main_v6)) (V (Proc.devRef .tc main_v31)) (linear64 (V (Proc.devRef .tc main_v105)) (V (Proc.devRef .tc main_arg10)))) (V (Proc.devRef .tc main_arg11)) := by
  simp only [w13]
  after_results_simp <;> rfl

end Cert.ReferenceIdeal.RefValue

end
-- ==== Proof.RefRun.W14.lean ====
/- What one stretch of the reference's operations computes, from any buffer contents: the log-softmax along the features.
   The stretch is read in four pieces — the row maxima's fold, the `-∞` it is compared with, the rows less their
   maxima, the logarithm of the summed exponentials subtracted — and the pieces composed. -/
import proofs.«111771_j80977313399687_1_alg».proof.Proof.RefRun.Ops
import proofs.«111771_j80977313399687_1_alg».proof.Proof.RefRun.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The row maxima's fold. -/
abbrev w14a : List (HloOp τ sig (Elt F)) :=
  [ StableHlo.TRef.nullary main_call5.cst (constant S_ .f32 0xFF800000#32),
    StableHlo.TRef.binary (.of main_v122 : StableHlo.TRef sig ⟨S50000x64, .f32⟩) main_call5.cst main_call5.v0 (fun x v => Host.reduce FloatOps.maximumf x v reducesTo_S50000x64_S50000_d1 h_S_) ]
/-- The `-∞` on every row. -/
abbrev w14b : List (HloOp τ sig (Elt F)) :=
  [ StableHlo.TRef.nullary main_call5.cst_0 (constant S_ .f32 0xFF800000#32),
    StableHlo.TRef.unary main_call5.cst_0 main_call5.v1 (broadcastInDim S50000 ![] bcast_S_S50000) ]
/-- The rows less their maxima. -/
abbrev w14c : List (HloOp τ sig (Elt F)) :=
  [ StableHlo.TRef.binary main_call5.v1 main_call5.v0 main_call5.v2 maximumf,
    StableHlo.TRef.unary main_call5.v2 main_call5.v3 (broadcastInDim S50000x1 ![0] bcast_S50000_S50000x1_0),
    StableHlo.TRef.unary main_call5.v3 main_call5.v4 (broadcastInDim S50000x64 ![0, 1] bcast_S50000x1_S50000x64_0_1),
    StableHlo.TRef.binary (.of main_v122 : StableHlo.TRef sig ⟨S50000x64, .f32⟩) main_call5.v4 main_call5.v5 subf ]
/-- The logarithm of each row's summed exponentials, subtracted. -/
abbrev w14d : List (HloOp τ sig (Elt F)) :=
  [ StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S50000x64_S50000_d1 h_S_),
    StableHlo.TRef.unary main_call5.v7 main_call5.v8 (broadcastInDim S50000x1 ![0] bcast_S50000_S50000x1_0),
    StableHlo.TRef.unary main_call5.v8 main_call5.v9 Host.log,
    StableHlo.TRef.unary main_call5.v9 main_call5.v10 (broadcastInDim S50000x64 ![0, 1] bcast_S50000x1_S50000x64_0_1),
    StableHlo.TRef.binary main_call5.v5 main_call5.v10 main_call5.v11 subf ]

theorem w14_split : (w14 : List (HloOp τ sig (Elt F))) = w14a ++ (w14b ++ (w14c ++ w14d)) := rfl

attribute [local irreducible] Host.reduce Host.reduceAdd Host.gather Host.scatterAdd in
set_option maxRecDepth 8192 in
set_option maxHeartbeats 2000000 in
theorem w14a_v0 (V : Valuation τ sig (Elt F)) : after w14a V (Proc.devRef .tc main_call5_v0) = Host.reduce FloatOps.maximumf (V (Proc.devRef .tc main_v122)) (constant S_ .f32 0xFF800000#32) reducesTo_S50000x64_S50000_d1 h_S_ := by
  simp only [w14a]
  after_results_simp <;> rfl

attribute [local irreducible] Host.reduce Host.reduceAdd Host.gather Host.scatterAdd in
set_option maxRecDepth 8192 in
set_option maxHeartbeats 2000000 in
theorem w14a_v122 (V : Valuation τ sig (Elt F)) : after w14a V (Proc.devRef .tc main_v122) = (V (Proc.devRef .tc main_v122)) := by
  simp only [w14a]
  after_results_simp

attribute [local irreducible] Host.reduce Host.reduceAdd Host.gather Host.scatterAdd in
set_option maxRecDepth 8192 in
set_option maxHeartbeats 2000000 in
theorem w14b_v1 (V : Valuation τ sig (Elt F)) : after w14b V (Proc.devRef .tc main_call5_v1) = broadcastInDim S50000 ![] bcast_S_S50000 (constant S_ .f32 0xFF800000#32) := by
  simp only [w14b]
  after_results_simp <;> rfl

attribute [local irreducible] Host.reduce Host.reduceAdd Host.gather Host.scatterAdd in
set_option maxRecDepth 8192 in
set_option maxHeartbeats 2000000 in
theorem w14b_v0 (V : Valuation τ sig (Elt F)) : after w14b V (Proc.devRef .tc main_call5_v0) = (V (Proc.devRef .tc main_call5_v0)) := by
  simp only [w14b]
  after_results_simp

attribute [local irreducible] Host.reduce Host.reduceAdd Host.gather Host.scatterAdd in
set_option maxRecDepth 8192 in
set_option maxHeartbeats 2000000 in
theorem w14b_v122 (V : Valuation τ sig (Elt F)) : after w14b V (Proc.devRef .tc main_v122) = (V (Proc.devRef .tc main_v122)) := by
  simp only [w14b]
  after_results_simp

attribute [local irreducible] Host.reduce Host.reduceAdd Host.gather Host.scatterAdd in
set_option maxRecDepth 8192 in
set_option maxHeartbeats 2000000 in
theorem w14c_v5 (V : Valuation τ sig (Elt F)) : after w14c V (Proc.devRef .tc main_call5_v5) = subf (V (Proc.devRef .tc main_v122)) (broadcastInDim S50000x64 ![0, 1] bcast_S50000x1_S50000x64_0_1 (broadcastInDim S50000x1 ![0] bcast_S50000_S50000x1_0 (maximumf (V (Proc.devRef .tc main_call5_v1)) (V (Proc.devRef .tc main_call5_v0))))) := by
  simp only [w14c]
  after_results_simp <;> rfl

attribute [local irreducible] Host.reduce Host.reduceAdd Host.gather Host.scatterAdd in
set_option maxRecDepth 8192 in
set_option maxHeartbeats 2000000 in
theorem w14d_v123 (V : Valuation τ sig (Elt F)) : after w14d V (Proc.devRef .tc main_v123) = subf (V (Proc.devRef .tc main_call5_v5)) (broadcastInDim S50000x64 ![0, 1] bcast_S50000x1_S50000x64_0_1 (Host.log (broadcastInDim S50000x1 ![0] bcast_S50000_S50000x1_0 (Host.reduceAdd (Host.exp (V (Proc.devRef .tc main_call5_v5))) (constant S_ .f32 0x00000000#32) reducesTo_S50000x64_S50000_d1 h_S_)))) := by
  simp only [w14d]
  after_results_simp <;> rfl

attribute [local irreducible] Host.reduce Host.reduceAdd Host.gather Host.scatterAdd in
theorem w14_main_v123 (V : Valuation τ sig (Elt F)) : after w14 V (Proc.devRef .tc main_v123) = logSoftmax (V (Proc.devRef .tc main_v122)) := by
  rw [w14_split, after_app, after_app, after_app, w14d_v123, w14c_v5, w14b_v1, w14b_v0, w14b_v122, w14a_v0, w14a_v122]
  rfl

end Cert.ReferenceIdeal.RefValue

end
-- ==== Proof.RefRun.lean ====
/- The reference's run, read back stage by stage: every weakly fair execution of @main terminates with the result
   buffer at the composition of the reference's stages (the index vectors, the degree normalisation, three graph
   convolutions with batch normalisation and rectification between them, the log-softmax) applied to the
   arguments' launch contents, and the arguments unchanged. The buffer contents are followed stretch by stretch:
   after each stretch, every buffer still needed is at its stage's value of the arguments. -/
import proofs.«111771_j80977313399687_1_alg».proof.Defs
import proofs.«111771_j80977313399687_1_alg».proof.Proof.Gen.Pre_finite_inputs
import proofs.«111771_j80977313399687_1_alg».proof.Proof.RefRun.Stages
import proofs.«111771_j80977313399687_1_alg».proof.Proof.RefRun.Ops
import proofs.«111771_j80977313399687_1_alg».proof.Proof.RefRun.MainEq
import proofs.«111771_j80977313399687_1_alg».proof.Proof.RefRun.W1
import proofs.«111771_j80977313399687_1_alg».proof.Proof.RefRun.W2
import proofs.«111771_j80977313399687_1_alg».proof.Proof.RefRun.W3
import proofs.«111771_j80977313399687_1_alg».proof.Proof.RefRun.W4
import proofs.«111771_j80977313399687_1_alg».proof.Proof.RefRun.W5
import proofs.«111771_j80977313399687_1_alg».proof.Proof.RefRun.W6
import proofs.«111771_j80977313399687_1_alg».proof.Proof.RefRun.W7
import proofs.«111771_j80977313399687_1_alg».proof.Proof.RefRun.W8
import proofs.«111771_j80977313399687_1_alg».proof.Proof.RefRun.W9
import proofs.«111771_j80977313399687_1_alg».proof.Proof.RefRun.W10
import proofs.«111771_j80977313399687_1_alg».proof.Proof.RefRun.W11
import proofs.«111771_j80977313399687_1_alg».proof.Proof.RefRun.W12
import proofs.«111771_j80977313399687_1_alg».proof.Proof.RefRun.W13
import proofs.«111771_j80977313399687_1_alg».proof.Proof.RefRun.W14

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffer contents before the first stretch. -/
def val0 (V0 : Valuation τ sig (Elt F)) : Valuation τ sig (Elt F) := V0
theorem val0_main_arg0 (V0 : Valuation τ sig (Elt F)) : val0 V0 (Proc.devRef .tc main_arg0) = (V0 (Proc.devRef .tc main_arg0)) := rfl
theorem val0_main_arg1 (V0 : Valuation τ sig (Elt F)) : val0 V0 (Proc.devRef .tc main_arg1) = (V0 (Proc.devRef .tc main_arg1)) := rfl
theorem val0_main_arg2 (V0 : Valuation τ sig (Elt F)) : val0 V0 (Proc.devRef .tc main_arg2) = (V0 (Proc.devRef .tc main_arg2)) := rfl
theorem val0_main_arg3 (V0 : Valuation τ sig (Elt F)) : val0 V0 (Proc.devRef .tc main_arg3) = (V0 (Proc.devRef .tc main_arg3)) := rfl
theorem val0_main_arg4 (V0 : Valuation τ sig (Elt F)) : val0 V0 (Proc.devRef .tc main_arg4) = (V0 (Proc.devRef .tc main_arg4)) := rfl
theorem val0_main_arg5 (V0 : Valuation τ sig (Elt F)) : val0 V0 (Proc.devRef .tc main_arg5) = (V0 (Proc.devRef .tc main_arg5)) := rfl
theorem val0_main_arg6 (V0 : Valuation τ sig (Elt F)) : val0 V0 (Proc.devRef .tc main_arg6) = (V0 (Proc.devRef .tc main_arg6)) := rfl
theorem val0_main_arg7 (V0 : Valuation τ sig (Elt F)) : val0 V0 (Proc.devRef .tc main_arg7) = (V0 (Proc.devRef .tc main_arg7)) := rfl
theorem val0_main_arg8 (V0 : Valuation τ sig (Elt F)) : val0 V0 (Proc.devRef .tc main_arg8) = (V0 (Proc.devRef .tc main_arg8)) := rfl
theorem val0_main_arg9 (V0 : Valuation τ sig (Elt F)) : val0 V0 (Proc.devRef .tc main_arg9) = (V0 (Proc.devRef .tc main_arg9)) := rfl
theorem val0_main_arg10 (V0 : Valuation τ sig (Elt F)) : val0 V0 (Proc.devRef .tc main_arg10) = (V0 (Proc.devRef .tc main_arg10)) := rfl
theorem val0_main_arg11 (V0 : Valuation τ sig (Elt F)) : val0 V0 (Proc.devRef .tc main_arg11) = (V0 (Proc.devRef .tc main_arg11)) := rfl

/-- The buffer contents after the first 1 stretch. -/
def val1 (V0 : Valuation τ sig (Elt F)) : Valuation τ sig (Elt F) := after w1 (val0 V0)
theorem val1_main_v3 (V0 : Valuation τ sig (Elt F)) : val1 V0 (Proc.devRef .tc main_v3) = src (V0 (Proc.devRef .tc main_arg1)) :=
  (w1_main_v3 (val0 V0)).trans (by rw [val0_main_arg1 V0] <;> rfl)
theorem val1_main_v6 (V0 : Valuation τ sig (Elt F)) : val1 V0 (Proc.devRef .tc main_v6) = dst (V0 (Proc.devRef .tc main_arg1)) :=
  (w1_main_v6 (val0 V0)).trans (by rw [val0_main_arg1 V0] <;> rfl)
theorem val1_main_arg0 (V0 : Valuation τ sig (Elt F)) : val1 V0 (Proc.devRef .tc main_arg0) = (V0 (Proc.devRef .tc main_arg0)) :=
  (w1_keep (val0 V0) main_arg0 (by decide)).trans (val0_main_arg0 V0)
theorem val1_main_arg1 (V0 : Valuation τ sig (Elt F)) : val1 V0 (Proc.devRef .tc main_arg1) = (V0 (Proc.devRef .tc main_arg1)) :=
  (w1_keep (val0 V0) main_arg1 (by decide)).trans (val0_main_arg1 V0)
theorem val1_main_arg2 (V0 : Valuation τ sig (Elt F)) : val1 V0 (Proc.devRef .tc main_arg2) = (V0 (Proc.devRef .tc main_arg2)) :=
  (w1_keep (val0 V0) main_arg2 (by decide)).trans (val0_main_arg2 V0)
theorem val1_main_arg3 (V0 : Valuation τ sig (Elt F)) : val1 V0 (Proc.devRef .tc main_arg3) = (V0 (Proc.devRef .tc main_arg3)) :=
  (w1_keep (val0 V0) main_arg3 (by decide)).trans (val0_main_arg3 V0)
theorem val1_main_arg4 (V0 : Valuation τ sig (Elt F)) : val1 V0 (Proc.devRef .tc main_arg4) = (V0 (Proc.devRef .tc main_arg4)) :=
  (w1_keep (val0 V0) main_arg4 (by decide)).trans (val0_main_arg4 V0)
theorem val1_main_arg5 (V0 : Valuation τ sig (Elt F)) : val1 V0 (Proc.devRef .tc main_arg5) = (V0 (Proc.devRef .tc main_arg5)) :=
  (w1_keep (val0 V0) main_arg5 (by decide)).trans (val0_main_arg5 V0)
theorem val1_main_arg6 (V0 : Valuation τ sig (Elt F)) : val1 V0 (Proc.devRef .tc main_arg6) = (V0 (Proc.devRef .tc main_arg6)) :=
  (w1_keep (val0 V0) main_arg6 (by decide)).trans (val0_main_arg6 V0)
theorem val1_main_arg7 (V0 : Valuation τ sig (Elt F)) : val1 V0 (Proc.devRef .tc main_arg7) = (V0 (Proc.devRef .tc main_arg7)) :=
  (w1_keep (val0 V0) main_arg7 (by decide)).trans (val0_main_arg7 V0)
theorem val1_main_arg8 (V0 : Valuation τ sig (Elt F)) : val1 V0 (Proc.devRef .tc main_arg8) = (V0 (Proc.devRef .tc main_arg8)) :=
  (w1_keep (val0 V0) main_arg8 (by decide)).trans (val0_main_arg8 V0)
theorem val1_main_arg9 (V0 : Valuation τ sig (Elt F)) : val1 V0 (Proc.devRef .tc main_arg9) = (V0 (Proc.devRef .tc main_arg9)) :=
  (w1_keep (val0 V0) main_arg9 (by decide)).trans (val0_main_arg9 V0)
theorem val1_main_arg10 (V0 : Valuation τ sig (Elt F)) : val1 V0 (Proc.devRef .tc main_arg10) = (V0 (Proc.devRef .tc main_arg10)) :=
  (w1_keep (val0 V0) main_arg10 (by decide)).trans (val0_main_arg10 V0)
theorem val1_main_arg11 (V0 : Valuation τ sig (Elt F)) : val1 V0 (Proc.devRef .tc main_arg11) = (V0 (Proc.devRef .tc main_arg11)) :=
  (w1_keep (val0 V0) main_arg11 (by decide)).trans (val0_main_arg11 V0)

/-- The buffer contents after the first 2 stretches. -/
def val2 (V0 : Valuation τ sig (Elt F)) : Valuation τ sig (Elt F) := after w2 (val1 V0)
theorem val2_main_v3 (V0 : Valuation τ sig (Elt F)) : val2 V0 (Proc.devRef .tc main_v3) = src (V0 (Proc.devRef .tc main_arg1)) :=
  (w2_keep (val1 V0) main_v3 (by decide)).trans (val1_main_v3 V0)
theorem val2_main_v6 (V0 : Valuation τ sig (Elt F)) : val2 V0 (Proc.devRef .tc main_v6) = dst (V0 (Proc.devRef .tc main_arg1)) :=
  (w2_keep (val1 V0) main_v6 (by decide)).trans (val1_main_v6 V0)
theorem val2_main_v16 (V0 : Valuation τ sig (Elt F)) : val2 V0 (Proc.devRef .tc main_v16) = dis (deg (dst (V0 (Proc.devRef .tc main_arg1)))) :=
  (w2_main_v16 (val1 V0)).trans (by rw [val1_main_v6 V0] <;> rfl)
theorem val2_main_arg0 (V0 : Valuation τ sig (Elt F)) : val2 V0 (Proc.devRef .tc main_arg0) = (V0 (Proc.devRef .tc main_arg0)) :=
  (w2_keep (val1 V0) main_arg0 (by decide)).trans (val1_main_arg0 V0)
theorem val2_main_arg1 (V0 : Valuation τ sig (Elt F)) : val2 V0 (Proc.devRef .tc main_arg1) = (V0 (Proc.devRef .tc main_arg1)) :=
  (w2_keep (val1 V0) main_arg1 (by decide)).trans (val1_main_arg1 V0)
theorem val2_main_arg2 (V0 : Valuation τ sig (Elt F)) : val2 V0 (Proc.devRef .tc main_arg2) = (V0 (Proc.devRef .tc main_arg2)) :=
  (w2_keep (val1 V0) main_arg2 (by decide)).trans (val1_main_arg2 V0)
theorem val2_main_arg3 (V0 : Valuation τ sig (Elt F)) : val2 V0 (Proc.devRef .tc main_arg3) = (V0 (Proc.devRef .tc main_arg3)) :=
  (w2_keep (val1 V0) main_arg3 (by decide)).trans (val1_main_arg3 V0)
theorem val2_main_arg4 (V0 : Valuation τ sig (Elt F)) : val2 V0 (Proc.devRef .tc main_arg4) = (V0 (Proc.devRef .tc main_arg4)) :=
  (w2_keep (val1 V0) main_arg4 (by decide)).trans (val1_main_arg4 V0)
theorem val2_main_arg5 (V0 : Valuation τ sig (Elt F)) : val2 V0 (Proc.devRef .tc main_arg5) = (V0 (Proc.devRef .tc main_arg5)) :=
  (w2_keep (val1 V0) main_arg5 (by decide)).trans (val1_main_arg5 V0)
theorem val2_main_arg6 (V0 : Valuation τ sig (Elt F)) : val2 V0 (Proc.devRef .tc main_arg6) = (V0 (Proc.devRef .tc main_arg6)) :=
  (w2_keep (val1 V0) main_arg6 (by decide)).trans (val1_main_arg6 V0)
theorem val2_main_arg7 (V0 : Valuation τ sig (Elt F)) : val2 V0 (Proc.devRef .tc main_arg7) = (V0 (Proc.devRef .tc main_arg7)) :=
  (w2_keep (val1 V0) main_arg7 (by decide)).trans (val1_main_arg7 V0)
theorem val2_main_arg8 (V0 : Valuation τ sig (Elt F)) : val2 V0 (Proc.devRef .tc main_arg8) = (V0 (Proc.devRef .tc main_arg8)) :=
  (w2_keep (val1 V0) main_arg8 (by decide)).trans (val1_main_arg8 V0)
theorem val2_main_arg9 (V0 : Valuation τ sig (Elt F)) : val2 V0 (Proc.devRef .tc main_arg9) = (V0 (Proc.devRef .tc main_arg9)) :=
  (w2_keep (val1 V0) main_arg9 (by decide)).trans (val1_main_arg9 V0)
theorem val2_main_arg10 (V0 : Valuation τ sig (Elt F)) : val2 V0 (Proc.devRef .tc main_arg10) = (V0 (Proc.devRef .tc main_arg10)) :=
  (w2_keep (val1 V0) main_arg10 (by decide)).trans (val1_main_arg10 V0)
theorem val2_main_arg11 (V0 : Valuation τ sig (Elt F)) : val2 V0 (Proc.devRef .tc main_arg11) = (V0 (Proc.devRef .tc main_arg11)) :=
  (w2_keep (val1 V0) main_arg11 (by decide)).trans (val1_main_arg11 V0)

/-- The buffer contents after the first 3 stretches. -/
def val3 (V0 : Valuation τ sig (Elt F)) : Valuation τ sig (Elt F) := after w3 (val2 V0)
theorem val3_main_v3 (V0 : Valuation τ sig (Elt F)) : val3 V0 (Proc.devRef .tc main_v3) = src (V0 (Proc.devRef .tc main_arg1)) :=
  (w3_keep (val2 V0) main_v3 (by decide)).trans (val2_main_v3 V0)
theorem val3_main_v6 (V0 : Valuation τ sig (Elt F)) : val3 V0 (Proc.devRef .tc main_v6) = dst (V0 (Proc.devRef .tc main_arg1)) :=
  (w3_keep (val2 V0) main_v6 (by decide)).trans (val2_main_v6 V0)
theorem val3_main_v31 (V0 : Valuation τ sig (Elt F)) : val3 V0 (Proc.devRef .tc main_v31) = norm (src (V0 (Proc.devRef .tc main_arg1))) (dst (V0 (Proc.devRef .tc main_arg1))) :=
  (w3_main_v31 (val2 V0)).trans (by rw [val2_main_v16 V0, val2_main_v3 V0, val2_main_v6 V0] <;> rfl)
theorem val3_main_arg0 (V0 : Valuation τ sig (Elt F)) : val3 V0 (Proc.devRef .tc main_arg0) = (V0 (Proc.devRef .tc main_arg0)) :=
  (w3_keep (val2 V0) main_arg0 (by decide)).trans (val2_main_arg0 V0)
theorem val3_main_arg1 (V0 : Valuation τ sig (Elt F)) : val3 V0 (Proc.devRef .tc main_arg1) = (V0 (Proc.devRef .tc main_arg1)) :=
  (w3_keep (val2 V0) main_arg1 (by decide)).trans (val2_main_arg1 V0)
theorem val3_main_arg2 (V0 : Valuation τ sig (Elt F)) : val3 V0 (Proc.devRef .tc main_arg2) = (V0 (Proc.devRef .tc main_arg2)) :=
  (w3_keep (val2 V0) main_arg2 (by decide)).trans (val2_main_arg2 V0)
theorem val3_main_arg3 (V0 : Valuation τ sig (Elt F)) : val3 V0 (Proc.devRef .tc main_arg3) = (V0 (Proc.devRef .tc main_arg3)) :=
  (w3_keep (val2 V0) main_arg3 (by decide)).trans (val2_main_arg3 V0)
theorem val3_main_arg4 (V0 : Valuation τ sig (Elt F)) : val3 V0 (Proc.devRef .tc main_arg4) = (V0 (Proc.devRef .tc main_arg4)) :=
  (w3_keep (val2 V0) main_arg4 (by decide)).trans (val2_main_arg4 V0)
theorem val3_main_arg5 (V0 : Valuation τ sig (Elt F)) : val3 V0 (Proc.devRef .tc main_arg5) = (V0 (Proc.devRef .tc main_arg5)) :=
  (w3_keep (val2 V0) main_arg5 (by decide)).trans (val2_main_arg5 V0)
theorem val3_main_arg6 (V0 : Valuation τ sig (Elt F)) : val3 V0 (Proc.devRef .tc main_arg6) = (V0 (Proc.devRef .tc main_arg6)) :=
  (w3_keep (val2 V0) main_arg6 (by decide)).trans (val2_main_arg6 V0)
theorem val3_main_arg7 (V0 : Valuation τ sig (Elt F)) : val3 V0 (Proc.devRef .tc main_arg7) = (V0 (Proc.devRef .tc main_arg7)) :=
  (w3_keep (val2 V0) main_arg7 (by decide)).trans (val2_main_arg7 V0)
theorem val3_main_arg8 (V0 : Valuation τ sig (Elt F)) : val3 V0 (Proc.devRef .tc main_arg8) = (V0 (Proc.devRef .tc main_arg8)) :=
  (w3_keep (val2 V0) main_arg8 (by decide)).trans (val2_main_arg8 V0)
theorem val3_main_arg9 (V0 : Valuation τ sig (Elt F)) : val3 V0 (Proc.devRef .tc main_arg9) = (V0 (Proc.devRef .tc main_arg9)) :=
  (w3_keep (val2 V0) main_arg9 (by decide)).trans (val2_main_arg9 V0)
theorem val3_main_arg10 (V0 : Valuation τ sig (Elt F)) : val3 V0 (Proc.devRef .tc main_arg10) = (V0 (Proc.devRef .tc main_arg10)) :=
  (w3_keep (val2 V0) main_arg10 (by decide)).trans (val2_main_arg10 V0)
theorem val3_main_arg11 (V0 : Valuation τ sig (Elt F)) : val3 V0 (Proc.devRef .tc main_arg11) = (V0 (Proc.devRef .tc main_arg11)) :=
  (w3_keep (val2 V0) main_arg11 (by decide)).trans (val2_main_arg11 V0)

/-- The buffer contents after the first 4 stretches. -/
def val4 (V0 : Valuation τ sig (Elt F)) : Valuation τ sig (Elt F) := after w4 (val3 V0)
theorem val4_main_v3 (V0 : Valuation τ sig (Elt F)) : val4 V0 (Proc.devRef .tc main_v3) = src (V0 (Proc.devRef .tc main_arg1)) :=
  (w4_keep (val3 V0) main_v3 (by decide)).trans (val3_main_v3 V0)
theorem val4_main_v6 (V0 : Valuation τ sig (Elt F)) : val4 V0 (Proc.devRef .tc main_v6) = dst (V0 (Proc.devRef .tc main_arg1)) :=
  (w4_keep (val3 V0) main_v6 (by decide)).trans (val3_main_v6 V0)
theorem val4_main_v31 (V0 : Valuation τ sig (Elt F)) : val4 V0 (Proc.devRef .tc main_v31) = norm (src (V0 (Proc.devRef .tc main_arg1))) (dst (V0 (Proc.devRef .tc main_arg1))) :=
  (w4_keep (val3 V0) main_v31 (by decide)).trans (val3_main_v31 V0)
theorem val4_main_v45 (V0 : Valuation τ sig (Elt F)) : val4 V0 (Proc.devRef .tc main_v45) = aggregate128 (src (V0 (Proc.devRef .tc main_arg1))) (dst (V0 (Proc.devRef .tc main_arg1))) (norm (src (V0 (Proc.devRef .tc main_arg1))) (dst (V0 (Proc.devRef .tc main_arg1)))) (linear128 (V0 (Proc.devRef .tc main_arg0)) (V0 (Proc.devRef .tc main_arg2))) :=
  (w4_main_v45 (val3 V0)).trans (by rw [val3_main_v3 V0, val3_main_v6 V0, val3_main_v31 V0, val3_main_arg0 V0, val3_main_arg2 V0] <;> rfl)
theorem val4_main_v47 (V0 : Valuation τ sig (Elt F)) : val4 V0 (Proc.devRef .tc main_v47) = rows128 (V0 (Proc.devRef .tc main_arg3)) :=
  (w4_main_v47 (val3 V0)).trans (by rw [val3_main_arg3 V0] <;> rfl)
theorem val4_main_arg0 (V0 : Valuation τ sig (Elt F)) : val4 V0 (Proc.devRef .tc main_arg0) = (V0 (Proc.devRef .tc main_arg0)) :=
  (w4_keep (val3 V0) main_arg0 (by decide)).trans (val3_main_arg0 V0)
theorem val4_main_arg1 (V0 : Valuation τ sig (Elt F)) : val4 V0 (Proc.devRef .tc main_arg1) = (V0 (Proc.devRef .tc main_arg1)) :=
  (w4_keep (val3 V0) main_arg1 (by decide)).trans (val3_main_arg1 V0)
theorem val4_main_arg2 (V0 : Valuation τ sig (Elt F)) : val4 V0 (Proc.devRef .tc main_arg2) = (V0 (Proc.devRef .tc main_arg2)) :=
  (w4_keep (val3 V0) main_arg2 (by decide)).trans (val3_main_arg2 V0)
theorem val4_main_arg3 (V0 : Valuation τ sig (Elt F)) : val4 V0 (Proc.devRef .tc main_arg3) = (V0 (Proc.devRef .tc main_arg3)) :=
  (w4_keep (val3 V0) main_arg3 (by decide)).trans (val3_main_arg3 V0)
theorem val4_main_arg4 (V0 : Valuation τ sig (Elt F)) : val4 V0 (Proc.devRef .tc main_arg4) = (V0 (Proc.devRef .tc main_arg4)) :=
  (w4_keep (val3 V0) main_arg4 (by decide)).trans (val3_main_arg4 V0)
theorem val4_main_arg5 (V0 : Valuation τ sig (Elt F)) : val4 V0 (Proc.devRef .tc main_arg5) = (V0 (Proc.devRef .tc main_arg5)) :=
  (w4_keep (val3 V0) main_arg5 (by decide)).trans (val3_main_arg5 V0)
theorem val4_main_arg6 (V0 : Valuation τ sig (Elt F)) : val4 V0 (Proc.devRef .tc main_arg6) = (V0 (Proc.devRef .tc main_arg6)) :=
  (w4_keep (val3 V0) main_arg6 (by decide)).trans (val3_main_arg6 V0)
theorem val4_main_arg7 (V0 : Valuation τ sig (Elt F)) : val4 V0 (Proc.devRef .tc main_arg7) = (V0 (Proc.devRef .tc main_arg7)) :=
  (w4_keep (val3 V0) main_arg7 (by decide)).trans (val3_main_arg7 V0)
theorem val4_main_arg8 (V0 : Valuation τ sig (Elt F)) : val4 V0 (Proc.devRef .tc main_arg8) = (V0 (Proc.devRef .tc main_arg8)) :=
  (w4_keep (val3 V0) main_arg8 (by decide)).trans (val3_main_arg8 V0)
theorem val4_main_arg9 (V0 : Valuation τ sig (Elt F)) : val4 V0 (Proc.devRef .tc main_arg9) = (V0 (Proc.devRef .tc main_arg9)) :=
  (w4_keep (val3 V0) main_arg9 (by decide)).trans (val3_main_arg9 V0)
theorem val4_main_arg10 (V0 : Valuation τ sig (Elt F)) : val4 V0 (Proc.devRef .tc main_arg10) = (V0 (Proc.devRef .tc main_arg10)) :=
  (w4_keep (val3 V0) main_arg10 (by decide)).trans (val3_main_arg10 V0)
theorem val4_main_arg11 (V0 : Valuation τ sig (Elt F)) : val4 V0 (Proc.devRef .tc main_arg11) = (V0 (Proc.devRef .tc main_arg11)) :=
  (w4_keep (val3 V0) main_arg11 (by decide)).trans (val3_main_arg11 V0)

/-- The buffer contents after the first 5 stretches. -/
def val5 (V0 : Valuation τ sig (Elt F)) : Valuation τ sig (Elt F) := after w5 (val4 V0)
theorem val5_main_v3 (V0 : Valuation τ sig (Elt F)) : val5 V0 (Proc.devRef .tc main_v3) = src (V0 (Proc.devRef .tc main_arg1)) :=
  (w5_keep (val4 V0) main_v3 (by decide)).trans (val4_main_v3 V0)
theorem val5_main_v6 (V0 : Valuation τ sig (Elt F)) : val5 V0 (Proc.devRef .tc main_v6) = dst (V0 (Proc.devRef .tc main_arg1)) :=
  (w5_keep (val4 V0) main_v6 (by decide)).trans (val4_main_v6 V0)
theorem val5_main_v31 (V0 : Valuation τ sig (Elt F)) : val5 V0 (Proc.devRef .tc main_v31) = norm (src (V0 (Proc.devRef .tc main_arg1))) (dst (V0 (Proc.devRef .tc main_arg1))) :=
  (w5_keep (val4 V0) main_v31 (by decide)).trans (val4_main_v31 V0)
theorem val5_main_v48 (V0 : Valuation τ sig (Elt F)) : val5 V0 (Proc.devRef .tc main_v48) = conv128 (V0 (Proc.devRef .tc main_arg1)) (V0 (Proc.devRef .tc main_arg0)) (V0 (Proc.devRef .tc main_arg2)) (V0 (Proc.devRef .tc main_arg3)) :=
  (w5_main_v48 (val4 V0)).trans (by rw [val4_main_v45 V0, val4_main_v47 V0] <;> rfl)
theorem val5_main_v51 (V0 : Valuation τ sig (Elt F)) : val5 V0 (Proc.devRef .tc main_v51) = colMean (conv128 (V0 (Proc.devRef .tc main_arg1)) (V0 (Proc.devRef .tc main_arg0)) (V0 (Proc.devRef .tc main_arg2)) (V0 (Proc.devRef .tc main_arg3))) :=
  (w5_main_v51 (val4 V0)).trans (by rw [val4_main_v45 V0, val4_main_v47 V0] <;> rfl)
theorem val5_main_arg0 (V0 : Valuation τ sig (Elt F)) : val5 V0 (Proc.devRef .tc main_arg0) = (V0 (Proc.devRef .tc main_arg0)) :=
  (w5_keep (val4 V0) main_arg0 (by decide)).trans (val4_main_arg0 V0)
theorem val5_main_arg1 (V0 : Valuation τ sig (Elt F)) : val5 V0 (Proc.devRef .tc main_arg1) = (V0 (Proc.devRef .tc main_arg1)) :=
  (w5_keep (val4 V0) main_arg1 (by decide)).trans (val4_main_arg1 V0)
theorem val5_main_arg2 (V0 : Valuation τ sig (Elt F)) : val5 V0 (Proc.devRef .tc main_arg2) = (V0 (Proc.devRef .tc main_arg2)) :=
  (w5_keep (val4 V0) main_arg2 (by decide)).trans (val4_main_arg2 V0)
theorem val5_main_arg3 (V0 : Valuation τ sig (Elt F)) : val5 V0 (Proc.devRef .tc main_arg3) = (V0 (Proc.devRef .tc main_arg3)) :=
  (w5_keep (val4 V0) main_arg3 (by decide)).trans (val4_main_arg3 V0)
theorem val5_main_arg4 (V0 : Valuation τ sig (Elt F)) : val5 V0 (Proc.devRef .tc main_arg4) = (V0 (Proc.devRef .tc main_arg4)) :=
  (w5_keep (val4 V0) main_arg4 (by decide)).trans (val4_main_arg4 V0)
theorem val5_main_arg5 (V0 : Valuation τ sig (Elt F)) : val5 V0 (Proc.devRef .tc main_arg5) = (V0 (Proc.devRef .tc main_arg5)) :=
  (w5_keep (val4 V0) main_arg5 (by decide)).trans (val4_main_arg5 V0)
theorem val5_main_arg6 (V0 : Valuation τ sig (Elt F)) : val5 V0 (Proc.devRef .tc main_arg6) = (V0 (Proc.devRef .tc main_arg6)) :=
  (w5_keep (val4 V0) main_arg6 (by decide)).trans (val4_main_arg6 V0)
theorem val5_main_arg7 (V0 : Valuation τ sig (Elt F)) : val5 V0 (Proc.devRef .tc main_arg7) = (V0 (Proc.devRef .tc main_arg7)) :=
  (w5_keep (val4 V0) main_arg7 (by decide)).trans (val4_main_arg7 V0)
theorem val5_main_arg8 (V0 : Valuation τ sig (Elt F)) : val5 V0 (Proc.devRef .tc main_arg8) = (V0 (Proc.devRef .tc main_arg8)) :=
  (w5_keep (val4 V0) main_arg8 (by decide)).trans (val4_main_arg8 V0)
theorem val5_main_arg9 (V0 : Valuation τ sig (Elt F)) : val5 V0 (Proc.devRef .tc main_arg9) = (V0 (Proc.devRef .tc main_arg9)) :=
  (w5_keep (val4 V0) main_arg9 (by decide)).trans (val4_main_arg9 V0)
theorem val5_main_arg10 (V0 : Valuation τ sig (Elt F)) : val5 V0 (Proc.devRef .tc main_arg10) = (V0 (Proc.devRef .tc main_arg10)) :=
  (w5_keep (val4 V0) main_arg10 (by decide)).trans (val4_main_arg10 V0)
theorem val5_main_arg11 (V0 : Valuation τ sig (Elt F)) : val5 V0 (Proc.devRef .tc main_arg11) = (V0 (Proc.devRef .tc main_arg11)) :=
  (w5_keep (val4 V0) main_arg11 (by decide)).trans (val4_main_arg11 V0)

/-- The buffer contents after the first 6 stretches. -/
def val6 (V0 : Valuation τ sig (Elt F)) : Valuation τ sig (Elt F) := after w6 (val5 V0)
theorem val6_main_v3 (V0 : Valuation τ sig (Elt F)) : val6 V0 (Proc.devRef .tc main_v3) = src (V0 (Proc.devRef .tc main_arg1)) :=
  (w6_keep (val5 V0) main_v3 (by decide)).trans (val5_main_v3 V0)
theorem val6_main_v6 (V0 : Valuation τ sig (Elt F)) : val6 V0 (Proc.devRef .tc main_v6) = dst (V0 (Proc.devRef .tc main_arg1)) :=
  (w6_keep (val5 V0) main_v6 (by decide)).trans (val5_main_v6 V0)
theorem val6_main_v31 (V0 : Valuation τ sig (Elt F)) : val6 V0 (Proc.devRef .tc main_v31) = norm (src (V0 (Proc.devRef .tc main_arg1))) (dst (V0 (Proc.devRef .tc main_arg1))) :=
  (w6_keep (val5 V0) main_v31 (by decide)).trans (val5_main_v31 V0)
theorem val6_main_v48 (V0 : Valuation τ sig (Elt F)) : val6 V0 (Proc.devRef .tc main_v48) = conv128 (V0 (Proc.devRef .tc main_arg1)) (V0 (Proc.devRef .tc main_arg0)) (V0 (Proc.devRef .tc main_arg2)) (V0 (Proc.devRef .tc main_arg3)) :=
  (w6_keep (val5 V0) main_v48 (by decide)).trans (val5_main_v48 V0)
theorem val6_main_v51 (V0 : Valuation τ sig (Elt F)) : val6 V0 (Proc.devRef .tc main_v51) = colMean (conv128 (V0 (Proc.devRef .tc main_arg1)) (V0 (Proc.devRef .tc main_arg0)) (V0 (Proc.devRef .tc main_arg2)) (V0 (Proc.devRef .tc main_arg3))) :=
  (w6_keep (val5 V0) main_v51 (by decide)).trans (val5_main_v51 V0)
theorem val6_main_v52 (V0 : Valuation τ sig (Elt F)) : val6 V0 (Proc.devRef .tc main_v52) = colVar (conv128 (V0 (Proc.devRef .tc main_arg1)) (V0 (Proc.devRef .tc main_arg0)) (V0 (Proc.devRef .tc main_arg2)) (V0 (Proc.devRef .tc main_arg3))) :=
  (w6_main_v52 (val5 V0)).trans (by rw [val5_main_v48 V0] <;> rfl)
theorem val6_main_arg0 (V0 : Valuation τ sig (Elt F)) : val6 V0 (Proc.devRef .tc main_arg0) = (V0 (Proc.devRef .tc main_arg0)) :=
  (w6_keep (val5 V0) main_arg0 (by decide)).trans (val5_main_arg0 V0)
theorem val6_main_arg1 (V0 : Valuation τ sig (Elt F)) : val6 V0 (Proc.devRef .tc main_arg1) = (V0 (Proc.devRef .tc main_arg1)) :=
  (w6_keep (val5 V0) main_arg1 (by decide)).trans (val5_main_arg1 V0)
theorem val6_main_arg2 (V0 : Valuation τ sig (Elt F)) : val6 V0 (Proc.devRef .tc main_arg2) = (V0 (Proc.devRef .tc main_arg2)) :=
  (w6_keep (val5 V0) main_arg2 (by decide)).trans (val5_main_arg2 V0)
theorem val6_main_arg3 (V0 : Valuation τ sig (Elt F)) : val6 V0 (Proc.devRef .tc main_arg3) = (V0 (Proc.devRef .tc main_arg3)) :=
  (w6_keep (val5 V0) main_arg3 (by decide)).trans (val5_main_arg3 V0)
theorem val6_main_arg4 (V0 : Valuation τ sig (Elt F)) : val6 V0 (Proc.devRef .tc main_arg4) = (V0 (Proc.devRef .tc main_arg4)) :=
  (w6_keep (val5 V0) main_arg4 (by decide)).trans (val5_main_arg4 V0)
theorem val6_main_arg5 (V0 : Valuation τ sig (Elt F)) : val6 V0 (Proc.devRef .tc main_arg5) = (V0 (Proc.devRef .tc main_arg5)) :=
  (w6_keep (val5 V0) main_arg5 (by decide)).trans (val5_main_arg5 V0)
theorem val6_main_arg6 (V0 : Valuation τ sig (Elt F)) : val6 V0 (Proc.devRef .tc main_arg6) = (V0 (Proc.devRef .tc main_arg6)) :=
  (w6_keep (val5 V0) main_arg6 (by decide)).trans (val5_main_arg6 V0)
theorem val6_main_arg7 (V0 : Valuation τ sig (Elt F)) : val6 V0 (Proc.devRef .tc main_arg7) = (V0 (Proc.devRef .tc main_arg7)) :=
  (w6_keep (val5 V0) main_arg7 (by decide)).trans (val5_main_arg7 V0)
theorem val6_main_arg8 (V0 : Valuation τ sig (Elt F)) : val6 V0 (Proc.devRef .tc main_arg8) = (V0 (Proc.devRef .tc main_arg8)) :=
  (w6_keep (val5 V0) main_arg8 (by decide)).trans (val5_main_arg8 V0)
theorem val6_main_arg9 (V0 : Valuation τ sig (Elt F)) : val6 V0 (Proc.devRef .tc main_arg9) = (V0 (Proc.devRef .tc main_arg9)) :=
  (w6_keep (val5 V0) main_arg9 (by decide)).trans (val5_main_arg9 V0)
theorem val6_main_arg10 (V0 : Valuation τ sig (Elt F)) : val6 V0 (Proc.devRef .tc main_arg10) = (V0 (Proc.devRef .tc main_arg10)) :=
  (w6_keep (val5 V0) main_arg10 (by decide)).trans (val5_main_arg10 V0)
theorem val6_main_arg11 (V0 : Valuation τ sig (Elt F)) : val6 V0 (Proc.devRef .tc main_arg11) = (V0 (Proc.devRef .tc main_arg11)) :=
  (w6_keep (val5 V0) main_arg11 (by decide)).trans (val5_main_arg11 V0)

/-- The buffer contents after the first 7 stretches. -/
def val7 (V0 : Valuation τ sig (Elt F)) : Valuation τ sig (Elt F) := after w7 (val6 V0)
theorem val7_main_v3 (V0 : Valuation τ sig (Elt F)) : val7 V0 (Proc.devRef .tc main_v3) = src (V0 (Proc.devRef .tc main_arg1)) :=
  (w7_keep (val6 V0) main_v3 (by decide)).trans (val6_main_v3 V0)
theorem val7_main_v6 (V0 : Valuation τ sig (Elt F)) : val7 V0 (Proc.devRef .tc main_v6) = dst (V0 (Proc.devRef .tc main_arg1)) :=
  (w7_keep (val6 V0) main_v6 (by decide)).trans (val6_main_v6 V0)
theorem val7_main_v31 (V0 : Valuation τ sig (Elt F)) : val7 V0 (Proc.devRef .tc main_v31) = norm (src (V0 (Proc.devRef .tc main_arg1))) (dst (V0 (Proc.devRef .tc main_arg1))) :=
  (w7_keep (val6 V0) main_v31 (by decide)).trans (val6_main_v31 V0)
theorem val7_main_v68 (V0 : Valuation τ sig (Elt F)) : val7 V0 (Proc.devRef .tc main_v68) = bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5)) :=
  (w7_main_v68 (val6 V0)).trans (by rw [val6_main_v48 V0, val6_main_v51 V0, val6_main_v52 V0, val6_main_arg4 V0, val6_main_arg5 V0] <;> rfl)
theorem val7_main_arg0 (V0 : Valuation τ sig (Elt F)) : val7 V0 (Proc.devRef .tc main_arg0) = (V0 (Proc.devRef .tc main_arg0)) :=
  (w7_keep (val6 V0) main_arg0 (by decide)).trans (val6_main_arg0 V0)
theorem val7_main_arg1 (V0 : Valuation τ sig (Elt F)) : val7 V0 (Proc.devRef .tc main_arg1) = (V0 (Proc.devRef .tc main_arg1)) :=
  (w7_keep (val6 V0) main_arg1 (by decide)).trans (val6_main_arg1 V0)
theorem val7_main_arg2 (V0 : Valuation τ sig (Elt F)) : val7 V0 (Proc.devRef .tc main_arg2) = (V0 (Proc.devRef .tc main_arg2)) :=
  (w7_keep (val6 V0) main_arg2 (by decide)).trans (val6_main_arg2 V0)
theorem val7_main_arg3 (V0 : Valuation τ sig (Elt F)) : val7 V0 (Proc.devRef .tc main_arg3) = (V0 (Proc.devRef .tc main_arg3)) :=
  (w7_keep (val6 V0) main_arg3 (by decide)).trans (val6_main_arg3 V0)
theorem val7_main_arg4 (V0 : Valuation τ sig (Elt F)) : val7 V0 (Proc.devRef .tc main_arg4) = (V0 (Proc.devRef .tc main_arg4)) :=
  (w7_keep (val6 V0) main_arg4 (by decide)).trans (val6_main_arg4 V0)
theorem val7_main_arg5 (V0 : Valuation τ sig (Elt F)) : val7 V0 (Proc.devRef .tc main_arg5) = (V0 (Proc.devRef .tc main_arg5)) :=
  (w7_keep (val6 V0) main_arg5 (by decide)).trans (val6_main_arg5 V0)
theorem val7_main_arg6 (V0 : Valuation τ sig (Elt F)) : val7 V0 (Proc.devRef .tc main_arg6) = (V0 (Proc.devRef .tc main_arg6)) :=
  (w7_keep (val6 V0) main_arg6 (by decide)).trans (val6_main_arg6 V0)
theorem val7_main_arg7 (V0 : Valuation τ sig (Elt F)) : val7 V0 (Proc.devRef .tc main_arg7) = (V0 (Proc.devRef .tc main_arg7)) :=
  (w7_keep (val6 V0) main_arg7 (by decide)).trans (val6_main_arg7 V0)
theorem val7_main_arg8 (V0 : Valuation τ sig (Elt F)) : val7 V0 (Proc.devRef .tc main_arg8) = (V0 (Proc.devRef .tc main_arg8)) :=
  (w7_keep (val6 V0) main_arg8 (by decide)).trans (val6_main_arg8 V0)
theorem val7_main_arg9 (V0 : Valuation τ sig (Elt F)) : val7 V0 (Proc.devRef .tc main_arg9) = (V0 (Proc.devRef .tc main_arg9)) :=
  (w7_keep (val6 V0) main_arg9 (by decide)).trans (val6_main_arg9 V0)
theorem val7_main_arg10 (V0 : Valuation τ sig (Elt F)) : val7 V0 (Proc.devRef .tc main_arg10) = (V0 (Proc.devRef .tc main_arg10)) :=
  (w7_keep (val6 V0) main_arg10 (by decide)).trans (val6_main_arg10 V0)
theorem val7_main_arg11 (V0 : Valuation τ sig (Elt F)) : val7 V0 (Proc.devRef .tc main_arg11) = (V0 (Proc.devRef .tc main_arg11)) :=
  (w7_keep (val6 V0) main_arg11 (by decide)).trans (val6_main_arg11 V0)

/-- The buffer contents after the first 8 stretches. -/
def val8 (V0 : Valuation τ sig (Elt F)) : Valuation τ sig (Elt F) := after w8 (val7 V0)
theorem val8_main_v3 (V0 : Valuation τ sig (Elt F)) : val8 V0 (Proc.devRef .tc main_v3) = src (V0 (Proc.devRef .tc main_arg1)) :=
  (w8_keep (val7 V0) main_v3 (by decide)).trans (val7_main_v3 V0)
theorem val8_main_v6 (V0 : Valuation τ sig (Elt F)) : val8 V0 (Proc.devRef .tc main_v6) = dst (V0 (Proc.devRef .tc main_arg1)) :=
  (w8_keep (val7 V0) main_v6 (by decide)).trans (val7_main_v6 V0)
theorem val8_main_v31 (V0 : Valuation τ sig (Elt F)) : val8 V0 (Proc.devRef .tc main_v31) = norm (src (V0 (Proc.devRef .tc main_arg1))) (dst (V0 (Proc.devRef .tc main_arg1))) :=
  (w8_keep (val7 V0) main_v31 (by decide)).trans (val7_main_v31 V0)
theorem val8_main_v85 (V0 : Valuation τ sig (Elt F)) : val8 V0 (Proc.devRef .tc main_v85) = conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7)) :=
  (w8_main_v85 (val7 V0)).trans (by rw [val7_main_v3 V0, val7_main_v6 V0, val7_main_v31 V0, val7_main_v68 V0, val7_main_arg6 V0, val7_main_arg7 V0] <;> rfl)
theorem val8_main_arg0 (V0 : Valuation τ sig (Elt F)) : val8 V0 (Proc.devRef .tc main_arg0) = (V0 (Proc.devRef .tc main_arg0)) :=
  (w8_keep (val7 V0) main_arg0 (by decide)).trans (val7_main_arg0 V0)
theorem val8_main_arg1 (V0 : Valuation τ sig (Elt F)) : val8 V0 (Proc.devRef .tc main_arg1) = (V0 (Proc.devRef .tc main_arg1)) :=
  (w8_keep (val7 V0) main_arg1 (by decide)).trans (val7_main_arg1 V0)
theorem val8_main_arg2 (V0 : Valuation τ sig (Elt F)) : val8 V0 (Proc.devRef .tc main_arg2) = (V0 (Proc.devRef .tc main_arg2)) :=
  (w8_keep (val7 V0) main_arg2 (by decide)).trans (val7_main_arg2 V0)
theorem val8_main_arg3 (V0 : Valuation τ sig (Elt F)) : val8 V0 (Proc.devRef .tc main_arg3) = (V0 (Proc.devRef .tc main_arg3)) :=
  (w8_keep (val7 V0) main_arg3 (by decide)).trans (val7_main_arg3 V0)
theorem val8_main_arg4 (V0 : Valuation τ sig (Elt F)) : val8 V0 (Proc.devRef .tc main_arg4) = (V0 (Proc.devRef .tc main_arg4)) :=
  (w8_keep (val7 V0) main_arg4 (by decide)).trans (val7_main_arg4 V0)
theorem val8_main_arg5 (V0 : Valuation τ sig (Elt F)) : val8 V0 (Proc.devRef .tc main_arg5) = (V0 (Proc.devRef .tc main_arg5)) :=
  (w8_keep (val7 V0) main_arg5 (by decide)).trans (val7_main_arg5 V0)
theorem val8_main_arg6 (V0 : Valuation τ sig (Elt F)) : val8 V0 (Proc.devRef .tc main_arg6) = (V0 (Proc.devRef .tc main_arg6)) :=
  (w8_keep (val7 V0) main_arg6 (by decide)).trans (val7_main_arg6 V0)
theorem val8_main_arg7 (V0 : Valuation τ sig (Elt F)) : val8 V0 (Proc.devRef .tc main_arg7) = (V0 (Proc.devRef .tc main_arg7)) :=
  (w8_keep (val7 V0) main_arg7 (by decide)).trans (val7_main_arg7 V0)
theorem val8_main_arg8 (V0 : Valuation τ sig (Elt F)) : val8 V0 (Proc.devRef .tc main_arg8) = (V0 (Proc.devRef .tc main_arg8)) :=
  (w8_keep (val7 V0) main_arg8 (by decide)).trans (val7_main_arg8 V0)
theorem val8_main_arg9 (V0 : Valuation τ sig (Elt F)) : val8 V0 (Proc.devRef .tc main_arg9) = (V0 (Proc.devRef .tc main_arg9)) :=
  (w8_keep (val7 V0) main_arg9 (by decide)).trans (val7_main_arg9 V0)
theorem val8_main_arg10 (V0 : Valuation τ sig (Elt F)) : val8 V0 (Proc.devRef .tc main_arg10) = (V0 (Proc.devRef .tc main_arg10)) :=
  (w8_keep (val7 V0) main_arg10 (by decide)).trans (val7_main_arg10 V0)
theorem val8_main_arg11 (V0 : Valuation τ sig (Elt F)) : val8 V0 (Proc.devRef .tc main_arg11) = (V0 (Proc.devRef .tc main_arg11)) :=
  (w8_keep (val7 V0) main_arg11 (by decide)).trans (val7_main_arg11 V0)

/-- The buffer contents after the first 9 stretches. -/
def val9 (V0 : Valuation τ sig (Elt F)) : Valuation τ sig (Elt F) := after w9 (val8 V0)
theorem val9_main_v3 (V0 : Valuation τ sig (Elt F)) : val9 V0 (Proc.devRef .tc main_v3) = src (V0 (Proc.devRef .tc main_arg1)) :=
  (w9_keep (val8 V0) main_v3 (by decide)).trans (val8_main_v3 V0)
theorem val9_main_v6 (V0 : Valuation τ sig (Elt F)) : val9 V0 (Proc.devRef .tc main_v6) = dst (V0 (Proc.devRef .tc main_arg1)) :=
  (w9_keep (val8 V0) main_v6 (by decide)).trans (val8_main_v6 V0)
theorem val9_main_v31 (V0 : Valuation τ sig (Elt F)) : val9 V0 (Proc.devRef .tc main_v31) = norm (src (V0 (Proc.devRef .tc main_arg1))) (dst (V0 (Proc.devRef .tc main_arg1))) :=
  (w9_keep (val8 V0) main_v31 (by decide)).trans (val8_main_v31 V0)
theorem val9_main_v85 (V0 : Valuation τ sig (Elt F)) : val9 V0 (Proc.devRef .tc main_v85) = conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7)) :=
  (w9_keep (val8 V0) main_v85 (by decide)).trans (val8_main_v85 V0)
theorem val9_main_v88 (V0 : Valuation τ sig (Elt F)) : val9 V0 (Proc.devRef .tc main_v88) = colMean (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) :=
  (w9_main_v88 (val8 V0)).trans (by rw [val8_main_v85 V0] <;> rfl)
theorem val9_main_arg0 (V0 : Valuation τ sig (Elt F)) : val9 V0 (Proc.devRef .tc main_arg0) = (V0 (Proc.devRef .tc main_arg0)) :=
  (w9_keep (val8 V0) main_arg0 (by decide)).trans (val8_main_arg0 V0)
theorem val9_main_arg1 (V0 : Valuation τ sig (Elt F)) : val9 V0 (Proc.devRef .tc main_arg1) = (V0 (Proc.devRef .tc main_arg1)) :=
  (w9_keep (val8 V0) main_arg1 (by decide)).trans (val8_main_arg1 V0)
theorem val9_main_arg2 (V0 : Valuation τ sig (Elt F)) : val9 V0 (Proc.devRef .tc main_arg2) = (V0 (Proc.devRef .tc main_arg2)) :=
  (w9_keep (val8 V0) main_arg2 (by decide)).trans (val8_main_arg2 V0)
theorem val9_main_arg3 (V0 : Valuation τ sig (Elt F)) : val9 V0 (Proc.devRef .tc main_arg3) = (V0 (Proc.devRef .tc main_arg3)) :=
  (w9_keep (val8 V0) main_arg3 (by decide)).trans (val8_main_arg3 V0)
theorem val9_main_arg4 (V0 : Valuation τ sig (Elt F)) : val9 V0 (Proc.devRef .tc main_arg4) = (V0 (Proc.devRef .tc main_arg4)) :=
  (w9_keep (val8 V0) main_arg4 (by decide)).trans (val8_main_arg4 V0)
theorem val9_main_arg5 (V0 : Valuation τ sig (Elt F)) : val9 V0 (Proc.devRef .tc main_arg5) = (V0 (Proc.devRef .tc main_arg5)) :=
  (w9_keep (val8 V0) main_arg5 (by decide)).trans (val8_main_arg5 V0)
theorem val9_main_arg6 (V0 : Valuation τ sig (Elt F)) : val9 V0 (Proc.devRef .tc main_arg6) = (V0 (Proc.devRef .tc main_arg6)) :=
  (w9_keep (val8 V0) main_arg6 (by decide)).trans (val8_main_arg6 V0)
theorem val9_main_arg7 (V0 : Valuation τ sig (Elt F)) : val9 V0 (Proc.devRef .tc main_arg7) = (V0 (Proc.devRef .tc main_arg7)) :=
  (w9_keep (val8 V0) main_arg7 (by decide)).trans (val8_main_arg7 V0)
theorem val9_main_arg8 (V0 : Valuation τ sig (Elt F)) : val9 V0 (Proc.devRef .tc main_arg8) = (V0 (Proc.devRef .tc main_arg8)) :=
  (w9_keep (val8 V0) main_arg8 (by decide)).trans (val8_main_arg8 V0)
theorem val9_main_arg9 (V0 : Valuation τ sig (Elt F)) : val9 V0 (Proc.devRef .tc main_arg9) = (V0 (Proc.devRef .tc main_arg9)) :=
  (w9_keep (val8 V0) main_arg9 (by decide)).trans (val8_main_arg9 V0)
theorem val9_main_arg10 (V0 : Valuation τ sig (Elt F)) : val9 V0 (Proc.devRef .tc main_arg10) = (V0 (Proc.devRef .tc main_arg10)) :=
  (w9_keep (val8 V0) main_arg10 (by decide)).trans (val8_main_arg10 V0)
theorem val9_main_arg11 (V0 : Valuation τ sig (Elt F)) : val9 V0 (Proc.devRef .tc main_arg11) = (V0 (Proc.devRef .tc main_arg11)) :=
  (w9_keep (val8 V0) main_arg11 (by decide)).trans (val8_main_arg11 V0)

/-- The buffer contents after the first 10 stretches. -/
def val10 (V0 : Valuation τ sig (Elt F)) : Valuation τ sig (Elt F) := after w10 (val9 V0)
theorem val10_main_v3 (V0 : Valuation τ sig (Elt F)) : val10 V0 (Proc.devRef .tc main_v3) = src (V0 (Proc.devRef .tc main_arg1)) :=
  (w10_keep (val9 V0) main_v3 (by decide)).trans (val9_main_v3 V0)
theorem val10_main_v6 (V0 : Valuation τ sig (Elt F)) : val10 V0 (Proc.devRef .tc main_v6) = dst (V0 (Proc.devRef .tc main_arg1)) :=
  (w10_keep (val9 V0) main_v6 (by decide)).trans (val9_main_v6 V0)
theorem val10_main_v31 (V0 : Valuation τ sig (Elt F)) : val10 V0 (Proc.devRef .tc main_v31) = norm (src (V0 (Proc.devRef .tc main_arg1))) (dst (V0 (Proc.devRef .tc main_arg1))) :=
  (w10_keep (val9 V0) main_v31 (by decide)).trans (val9_main_v31 V0)
theorem val10_main_v85 (V0 : Valuation τ sig (Elt F)) : val10 V0 (Proc.devRef .tc main_v85) = conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7)) :=
  (w10_keep (val9 V0) main_v85 (by decide)).trans (val9_main_v85 V0)
theorem val10_main_v88 (V0 : Valuation τ sig (Elt F)) : val10 V0 (Proc.devRef .tc main_v88) = colMean (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) :=
  (w10_keep (val9 V0) main_v88 (by decide)).trans (val9_main_v88 V0)
theorem val10_main_v89 (V0 : Valuation τ sig (Elt F)) : val10 V0 (Proc.devRef .tc main_v89) = colVar (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) :=
  (w10_main_v89 (val9 V0)).trans (by rw [val9_main_v85 V0] <;> rfl)
theorem val10_main_arg0 (V0 : Valuation τ sig (Elt F)) : val10 V0 (Proc.devRef .tc main_arg0) = (V0 (Proc.devRef .tc main_arg0)) :=
  (w10_keep (val9 V0) main_arg0 (by decide)).trans (val9_main_arg0 V0)
theorem val10_main_arg1 (V0 : Valuation τ sig (Elt F)) : val10 V0 (Proc.devRef .tc main_arg1) = (V0 (Proc.devRef .tc main_arg1)) :=
  (w10_keep (val9 V0) main_arg1 (by decide)).trans (val9_main_arg1 V0)
theorem val10_main_arg2 (V0 : Valuation τ sig (Elt F)) : val10 V0 (Proc.devRef .tc main_arg2) = (V0 (Proc.devRef .tc main_arg2)) :=
  (w10_keep (val9 V0) main_arg2 (by decide)).trans (val9_main_arg2 V0)
theorem val10_main_arg3 (V0 : Valuation τ sig (Elt F)) : val10 V0 (Proc.devRef .tc main_arg3) = (V0 (Proc.devRef .tc main_arg3)) :=
  (w10_keep (val9 V0) main_arg3 (by decide)).trans (val9_main_arg3 V0)
theorem val10_main_arg4 (V0 : Valuation τ sig (Elt F)) : val10 V0 (Proc.devRef .tc main_arg4) = (V0 (Proc.devRef .tc main_arg4)) :=
  (w10_keep (val9 V0) main_arg4 (by decide)).trans (val9_main_arg4 V0)
theorem val10_main_arg5 (V0 : Valuation τ sig (Elt F)) : val10 V0 (Proc.devRef .tc main_arg5) = (V0 (Proc.devRef .tc main_arg5)) :=
  (w10_keep (val9 V0) main_arg5 (by decide)).trans (val9_main_arg5 V0)
theorem val10_main_arg6 (V0 : Valuation τ sig (Elt F)) : val10 V0 (Proc.devRef .tc main_arg6) = (V0 (Proc.devRef .tc main_arg6)) :=
  (w10_keep (val9 V0) main_arg6 (by decide)).trans (val9_main_arg6 V0)
theorem val10_main_arg7 (V0 : Valuation τ sig (Elt F)) : val10 V0 (Proc.devRef .tc main_arg7) = (V0 (Proc.devRef .tc main_arg7)) :=
  (w10_keep (val9 V0) main_arg7 (by decide)).trans (val9_main_arg7 V0)
theorem val10_main_arg8 (V0 : Valuation τ sig (Elt F)) : val10 V0 (Proc.devRef .tc main_arg8) = (V0 (Proc.devRef .tc main_arg8)) :=
  (w10_keep (val9 V0) main_arg8 (by decide)).trans (val9_main_arg8 V0)
theorem val10_main_arg9 (V0 : Valuation τ sig (Elt F)) : val10 V0 (Proc.devRef .tc main_arg9) = (V0 (Proc.devRef .tc main_arg9)) :=
  (w10_keep (val9 V0) main_arg9 (by decide)).trans (val9_main_arg9 V0)
theorem val10_main_arg10 (V0 : Valuation τ sig (Elt F)) : val10 V0 (Proc.devRef .tc main_arg10) = (V0 (Proc.devRef .tc main_arg10)) :=
  (w10_keep (val9 V0) main_arg10 (by decide)).trans (val9_main_arg10 V0)
theorem val10_main_arg11 (V0 : Valuation τ sig (Elt F)) : val10 V0 (Proc.devRef .tc main_arg11) = (V0 (Proc.devRef .tc main_arg11)) :=
  (w10_keep (val9 V0) main_arg11 (by decide)).trans (val9_main_arg11 V0)

/-- The buffer contents after the first 11 stretches. -/
def val11 (V0 : Valuation τ sig (Elt F)) : Valuation τ sig (Elt F) := after w11 (val10 V0)
theorem val11_main_v3 (V0 : Valuation τ sig (Elt F)) : val11 V0 (Proc.devRef .tc main_v3) = src (V0 (Proc.devRef .tc main_arg1)) :=
  (w11_keep (val10 V0) main_v3 (by decide)).trans (val10_main_v3 V0)
theorem val11_main_v6 (V0 : Valuation τ sig (Elt F)) : val11 V0 (Proc.devRef .tc main_v6) = dst (V0 (Proc.devRef .tc main_arg1)) :=
  (w11_keep (val10 V0) main_v6 (by decide)).trans (val10_main_v6 V0)
theorem val11_main_v31 (V0 : Valuation τ sig (Elt F)) : val11 V0 (Proc.devRef .tc main_v31) = norm (src (V0 (Proc.devRef .tc main_arg1))) (dst (V0 (Proc.devRef .tc main_arg1))) :=
  (w11_keep (val10 V0) main_v31 (by decide)).trans (val10_main_v31 V0)
theorem val11_main_v89 (V0 : Valuation τ sig (Elt F)) : val11 V0 (Proc.devRef .tc main_v89) = colVar (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) :=
  (w11_keep (val10 V0) main_v89 (by decide)).trans (val10_main_v89 V0)
theorem val11_main_v95 (V0 : Valuation τ sig (Elt F)) : val11 V0 (Proc.devRef .tc main_v95) = scaled (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (colMean (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7)))) (V0 (Proc.devRef .tc main_arg8)) :=
  (w11_main_v95 (val10 V0)).trans (by rw [val10_main_v85 V0, val10_main_v88 V0, val10_main_arg8 V0] <;> rfl)
theorem val11_main_v96 (V0 : Valuation τ sig (Elt F)) : val11 V0 (Proc.devRef .tc main_v96) = epsVec :=
  (w11_main_v96 (val10 V0)).trans (by rfl)
theorem val11_main_arg0 (V0 : Valuation τ sig (Elt F)) : val11 V0 (Proc.devRef .tc main_arg0) = (V0 (Proc.devRef .tc main_arg0)) :=
  (w11_keep (val10 V0) main_arg0 (by decide)).trans (val10_main_arg0 V0)
theorem val11_main_arg1 (V0 : Valuation τ sig (Elt F)) : val11 V0 (Proc.devRef .tc main_arg1) = (V0 (Proc.devRef .tc main_arg1)) :=
  (w11_keep (val10 V0) main_arg1 (by decide)).trans (val10_main_arg1 V0)
theorem val11_main_arg2 (V0 : Valuation τ sig (Elt F)) : val11 V0 (Proc.devRef .tc main_arg2) = (V0 (Proc.devRef .tc main_arg2)) :=
  (w11_keep (val10 V0) main_arg2 (by decide)).trans (val10_main_arg2 V0)
theorem val11_main_arg3 (V0 : Valuation τ sig (Elt F)) : val11 V0 (Proc.devRef .tc main_arg3) = (V0 (Proc.devRef .tc main_arg3)) :=
  (w11_keep (val10 V0) main_arg3 (by decide)).trans (val10_main_arg3 V0)
theorem val11_main_arg4 (V0 : Valuation τ sig (Elt F)) : val11 V0 (Proc.devRef .tc main_arg4) = (V0 (Proc.devRef .tc main_arg4)) :=
  (w11_keep (val10 V0) main_arg4 (by decide)).trans (val10_main_arg4 V0)
theorem val11_main_arg5 (V0 : Valuation τ sig (Elt F)) : val11 V0 (Proc.devRef .tc main_arg5) = (V0 (Proc.devRef .tc main_arg5)) :=
  (w11_keep (val10 V0) main_arg5 (by decide)).trans (val10_main_arg5 V0)
theorem val11_main_arg6 (V0 : Valuation τ sig (Elt F)) : val11 V0 (Proc.devRef .tc main_arg6) = (V0 (Proc.devRef .tc main_arg6)) :=
  (w11_keep (val10 V0) main_arg6 (by decide)).trans (val10_main_arg6 V0)
theorem val11_main_arg7 (V0 : Valuation τ sig (Elt F)) : val11 V0 (Proc.devRef .tc main_arg7) = (V0 (Proc.devRef .tc main_arg7)) :=
  (w11_keep (val10 V0) main_arg7 (by decide)).trans (val10_main_arg7 V0)
theorem val11_main_arg8 (V0 : Valuation τ sig (Elt F)) : val11 V0 (Proc.devRef .tc main_arg8) = (V0 (Proc.devRef .tc main_arg8)) :=
  (w11_keep (val10 V0) main_arg8 (by decide)).trans (val10_main_arg8 V0)
theorem val11_main_arg9 (V0 : Valuation τ sig (Elt F)) : val11 V0 (Proc.devRef .tc main_arg9) = (V0 (Proc.devRef .tc main_arg9)) :=
  (w11_keep (val10 V0) main_arg9 (by decide)).trans (val10_main_arg9 V0)
theorem val11_main_arg10 (V0 : Valuation τ sig (Elt F)) : val11 V0 (Proc.devRef .tc main_arg10) = (V0 (Proc.devRef .tc main_arg10)) :=
  (w11_keep (val10 V0) main_arg10 (by decide)).trans (val10_main_arg10 V0)
theorem val11_main_arg11 (V0 : Valuation τ sig (Elt F)) : val11 V0 (Proc.devRef .tc main_arg11) = (V0 (Proc.devRef .tc main_arg11)) :=
  (w11_keep (val10 V0) main_arg11 (by decide)).trans (val10_main_arg11 V0)

/-- The buffer contents after the first 12 stretches. -/
def val12 (V0 : Valuation τ sig (Elt F)) : Valuation τ sig (Elt F) := after w12 (val11 V0)
theorem val12_main_v3 (V0 : Valuation τ sig (Elt F)) : val12 V0 (Proc.devRef .tc main_v3) = src (V0 (Proc.devRef .tc main_arg1)) :=
  (w12_keep (val11 V0) main_v3 (by decide)).trans (val11_main_v3 V0)
theorem val12_main_v6 (V0 : Valuation τ sig (Elt F)) : val12 V0 (Proc.devRef .tc main_v6) = dst (V0 (Proc.devRef .tc main_arg1)) :=
  (w12_keep (val11 V0) main_v6 (by decide)).trans (val11_main_v6 V0)
theorem val12_main_v31 (V0 : Valuation τ sig (Elt F)) : val12 V0 (Proc.devRef .tc main_v31) = norm (src (V0 (Proc.devRef .tc main_arg1))) (dst (V0 (Proc.devRef .tc main_arg1))) :=
  (w12_keep (val11 V0) main_v31 (by decide)).trans (val11_main_v31 V0)
theorem val12_main_v105 (V0 : Valuation τ sig (Elt F)) : val12 V0 (Proc.devRef .tc main_v105) = bnLayer (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9)) :=
  (w12_main_v105 (val11 V0)).trans (by rw [val11_main_v95 V0, val11_main_v96 V0, val11_main_v89 V0, val11_main_arg9 V0] <;> rfl)
theorem val12_main_arg0 (V0 : Valuation τ sig (Elt F)) : val12 V0 (Proc.devRef .tc main_arg0) = (V0 (Proc.devRef .tc main_arg0)) :=
  (w12_keep (val11 V0) main_arg0 (by decide)).trans (val11_main_arg0 V0)
theorem val12_main_arg1 (V0 : Valuation τ sig (Elt F)) : val12 V0 (Proc.devRef .tc main_arg1) = (V0 (Proc.devRef .tc main_arg1)) :=
  (w12_keep (val11 V0) main_arg1 (by decide)).trans (val11_main_arg1 V0)
theorem val12_main_arg2 (V0 : Valuation τ sig (Elt F)) : val12 V0 (Proc.devRef .tc main_arg2) = (V0 (Proc.devRef .tc main_arg2)) :=
  (w12_keep (val11 V0) main_arg2 (by decide)).trans (val11_main_arg2 V0)
theorem val12_main_arg3 (V0 : Valuation τ sig (Elt F)) : val12 V0 (Proc.devRef .tc main_arg3) = (V0 (Proc.devRef .tc main_arg3)) :=
  (w12_keep (val11 V0) main_arg3 (by decide)).trans (val11_main_arg3 V0)
theorem val12_main_arg4 (V0 : Valuation τ sig (Elt F)) : val12 V0 (Proc.devRef .tc main_arg4) = (V0 (Proc.devRef .tc main_arg4)) :=
  (w12_keep (val11 V0) main_arg4 (by decide)).trans (val11_main_arg4 V0)
theorem val12_main_arg5 (V0 : Valuation τ sig (Elt F)) : val12 V0 (Proc.devRef .tc main_arg5) = (V0 (Proc.devRef .tc main_arg5)) :=
  (w12_keep (val11 V0) main_arg5 (by decide)).trans (val11_main_arg5 V0)
theorem val12_main_arg6 (V0 : Valuation τ sig (Elt F)) : val12 V0 (Proc.devRef .tc main_arg6) = (V0 (Proc.devRef .tc main_arg6)) :=
  (w12_keep (val11 V0) main_arg6 (by decide)).trans (val11_main_arg6 V0)
theorem val12_main_arg7 (V0 : Valuation τ sig (Elt F)) : val12 V0 (Proc.devRef .tc main_arg7) = (V0 (Proc.devRef .tc main_arg7)) :=
  (w12_keep (val11 V0) main_arg7 (by decide)).trans (val11_main_arg7 V0)
theorem val12_main_arg8 (V0 : Valuation τ sig (Elt F)) : val12 V0 (Proc.devRef .tc main_arg8) = (V0 (Proc.devRef .tc main_arg8)) :=
  (w12_keep (val11 V0) main_arg8 (by decide)).trans (val11_main_arg8 V0)
theorem val12_main_arg9 (V0 : Valuation τ sig (Elt F)) : val12 V0 (Proc.devRef .tc main_arg9) = (V0 (Proc.devRef .tc main_arg9)) :=
  (w12_keep (val11 V0) main_arg9 (by decide)).trans (val11_main_arg9 V0)
theorem val12_main_arg10 (V0 : Valuation τ sig (Elt F)) : val12 V0 (Proc.devRef .tc main_arg10) = (V0 (Proc.devRef .tc main_arg10)) :=
  (w12_keep (val11 V0) main_arg10 (by decide)).trans (val11_main_arg10 V0)
theorem val12_main_arg11 (V0 : Valuation τ sig (Elt F)) : val12 V0 (Proc.devRef .tc main_arg11) = (V0 (Proc.devRef .tc main_arg11)) :=
  (w12_keep (val11 V0) main_arg11 (by decide)).trans (val11_main_arg11 V0)

/-- The buffer contents after the first 13 stretches. -/
def val13 (V0 : Valuation τ sig (Elt F)) : Valuation τ sig (Elt F) := after w13 (val12 V0)
theorem val13_main_v122 (V0 : Valuation τ sig (Elt F)) : val13 V0 (Proc.devRef .tc main_v122) = conv64 (V0 (Proc.devRef .tc main_arg1)) (bnLayer (conv128 (V0 (Proc.devRef .tc main_arg1)) (bnLayer (conv128 (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11)) :=
  (w13_main_v122 (val12 V0)).trans (by rw [val12_main_v3 V0, val12_main_v6 V0, val12_main_v31 V0, val12_main_v105 V0, val12_main_arg10 V0, val12_main_arg11 V0] <;> rfl)
theorem val13_main_arg0 (V0 : Valuation τ sig (Elt F)) : val13 V0 (Proc.devRef .tc main_arg0) = (V0 (Proc.devRef .tc main_arg0)) :=
  (w13_keep (val12 V0) main_arg0 (by decide)).trans (val12_main_arg0 V0)
theorem val13_main_arg1 (V0 : Valuation τ sig (Elt F)) : val13 V0 (Proc.devRef .tc main_arg1) = (V0 (Proc.devRef .tc main_arg1)) :=
  (w13_keep (val12 V0) main_arg1 (by decide)).trans (val12_main_arg1 V0)
theorem val13_main_arg2 (V0 : Valuation τ sig (Elt F)) : val13 V0 (Proc.devRef .tc main_arg2) = (V0 (Proc.devRef .tc main_arg2)) :=
  (w13_keep (val12 V0) main_arg2 (by decide)).trans (val12_main_arg2 V0)
theorem val13_main_arg3 (V0 : Valuation τ sig (Elt F)) : val13 V0 (Proc.devRef .tc main_arg3) = (V0 (Proc.devRef .tc main_arg3)) :=
  (w13_keep (val12 V0) main_arg3 (by decide)).trans (val12_main_arg3 V0)
theorem val13_main_arg4 (V0 : Valuation τ sig (Elt F)) : val13 V0 (Proc.devRef .tc main_arg4) = (V0 (Proc.devRef .tc main_arg4)) :=
  (w13_keep (val12 V0) main_arg4 (by decide)).trans (val12_main_arg4 V0)
theorem val13_main_arg5 (V0 : Valuation τ sig (Elt F)) : val13 V0 (Proc.devRef .tc main_arg5) = (V0 (Proc.devRef .tc main_arg5)) :=
  (w13_keep (val12 V0) main_arg5 (by decide)).trans (val12_main_arg5 V0)
theorem val13_main_arg6 (V0 : Valuation τ sig (Elt F)) : val13 V0 (Proc.devRef .tc main_arg6) = (V0 (Proc.devRef .tc main_arg6)) :=
  (w13_keep (val12 V0) main_arg6 (by decide)).trans (val12_main_arg6 V0)
theorem val13_main_arg7 (V0 : Valuation τ sig (Elt F)) : val13 V0 (Proc.devRef .tc main_arg7) = (V0 (Proc.devRef .tc main_arg7)) :=
  (w13_keep (val12 V0) main_arg7 (by decide)).trans (val12_main_arg7 V0)
theorem val13_main_arg8 (V0 : Valuation τ sig (Elt F)) : val13 V0 (Proc.devRef .tc main_arg8) = (V0 (Proc.devRef .tc main_arg8)) :=
  (w13_keep (val12 V0) main_arg8 (by decide)).trans (val12_main_arg8 V0)
theorem val13_main_arg9 (V0 : Valuation τ sig (Elt F)) : val13 V0 (Proc.devRef .tc main_arg9) = (V0 (Proc.devRef .tc main_arg9)) :=
  (w13_keep (val12 V0) main_arg9 (by decide)).trans (val12_main_arg9 V0)
theorem val13_main_arg10 (V0 : Valuation τ sig (Elt F)) : val13 V0 (Proc.devRef .tc main_arg10) = (V0 (Proc.devRef .tc main_arg10)) :=
  (w13_keep (val12 V0) main_arg10 (by decide)).trans (val12_main_arg10 V0)
theorem val13_main_arg11 (V0 : Valuation τ sig (Elt F)) : val13 V0 (Proc.devRef .tc main_arg11) = (V0 (Proc.devRef .tc main_arg11)) :=
  (w13_keep (val12 V0) main_arg11 (by decide)).trans (val12_main_arg11 V0)

/-- The buffer contents after the first 14 stretches. -/
def val14 (V0 : Valuation τ sig (Elt F)) : Valuation τ sig (Elt F) := after w14 (val13 V0)
theorem val14_main_v123 (V0 : Valuation τ sig (Elt F)) : val14 V0 (Proc.devRef .tc main_v123) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  (w14_main_v123 (val13 V0)).trans (by rw [val13_main_v122 V0] <;> rfl)
theorem val14_main_arg0 (V0 : Valuation τ sig (Elt F)) : val14 V0 (Proc.devRef .tc main_arg0) = (V0 (Proc.devRef .tc main_arg0)) :=
  (w14_keep (val13 V0) main_arg0 (by decide)).trans (val13_main_arg0 V0)
theorem val14_main_arg1 (V0 : Valuation τ sig (Elt F)) : val14 V0 (Proc.devRef .tc main_arg1) = (V0 (Proc.devRef .tc main_arg1)) :=
  (w14_keep (val13 V0) main_arg1 (by decide)).trans (val13_main_arg1 V0)
theorem val14_main_arg2 (V0 : Valuation τ sig (Elt F)) : val14 V0 (Proc.devRef .tc main_arg2) = (V0 (Proc.devRef .tc main_arg2)) :=
  (w14_keep (val13 V0) main_arg2 (by decide)).trans (val13_main_arg2 V0)
theorem val14_main_arg3 (V0 : Valuation τ sig (Elt F)) : val14 V0 (Proc.devRef .tc main_arg3) = (V0 (Proc.devRef .tc main_arg3)) :=
  (w14_keep (val13 V0) main_arg3 (by decide)).trans (val13_main_arg3 V0)
theorem val14_main_arg4 (V0 : Valuation τ sig (Elt F)) : val14 V0 (Proc.devRef .tc main_arg4) = (V0 (Proc.devRef .tc main_arg4)) :=
  (w14_keep (val13 V0) main_arg4 (by decide)).trans (val13_main_arg4 V0)
theorem val14_main_arg5 (V0 : Valuation τ sig (Elt F)) : val14 V0 (Proc.devRef .tc main_arg5) = (V0 (Proc.devRef .tc main_arg5)) :=
  (w14_keep (val13 V0) main_arg5 (by decide)).trans (val13_main_arg5 V0)
theorem val14_main_arg6 (V0 : Valuation τ sig (Elt F)) : val14 V0 (Proc.devRef .tc main_arg6) = (V0 (Proc.devRef .tc main_arg6)) :=
  (w14_keep (val13 V0) main_arg6 (by decide)).trans (val13_main_arg6 V0)
theorem val14_main_arg7 (V0 : Valuation τ sig (Elt F)) : val14 V0 (Proc.devRef .tc main_arg7) = (V0 (Proc.devRef .tc main_arg7)) :=
  (w14_keep (val13 V0) main_arg7 (by decide)).trans (val13_main_arg7 V0)
theorem val14_main_arg8 (V0 : Valuation τ sig (Elt F)) : val14 V0 (Proc.devRef .tc main_arg8) = (V0 (Proc.devRef .tc main_arg8)) :=
  (w14_keep (val13 V0) main_arg8 (by decide)).trans (val13_main_arg8 V0)
theorem val14_main_arg9 (V0 : Valuation τ sig (Elt F)) : val14 V0 (Proc.devRef .tc main_arg9) = (V0 (Proc.devRef .tc main_arg9)) :=
  (w14_keep (val13 V0) main_arg9 (by decide)).trans (val13_main_arg9 V0)
theorem val14_main_arg10 (V0 : Valuation τ sig (Elt F)) : val14 V0 (Proc.devRef .tc main_arg10) = (V0 (Proc.devRef .tc main_arg10)) :=
  (w14_keep (val13 V0) main_arg10 (by decide)).trans (val13_main_arg10 V0)
theorem val14_main_arg11 (V0 : Valuation τ sig (Elt F)) : val14 V0 (Proc.devRef .tc main_arg11) = (V0 (Proc.devRef .tc main_arg11)) :=
  (w14_keep (val13 V0) main_arg11 (by decide)).trans (val13_main_arg11 V0)

/-- The contents after all of @main's operations are the contents after the last stretch. -/
theorem after_ops_val (V0 : Valuation τ sig (Elt F)) : after ops V0 = val14 V0 := after_ops V0

/-- On every device, for any float values, from any memory with zero counters: every weakly fair execution of
    @main terminates with the result at the stages' composition of the arguments and the arguments unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v123) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v123).trans (by rw [after_ops_val]; exact val14_main_v123 (launchContents m c)),
      (h c main_arg0).trans (by rw [after_ops_val]; exact val14_main_arg0 (launchContents m c)),
      (h c main_arg1).trans (by rw [after_ops_val]; exact val14_main_arg1 (launchContents m c)),
      (h c main_arg2).trans (by rw [after_ops_val]; exact val14_main_arg2 (launchContents m c)),
      (h c main_arg3).trans (by rw [after_ops_val]; exact val14_main_arg3 (launchContents m c)),
      (h c main_arg4).trans (by rw [after_ops_val]; exact val14_main_arg4 (launchContents m c)),
      (h c main_arg5).trans (by rw [after_ops_val]; exact val14_main_arg5 (launchContents m c)),
      (h c main_arg6).trans (by rw [after_ops_val]; exact val14_main_arg6 (launchContents m c)),
      (h c main_arg7).trans (by rw [after_ops_val]; exact val14_main_arg7 (launchContents m c)),
      (h c main_arg8).trans (by rw [after_ops_val]; exact val14_main_arg8 (launchContents m c)),
      (h c main_arg9).trans (by rw [after_ops_val]; exact val14_main_arg9 (launchContents m c)),
      (h c main_arg10).trans (by rw [after_ops_val]; exact val14_main_arg10 (launchContents m c)),
      (h c main_arg11).trans (by rw [after_ops_val]; exact val14_main_arg11 (launchContents m c))⟩)
    (run_seq scopedRefs_eq scopedSems_eq defs main (fun _ => ops) main_eq (fun _ => ops_sub) m ρ (fun _ => ops_fresh))

/-- The run at the extended reals: the reference ends with its result buffer at `result` of its arguments'
    launch contents, and its arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v123) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  run_gen m ρ

/-- The reference runs and leaves its arguments unchanged, from any memory. -/
theorem frame : Cert.frame_ReferenceIdeal (hReferenceIdeal := Cert.ReferenceIdeal.Gen.facts) (hPre_finite_inputs := Cert.Pre_finite_inputs.Gen.facts) :=
  fun m ρ _ => (θ_run _ _ _).mono (fun _ h c => (h c).2) (run m ρ)

end Cert.ReferenceIdeal.RefValue

end
-- ==== Proof.KI.HostRead.Stages.lean ====
/- What the kernel program's stretches of host operations compute, stage by stage: one definition per
   source step (index vectors with a self-loop per node, degree normalisation, neighbourhood aggregation,
   a bias as one row, the batch mean and variance from the accumulated column sums), each over plain
   arrays, written with the program's own host operations and dimension records, for any float family. -/
import proofs.«111771_j80977313399687_1_alg».proof.Proof.Gen.KernelIdeal

noncomputable section

namespace Cert.KernelIdeal.Hand

open Cert.KernelIdeal Cert.KernelIdeal.Gen Idealize.ShloMosaic Idealize.SL.Sem

variable {F : FTy → Type} [FloatOps F]

/-! ## Index vectors -/

/-- The node numbers `0 … N-1`: the self-loop each node gets. -/
def loopsK : (⟨S50000, .i32⟩ : BufTy).Contents (Elt F) := iotaInDim S50000 32 0

/-- Row `0` of the edge table as a vector: the given edges' sources. -/
def edgeRow0K (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row `1` of the edge table as a vector: the given edges' targets. -/
def edgeRow1K (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- Message sources: the given edges' sources, then one self-loop per node. -/
def srcK (ei : (⟨S2x800000, .i32⟩ : BufTy).Contents (Elt F)) : (⟨S850000, .i32⟩ : BufTy).Contents (Elt F) :=
  concatenate S850000 0 [⟨S800000, edgeRow0K ei⟩, ⟨S50000, loopsK (F := F)⟩] concatenates_S800000_S50000_S850000_d0

/-- Aggregation targets: the given edges' targets, then one self-loop per node. -/
def dstK (ei : (⟨S2x800000, .i32⟩ : BufTy).Contents (Elt F)) : (⟨S850000, .i32⟩ : BufTy).Contents (Elt F) :=
  concatenate S850000 0 [⟨S800000, edgeRow1K ei⟩, ⟨S50000, loopsK (F := F)⟩] concatenates_S800000_S50000_S850000_d0

/-- An index vector as the one-column index table a scatter reads. -/
def colIdxK (i : (⟨S850000, .i32⟩ : BufTy).Contents (Elt F)) : (⟨S850000x1, .i32⟩ : BufTy).Contents (Elt F) :=
  broadcastInDim S850000x1 ![0] bcast_S850000_S850000x1_0 i

/-- An index vector as the one-column index table a gather reads: a negative index counts from the end
    (`i + N` where `i < 0`), as array indexing does. -/
def wrapIdxK (i : (⟨S850000, .i32⟩ : BufTy).Contents (Elt F)) : (⟨S850000x1, .i32⟩ : BufTy).Contents (Elt F) :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-! ## Symmetric normalisation -/

/-- The degree of each node: the number of edges (self-loops included) that end in it, a scatter-add of ones. -/
def degK (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (colIdxK d)
    (broadcastInDim S850000 ![] bcast_S_S850000 (constant S_ .f32 0x3F800000#32))

/-- `deg^(-1/2)` where the degree is positive, `0` elsewhere. -/
def disK (dg : (⟨S50000, .f32⟩ : BufTy).Contents (Elt F)) : (⟨S50000, .f32⟩ : BufTy).Contents (Elt F) :=
  select (cmpf .ogt dg (broadcastInDim S50000 ![] bcast_S_S50000 (constant S_ .f32 0x00000000#32)))
    (Host.rsqrt (maximumf dg (broadcastInDim S50000 ![] bcast_S_S50000 (constant S_ .f32 0x3F800000#32))))
    (broadcastInDim S50000 ![] bcast_S_S50000 (constant S_ .f32 0x00000000#32))

/-- The edge weights from a per-node factor: the factor at the source times the factor at the target. -/
def normFromK (ds : (⟨S50000, .f32⟩ : BufTy).Contents (Elt F)) (s d : (⟨S850000, .i32⟩ : BufTy).Contents (Elt F)) : (⟨S850000, .f32⟩ : BufTy).Contents (Elt F) :=
  mulf (Host.gather gather_S50000_S850000x1_S850000_n_0_n_n_0_1_1 ds (wrapIdxK s))
    (Host.gather gather_S50000_S850000x1_S850000_n_0_n_n_0_1_1 ds (wrapIdxK d))

/-- The edge weights `dis[src] * dis[dst]`, `dis` the inverse square root of the degree counted at the targets. -/
def normK (s d : (⟨S850000, .i32⟩ : BufTy).Contents (Elt F)) : (⟨S850000, .f32⟩ : BufTy).Contents (Elt F) :=
  normFromK (disK (degK d)) s d

/-! ## Neighbourhood aggregation -/

/-- An edge weight repeated along its edge's feature row (128 wide). -/
def edgeCols128K (n : (⟨S850000, .f32⟩ : BufTy).Contents (Elt F)) : (⟨S850000x128, .f32⟩ : BufTy).Contents (Elt F) :=
  broadcastInDim S850000x128 ![0, 1] bcast_S850000x1_S850000x128_0_1 (broadcastInDim S850000x1 ![0] bcast_S850000_S850000x1_0 n)

/-- An edge weight repeated along its edge's feature row (64 wide). -/
def edgeCols64K (n : (⟨S850000, .f32⟩ : BufTy).Contents (Elt F)) : (⟨S850000x64, .f32⟩ : BufTy).Contents (Elt F) :=
  broadcastInDim S850000x64 ![0, 1] bcast_S850000x1_S850000x64_0_1 (broadcastInDim S850000x1 ![0] bcast_S850000_S850000x1_0 n)

/-- Neighbourhood aggregation, 128 wide: each edge carries its source's row times the edge's weight, and
    the rows arriving at a node are summed (a scatter-add into zeros). -/
def aggK128 (s d : (⟨S850000, .i32⟩ : BufTy).Contents (Elt F)) (nrm : (⟨S850000, .f32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (colIdxK d)
    (mulf (Host.gather gather_S50000x128_S850000x1_S850000x128_1_0_n_n_0_1_1128 h (wrapIdxK s)) (edgeCols128K nrm))

/-- Neighbourhood aggregation, 64 wide. -/
def aggK64 (s d : (⟨S850000, .i32⟩ : BufTy).Contents (Elt F)) (nrm : (⟨S850000, .f32⟩ : BufTy).Contents (Elt F)) (h : (⟨S50000x64, .f32⟩ : BufTy).Contents (Elt F)) :
    (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (colIdxK d)
    (mulf (Host.gather gather_S50000x64_S850000x1_S850000x64_1_0_n_n_0_1_164 h (wrapIdxK s)) (edgeCols64K nrm))

/-! ## Vectors as one row -/

/-- A 128-vector as a one-row matrix (the same entries). -/
def rowOf128 (b : (⟨S128, .f32⟩ : BufTy).Contents (Elt F)) : (⟨S1x128, .f32⟩ : BufTy).Contents (Elt F) :=
  shapeCast S1x128 b shapeCasts_S128_S1x128

/-- A 64-vector as a one-row matrix (the same entries). -/
def rowOf64 (b : (⟨S64, .f32⟩ : BufTy).Contents (Elt F)) : (⟨S1x64, .f32⟩ : BufTy).Contents (Elt F) :=
  shapeCast S1x64 b shapeCasts_S64_S1x64

/-! ## Batch statistics from the accumulated column sums -/

/-- The number of nodes, `50000.0`, on every column of a row. -/
def countRowK : (⟨S1x128, .f32⟩ : BufTy).Contents (Elt F) :=
  broadcastInDim S1x128 ![] bcast_S_S1x128 (constant S_ .f32 0x47435000#32)

/-- The column means: the row of column sums over the number of nodes. -/
def meanK (s : (⟨S1x128, .f32⟩ : BufTy).Contents (Elt F)) : (⟨S1x128, .f32⟩ : BufTy).Contents (Elt F) :=
  Host.divf s (countRowK (F := F))

/-- The column variances (biased): the mean of the squares less the square of the mean. -/
def varK (s sq : (⟨S1x128, .f32⟩ : BufTy).Contents (Elt F)) : (⟨S1x128, .f32⟩ : BufTy).Contents (Elt F) :=
  subf (Host.divf sq (countRowK (F := F))) (mulf (meanK s) (meanK s))

end Cert.KernelIdeal.Hand

end
-- ==== Proof.KI.HostRead.Ops.lean ====
/- Each stretch of host operations of the kernel program, read back at the buffers later items use, from
   arbitrary entry contents `V`: the buffer holds the stage function of the entry contents of the stretch's
   inputs. -/
import proofs.«111771_j80977313399687_1_alg».proof.Proof.Gen.KernelIdeal.Launch
import proofs.«111771_j80977313399687_1_alg».proof.Proof.KI.HostRead.Stages

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

variable (V : Valuation τ sig (Elt F))

/-! ## The first stretch: the index vectors, the degree, and the two branches of its inverse square root -/

theorem ops0_v3 : StableHlo.after hostOps0 V (Proc.devRef .tc main_v3) = srcK (V (Proc.devRef .tc main_arg1)) := by
  after_results; rfl
theorem ops0_v6 : StableHlo.after hostOps0 V (Proc.devRef .tc main_v6) = dstK (V (Proc.devRef .tc main_arg1)) := by
  after_results; rfl
theorem ops0_v12 : StableHlo.after hostOps0 V (Proc.devRef .tc main_v12)
    = cmpf .ogt (degK (dstK (V (Proc.devRef .tc main_arg1)))) (broadcastInDim S50000 ![] bcast_S_S50000 (constant S_ .f32 0x00000000#32)) := by
  after_results; rfl
theorem ops0_v15 : StableHlo.after hostOps0 V (Proc.devRef .tc main_v15)
    = Host.rsqrt (maximumf (degK (dstK (V (Proc.devRef .tc main_arg1)))) (broadcastInDim S50000 ![] bcast_S_S50000 (constant S_ .f32 0x3F800000#32))) := by
  after_results; rfl
theorem ops0_cst3 : StableHlo.after hostOps0 V (Proc.devRef .tc main_cst_3) = (constant S_ .f32 0x00000000#32 : (⟨S_, .f32⟩ : BufTy).Contents (Elt F)) := by
  after_results

/-! ## The selection between the two branches -/

theorem ops0_1_v16 : StableHlo.after hostOps0_1 V (Proc.devRef .tc main_v16)
    = select (V (Proc.devRef .tc main_v12)) (V (Proc.devRef .tc main_v15)) (broadcastInDim S50000 ![] bcast_S_S50000 (V (Proc.devRef .tc main_cst_3))) := by
  after_results; rfl

/-! ## The edge weights -/

theorem ops0_2_v31 : StableHlo.after hostOps0_2 V (Proc.devRef .tc main_v31)
    = normFromK (V (Proc.devRef .tc main_v16)) (V (Proc.devRef .tc main_v3)) (V (Proc.devRef .tc main_v6)) := by
  after_results_simp; rfl

/-! ## The three aggregations, each with its bias as a row -/

theorem ops1_v45 : StableHlo.after hostOps1 V (Proc.devRef .tc main_v45)
    = aggK128 (V (Proc.devRef .tc main_v3)) (V (Proc.devRef .tc main_v6)) (V (Proc.devRef .tc main_v31)) (V (Proc.devRef .tc main_v32)) := by
  after_results_simp; rfl
theorem ops1_v46 : StableHlo.after hostOps1 V (Proc.devRef .tc main_v46) = rowOf128 (V (Proc.devRef .tc main_arg3)) := by
  after_results; rfl

theorem ops4_v70 : StableHlo.after hostOps4 V (Proc.devRef .tc main_v70)
    = aggK128 (V (Proc.devRef .tc main_v3)) (V (Proc.devRef .tc main_v6)) (V (Proc.devRef .tc main_v31)) (V (Proc.devRef .tc main_v57)) := by
  after_results_simp; rfl
theorem ops4_v71 : StableHlo.after hostOps4 V (Proc.devRef .tc main_v71) = rowOf128 (V (Proc.devRef .tc main_arg7)) := by
  after_results; rfl

theorem ops7_v95 : StableHlo.after hostOps7 V (Proc.devRef .tc main_v95)
    = aggK64 (V (Proc.devRef .tc main_v3)) (V (Proc.devRef .tc main_v6)) (V (Proc.devRef .tc main_v31)) (V (Proc.devRef .tc main_v82)) := by
  after_results_simp; rfl
theorem ops7_v96 : StableHlo.after hostOps7 V (Proc.devRef .tc main_v96) = rowOf64 (V (Proc.devRef .tc main_arg11)) := by
  after_results; rfl

/-! ## The two batch statistics, each with its scale and shift as rows -/

theorem ops2_v49 : StableHlo.after hostOps2 V (Proc.devRef .tc main_v49) = meanK (V (Proc.devRef .tc main_v47_1)) := by
  after_results; rfl
theorem ops2_v53 : StableHlo.after hostOps2 V (Proc.devRef .tc main_v53)
    = varK (V (Proc.devRef .tc main_v47_1)) (V (Proc.devRef .tc main_v47_2)) := by
  after_results; rfl
theorem ops2_v54 : StableHlo.after hostOps2 V (Proc.devRef .tc main_v54) = rowOf128 (V (Proc.devRef .tc main_arg4)) := by
  after_results; rfl
theorem ops2_v55 : StableHlo.after hostOps2 V (Proc.devRef .tc main_v55) = rowOf128 (V (Proc.devRef .tc main_arg5)) := by
  after_results; rfl

theorem ops5_v74 : StableHlo.after hostOps5 V (Proc.devRef .tc main_v74) = meanK (V (Proc.devRef .tc main_v72_1)) := by
  after_results; rfl
theorem ops5_v78 : StableHlo.after hostOps5 V (Proc.devRef .tc main_v78)
    = varK (V (Proc.devRef .tc main_v72_1)) (V (Proc.devRef .tc main_v72_2)) := by
  after_results; rfl
theorem ops5_v79 : StableHlo.after hostOps5 V (Proc.devRef .tc main_v79) = rowOf128 (V (Proc.devRef .tc main_arg8)) := by
  after_results; rfl
theorem ops5_v80 : StableHlo.after hostOps5 V (Proc.devRef .tc main_v80) = rowOf128 (V (Proc.devRef .tc main_arg9)) := by
  after_results; rfl

end Cert.KernelIdeal.Hand

end
-- ==== Proof.KI.HostRead.lean ====
/- What the kernel program's stretches of host operations leave in the buffers later items read, on the
   chain of boundary contents: each buffer is a stage function of the contents at the stretch's entry; and
   every buffer a stretch reads that an earlier item wrote, or that is an argument, is carried unchanged
   through the items between, so that each read comes down to the launch memory and to the regions' own
   output arrays. -/
import proofs.«111771_j80977313399687_1_alg».proof.Proof.KI.Run.Chain
import proofs.«111771_j80977313399687_1_alg».proof.Proof.KI.HostRead.Ops

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-! ## The index vectors and the edge weights (the three stretches before the first region) -/

theorem W1_v3 (c : Dev nD) : W1 m ρ c main_v3 = srcK (m ((c : Thread nD τ).loc main_arg1)) := ops0_v3 (W0 m ρ c)
theorem W1_v6 (c : Dev nD) : W1 m ρ c main_v6 = dstK (m ((c : Thread nD τ).loc main_arg1)) := ops0_v6 (W0 m ρ c)
theorem W2_v3 (c : Dev nD) : W2 m ρ c main_v3 = srcK (m ((c : Thread nD τ).loc main_arg1)) := (W2_keep m ρ c main_v3 (by decide)).trans (W1_v3 m ρ c)
theorem W2_v6 (c : Dev nD) : W2 m ρ c main_v6 = dstK (m ((c : Thread nD τ).loc main_arg1)) := (W2_keep m ρ c main_v6 (by decide)).trans (W1_v6 m ρ c)
/-- Message sources. -/
theorem W3_v3 (c : Dev nD) : W3 m ρ c main_v3 = srcK (m ((c : Thread nD τ).loc main_arg1)) := (W3_keep m ρ c main_v3 (by decide)).trans (W2_v3 m ρ c)
/-- Aggregation targets. -/
theorem W3_v6 (c : Dev nD) : W3 m ρ c main_v6 = dstK (m ((c : Thread nD τ).loc main_arg1)) := (W3_keep m ρ c main_v6 (by decide)).trans (W2_v6 m ρ c)

/-- The inverse square root of the degree (zero where the degree is not positive). -/
theorem W2_v16 (c : Dev nD) : W2 m ρ c main_v16 = disK (degK (dstK (m ((c : Thread nD τ).loc main_arg1)))) := by
  refine (ops0_1_v16 (W1 m ρ c)).trans ?_
  rw [show W1 m ρ c (Proc.devRef .tc main_v12) = _ from ops0_v12 (W0 m ρ c),
    show W1 m ρ c (Proc.devRef .tc main_v15) = _ from ops0_v15 (W0 m ρ c),
    show W1 m ρ c (Proc.devRef .tc main_cst_3) = _ from ops0_cst3 (W0 m ρ c)]
  rfl

/-- The edge weights. -/
theorem W3_v31 (c : Dev nD) : W3 m ρ c main_v31 = normK (srcK (m ((c : Thread nD τ).loc main_arg1))) (dstK (m ((c : Thread nD τ).loc main_arg1))) := by
  refine (ops0_2_v31 (W2 m ρ c)).trans ?_
  rw [W2_v16 m ρ c, W2_v3 m ρ c, W2_v6 m ρ c]
  rfl

/-! ## The carries: the index vectors and the edge weights reach every aggregation as first computed -/
theorem W4_v3_keep (c : Dev nD) : W4 m ρ c main_v3 = W3 m ρ c main_v3 :=
  (W4_keep m ρ c main_v3 (by decide))
theorem W4_v3 (c : Dev nD) : W4 m ρ c main_v3 = srcK (m ((c : Thread nD τ).loc main_arg1)) := (W4_v3_keep m ρ c).trans (W3_v3 m ρ c)
theorem W4_v6_keep (c : Dev nD) : W4 m ρ c main_v6 = W3 m ρ c main_v6 :=
  (W4_keep m ρ c main_v6 (by decide))
theorem W4_v6 (c : Dev nD) : W4 m ρ c main_v6 = dstK (m ((c : Thread nD τ).loc main_arg1)) := (W4_v6_keep m ρ c).trans (W3_v6 m ρ c)
theorem W4_v31_keep (c : Dev nD) : W4 m ρ c main_v31 = W3 m ρ c main_v31 :=
  (W4_keep m ρ c main_v31 (by decide))
theorem W4_v31 (c : Dev nD) : W4 m ρ c main_v31 = normK (srcK (m ((c : Thread nD τ).loc main_arg1))) (dstK (m ((c : Thread nD τ).loc main_arg1))) := (W4_v31_keep m ρ c).trans (W3_v31 m ρ c)
theorem W9_v3_keep (c : Dev nD) : W9 m ρ c main_v3 = W3 m ρ c main_v3 :=
  (W9_keep m ρ c main_v3 (by decide)).trans <| (W8_keep m ρ c main_v3 (by decide)).trans <| (W7_keep m ρ c main_v3 (by decide)).trans <| (W6_keep m ρ c main_v3 (by decide)).trans <| (W5_keep m ρ c main_v3 (by decide)).trans <| (W4_keep m ρ c main_v3 (by decide))
theorem W9_v3 (c : Dev nD) : W9 m ρ c main_v3 = srcK (m ((c : Thread nD τ).loc main_arg1)) := (W9_v3_keep m ρ c).trans (W3_v3 m ρ c)
theorem W9_v6_keep (c : Dev nD) : W9 m ρ c main_v6 = W3 m ρ c main_v6 :=
  (W9_keep m ρ c main_v6 (by decide)).trans <| (W8_keep m ρ c main_v6 (by decide)).trans <| (W7_keep m ρ c main_v6 (by decide)).trans <| (W6_keep m ρ c main_v6 (by decide)).trans <| (W5_keep m ρ c main_v6 (by decide)).trans <| (W4_keep m ρ c main_v6 (by decide))
theorem W9_v6 (c : Dev nD) : W9 m ρ c main_v6 = dstK (m ((c : Thread nD τ).loc main_arg1)) := (W9_v6_keep m ρ c).trans (W3_v6 m ρ c)
theorem W9_v31_keep (c : Dev nD) : W9 m ρ c main_v31 = W3 m ρ c main_v31 :=
  (W9_keep m ρ c main_v31 (by decide)).trans <| (W8_keep m ρ c main_v31 (by decide)).trans <| (W7_keep m ρ c main_v31 (by decide)).trans <| (W6_keep m ρ c main_v31 (by decide)).trans <| (W5_keep m ρ c main_v31 (by decide)).trans <| (W4_keep m ρ c main_v31 (by decide))
theorem W9_v31 (c : Dev nD) : W9 m ρ c main_v31 = normK (srcK (m ((c : Thread nD τ).loc main_arg1))) (dstK (m ((c : Thread nD τ).loc main_arg1))) := (W9_v31_keep m ρ c).trans (W3_v31 m ρ c)
theorem W14_v3_keep (c : Dev nD) : W14 m ρ c main_v3 = W3 m ρ c main_v3 :=
  (W14_keep m ρ c main_v3 (by decide)).trans <| (W13_keep m ρ c main_v3 (by decide)).trans <| (W12_keep m ρ c main_v3 (by decide)).trans <| (W11_keep m ρ c main_v3 (by decide)).trans <| (W10_keep m ρ c main_v3 (by decide)).trans <| (W9_keep m ρ c main_v3 (by decide)).trans <| (W8_keep m ρ c main_v3 (by decide)).trans <| (W7_keep m ρ c main_v3 (by decide)).trans <| (W6_keep m ρ c main_v3 (by decide)).trans <| (W5_keep m ρ c main_v3 (by decide)).trans <| (W4_keep m ρ c main_v3 (by decide))
theorem W14_v3 (c : Dev nD) : W14 m ρ c main_v3 = srcK (m ((c : Thread nD τ).loc main_arg1)) := (W14_v3_keep m ρ c).trans (W3_v3 m ρ c)
theorem W14_v6_keep (c : Dev nD) : W14 m ρ c main_v6 = W3 m ρ c main_v6 :=
  (W14_keep m ρ c main_v6 (by decide)).trans <| (W13_keep m ρ c main_v6 (by decide)).trans <| (W12_keep m ρ c main_v6 (by decide)).trans <| (W11_keep m ρ c main_v6 (by decide)).trans <| (W10_keep m ρ c main_v6 (by decide)).trans <| (W9_keep m ρ c main_v6 (by decide)).trans <| (W8_keep m ρ c main_v6 (by decide)).trans <| (W7_keep m ρ c main_v6 (by decide)).trans <| (W6_keep m ρ c main_v6 (by decide)).trans <| (W5_keep m ρ c main_v6 (by decide)).trans <| (W4_keep m ρ c main_v6 (by decide))
theorem W14_v6 (c : Dev nD) : W14 m ρ c main_v6 = dstK (m ((c : Thread nD τ).loc main_arg1)) := (W14_v6_keep m ρ c).trans (W3_v6 m ρ c)
theorem W14_v31_keep (c : Dev nD) : W14 m ρ c main_v31 = W3 m ρ c main_v31 :=
  (W14_keep m ρ c main_v31 (by decide)).trans <| (W13_keep m ρ c main_v31 (by decide)).trans <| (W12_keep m ρ c main_v31 (by decide)).trans <| (W11_keep m ρ c main_v31 (by decide)).trans <| (W10_keep m ρ c main_v31 (by decide)).trans <| (W9_keep m ρ c main_v31 (by decide)).trans <| (W8_keep m ρ c main_v31 (by decide)).trans <| (W7_keep m ρ c main_v31 (by decide)).trans <| (W6_keep m ρ c main_v31 (by decide)).trans <| (W5_keep m ρ c main_v31 (by decide)).trans <| (W4_keep m ρ c main_v31 (by decide))
theorem W14_v31 (c : Dev nD) : W14 m ρ c main_v31 = normK (srcK (m ((c : Thread nD τ).loc main_arg1))) (dstK (m ((c : Thread nD τ).loc main_arg1))) := (W14_v31_keep m ρ c).trans (W3_v31 m ρ c)

/-! ## The carries: an argument array a stretch reads is as launched -/
theorem W4_arg3 (c : Dev nD) : W4 m ρ c main_arg3 = m ((c : Thread nD τ).loc main_arg3) :=
  (W4_keep m ρ c main_arg3 (by decide)).trans <| (W3_keep m ρ c main_arg3 (by decide)).trans <| (W2_keep m ρ c main_arg3 (by decide)).trans <| (W1_keep m ρ c main_arg3 (by decide)).trans <| rfl
theorem W6_arg4 (c : Dev nD) : W6 m ρ c main_arg4 = m ((c : Thread nD τ).loc main_arg4) :=
  (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl
theorem W6_arg5 (c : Dev nD) : W6 m ρ c main_arg5 = m ((c : Thread nD τ).loc main_arg5) :=
  (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl
theorem W9_arg7 (c : Dev nD) : W9 m ρ c main_arg7 = m ((c : Thread nD τ).loc main_arg7) :=
  (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem W11_arg8 (c : Dev nD) : W11 m ρ c main_arg8 = m ((c : Thread nD τ).loc main_arg8) :=
  (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl
theorem W11_arg9 (c : Dev nD) : W11 m ρ c main_arg9 = m ((c : Thread nD τ).loc main_arg9) :=
  (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl
theorem W14_arg11 (c : Dev nD) : W14 m ρ c main_arg11 = m ((c : Thread nD τ).loc main_arg11) :=
  (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

/-! ## The reads: what each later stretch leaves, from the contents at its entry -/

/-- The first aggregation, of the first matmul's result. -/
theorem W5_v45 (c : Dev nD) : W5 m ρ c main_v45 = aggK128 (W4 m ρ c main_v3) (W4 m ρ c main_v6) (W4 m ρ c main_v31) (W4 m ρ c main_v32) :=
  ops1_v45 (W4 m ρ c)
theorem W5_v46 (c : Dev nD) : W5 m ρ c main_v46 = rowOf128 (W4 m ρ c main_arg3) := ops1_v46 (W4 m ρ c)

theorem W7_v49 (c : Dev nD) : W7 m ρ c main_v49 = meanK (W6 m ρ c main_v47_1) := ops2_v49 (W6 m ρ c)
theorem W7_v53 (c : Dev nD) : W7 m ρ c main_v53 = varK (W6 m ρ c main_v47_1) (W6 m ρ c main_v47_2) := ops2_v53 (W6 m ρ c)
theorem W7_v54 (c : Dev nD) : W7 m ρ c main_v54 = rowOf128 (W6 m ρ c main_arg4) := ops2_v54 (W6 m ρ c)
theorem W7_v55 (c : Dev nD) : W7 m ρ c main_v55 = rowOf128 (W6 m ρ c main_arg5) := ops2_v55 (W6 m ρ c)

/-- The second aggregation, of the second matmul's result. -/
theorem W10_v70 (c : Dev nD) : W10 m ρ c main_v70 = aggK128 (W9 m ρ c main_v3) (W9 m ρ c main_v6) (W9 m ρ c main_v31) (W9 m ρ c main_v57) :=
  ops4_v70 (W9 m ρ c)
theorem W10_v71 (c : Dev nD) : W10 m ρ c main_v71 = rowOf128 (W9 m ρ c main_arg7) := ops4_v71 (W9 m ρ c)

theorem W12_v74 (c : Dev nD) : W12 m ρ c main_v74 = meanK (W11 m ρ c main_v72_1) := ops5_v74 (W11 m ρ c)
theorem W12_v78 (c : Dev nD) : W12 m ρ c main_v78 = varK (W11 m ρ c main_v72_1) (W11 m ρ c main_v72_2) := ops5_v78 (W11 m ρ c)
theorem W12_v79 (c : Dev nD) : W12 m ρ c main_v79 = rowOf128 (W11 m ρ c main_arg8) := ops5_v79 (W11 m ρ c)
theorem W12_v80 (c : Dev nD) : W12 m ρ c main_v80 = rowOf128 (W11 m ρ c main_arg9) := ops5_v80 (W11 m ρ c)

/-- The third aggregation, of the third matmul's result (64 wide). -/
theorem W15_v95 (c : Dev nD) : W15 m ρ c main_v95 = aggK64 (W14 m ρ c main_v3) (W14 m ρ c main_v6) (W14 m ρ c main_v31) (W14 m ρ c main_v82) :=
  ops7_v95 (W14 m ρ c)
theorem W15_v96 (c : Dev nD) : W15 m ρ c main_v96 = rowOf64 (W14 m ρ c main_arg11) := ops7_v96 (W14 m ρ c)

/-! ## The reads with the carries applied: down to the launch memory and the regions' own output arrays -/

theorem W5_v45' (c : Dev nD) : W5 m ρ c main_v45
    = aggK128 (srcK (m ((c : Thread nD τ).loc main_arg1))) (dstK (m ((c : Thread nD τ).loc main_arg1))) (normK (srcK (m ((c : Thread nD τ).loc main_arg1))) (dstK (m ((c : Thread nD τ).loc main_arg1)))) (W4 m ρ c main_v32) := by
  rw [W5_v45, W4_v3, W4_v6, W4_v31]
theorem W5_v46' (c : Dev nD) : W5 m ρ c main_v46 = rowOf128 (m ((c : Thread nD τ).loc main_arg3)) := by rw [W5_v46, W4_arg3]
theorem W7_v54' (c : Dev nD) : W7 m ρ c main_v54 = rowOf128 (m ((c : Thread nD τ).loc main_arg4)) := by rw [W7_v54, W6_arg4]
theorem W7_v55' (c : Dev nD) : W7 m ρ c main_v55 = rowOf128 (m ((c : Thread nD τ).loc main_arg5)) := by rw [W7_v55, W6_arg5]
theorem W10_v70' (c : Dev nD) : W10 m ρ c main_v70
    = aggK128 (srcK (m ((c : Thread nD τ).loc main_arg1))) (dstK (m ((c : Thread nD τ).loc main_arg1))) (normK (srcK (m ((c : Thread nD τ).loc main_arg1))) (dstK (m ((c : Thread nD τ).loc main_arg1)))) (W9 m ρ c main_v57) := by
  rw [W10_v70, W9_v3, W9_v6, W9_v31]
theorem W10_v71' (c : Dev nD) : W10 m ρ c main_v71 = rowOf128 (m ((c : Thread nD τ).loc main_arg7)) := by rw [W10_v71, W9_arg7]
theorem W12_v79' (c : Dev nD) : W12 m ρ c main_v79 = rowOf128 (m ((c : Thread nD τ).loc main_arg8)) := by rw [W12_v79, W11_arg8]
theorem W12_v80' (c : Dev nD) : W12 m ρ c main_v80 = rowOf128 (m ((c : Thread nD τ).loc main_arg9)) := by rw [W12_v80, W11_arg9]
theorem W15_v95' (c : Dev nD) : W15 m ρ c main_v95
    = aggK64 (srcK (m ((c : Thread nD τ).loc main_arg1))) (dstK (m ((c : Thread nD τ).loc main_arg1))) (normK (srcK (m ((c : Thread nD τ).loc main_arg1))) (dstK (m ((c : Thread nD τ).loc main_arg1)))) (W14 m ρ c main_v82) := by
  rw [W15_v95, W14_v3, W14_v6, W14_v31]
theorem W15_v96' (c : Dev nD) : W15 m ρ c main_v96 = rowOf64 (m ((c : Thread nD τ).loc main_arg11)) := by rw [W15_v96, W14_arg11]

/-! ## What the regions read besides: arguments as launched, and a region's stored rows through the stretch after it -/

theorem W3_arg0 (c : Dev nD) : W3 m ρ c main_arg0 = m ((c : Thread nD τ).loc main_arg0) :=
  (W3_keep m ρ c main_arg0 (by decide)).trans <| (W2_keep m ρ c main_arg0 (by decide)).trans <| (W1_keep m ρ c main_arg0 (by decide)).trans <| rfl
theorem W3_arg2 (c : Dev nD) : W3 m ρ c main_arg2 = m ((c : Thread nD τ).loc main_arg2) :=
  (W3_keep m ρ c main_arg2 (by decide)).trans <| (W2_keep m ρ c main_arg2 (by decide)).trans <| (W1_keep m ρ c main_arg2 (by decide)).trans <| rfl
theorem W8_arg6 (c : Dev nD) : W8 m ρ c main_arg6 = m ((c : Thread nD τ).loc main_arg6) :=
  (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl
theorem W13_arg10 (c : Dev nD) : W13 m ρ c main_arg10 = m ((c : Thread nD τ).loc main_arg10) :=
  (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl
/-- The rows the first statistics region stored pass the stretch that forms the mean and the variance. -/
theorem W7_v47_0_keep (c : Dev nD) : W7 m ρ c main_v47_0 = W6 m ρ c main_v47_0 := W7_keep m ρ c main_v47_0 (by decide)
/-- The same for the second statistics region. -/
theorem W12_v72_0_keep (c : Dev nD) : W12 m ρ c main_v72_0 = W11 m ρ c main_v72_0 := W12_keep m ρ c main_v72_0 (by decide)

end Cert.KernelIdeal.Hand

end
-- ==== Proof.KI.HostRead.RefEq.lean ====
/- The kernel program's host stages are the reference's: the two programs print the same operations over
   dimension records that are different constants with equal fields, so each pair of stage functions is one
   function. -/
import proofs.«111771_j80977313399687_1_alg».proof.Proof.KI.HostRead.Stages
import proofs.«111771_j80977313399687_1_alg».proof.Proof.RefRun.Stages

noncomputable section

namespace Cert.KernelIdeal.Hand

open Idealize.ShloMosaic Idealize.SL.Sem

variable {F : FTy → Type} [FloatOps F]

theorem loopsK_eq : (loopsK (F := F)) = Cert.ReferenceIdeal.RefValue.loops := rfl
theorem edgeRow0K_eq : (edgeRow0K (F := F)) = Cert.ReferenceIdeal.RefValue.edgeRow0 := rfl
theorem edgeRow1K_eq : (edgeRow1K (F := F)) = Cert.ReferenceIdeal.RefValue.edgeRow1 := rfl
/-- Message sources. -/
theorem srcK_eq : (srcK (F := F)) = Cert.ReferenceIdeal.RefValue.src := rfl
/-- Aggregation targets. -/
theorem dstK_eq : (dstK (F := F)) = Cert.ReferenceIdeal.RefValue.dst := rfl
theorem colIdxK_eq : (colIdxK (F := F)) = Cert.ReferenceIdeal.RefValue.colIdx := rfl
theorem wrapIdxK_eq : (wrapIdxK (F := F)) = Cert.ReferenceIdeal.RefValue.wrapIdx := rfl
theorem degK_eq : (degK (F := F)) = Cert.ReferenceIdeal.RefValue.deg := rfl
theorem disK_eq : (disK (F := F)) = Cert.ReferenceIdeal.RefValue.dis := rfl
theorem normFromK_eq : (normFromK (F := F)) = Cert.ReferenceIdeal.RefValue.normFrom := rfl
/-- The edge weights, as a function of the sources and the targets. -/
theorem normK_eq : (normK (F := F)) = Cert.ReferenceIdeal.RefValue.norm := rfl
theorem edgeCols128K_eq : (edgeCols128K (F := F)) = Cert.ReferenceIdeal.RefValue.edgeCols128 := rfl
theorem edgeCols64K_eq : (edgeCols64K (F := F)) = Cert.ReferenceIdeal.RefValue.edgeCols64 := rfl
/-- Neighbourhood aggregation, 128 wide. -/
theorem aggK128_eq : (aggK128 (F := F)) = Cert.ReferenceIdeal.RefValue.aggregate128 := rfl
/-- Neighbourhood aggregation, 64 wide. -/
theorem aggK64_eq : (aggK64 (F := F)) = Cert.ReferenceIdeal.RefValue.aggregate64 := rfl

end Cert.KernelIdeal.Hand

end
-- ==== Proof.LibPlainMatmul.lean ====
/-
  Two readings at one entry, over the extended reals, for any extents and element formats.

  The product of an `[M, K]` array by a `[K, N]` array, accumulated into a block of zeros, is at entry `(p, q)` the sum
  over the contracted axis `k` of `lhs (p, k) * rhs (k, q)`: at a position `k` of the contracted axis the left operand is
  read at `(p, k)` and the right one at `(k, q)`, and the zero accumulator adds nothing.

  The sum along the second axis of an `[a, b]` array, from the neutral initial value, is at row `p` the sum over the
  columns `k` of the entry `(p, k)`.
-/
import Idealize.ShloMosaic.Lib.ValueIdx
import Idealize.ShloMosaic.PureOps.Ideal.Laws

noncomputable section

namespace LibPlainMatmul

open Idealize.ShloMosaic Idealize.ShloMosaic.ValueIdx
open scoped BigOperators

/-! ## A plain matrix product into a zero accumulator, read at an index -/

section Plain
variable {M K N : Nat}

/-- On its rows the left operand is read at the output's row. -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- On its columns the left operand is read at the position on the contracted axis. -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- On its rows the right operand is read at the position on the contracted axis. -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- On its columns the right operand is read at the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` matrix product accumulated into zeros is, at `(p, q)`, the sum over the contracted axis of the
    operands' products. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Plain

/-! ## A sum along the rows of a matrix, read at a row -/

/-- The sum over the second axis of an `[a, b]` array is, at row `p`, the sum over the columns `k` of the entry `(p, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c
  refine Fin.ext ?_
  match c with
  | ⟨0, _⟩ => rfl
  | ⟨1, _⟩ => rfl

end LibPlainMatmul
-- ==== Proof.KI.Val0.lean ====
/-
  Region 0 of @main, read on the extended reals: the array the row-block products leave, entry by entry.

  At grid point t the body multiplies rows 2000 t … 2000 t + 1999 of the activations by the whole weight matrix and
  stores the product as rows 2000 t … 2000 t + 1999 of the output. Rounding an operand to a narrower format is the
  identity on the extended reals and the accumulator starts at zero, so entry (p, q) of that block is the sum over the
  contracted axis k of activations (2000 t + p, k) times weights (k, q). The 25 blocks tile the 50000 rows, so the
  array ends holding, at every (p, q), the sum over k of activations (p, k) times weights (k, q).
-/
import proofs.«111771_j80977313399687_1_alg».proof.Proof.KI.R0
import proofs.«111771_j80977313399687_1_alg».proof.Proof.LibPlainMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The zero offsets of a whole-block access, as a constant function. -/
theorem zeroOff0 : (![0, 0] : Fin 2 → Nat) = fun _ => 0 := funext fun a => by fin_cases a <;> rfl

/-- The body's value at an entry of the block: the sum over the contracted axis of the operands' products. -/
theorem pay0_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact LibPlainMatmul.matmul_plain_zero_apply none (truncf .bf16 x0 bitsLt_bf16_f32) (truncf .bf16 x1 bitsLt_bf16_f32) p q

/-- The block indices of the three windows at every grid point: the activations' and the output's row block is the
    point, the weights are one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations and the weights as the region finds them, as arrays of extended reals. -/
abbrev arr0_0 (c : Dev nD) : S50000x128.Idx → EReal := V c (Pipeline.arrRef spec0 0)
abbrev arr0_1 (c : Dev nD) : S128x128.Idx → EReal := V c (Pipeline.arrRef spec0 1)

/-- The sum of products at entry (p, q). -/
def prod0 (c : Dev nD) (p : Fin 50000) (q : Fin 128) : EReal :=
  ∑ k : Fin 128, arr0_0 V c (ix2 p k) * arr0_1 V c (ix2 k q)

/-- The product array. -/
def G0 (c : Dev nD) : S50000x128.Idx → Elt Ideal .f32 := fun i => prod0 V c (i 0) (i 1)

/-- Row p of the activations' block at point t is row 2000 t + p of the activations. -/
theorem iblk0_0_apply (c : Dev nD) (t : Fin cfg0.N) (p : Fin 2000) (k : Fin 128) (P : Fin 50000)
    (hP : P.val = 2000 * t.val + p.val) :
    (iblk0 V c 0 t : Vec Ideal S2000x128 .f32) (ix2 p k) = arr0_0 V c (ix2 P k) := by
  obtain ⟨e0, e1, -⟩ := blockIdx0 t
  unfold iblk0
  rw [View.read_apply]
  refine congrArg (arr0_0 V c) ?_
  funext a
  apply Fin.ext
  match a with
  | ⟨0, _⟩ => show win0_0.index t (0 : Fin 2) * 2000 + 1 * p.val = P.val; omega
  | ⟨1, _⟩ => show win0_0.index t (1 : Fin 2) * 128 + 1 * k.val = k.val; omega

/-- The weights' block at every point is the weights. -/
theorem iblk0_1_apply (c : Dev nD) (t : Fin cfg0.N) (k : Fin 128) (q : Fin 128) :
    (iblk0 V c 1 t : Vec Ideal S128x128 .f32) (ix2 k q) = arr0_1 V c (ix2 k q) := by
  obtain ⟨-, -, e0, e1, -⟩ := blockIdx0 t
  unfold iblk0
  rw [View.read_apply]
  refine congrArg (arr0_1 V c) ?_
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (p, q) of the output's block at point t sits at (2000 t + p, q) of the output. -/
theorem emb0_2 (t : Fin cfg0.N) (p : Fin 2000) (q : Fin 128) (P : Fin 50000) (hP : P.val = 2000 * t.val + p.val) :
    ((cfg0.win 2).blk t).view.emb (ix2 p q) = (ix2 P q : S50000x128.Idx) := by
  obtain ⟨-, -, -, -, e0, e1⟩ := blockIdx0 t
  funext a
  apply Fin.ext
  match a with
  | ⟨0, _⟩ => show win0_2.index t (0 : Fin 2) * 2000 + 1 * p.val = P.val; omega
  | ⟨1, _⟩ => show win0_2.index t (1 : Fin 2) * 128 + 1 * q.val = q.val; omega

/-- What point t writes back is block t of the product array. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero zeroOff0]
  simp only [View.ld_unit_zero (S := S2000x128) zeroOff0, View.ld_unit_zero (S := S128x128) zeroOff0]
  funext j
  obtain ⟨p, q, rfl⟩ : ∃ (p : Fin 2000) (q : Fin 128), j = ix2 p q := ⟨j 0, j 1, eq_ix2 j⟩
  have hN : cfg0.N = 25 := N_0
  have ht : t.val < 25 := hN ▸ t.isLt
  have hP : 2000 * t.val + p.val < 50000 := by have := p.isLt; omega
  rw [View.read_apply, emb0_2 t p q ⟨2000 * t.val + p.val, hP⟩ rfl]
  refine (pay0_apply (iblk0 V c 0 t) (iblk0 V c 1 t) p q).trans ?_
  show _ = prod0 V c ⟨2000 * t.val + p.val, hP⟩ q
  unfold prod0
  refine Finset.sum_congr rfl fun k _ => ?_
  rw [iblk0_0_apply V c t p k ⟨2000 * t.val + p.val, hP⟩ rfl, iblk0_1_apply V c t k q]

/-- An index of the output is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every index of the output is in some point's block: row r is in block r / 2000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [mem_blk0]
  obtain ⟨-, -, -, -, e0, e1⟩ := blockIdx0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e0]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e1]; omega

/-- The output after the region is the product array. -/
theorem final0 (c : Dev nD) : (dat0 V c).arrAt 2 cfg0.N = G0 V c :=
  (dat0 V c).arrAt_eq_of_cover 2 (G0 V c) (fun t _ => flushed0_eq V c t) cover0

/-- Entry (p, q) of the output after the region: the sum over k of activations (p, k) times weights (k, q). -/
theorem val0 (c : Dev nD) (p : Fin 50000) (q : Fin 128) :
    (dat0 (F := Ideal) V c).arrAt 2 cfg0.N (ix2 p q) = ∑ k : Fin 128, arr0_0 V c (ix2 p k) * arr0_1 V c (ix2 k q) :=
  congrFun (final0 V c) (ix2 p q)

end Cert.KernelIdeal.Hand

end
-- ==== Proof.KI.Val2.lean ====
/-
  Region 2 of @main, read on the extended reals: the array the normalise-scale-shift-clamp body leaves, entry by entry.

  At grid point t the body takes rows 2000 t … 2000 t + 1999 of the activations h and the four one-row arrays (mean,
  variance, scale, shift), and stores, at (p, q) of the output's row block, the larger of zero and
  scale (0, q) * (h (p, q) - mean (0, q)) * rsqrt (variance (0, q) + ε) + shift (0, q): every operation is pointwise and a
  one-row array is repeated down the rows. The 25 blocks tile the 50000 rows, so the array ends holding that value at
  every (p, q).
-/
import proofs.«111771_j80977313399687_1_alg».proof.Proof.KI.R2
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-block access, as a constant function. -/
theorem zeroOff2 : (![0, 0] : Fin 2 → Nat) = fun _ => 0 := funext fun a => by fin_cases a <;> rfl

/-- The value at an entry from the five operands' entries. -/
def bn2 (h m v g b : EReal) : EReal :=
  max (g * (h - m) * Ideal.rsqrt (v + Ideal.ofBits .f32 0x3727C5AC#32) + b) (Ideal.ofBits .f32 0x00000000#32)

/-- The body's value at an entry of the block. -/
theorem pay2_apply (x0 : Vec Ideal S2000x128 .f32) (x1 x2 x3 x4 : Vec Ideal S1x128 .f32) (p : Fin 2000) (q : Fin 128) :
    k2_pay1 x0 x1 x2 x3 x4 (ix2 p q)
      = bn2 (x0 (ix2 p q)) (x1 (ix2 (0 : Fin 1) q)) (x2 (ix2 (0 : Fin 1) q)) (x3 (ix2 (0 : Fin 1) q)) (x4 (ix2 (0 : Fin 1) q)) := by
  unfold k2_pay1
  simp only [shapeCast_self]
  show max (broadcastTo S2000x128 x3 broadcasts_S1x128_S2000x128 (ix2 p q)
        * (x0 (ix2 p q) - broadcastTo S2000x128 x1 broadcasts_S1x128_S2000x128 (ix2 p q))
        * broadcastTo S2000x128 (rsqrt (addf x2 (broadcast S1x128 (Scalar.ofBits .f32 0x3727C5AC#32))) : FVec Ideal S1x128 .f32) broadcasts_S1x128_S2000x128 (ix2 p q)
        + broadcastTo S2000x128 x4 broadcasts_S1x128_S2000x128 (ix2 p q)) (Ideal.ofBits .f32 0x00000000#32) = _
  rw [broadcastTo_1b_ab_apply x3, broadcastTo_1b_ab_apply x1, broadcastTo_1b_ab_apply x4,
    broadcastTo_1b_ab_apply (rsqrt (addf x2 (broadcast S1x128 (Scalar.ofBits .f32 0x3727C5AC#32))) : FVec Ideal S1x128 .f32)]
  rfl

/-- The block indices of the six windows at every grid point: the activations' and the output's row block is the
    point, each one-row array is one block. -/
theorem blockIdx2 : ∀ t : Fin cfg2.N, (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- The activations and the four one-row arrays (mean, variance, scale, shift) as the region finds them, as arrays of
    extended reals. -/
abbrev arr2_0 (c : Dev nD) : S50000x128.Idx → EReal := V c (Pipeline.arrRef spec2 0)
abbrev arr2_1 (c : Dev nD) : S1x128.Idx → EReal := V c (Pipeline.arrRef spec2 1)
abbrev arr2_2 (c : Dev nD) : S1x128.Idx → EReal := V c (Pipeline.arrRef spec2 2)
abbrev arr2_3 (c : Dev nD) : S1x128.Idx → EReal := V c (Pipeline.arrRef spec2 3)
abbrev arr2_4 (c : Dev nD) : S1x128.Idx → EReal := V c (Pipeline.arrRef spec2 4)

/-- The value at entry (p, q). -/
def ent2 (c : Dev nD) (p : Fin 50000) (q : Fin 128) : EReal :=
  bn2 (arr2_0 V c (ix2 p q)) (arr2_1 V c (ix2 (0 : Fin 1) q)) (arr2_2 V c (ix2 (0 : Fin 1) q))
    (arr2_3 V c (ix2 (0 : Fin 1) q)) (arr2_4 V c (ix2 (0 : Fin 1) q))

/-- The array of those values. -/
def G2 (c : Dev nD) : S50000x128.Idx → Elt Ideal .f32 := fun i => ent2 V c (i 0) (i 1)

/-- Row p of the activations' block at point t is row 2000 t + p of the activations. -/
theorem iblk2_0_apply (c : Dev nD) (t : Fin cfg2.N) (p : Fin 2000) (q : Fin 128) (P : Fin 50000)
    (hP : P.val = 2000 * t.val + p.val) :
    (iblk2 V c 0 t : Vec Ideal S2000x128 .f32) (ix2 p q) = arr2_0 V c (ix2 P q) := by
  have e0 := (blockIdx2 t).1.1
  have e1 := (blockIdx2 t).1.2
  unfold iblk2
  rw [View.read_apply]
  refine congrArg (arr2_0 V c) ?_
  funext a
  apply Fin.ext
  match a with
  | ⟨0, _⟩ => show win2_0.index t (0 : Fin 2) * 2000 + 1 * p.val = P.val; omega
  | ⟨1, _⟩ => show win2_0.index t (1 : Fin 2) * 128 + 1 * q.val = q.val; omega

/-- The mean's block at every point is the mean. -/
theorem iblk2_1_apply (c : Dev nD) (t : Fin cfg2.N) (q : Fin 128) :
    (iblk2 V c 1 t : Vec Ideal S1x128 .f32) (ix2 (0 : Fin 1) q) = arr2_1 V c (ix2 (0 : Fin 1) q) := by
  have e0 := (blockIdx2 t).2.1.1
  have e1 := (blockIdx2 t).2.1.2
  unfold iblk2
  rw [View.read_apply]
  refine congrArg (arr2_1 V c) ?_
  funext a
  apply Fin.ext
  match a with
  | ⟨0, _⟩ => show win2_1.index t (0 : Fin 2) * 1 + 1 * 0 = 0; omega
  | ⟨1, _⟩ => show win2_1.index t (1 : Fin 2) * 128 + 1 * q.val = q.val; omega

/-- The variance's block at every point is the variance. -/
theorem iblk2_2_apply (c : Dev nD) (t : Fin cfg2.N) (q : Fin 128) :
    (iblk2 V c 2 t : Vec Ideal S1x128 .f32) (ix2 (0 : Fin 1) q) = arr2_2 V c (ix2 (0 : Fin 1) q) := by
  have e0 := (blockIdx2 t).2.2.1.1
  have e1 := (blockIdx2 t).2.2.1.2
  unfold iblk2
  rw [View.read_apply]
  refine congrArg (arr2_2 V c) ?_
  funext a
  apply Fin.ext
  match a with
  | ⟨0, _⟩ => show win2_2.index t (0 : Fin 2) * 1 + 1 * 0 = 0; omega
  | ⟨1, _⟩ => show win2_2.index t (1 : Fin 2) * 128 + 1 * q.val = q.val; omega

/-- The scale's block at every point is the scale. -/
theorem iblk2_3_apply (c : Dev nD) (t : Fin cfg2.N) (q : Fin 128) :
    (iblk2 V c 3 t : Vec Ideal S1x128 .f32) (ix2 (0 : Fin 1) q) = arr2_3 V c (ix2 (0 : Fin 1) q) := by
  have e0 := (blockIdx2 t).2.2.2.1.1
  have e1 := (blockIdx2 t).2.2.2.1.2
  unfold iblk2
  rw [View.read_apply]
  refine congrArg (arr2_3 V c) ?_
  funext a
  apply Fin.ext
  match a with
  | ⟨0, _⟩ => show win2_3.index t (0 : Fin 2) * 1 + 1 * 0 = 0; omega
  | ⟨1, _⟩ => show win2_3.index t (1 : Fin 2) * 128 + 1 * q.val = q.val; omega

/-- The shift's block at every point is the shift. -/
theorem iblk2_4_apply (c : Dev nD) (t : Fin cfg2.N) (q : Fin 128) :
    (iblk2 V c 4 t : Vec Ideal S1x128 .f32) (ix2 (0 : Fin 1) q) = arr2_4 V c (ix2 (0 : Fin 1) q) := by
  have e0 := (blockIdx2 t).2.2.2.2.1.1
  have e1 := (blockIdx2 t).2.2.2.2.1.2
  unfold iblk2
  rw [View.read_apply]
  refine congrArg (arr2_4 V c) ?_
  funext a
  apply Fin.ext
  match a with
  | ⟨0, _⟩ => show win2_4.index t (0 : Fin 2) * 1 + 1 * 0 = 0; omega
  | ⟨1, _⟩ => show win2_4.index t (1 : Fin 2) * 128 + 1 * q.val = q.val; omega

/-- Entry (p, q) of the output's block at point t sits at (2000 t + p, q) of the output. -/
theorem emb2_5 (t : Fin cfg2.N) (p : Fin 2000) (q : Fin 128) (P : Fin 50000) (hP : P.val = 2000 * t.val + p.val) :
    ((cfg2.win 5).blk t).view.emb (ix2 p q) = (ix2 P q : S50000x128.Idx) := by
  have e0 := (blockIdx2 t).2.2.2.2.2.1
  have e1 := (blockIdx2 t).2.2.2.2.2.2
  funext a
  apply Fin.ext
  match a with
  | ⟨0, _⟩ => show win2_5.index t (0 : Fin 2) * 2000 + 1 * p.val = P.val; omega
  | ⟨1, _⟩ => show win2_5.index t (1 : Fin 2) * 128 + 1 * q.val = q.val; omega

/-- What point t writes back is block t of the array of those values. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero zeroOff2]
  simp only [View.ld_unit_zero (S := S2000x128) zeroOff2, View.ld_unit_zero (S := S1x128) zeroOff2]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  have hP : 2000 * t.val + p.val < 50000 := by have := p.isLt; omega
  rw [View.read_apply, emb2_5 t p q ⟨2000 * t.val + p.val, hP⟩ rfl]
  refine (pay2_apply (iblk2 V c 0 t) (iblk2 V c 1 t) (iblk2 V c 2 t) (iblk2 V c 3 t) (iblk2 V c 4 t) p q).trans ?_
  show _ = ent2 V c ⟨2000 * t.val + p.val, hP⟩ q
  unfold ent2
  rw [iblk2_0_apply V c t p q ⟨2000 * t.val + p.val, hP⟩ rfl, iblk2_1_apply V c t q, iblk2_2_apply V c t q,
    iblk2_3_apply V c t q, iblk2_4_apply V c t q]

/-- An index of the output is in point t's block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v56).slice (win2_5.rect t)).set ↔ _
  rw [View.set_slice_whole, Rect.mem_set_unit]
  exact Iff.rfl

/-- Every index of the output is in some point's block: row r is in block r / 2000. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_5 _, ?_⟩
  rw [mem_blk2]
  have e0 := (blockIdx2 ⟨(i 0).val / 2000, by rw [hN]; omega⟩).2.2.2.2.2.1
  have e1 := (blockIdx2 ⟨(i 0).val / 2000, by rw [hN]; omega⟩).2.2.2.2.2.2
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

/-- The output after the region is the array of those values. -/
theorem final2 (c : Dev nD) : (dat2 V c).arrAt 5 cfg2.N = G2 V c :=
  (dat2 V c).arrAt_eq_of_cover 5 (G2 V c) (fun t _ => flushed2_eq V c t) cover2

/-- Entry (p, q) of the output after the region. -/
theorem val2 (c : Dev nD) (p : Fin 50000) (q : Fin 128) :
    (dat2 (F := Ideal) V c).arrAt 5 cfg2.N (ix2 p q)
      = max (arr2_3 V c (ix2 (0 : Fin 1) q) * (arr2_0 V c (ix2 p q) - arr2_1 V c (ix2 (0 : Fin 1) q))
            * Ideal.rsqrt (arr2_2 V c (ix2 (0 : Fin 1) q) + Ideal.ofBits .f32 0x3727C5AC#32) + arr2_4 V c (ix2 (0 : Fin 1) q))
          (Ideal.ofBits .f32 0x00000000#32) :=
  congrFun (final2 V c) (ix2 p q)

end Cert.KernelIdeal.Hand

end
-- ==== Proof.LibBlockSum.lean ====
/-
  A sum over n·b consecutive indices taken block by block.

  If a sequence starts at zero and its k-th step adds the sum of the k-th block of b consecutive terms,
  then after n steps it holds the sum of all n·b terms.  Stated over any commutative additive monoid
  (the extended reals with their addition are one), so no finiteness is needed.
-/
import Mathlib.Algebra.BigOperators.Fin
import Mathlib.Algebra.BigOperators.Group.Finset.Basic

namespace Cert.Lib

/-- The a-th term of block k lies among the first n·b terms. -/
theorem blk_lt {n b k a : ℕ} (hk : k < n) (ha : a < b) : b * k + a < n * b :=
  calc b * k + a < b * k + b := by omega
    _ = b * (k + 1) := (Nat.mul_succ b k).symm
    _ ≤ b * n := Nat.mul_le_mul_left b hk
    _ = n * b := Nat.mul_comm b n

/-- Block-by-block accumulation is the whole sum: `s 0 = 0` and `s (k+1) = s k + Σ_{a<b} f (b·k + a)` for `k < n`
    give `s n = Σ_{i<N} f i` when `N = n·b`. -/
theorem sum_by_blocks {M : Type*} [AddCommMonoid M] {n b N : ℕ} (hN : n * b = N) (f : Fin N → M) (s : ℕ → M)
    (h0 : s 0 = 0)
    (hs : ∀ k (hk : k < n), s (k + 1) = s k + ∑ a : Fin b, f ⟨b * k + a, hN ▸ blk_lt hk a.isLt⟩) :
    s n = ∑ i : Fin N, f i := by
  subst hN
  -- the terms as a function on the naturals, zero past the end
  let g : ℕ → M := fun i => if h : i < n * b then f ⟨i, h⟩ else 0
  have key : ∀ k, k ≤ n → s k = ∑ i ∈ Finset.range (b * k), g i := by
    intro k
    induction k with
    | zero => intro _; simpa using h0
    | succ k ih =>
      intro hk
      have hk' : k < n := hk
      rw [hs k hk', ih (Nat.le_of_lt hk'), Nat.mul_succ, Finset.sum_range_add, Finset.sum_range (fun a => g (b * k + a))]
      refine congrArg (_ + ·) (Finset.sum_congr rfl fun a _ => ?_)
      show f ⟨b * k + a, _⟩ = g (b * k + a)
      simp only [g]
      rw [dif_pos (blk_lt hk' a.isLt)]
  rw [key n le_rfl, Nat.mul_comm b n, Finset.sum_range]
  refine Finset.sum_congr rfl fun i _ => ?_
  simp only [g]
  rw [dif_pos i.isLt]

end Cert.Lib
-- ==== Proof.KI.Stats1Value.lean ====
/-
  What the column-statistics kernel (the second pallas_call of @main) leaves in its three result arrays, read at the
  extended reals, as functions of the two arrays it is given: the [50000, 128] array `agg` and the [1, 128] bias row
  `b`.

    rows   :  out (p, q)  = agg (p, q) + b (0, q)
    sums   :  s   (0, q)  = Σ_p  (agg (p, q) + b (0, q))
    squares:  ss  (0, q)  = Σ_p  (agg (p, q) + b (0, q)) * (agg (p, q) + b (0, q))

  The rows' output is written back block by block: point t's block is rows 2000·t … 2000·t + 1999, the 25 blocks tile
  the array, and each is the biased block of the same rows of `agg`.  The two sums are carried in a buffer that is
  written back once, after the last point; after point n it holds the sum over the first 2000·(n + 1) rows (the block
  sums added point by point, a sum over consecutive blocks of rows), so after the last point the sum over all rows.
  Sums of extended reals are reordered freely (a commutative monoid), so nothing here needs the entries to be finite.
-/
import proofs.«111771_j80977313399687_1_alg».proof.Proof.KI.Stats1
import proofs.«111771_j80977313399687_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The body's arithmetic at an index -/

/-- The sum over the first axis of an `[a, b]` array is, at column `q`, the sum over the rows `k` of the entry `(k, q)`. -/
theorem colSum1_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction (F := Ideal) .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src ?_
  funext c
  refine Fin.ext ?_
  match c with
  | ⟨0, _⟩ => rfl
  | ⟨1, _⟩ => rfl

/-- The stored block: the block of rows plus the bias row, entry by entry. -/
theorem pay1_1_apply (x0 : Vec Ideal S2000x128 .f32) (x1 : Vec Ideal S1x128 .f32) (r : Fin 2000) (q : Fin 128) :
    k1_pay1 x0 x1 (ix2 r q) = x0 (ix2 r q) + x1 (ix2 (0 : Fin 1) q) := by
  have e0 : shapeCast S2000x128 x0 shapeCasts_S2000x128_S2000x128 = x0 := shapeCast_self _ _
  have e1 : shapeCast S1x128 x1 shapeCasts_S1x128_S1x128 = x1 := shapeCast_self _ _
  show (shapeCast S2000x128 x0 shapeCasts_S2000x128_S2000x128 (ix2 r q) : EReal)
      + broadcastTo S2000x128 (shapeCast S1x128 x1 shapeCasts_S1x128_S1x128) broadcasts_S1x128_S2000x128 (ix2 r q) = _
  rw [e0, e1]
  exact congrArg (x0 (ix2 r q) + ·) (broadcastTo_1b_ab_apply x1 broadcasts_S1x128_S2000x128 r q)

/-- The block's column sums. -/
theorem pay1_2_apply (x0 : Vec Ideal S2000x128 .f32) (x1 : Vec Ideal S1x128 .f32) (q : Fin 128) :
    k1_pay2 x0 x1 (ix2 (0 : Fin 1) q) = ∑ r : Fin 2000, (x0 (ix2 r q) + x1 (ix2 (0 : Fin 1) q)) := by
  unfold k1_pay2
  refine (shapeCast_a_1a_apply _ shapeCasts_S128_S1x128 (0 : Fin 1) q).trans ?_
  refine (colSum1_apply (k1_pay1 x0 x1) _ reduces_S2000x128_S128 _ _ q).trans ?_
  exact Finset.sum_congr rfl fun r _ => pay1_1_apply x0 x1 r q

/-- The block's column sums of squares. -/
theorem pay1_3_apply (x0 : Vec Ideal S2000x128 .f32) (x1 : Vec Ideal S1x128 .f32) (q : Fin 128) :
    k1_pay3 x0 x1 (ix2 (0 : Fin 1) q)
      = ∑ r : Fin 2000, (x0 (ix2 r q) + x1 (ix2 (0 : Fin 1) q)) * (x0 (ix2 r q) + x1 (ix2 (0 : Fin 1) q)) := by
  unfold k1_pay3
  refine (shapeCast_a_1a_apply _ shapeCasts_S128_S1x128 (0 : Fin 1) q).trans ?_
  refine (colSum1_apply (mulf (k1_pay1 x0 x1) (k1_pay1 x0 x1)) _ reduces_S2000x128_S128 _ _ q).trans ?_
  refine Finset.sum_congr rfl fun r _ => ?_
  refine (mulf_apply _ _ _).trans ?_
  rw [pay1_1_apply x0 x1 r q]

/-- A later point's sums: what the buffer held plus the block's. -/
theorem pay1_4_apply (x0 : Vec Ideal S2000x128 .f32) (x1 : Vec Ideal S1x128 .f32) (xo : Vec Ideal S1x128 .f32) (q : Fin 128) :
    k1_pay4 x0 x1 xo (ix2 (0 : Fin 1) q) = xo (ix2 (0 : Fin 1) q) + k1_pay2 x0 x1 (ix2 (0 : Fin 1) q) := by
  have e : shapeCast S1x128 xo shapeCasts_S1x128_S1x128 = xo := shapeCast_self _ _
  show (shapeCast S1x128 xo shapeCasts_S1x128_S1x128 (ix2 (0 : Fin 1) q) : EReal) + k1_pay2 x0 x1 (ix2 (0 : Fin 1) q) = _
  rw [e]

theorem pay1_5_apply (x0 : Vec Ideal S2000x128 .f32) (x1 : Vec Ideal S1x128 .f32) (xo : Vec Ideal S1x128 .f32) (q : Fin 128) :
    k1_pay5 x0 x1 xo (ix2 (0 : Fin 1) q) = xo (ix2 (0 : Fin 1) q) + k1_pay3 x0 x1 (ix2 (0 : Fin 1) q) := by
  have e : shapeCast S1x128 xo shapeCasts_S1x128_S1x128 = xo := shapeCast_self _ _
  show (shapeCast S1x128 xo shapeCasts_S1x128_S1x128 (ix2 (0 : Fin 1) q) : EReal) + k1_pay3 x0 x1 (ix2 (0 : Fin 1) q) = _
  rw [e]

variable (V : (c : Dev nD) → (b : Ref sig .tc) → Buf (Elt Ideal) ((c : Thread nD τ).loc b))

/-! ## The two arrays the region is given, and the windows' blocks read off them -/

/-- The [50000, 128] array of rows, as the region finds it, -/
abbrev agg1 (c : Dev nD) : S50000x128.Idx → EReal := V c (Pipeline.arrRef spec1 0)
/-- and the [1, 128] bias row. -/
abbrev bias1 (c : Dev nD) : S1x128.Idx → EReal := V c (Pipeline.arrRef spec1 1)

/-- The printed index maps, decided over the grid: the rows' windows move one block of rows per point, the bias row's
    and the two sums' windows stay at block (0, 0). -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `r` of the rows' block at point `t` is row `2000 t + r` of the array. -/
theorem iblk1_0_apply (c : Dev nD) (t : Fin cfg1.N) (r : Fin 2000) (q : Fin 128) (p : Fin 50000)
    (hp : p.val = 2000 * t.val + r.val) :
    (iblk1 V c 0 t : Vec Ideal S2000x128 .f32) (ix2 r q) = agg1 V c (ix2 p q) := by
  obtain ⟨e0, e1, -⟩ := idx1_facts t
  unfold iblk1
  rw [View.read_apply]
  show V c (Pipeline.arrRef spec1 0) _ = V c (Pipeline.arrRef spec1 0) _
  congr 1
  funext a
  apply Fin.ext
  match a with
  | ⟨0, _⟩ => show win1_0.index t 0 * 2000 + 1 * r.val = p.val; rw [e0, hp]; omega
  | ⟨1, _⟩ => show win1_0.index t 1 * 128 + 1 * q.val = q.val; rw [e1]; omega

/-- The bias row's block is the bias row at every point. -/
theorem iblk1_1_apply (c : Dev nD) (t : Fin cfg1.N) (z : Fin 1) (q : Fin 128) :
    (iblk1 V c 1 t : Vec Ideal S1x128 .f32) (ix2 z q) = bias1 V c (ix2 (0 : Fin 1) q) := by
  obtain ⟨-, -, e0, e1, -⟩ := idx1_facts t
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * z.val = 0; rw [e0]; omega
  | ⟨1, _⟩ => show win1_1.index t 1 * 128 + 1 * q.val = q.val; rw [e1]; omega

/-! ## The rows' output -/

/-- The biased array: every row plus the bias row. -/
def rows1 (agg : S50000x128.Idx → EReal) (b : S1x128.Idx → EReal) : S50000x128.Idx → EReal :=
  fun i => agg i + b (ix2 (0 : Fin 1) (⟨(i 1).val, (i 1).isLt⟩ : Fin 128))

theorem rows1_apply (agg : S50000x128.Idx → EReal) (b : S1x128.Idx → EReal) (p : Fin 50000) (q : Fin 128) :
    rows1 agg b (ix2 p q) = agg (ix2 p q) + b (ix2 (0 : Fin 1) q) := rfl

/-- What the body leaves in the rows' buffer at point `t`, at the block's index `j`, is the biased array at the
    array's index `i` that `j` sits at. -/
theorem after1_2_apply (c : Dev nD) (t : Fin cfg1.N) (j : S2000x128.Idx) (i : S50000x128.Idx)
    (h0 : (i 0).val = 2000 * t.val + (j 0).val) (h1 : (i 1).val = (j 1).val) :
    k1_pay1 (iblk1 V c 0 t) (iblk1 V c 1 t) j = rows1 (agg1 V c) (bias1 V c) i := by
  obtain ⟨r, q, rfl⟩ : ∃ (r : Fin 2000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  refine (pay1_1_apply (iblk1 V c 0 t) (iblk1 V c 1 t) r q').trans ?_
  exact congrArg₂ (· + ·) (iblk1_0_apply V c t r q' p h0) (iblk1_1_apply V c t 0 q')

/-- WHAT POINT `t` WRITES BACK is block `t` of the biased array. -/
theorem flushed1_2 (c : Dev nD) (t : Fin cfg1.N) :
    (dat1 V c).flushed 2 t = ((cfg1.win 2).blk t).view.read (Elt Ideal) (rows1 (agg1 V c) (bias1 V c)) := by
  obtain ⟨-, -, -, -, e0, e1, -⟩ := idx1_facts t
  show (cfg1.win 2).cut (grid1.coords t) ((dat1 V c).after 2 t) = _
  rw [after1_2]
  funext j
  show k1_pay1 (iblk1 V c 0 t) (iblk1 V c 1 t) j = rows1 (agg1 V c) (bias1 V c) (((cfg1.win 2).blk t).view.emb j)
  refine after1_2_apply V c t j _ ?_ ?_
  · show win1_2.index t 0 * 2000 + 1 * (j 0).val = 2000 * t.val + (j 0).val
    rw [e0]; omega
  · show win1_2.index t 1 * 128 + 1 * (j 1).val = (j 1).val
    rw [e1]; omega

/-- An index of the array is in point `t`'s block iff each coordinate is in the block's range on its axis. -/
theorem mem_blk1_2 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47_0).slice (win1_2.rect t)).set ↔ _
  rw [View.set_slice_whole, Rect.mem_set_unit]
  exact Iff.rfl

/-- THE ROWS' ARRAY after the region: the biased array (row `p` is in the block of point `p / 2000`). -/
theorem final1_2 (c : Dev nD) : (dat1 V c).arrAt 2 cfg1.N = rows1 (agg1 V c) (bias1 V c) :=
  (dat1 V c).arrAt_eq_of_cover 2 (rows1 (agg1 V c) (bias1 V c)) (fun t _ => flushed1_2 V c t) fun i => by
    have hi0 : (i 0).val < 50000 := (i 0).isLt
    have hi1 : (i 1).val < 128 := (i 1).isLt
    have hN : cfg1.N = 25 := N_1
    have ht : (i 0).val / 2000 < cfg1.N := by rw [hN]; omega
    refine ⟨⟨(i 0).val / 2000, ht⟩, flush1_2 _, ?_⟩
    rw [mem_blk1_2]
    obtain ⟨-, -, -, -, e0, e1, -⟩ := idx1_facts ⟨(i 0).val / 2000, ht⟩
    intro a
    match a with
    | ⟨0, _⟩ =>
      show win1_2.index ⟨(i 0).val / 2000, ht⟩ 0 * 2000 ≤ (i 0).val ∧ (i 0).val < win1_2.index ⟨(i 0).val / 2000, ht⟩ 0 * 2000 + 2000
      rw [e0]; dsimp only; omega
    | ⟨1, _⟩ =>
      show win1_2.index ⟨(i 0).val / 2000, ht⟩ 1 * 128 ≤ (i 1).val ∧ (i 1).val < win1_2.index ⟨(i 0).val / 2000, ht⟩ 1 * 128 + 128
      rw [e1]; omega

/-- The rows' array, entry by entry. -/
theorem rows1_final (c : Dev nD) (p : Fin 50000) (q : Fin 128) :
    ((dat1 V c).arrAt 2 cfg1.N : S50000x128.Idx → EReal) (ix2 p q) = agg1 V c (ix2 p q) + bias1 V c (ix2 (0 : Fin 1) q) :=
  congrFun (final1_2 V c) (ix2 p q)

/-- The two arrays the region is given are as it found them. -/
theorem kept1_0 (c : Dev nD) : (dat1 V c).arrAt 0 cfg1.N = V c (Pipeline.arrRef spec1 0) :=
  ((dat1 V c).arrAt_in 0 rfl _).trans (A_eq1 V c 0)
theorem kept1_1 (c : Dev nD) : (dat1 V c).arrAt 1 cfg1.N = V c (Pipeline.arrRef spec1 1) :=
  ((dat1 V c).arrAt_in 1 rfl _).trans (A_eq1 V c 1)

/-! ## The two sums -/

/-- Column `q`'s term at row `p`: the biased entry, -/
def colTerm1 (c : Dev nD) (q : Fin 128) : Fin 50000 → EReal :=
  fun p => agg1 V c (ix2 p q) + bias1 V c (ix2 (0 : Fin 1) q)
/-- and its square. -/
def sqTerm1 (c : Dev nD) (q : Fin 128) : Fin 50000 → EReal :=
  fun p => (agg1 V c (ix2 p q) + bias1 V c (ix2 (0 : Fin 1) q)) * (agg1 V c (ix2 p q) + bias1 V c (ix2 (0 : Fin 1) q))

/-- The sum of the terms of the first `k` blocks of 2000 rows, block by block. -/
def partial1 (f : Fin 50000 → EReal) : ℕ → EReal
  | 0 => 0
  | k + 1 => partial1 f k + (if h : k < 25 then ∑ a : Fin 2000, f ⟨2000 * k + a.val, by have := a.isLt; omega⟩ else 0)

/-- After all 25 blocks it is the sum over all 50000 rows. -/
theorem partial1_all (f : Fin 50000 → EReal) : partial1 f 25 = ∑ p : Fin 50000, f p :=
  Cert.Lib.sum_by_blocks (n := 25) (b := 2000) (N := 50000) rfl f (partial1 f) rfl fun k hk => by
    show partial1 f k + _ = _
    rw [dif_pos hk]

/-- The column sums of the block at point `t` are the sums of the terms of rows `2000 t … 2000 t + 1999`. -/
theorem blk1_sum (c : Dev nD) (t : Fin cfg1.N) (ht : t.val < 25) (q : Fin 128) :
    k1_pay2 (iblk1 V c 0 t) (iblk1 V c 1 t) (ix2 (0 : Fin 1) q)
      = ∑ r : Fin 2000, colTerm1 V c q ⟨2000 * t.val + r.val, by have := r.isLt; omega⟩ := by
  refine (pay1_2_apply (iblk1 V c 0 t) (iblk1 V c 1 t) q).trans ?_
  refine Finset.sum_congr rfl fun r _ => ?_
  exact congrArg₂ (· + ·) (iblk1_0_apply V c t r q _ rfl) (iblk1_1_apply V c t 0 q)

theorem blk1_sq (c : Dev nD) (t : Fin cfg1.N) (ht : t.val < 25) (q : Fin 128) :
    k1_pay3 (iblk1 V c 0 t) (iblk1 V c 1 t) (ix2 (0 : Fin 1) q)
      = ∑ r : Fin 2000, sqTerm1 V c q ⟨2000 * t.val + r.val, by have := r.isLt; omega⟩ := by
  refine (pay1_3_apply (iblk1 V c 0 t) (iblk1 V c 1 t) q).trans ?_
  refine Finset.sum_congr rfl fun r _ => ?_
  exact congrArg₂ (fun (x y : EReal) => (x + y) * (x + y))
    (iblk1_0_apply V c t r q ⟨2000 * t.val + r.val, by have := r.isLt; omega⟩ rfl) (iblk1_1_apply V c t 0 q)

/-- THE RUNNING SUMS: after point `n` the column sums' buffer holds the sum over the first `n + 1` blocks of rows. -/
theorem acc1_3_apply (c : Dev nD) (q : Fin 128) : ∀ (n : ℕ) (hn : n < cfg1.N),
    acc1_3 V c n hn (ix2 (0 : Fin 1) q) = partial1 (colTerm1 V c q) (n + 1)
  | 0, hn => by
    have h25 : (0 : ℕ) < 25 := by omega
    show k1_pay2 (iblk1 V c 0 ⟨0, hn⟩) (iblk1 V c 1 ⟨0, hn⟩) (ix2 (0 : Fin 1) q)
      = 0 + (if h : 0 < 25 then ∑ a : Fin 2000, colTerm1 V c q ⟨2000 * 0 + a.val, by have := a.isLt; omega⟩ else 0)
    rw [dif_pos h25, zero_add]
    exact blk1_sum V c ⟨0, hn⟩ h25 q
  | n + 1, hn => by
    have hN : cfg1.N = 25 := N_1
    have h25 : n + 1 < 25 := by omega
    show k1_pay4 (iblk1 V c 0 ⟨n + 1, hn⟩) (iblk1 V c 1 ⟨n + 1, hn⟩) (acc1_3 V c n (Nat.lt_of_succ_lt hn)) (ix2 (0 : Fin 1) q)
      = partial1 (colTerm1 V c q) (n + 1)
        + (if h : n + 1 < 25 then ∑ a : Fin 2000, colTerm1 V c q ⟨2000 * (n + 1) + a.val, by have := a.isLt; omega⟩ else 0)
    rw [dif_pos h25]
    refine (pay1_4_apply (iblk1 V c 0 ⟨n + 1, hn⟩) (iblk1 V c 1 ⟨n + 1, hn⟩) (acc1_3 V c n (Nat.lt_of_succ_lt hn)) q).trans ?_
    exact congrArg₂ (· + ·) (acc1_3_apply c q n (Nat.lt_of_succ_lt hn)) (blk1_sum V c ⟨n + 1, hn⟩ h25 q)

/-- The sums of squares likewise. -/
theorem acc1_4_apply (c : Dev nD) (q : Fin 128) : ∀ (n : ℕ) (hn : n < cfg1.N),
    acc1_4 V c n hn (ix2 (0 : Fin 1) q) = partial1 (sqTerm1 V c q) (n + 1)
  | 0, hn => by
    have h25 : (0 : ℕ) < 25 := by omega
    show k1_pay3 (iblk1 V c 0 ⟨0, hn⟩) (iblk1 V c 1 ⟨0, hn⟩) (ix2 (0 : Fin 1) q)
      = 0 + (if h : 0 < 25 then ∑ a : Fin 2000, sqTerm1 V c q ⟨2000 * 0 + a.val, by have := a.isLt; omega⟩ else 0)
    rw [dif_pos h25, zero_add]
    exact blk1_sq V c ⟨0, hn⟩ h25 q
  | n + 1, hn => by
    have hN : cfg1.N = 25 := N_1
    have h25 : n + 1 < 25 := by omega
    show k1_pay5 (iblk1 V c 0 ⟨n + 1, hn⟩) (iblk1 V c 1 ⟨n + 1, hn⟩) (acc1_4 V c n (Nat.lt_of_succ_lt hn)) (ix2 (0 : Fin 1) q)
      = partial1 (sqTerm1 V c q) (n + 1)
        + (if h : n + 1 < 25 then ∑ a : Fin 2000, sqTerm1 V c q ⟨2000 * (n + 1) + a.val, by have := a.isLt; omega⟩ else 0)
    rw [dif_pos h25]
    refine (pay1_5_apply (iblk1 V c 0 ⟨n + 1, hn⟩) (iblk1 V c 1 ⟨n + 1, hn⟩) (acc1_4 V c n (Nat.lt_of_succ_lt hn)) q).trans ?_
    exact congrArg₂ (· + ·) (acc1_4_apply c q n (Nat.lt_of_succ_lt hn)) (blk1_sq V c ⟨n + 1, hn⟩ h25 q)

/-- The row of column sums, -/
def sums1 (c : Dev nD) : S1x128.Idx → EReal :=
  fun i => ∑ p : Fin 50000, colTerm1 V c (⟨(i 1).val, (i 1).isLt⟩ : Fin 128) p
/-- and of column sums of squares. -/
def squares1 (c : Dev nD) : S1x128.Idx → EReal :=
  fun i => ∑ p : Fin 50000, sqTerm1 V c (⟨(i 1).val, (i 1).isLt⟩ : Fin 128) p

theorem sums1_of (c : Dev nD) (i : S1x128.Idx) (q : Fin 128) (h : (i 1).val = q.val) :
    sums1 V c i = ∑ p : Fin 50000, colTerm1 V c q p := by
  have e : (⟨(i 1).val, (i 1).isLt⟩ : Fin 128) = q := Fin.ext h
  unfold sums1
  rw [e]
theorem squares1_of (c : Dev nD) (i : S1x128.Idx) (q : Fin 128) (h : (i 1).val = q.val) :
    squares1 V c i = ∑ p : Fin 50000, sqTerm1 V c q p := by
  have e : (⟨(i 1).val, (i 1).isLt⟩ : Fin 128) = q := Fin.ext h
  unfold squares1
  rw [e]

/-- A one-row buffer written back through the column sums' window at point `t` is, read back through that block, any
    row `G` it agrees with entry by entry (the block is the whole one-row array: its index is (0, 0)). -/
theorem flushed_row1_3 (G : S1x128.Idx → EReal) (X : Vec Ideal S1x128 .f32) (t : Fin cfg1.N)
    (h : ∀ q : Fin 128, X (ix2 (0 : Fin 1) q) = G (ix2 (0 : Fin 1) q)) :
    (cfg1.win 3).cut (grid1.coords t) X = ((cfg1.win 3).blk t).view.read (Elt Ideal) G := by
  obtain ⟨-, -, -, -, -, -, e0, e1, -⟩ := idx1_facts t
  funext j
  show X j = G (((cfg1.win 3).blk t).view.emb j)
  obtain ⟨z, q, rfl⟩ : ∃ (z : Fin 1) (q : Fin 128), j = ix2 z q := ⟨j 0, j 1, eq_ix2 j⟩
  obtain rfl : z = 0 := Subsingleton.elim _ _
  rw [h q]
  congr 1
  funext a
  apply Fin.ext
  match a with
  | ⟨0, _⟩ => show 0 = win1_3.index t 0 * 1 + 1 * 0; rw [e0]
  | ⟨1, _⟩ => show q.val = win1_3.index t 1 * 128 + 1 * q.val; rw [e1]; omega

theorem flushed_row1_4 (G : S1x128.Idx → EReal) (X : Vec Ideal S1x128 .f32) (t : Fin cfg1.N)
    (h : ∀ q : Fin 128, X (ix2 (0 : Fin 1) q) = G (ix2 (0 : Fin 1) q)) :
    (cfg1.win 4).cut (grid1.coords t) X = ((cfg1.win 4).blk t).view.read (Elt Ideal) G := by
  obtain ⟨-, -, -, -, -, -, -, -, e0, e1⟩ := idx1_facts t
  funext j
  show X j = G (((cfg1.win 4).blk t).view.emb j)
  obtain ⟨z, q, rfl⟩ : ∃ (z : Fin 1) (q : Fin 128), j = ix2 z q := ⟨j 0, j 1, eq_ix2 j⟩
  obtain rfl : z = 0 := Subsingleton.elim _ _
  rw [h q]
  congr 1
  funext a
  apply Fin.ext
  match a with
  | ⟨0, _⟩ => show 0 = win1_4.index t 0 * 1 + 1 * 0; rw [e0]
  | ⟨1, _⟩ => show q.val = win1_4.index t 1 * 128 + 1 * q.val; rw [e1]; omega

/-- The one write-back of the column sums, after the last point, writes the sums over all rows. -/
theorem flushed1_3 (c : Dev nD) (t : Fin cfg1.N) (hf : (cfg1.win 3).flush t = true) :
    (dat1 V c).flushed 3 t = ((cfg1.win 3).blk t).view.read (Elt Ideal) (sums1 V c) := by
  have hN : cfg1.N = 25 := N_1
  have h24 : t.val = 24 := by have := (flush1_3 t).mp hf; have := t.isLt; omega
  show (cfg1.win 3).cut (grid1.coords t) ((dat1 V c).after 3 t) = _
  rw [after1_3]
  refine flushed_row1_3 (sums1 V c) (acc1_3 V c t.val t.isLt) t fun q => ?_
  rw [sums1_of V c (ix2 (0 : Fin 1) q) q rfl, acc1_3_apply V c q t.val t.isLt, ← partial1_all]
  exact congrArg (partial1 (colTerm1 V c q)) (by omega)

theorem flushed1_4 (c : Dev nD) (t : Fin cfg1.N) (hf : (cfg1.win 4).flush t = true) :
    (dat1 V c).flushed 4 t = ((cfg1.win 4).blk t).view.read (Elt Ideal) (squares1 V c) := by
  have hN : cfg1.N = 25 := N_1
  have h24 : t.val = 24 := by have := (flush1_4 t).mp hf; have := t.isLt; omega
  show (cfg1.win 4).cut (grid1.coords t) ((dat1 V c).after 4 t) = _
  rw [after1_4]
  refine flushed_row1_4 (squares1 V c) (acc1_4 V c t.val t.isLt) t fun q => ?_
  rw [squares1_of V c (ix2 (0 : Fin 1) q) q rfl, acc1_4_apply V c q t.val t.isLt, ← partial1_all]
  exact congrArg (partial1 (sqTerm1 V c q)) (by omega)

/-- The last point's block is the whole one-row array. -/
theorem mem_blk1_3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v47_1).slice (win1_3.rect t)).set ↔ _
  rw [View.set_slice_whole, Rect.mem_set_unit]
  exact Iff.rfl
theorem mem_blk1_4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v47_2).slice (win1_4.rect t)).set ↔ _
  rw [View.set_slice_whole, Rect.mem_set_unit]
  exact Iff.rfl

/-- The last grid point. -/
abbrev last1 : Fin cfg1.N := ⟨24, by rw [show cfg1.N = 25 from N_1]; omega⟩

/-- THE COLUMN SUMS' ARRAY after the region. -/
theorem final1_3 (c : Dev nD) : (dat1 V c).arrAt 3 cfg1.N = sums1 V c :=
  (dat1 V c).arrAt_eq_of_cover 3 (sums1 V c) (flushed1_3 V c) fun i => by
    have hi0 : (i 0).val < 1 := (i 0).isLt
    have hi1 : (i 1).val < 128 := (i 1).isLt
    refine ⟨last1, (flush1_3 last1).mpr rfl, ?_⟩
    rw [mem_blk1_3]
    obtain ⟨-, -, -, -, -, -, e0, e1, -⟩ := idx1_facts last1
    intro a
    match a with
    | ⟨0, _⟩ =>
      show win1_3.index last1 0 * 1 ≤ (i 0).val ∧ (i 0).val < win1_3.index last1 0 * 1 + 1
      rw [e0]; omega
    | ⟨1, _⟩ =>
      show win1_3.index last1 1 * 128 ≤ (i 1).val ∧ (i 1).val < win1_3.index last1 1 * 128 + 128
      rw [e1]; omega

/-- THE COLUMN SUMS OF SQUARES' ARRAY after the region. -/
theorem final1_4 (c : Dev nD) : (dat1 V c).arrAt 4 cfg1.N = squares1 V c :=
  (dat1 V c).arrAt_eq_of_cover 4 (squares1 V c) (flushed1_4 V c) fun i => by
    have hi0 : (i 0).val < 1 := (i 0).isLt
    have hi1 : (i 1).val < 128 := (i 1).isLt
    refine ⟨last1, (flush1_4 last1).mpr rfl, ?_⟩
    rw [mem_blk1_4]
    obtain ⟨-, -, -, -, -, -, -, -, e0, e1⟩ := idx1_facts last1
    intro a
    match a with
    | ⟨0, _⟩ =>
      show win1_4.index last1 0 * 1 ≤ (i 0).val ∧ (i 0).val < win1_4.index last1 0 * 1 + 1
      rw [e0]; omega
    | ⟨1, _⟩ =>
      show win1_4.index last1 1 * 128 ≤ (i 1).val ∧ (i 1).val < win1_4.index last1 1 * 128 + 128
      rw [e1]; omega

/-- The column sums, entry by entry, -/
theorem sums1_final (c : Dev nD) (q : Fin 128) :
    ((dat1 V c).arrAt 3 cfg1.N : S1x128.Idx → EReal) (ix2 (0 : Fin 1) q)
      = ∑ p : Fin 50000, (agg1 V c (ix2 p q) + bias1 V c (ix2 (0 : Fin 1) q)) :=
  congrFun (final1_3 V c) (ix2 (0 : Fin 1) q)

/-- and the column sums of squares. -/
theorem squares1_final (c : Dev nD) (q : Fin 128) :
    ((dat1 V c).arrAt 4 cfg1.N : S1x128.Idx → EReal) (ix2 (0 : Fin 1) q)
      = ∑ p : Fin 50000, (agg1 V c (ix2 p q) + bias1 V c (ix2 (0 : Fin 1) q)) * (agg1 V c (ix2 p q) + bias1 V c (ix2 (0 : Fin 1) q)) :=
  congrFun (final1_4 V c) (ix2 (0 : Fin 1) q)

end Cert.KernelIdeal.Hand

end
-- ==== Proof.LibHostRead.lean ====
/-
  Host operations on matrices read at one index of their result, over the extended reals.

  A host product of an R × K matrix by a K × C matrix is, at (p, q), the K-term sum of the products of row p of the
  first by column q of the second.  A host sum along the second axis of an R × C matrix is, at row r, the initial
  value plus the C-term sum of that row; along the first axis, at column c, the initial value plus the R-term sum of
  that column.  Spreading a scalar, a vector along the columns of every row, or a vector along the rows of every
  column, repeats the entry it came from.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.LibHostRead

open Idealize.ShloMosaic Idealize.ShloMosaic.ValueIdx

/-! ## A matrix product -/

section Dot
variable {R K C : ℕ}

/-- On the first operand's row axis the operand index is the result's row. -/
theorem lhsIdx_row (D : DotDims ⟨2, ![R, K]⟩ ⟨2, ![K, C]⟩ ⟨2, ![R, C]⟩) (hlb : D.lhsBatch = [])
    (hln : D.lhsNonContracting = [0]) (j : (⟨2, ![R, C]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln])

/-- On the second operand's column axis the operand index is the result's column. -/
theorem rhsIdx_col (D : DotDims ⟨2, ![R, K]⟩ ⟨2, ![K, C]⟩ ⟨2, ![R, C]⟩) (hlb : D.lhsBatch = []) (hrb : D.rhsBatch = [])
    (hln : D.lhsNonContracting = [0]) (hrn : D.rhsNonContracting = [1]) (j : (⟨2, ![R, C]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln, hrn])

/-- A host rows-by-columns product at (p, q): the sum over the shared axis of the products. -/
theorem dotGeneral_ix2 {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_col D hlb hrb hln hrn _ _)
  rw [el, er]

end Dot

/-! ## Host sums along one axis of a matrix -/

section Sums
variable {R C : ℕ} {φ : FTy}

/-- The host sum along the second axis, at row r. -/
theorem reduceAdd_lanes_ix1 (x : FVec Ideal ⟨2, ![R, C]⟩ φ) (init : EReal)
    (h : (⟨2, ![R, C]⟩ : Shape).ReducesTo [1] ⟨1, ![R]⟩)
    (hr : (⟨2, ![R, C]⟩ : Shape).Reduces [1] ⟨1, ![R]⟩) (r : Fin R) :
    Ideal.hostReduceAdd h x init (ix1 r) = init + ∑ k : Fin C, x (ix2 r k) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

/-- The host sum along the first axis, at column c. -/
theorem reduceAdd_rows_ix1 (x : FVec Ideal ⟨2, ![R, C]⟩ φ) (init : EReal)
    (h : (⟨2, ![R, C]⟩ : Shape).ReducesTo [0] ⟨1, ![C]⟩)
    (hr : (⟨2, ![R, C]⟩ : Shape).Reduces [0] ⟨1, ![C]⟩) (c : Fin C) :
    Ideal.hostReduceAdd h x init (ix1 c) = init + ∑ r : Fin R, x (ix2 r c) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

end Sums

/-! ## Spreading along an axis -/

section Spread
variable {α : Type} {R C : ℕ}

/-- A vector of C entries laid along the columns of every one of R rows: entry (p, q) is entry q. -/
theorem spread_cols_ix2 (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 v) (ix2 p q) = v (ix1 q) := by
  rw [broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)]
  exact broadcastInDim_apply _ h1 v (ix2 (0 : Fin 1) q) (ix1 q) (fun a => by
    match a with
    | ⟨0, _⟩ =>
      show q.val = if C = 1 then 0 else q.val
      split
      · have := q.isLt; omega
      · rfl)

/-- A vector of R entries laid along the rows of every one of C columns: entry (p, q) is entry p. -/
theorem spread_rows_ix2 (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (q : Fin C) :
    broadcastInDim ⟨2, ![R, C]⟩ ![0, 1] h2 (broadcastInDim ⟨2, ![R, 1]⟩ ![0] h1 v) (ix2 p q) = v (ix1 p) := by
  rw [broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])]
  exact broadcastInDim_apply _ h1 v (ix2 p (0 : Fin 1)) (ix1 p) (fun a => by
    match a with
    | ⟨0, _⟩ =>
      show p.val = if R = 1 then 0 else p.val
      split
      · have := p.isLt; omega
      · rfl)

/-- A one-column matrix spread over C columns: entry (p, q) is the column's entry p. -/
theorem spread_col_ix2 (w : (⟨2, ![R, 1]⟩ : Shape).Idx → α)
    (h2 : (⟨2, ![R, 1]⟩ : Shape).BroadcastsInDim ⟨2, ![R, C]⟩ ![0, 1]) (p : Fin R) (q : Fin C) :
    broadcastInDim ⟨2, ![R, C]⟩ ![0, 1] h2 w (ix2 p q) = w (ix2 p (0 : Fin 1)) :=
  broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])

/-- A vector as a one-row matrix: entry (0, q) is entry q. -/
theorem row_ix2 (v : (⟨1, ![C]⟩ : Shape).Idx → α)
    (h1 : (⟨1, ![C]⟩ : Shape).BroadcastsInDim ⟨2, ![1, C]⟩ ![1]) (u : Fin 1) (q : Fin C) :
    broadcastInDim ⟨2, ![1, C]⟩ ![1] h1 v (ix2 u q) = v (ix1 q) :=
  broadcastInDim_apply _ h1 v (ix2 u q) (ix1 q) (fun a => by
    match a with
    | ⟨0, _⟩ =>
      show q.val = if C = 1 then 0 else q.val
      split
      · have := q.isLt; omega
      · rfl)

/-- A one-row matrix spread over R rows: entry (p, q) is the row's entry q. -/
theorem spread_row_ix2 (w : (⟨2, ![1, C]⟩ : Shape).Idx → α)
    (h2 : (⟨2, ![1, C]⟩ : Shape).BroadcastsInDim ⟨2, ![R, C]⟩ ![0, 1]) (p : Fin R) (q : Fin C) :
    broadcastInDim ⟨2, ![R, C]⟩ ![0, 1] h2 w (ix2 p q) = w (ix2 (0 : Fin 1) q) :=
  broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)

/-- A vector as a one-column matrix: entry (p, 0) is entry p. -/
theorem column_ix2 (v : (⟨1, ![R]⟩ : Shape).Idx → α)
    (h1 : (⟨1, ![R]⟩ : Shape).BroadcastsInDim ⟨2, ![R, 1]⟩ ![0]) (p : Fin R) (u : Fin 1) :
    broadcastInDim ⟨2, ![R, 1]⟩ ![0] h1 v (ix2 p u) = v (ix1 p) :=
  broadcastInDim_apply _ h1 v (ix2 p u) (ix1 p) (fun a => by
    match a with
    | ⟨0, _⟩ =>
      show p.val = if R = 1 then 0 else p.val
      split
      · have := p.isLt; omega
      · rfl)

end Spread

end Cert.LibHostRead

end
-- ==== Proof.Consts.lean ====
/-
  The float constants the two programs spell, as the extended reals their bit patterns denote.
-/
import Idealize.ShloMosaic.PureOps.Ideal

noncomputable section

namespace Cert.GcnConsts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `50000.0`, the number of nodes, denotes the real `50000`. -/
theorem ofBits_50000 : Ideal.ofBits .f32 0x47435000#32 = ((50000 : ℝ) : EReal) := by
  simp [Ideal.ofBits, Ideal.ieee, -EReal.coe_mul]; norm_num

/-- The batch-norm epsilon denotes a positive real. -/
theorem ofBits_eps_pos : ∃ r : ℝ, 0 < r ∧ Ideal.ofBits .f32 0x3727C5AC#32 = (r : EReal) := by
  refine ⟨_, ?_, by simp [Ideal.ofBits, Ideal.ieee, -EReal.coe_mul]; rfl⟩
  norm_num

/-- The pattern of `-inf` denotes `⊥`. -/
theorem ofBits_neg_inf : Ideal.ofBits .f32 0xFF800000#32 = ⊥ := by
  simp [Ideal.ofBits, Ideal.ieee]

/-- The pattern of `+inf` denotes `⊤`. -/
theorem ofBits_pos_inf : Ideal.ofBits .f32 0x7F800000#32 = ⊤ := by
  simp [Ideal.ofBits, Ideal.ieee]

end Cert.GcnConsts

end
-- ==== Proof.RefRead.lean ====
/-
  The reference's stages read at an index, on the extended reals: the linear map as a sum over the contracted axis, the
  bias spread along the rows, the column mean and the biased column variance as sums over the nodes divided by their
  number, and the normalised, scaled, shifted and rectified entry.
-/
import proofs.«111771_j80977313399687_1_alg».proof.Proof.RefRun.Stages
import proofs.«111771_j80977313399687_1_alg».proof.Proof.LibHostRead
import proofs.«111771_j80977313399687_1_alg».proof.Proof.Consts
import Idealize.ShloMosaic.PureOps.Ideal.Laws
import Idealize.ShloMosaic.Lib.ValueIdx

noncomputable section

namespace Cert.ReferenceIdeal.RefRead

open Cert.ReferenceIdeal Cert.ReferenceIdeal.Gen Cert.ReferenceIdeal.RefValue Idealize.ShloMosaic Idealize.ShloMosaic.ValueIdx Cert.LibHostRead
open scoped BigOperators

/-- The number of nodes, as the divisor both statistics use. -/
abbrev nodes : EReal := ((50000 : ℝ) : EReal)

theorem rows128_apply (v : FVec Ideal S128 .f32) (p : Fin 50000) (q : Fin 128) : rows128 (F := Ideal) v (ix2 p q) = v (ix1 q) := by
  unfold rows128; exact spread_cols_ix2 v _ _ p q

theorem rows64_apply (v : FVec Ideal S64 .f32) (p : Fin 50000) (q : Fin 64) : rows64 (F := Ideal) v (ix2 p q) = v (ix1 q) := by
  unfold rows64; exact spread_cols_ix2 v _ _ p q

theorem linear128_apply (h : FVec Ideal S50000x128 .f32) (W : FVec Ideal S128x128 .f32) (p : Fin 50000) (q : Fin 128) :
    linear128 (F := Ideal) h W (ix2 p q) = ∑ k : Fin 128, h (ix2 p k) * W (ix2 k q) := by
  unfold linear128; exact dotGeneral_ix2 _ rfl rfl rfl rfl rfl rfl none h W p q

theorem linear64_apply (h : FVec Ideal S50000x128 .f32) (W : FVec Ideal S128x64 .f32) (p : Fin 50000) (q : Fin 64) :
    linear64 (F := Ideal) h W (ix2 p q) = ∑ k : Fin 128, h (ix2 p k) * W (ix2 k q) := by
  unfold linear64; exact dotGeneral_ix2 _ rfl rfl rfl rfl rfl rfl none h W p q

theorem addBias128_apply (a : FVec Ideal S50000x128 .f32) (b : FVec Ideal S128 .f32) (p : Fin 50000) (q : Fin 128) :
    addBias128 (F := Ideal) a b (ix2 p q) = a (ix2 p q) + b (ix1 q) := by
  unfold addBias128; rw [addf_apply, rows128_apply]

theorem addBias64_apply (a : FVec Ideal S50000x64 .f32) (b : FVec Ideal S64 .f32) (p : Fin 50000) (q : Fin 64) :
    addBias64 (F := Ideal) a b (ix2 p q) = a (ix2 p q) + b (ix1 q) := by
  unfold addBias64; rw [addf_apply, rows64_apply]

/-- The column sum the statistics start from. -/
theorem colSum_apply (h : FVec Ideal S50000x128 .f32) (q : Fin 128) :
    Host.reduceAdd (F := Ideal) h (constant S_ .f32 0x00000000#32) reducesTo_S50000x128_S128_d0 h_S_ (ix1 q) = ∑ p : Fin 50000, h (ix2 p q) := by
  unfold Host.reduceAdd
  rw [Ideal.hostReduceAdd_def, reduceAdd_rows_ix1 h _ _ (by decide) q, constant_apply, Cert.GcnConsts.ofBits_zero, zero_add]

theorem colMean_apply (h : FVec Ideal S50000x128 .f32) (q : Fin 128) :
    colMean (F := Ideal) h (ix1 q) = Ideal.div (∑ p : Fin 50000, h (ix2 p q)) nodes := by
  unfold colMean Host.divf
  rw [Ideal.hostDivf_def, colSum_apply]
  exact congrArg _ Cert.GcnConsts.ofBits_50000

/-- A scalar spread over any shape reads as the scalar. -/
theorem scalar_spread {α : Type} {t : Shape} (h : (S_ : Shape).BroadcastsInDim t ![]) (x : S_.Idx → α) (j : t.Idx) :
    broadcastInDim t ![] h x j = x ix0 := broadcastInDim_apply _ h x j ix0 (fun a => a.elim0)

/-- The variance's divisor: the number of nodes less a correction of zero. -/
theorem varCount_eq : varCount (F := Ideal) ix0 = nodes := by
  unfold varCount
  rw [subf_apply, constant_apply, Cert.GcnConsts.ofBits_50000]
  show nodes - (((0#32 : BitVec 32).toInt : ℝ) : EReal) = nodes
  simp

theorem centered_apply (h : FVec Ideal S50000x128 .f32) (p : Fin 50000) (q : Fin 128) :
    centered (F := Ideal) h (ix2 p q) = h (ix2 p q) - Ideal.div (∑ p : Fin 50000, h (ix2 p q)) nodes := by
  unfold centered Host.divf
  rw [subf_apply, spread_row_ix2, Ideal.hostDivf_def, row_ix2, colSum_apply, scalar_spread, constant_apply, Cert.GcnConsts.ofBits_50000]

theorem colVar_apply (h : FVec Ideal S50000x128 .f32) (q : Fin 128) :
    colVar (F := Ideal) h (ix1 q)
      = Ideal.div (∑ p : Fin 50000, (h (ix2 p q) - Ideal.div (∑ p : Fin 50000, h (ix2 p q)) nodes) * (h (ix2 p q) - Ideal.div (∑ p : Fin 50000, h (ix2 p q)) nodes)) nodes := by
  unfold colVar
  rw [select_apply, scalar_spread, cmpf_apply, varCount_eq, constant_apply, Cert.GcnConsts.ofBits_zero]
  have hc : FloatOps.cmpf (F := Ideal) (φ := .f32) .ogt nodes 0 = 1#1 := by
    show Ideal.cmp .ogt nodes 0 = 1#1
    simp [Ideal.cmp, nodes]
  rw [hc]
  show Host.divf _ _ (ix1 q) = _
  unfold Host.divf
  rw [Ideal.hostDivf_def, scalar_spread, varCount_eq]
  refine congrArg (Ideal.div · nodes) ?_
  unfold Host.reduceAdd
  rw [Ideal.hostReduceAdd_def, reduceAdd_rows_ix1 _ _ _ (by decide) q, constant_apply, Cert.GcnConsts.ofBits_zero, zero_add]
  exact Finset.sum_congr rfl fun p _ => by rw [mulf_apply, centered_apply]

/-- The batch-norm epsilon. -/
abbrev eps : EReal := Ideal.ofBits .f32 0x3727C5AC#32

theorem bnRelu_apply (h : FVec Ideal S50000x128 .f32) (mean var g beta : FVec Ideal S128 .f32) (p : Fin 50000) (q : Fin 128) :
    bnRelu (F := Ideal) h mean var g beta (ix2 p q)
      = max (g (ix1 q) * (h (ix2 p q) - mean (ix1 q)) * Ideal.rsqrt (var (ix1 q) + eps) + beta (ix1 q)) 0 := by
  unfold bnRelu bnReluFrom scaled epsVec
  rw [maximumf_apply, addf_apply, mulf_apply, mulf_apply, subf_apply, rows128_apply, rows128_apply, rows128_apply, rows128_apply,
    scalar_spread, constant_apply, Cert.GcnConsts.ofBits_zero]
  unfold Host.rsqrt
  rw [Ideal.hostUnary_rsqrt_def, addf_apply, scalar_spread, constant_apply]

theorem bnLayer_apply (h : FVec Ideal S50000x128 .f32) (g beta : FVec Ideal S128 .f32) (p : Fin 50000) (q : Fin 128) :
    bnLayer (F := Ideal) h g beta (ix2 p q)
      = max (g (ix1 q) * (h (ix2 p q) - colMean (F := Ideal) h (ix1 q)) * Ideal.rsqrt (colVar (F := Ideal) h (ix1 q) + eps) + beta (ix1 q)) 0 := by
  unfold bnLayer; exact bnRelu_apply h _ _ g beta p q

/-- A row's maximum: the fold of `max` from `⊥` over the row. -/
def rowSup (h : FVec Ideal S50000x64 .f32) (p : Fin 50000) : EReal :=
  (Finset.univ : Finset (Fin 64)).fold max ⊥ (fun k => h (ix2 p k))

theorem rowMax_apply (h : FVec Ideal S50000x64 .f32) (p : Fin 50000) : rowMax (F := Ideal) h (ix1 p) = rowSup h p := by
  unfold rowMax
  rw [maximumf_apply, scalar_spread, constant_apply, Cert.GcnConsts.ofBits_neg_inf,
    Host.reduce_eq_fold_single FloatOps.maximumf h _ reducesTo_S50000x64_S50000_d1 (by decide) h_S_ (ix1 p)]
  rw [constant_apply, Cert.GcnConsts.ofBits_neg_inf, max_eq_right bot_le]
  unfold rowSup
  refine congrArg (Finset.fold _ _ · _) (funext fun k => congrArg h (funext fun a => Fin.ext ?_))
  match a with
  | ⟨0, _⟩ => rfl
  | ⟨1, _⟩ => rfl

theorem shifted_apply (h : FVec Ideal S50000x64 .f32) (p : Fin 50000) (q : Fin 64) :
    shifted (F := Ideal) h (ix2 p q) = h (ix2 p q) - rowSup h p := by
  unfold shifted
  rw [subf_apply, spread_rows_ix2, rowMax_apply]

theorem logSoftmax_apply (h : FVec Ideal S50000x64 .f32) (p : Fin 50000) (q : Fin 64) :
    logSoftmax (F := Ideal) h (ix2 p q) = (h (ix2 p q) - rowSup h p) - Ideal.log (∑ k : Fin 64, Ideal.exp (h (ix2 p k) - rowSup h p)) := by
  unfold logSoftmax
  rw [subf_apply, shifted_apply, spread_col_ix2]
  unfold Host.log
  rw [Ideal.hostUnary_log_def, column_ix2]
  unfold Host.reduceAdd
  rw [Ideal.hostReduceAdd_def, reduceAdd_lanes_ix1 _ _ _ (by decide) p, constant_apply, Cert.GcnConsts.ofBits_zero, zero_add]
  refine congrArg (fun s => _ - Ideal.log s) (Finset.sum_congr rfl fun k _ => ?_)
  unfold Host.exp
  rw [Ideal.hostUnary_exp_def, shifted_apply]

end Cert.ReferenceIdeal.RefRead

end
-- ==== Proof.LibStats.lean ====
/-
  Sums over blocks of rows, the two formulas for a population variance, and which extended reals are finite.

  A batch statistic over `m * n` rows may be accumulated block by block (`m` blocks of `n` rows) or in one pass:
  in a commutative monoid the two sums agree.  The population variance of finitely many REAL numbers is
  both the mean of the squared deviations and the mean of the squares minus the squared mean, and it is never
  negative, so clamping the second form at zero changes nothing.  On the extended reals these identities need the
  numbers to be finite (a product distributes over a sum only away from the infinities), so the last part collects
  the closure properties of "finite" under the arithmetic the two programs use.
-/
import Idealize.ShloMosaic.PureOps.Ideal

noncomputable section

namespace Cert.LibStats

open Idealize.ShloMosaic

/-! ## Sums block by block -/

/-- A sum over `m * n` consecutive indices, taken as `m` blocks of `n`: row `n * b + r` is row `r` of block `b`. -/
theorem sum_blocks {M : Type*} [AddCommMonoid M] (m n : ℕ) (g : Fin (m * n) → M)
    (h : ∀ (b : Fin m) (r : Fin n), n * (b : ℕ) + (r : ℕ) < m * n) :
    ∑ b : Fin m, ∑ r : Fin n, g ⟨n * (b : ℕ) + (r : ℕ), h b r⟩ = ∑ i, g i := by
  rw [← Fintype.sum_prod_type' (f := fun (b : Fin m) (r : Fin n) => g ⟨n * (b : ℕ) + (r : ℕ), h b r⟩)]
  refine Fintype.sum_equiv finProdFinEquiv _ _ (fun p => ?_)
  refine congrArg g (Fin.ext ?_)
  simp [finProdFinEquiv, Nat.add_comm]

/-! ## Coercions -/

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two variance formulas, over the reals -/

/-- Mean of squares minus squared mean is the mean of squared deviations. -/
theorem var_forms {ι : Type*} [Fintype ι] (p : ι → ℝ) (N : ℝ) (hN : (Fintype.card ι : ℝ) = N) (hN0 : N ≠ 0) :
    (∑ i, p i * p i) / N - (∑ i, p i) / N * ((∑ i, p i) / N)
      = (∑ i, (p i - (∑ i, p i) / N) * (p i - (∑ i, p i) / N)) / N := by
  have h1 : ∑ i, (p i - (∑ i, p i) / N) * (p i - (∑ i, p i) / N)
      = (∑ i, p i * p i) - 2 * ((∑ i, p i) / N) * (∑ i, p i) + N * (((∑ i, p i) / N) * ((∑ i, p i) / N)) := by
    have : ∀ i, (p i - (∑ i, p i) / N) * (p i - (∑ i, p i) / N)
        = p i * p i - 2 * ((∑ i, p i) / N) * p i + ((∑ i, p i) / N) * ((∑ i, p i) / N) := fun i => by ring
    simp only [this, Finset.sum_add_distrib, Finset.sum_sub_distrib, ← Finset.mul_sum, Finset.sum_const, Finset.card_univ,
      nsmul_eq_mul, hN]
    ring
  rw [h1]
  field_simp
  ring

/-- The mean of squared deviations is not negative. -/
theorem var_nonneg {ι : Type*} [Fintype ι] (p : ι → ℝ) (μ N : ℝ) (hN : 0 < N) :
    0 ≤ (∑ i, (p i - μ) * (p i - μ)) / N :=
  div_nonneg (Finset.sum_nonneg fun i _ => mul_self_nonneg _) hN.le

/-- Clamping "mean of squares minus squared mean" at zero leaves the mean of squared deviations. -/
theorem var_clamped {ι : Type*} [Fintype ι] (p : ι → ℝ) (N : ℝ) (hN : (Fintype.card ι : ℝ) = N) (hN0 : 0 < N) :
    max ((∑ i, p i * p i) / N - (∑ i, p i) / N * ((∑ i, p i) / N)) 0
      = (∑ i, (p i - (∑ i, p i) / N) * (p i - (∑ i, p i) / N)) / N := by
  rw [var_forms p N hN hN0.ne']
  exact max_eq_left (var_nonneg p _ N hN0)

/-! ## Finite extended reals -/

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} : IsFin x → IsFin y → IsFin (x + y)
  | ⟨a, ha⟩, ⟨b, hb⟩ => ⟨a + b, by rw [ha, hb, EReal.coe_add]⟩
theorem IsFin.sub {x y : EReal} : IsFin x → IsFin y → IsFin (x - y)
  | ⟨a, ha⟩, ⟨b, hb⟩ => ⟨a - b, by rw [ha, hb, EReal.coe_sub]⟩
theorem IsFin.mul {x y : EReal} : IsFin x → IsFin y → IsFin (x * y)
  | ⟨a, ha⟩, ⟨b, hb⟩ => ⟨a * b, by rw [ha, hb, EReal.coe_mul]⟩
theorem IsFin.max {x y : EReal} : IsFin x → IsFin y → IsFin (max x y)
  | ⟨a, ha⟩, ⟨b, hb⟩ => ⟨Max.max a b, by rw [ha, hb]; exact (EReal.coe_strictMono.monotone.map_max).symm⟩
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- A quotient by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

theorem IsFin.div {x y : EReal} : IsFin x → IsFin y → y ≠ 0 → IsFin (Ideal.div x y)
  | ⟨a, ha⟩, ⟨b, hb⟩, h0 => ⟨a / b, by
      subst ha hb
      exact div_coe_coe a b (by rintro rfl; exact h0 rfl)⟩

/-- The square root of a nonnegative real. -/
theorem sqrt_coe (r : ℝ) (hr : 0 ≤ r) : Ideal.sqrt (r : EReal) = ((Real.sqrt r : ℝ) : EReal) := by
  show (if r < 0 then (⊥ : EReal) else (Real.sqrt r : EReal)) = _
  rw [if_neg (not_lt.mpr hr)]

/-- The reciprocal square root of a positive real. -/
theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-! ## The variance formulas on finite extended reals -/

theorem coe_max (a b : ℝ) : ((Max.max a b : ℝ) : EReal) = Max.max (a : EReal) (b : EReal) :=
  EReal.coe_strictMono.monotone.map_max

/-- Finitely many finite extended reals are the coercions of reals. -/
theorem exists_real {ι : Type*} (x : ι → EReal) (hx : ∀ i, IsFin (x i)) : ∃ p : ι → ℝ, x = fun i => (p i : EReal) :=
  ⟨fun i => (hx i).choose, funext fun i => (hx i).choose_spec⟩

/-- For finite entries, "mean of squares minus squared mean, clamped at zero" is the mean of squared deviations. -/
theorem var_clamped_ereal {ι : Type*} [Fintype ι] (x : ι → EReal) (hx : ∀ i, IsFin (x i)) (N : ℝ)
    (hN : (Fintype.card ι : ℝ) = N) (hN0 : 0 < N) :
    Max.max (Ideal.div (∑ i, x i * x i) (N : EReal)
        - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0.ne', ← EReal.coe_sub]
  rw [← EReal.coe_zero, ← coe_max, var_clamped p N hN hN0]

/-! ## Signs -/

/-- A nonnegative real, as an extended real. -/
def IsNonneg (x : EReal) : Prop := ∃ r : ℝ, 0 ≤ r ∧ x = (r : EReal)
/-- A positive real, as an extended real. -/
def IsPos (x : EReal) : Prop := ∃ r : ℝ, 0 < r ∧ x = (r : EReal)

theorem IsNonneg.isFin {x : EReal} : IsNonneg x → IsFin x | ⟨r, _, h⟩ => ⟨r, h⟩
theorem IsPos.isFin {x : EReal} : IsPos x → IsFin x | ⟨r, _, h⟩ => ⟨r, h⟩
theorem IsPos.isNonneg {x : EReal} : IsPos x → IsNonneg x | ⟨r, h0, h⟩ => ⟨r, h0.le, h⟩
theorem IsPos.ne_zero {x : EReal} : IsPos x → x ≠ 0
  | ⟨r, h0, h⟩ => by rw [h]; exact_mod_cast h0.ne'
theorem IsNonneg.zero : IsNonneg 0 := ⟨0, le_rfl, rfl⟩
theorem IsFin.mul_self_nonneg {x : EReal} : IsFin x → IsNonneg (x * x)
  | ⟨a, ha⟩ => ⟨a * a, _root_.mul_self_nonneg a, by rw [ha, EReal.coe_mul]⟩
theorem IsNonneg.add {x y : EReal} : IsNonneg x → IsNonneg y → IsNonneg (x + y)
  | ⟨a, ha0, ha⟩, ⟨b, hb0, hb⟩ => ⟨a + b, add_nonneg ha0 hb0, by rw [ha, hb, EReal.coe_add]⟩
theorem IsNonneg.add_pos {x y : EReal} : IsNonneg x → IsPos y → IsPos (x + y)
  | ⟨a, ha0, ha⟩, ⟨b, hb0, hb⟩ => ⟨a + b, add_pos_of_nonneg_of_pos ha0 hb0, by rw [ha, hb, EReal.coe_add]⟩
theorem IsNonneg.sum {ι : Type*} (s : Finset ι) (f : ι → EReal) (h : ∀ i ∈ s, IsNonneg (f i)) : IsNonneg (∑ i ∈ s, f i) := by
  classical
  induction s using Finset.induction_on with
  | empty => simpa using IsNonneg.zero
  | insert a s ha ih =>
    rw [Finset.sum_insert ha]
    exact (h a (Finset.mem_insert_self a s)).add (ih fun i hi => h i (Finset.mem_insert_of_mem hi))
theorem IsNonneg.sqrt {x : EReal} : IsNonneg x → IsNonneg (Ideal.sqrt x)
  | ⟨a, ha0, ha⟩ => ⟨Real.sqrt a, Real.sqrt_nonneg a, by rw [ha, sqrt_coe a ha0]⟩
theorem IsNonneg.max_pos {x y : EReal} : IsNonneg x → IsPos y → IsPos (Max.max x y)
  | ⟨a, _, ha⟩, ⟨b, hb0, hb⟩ => ⟨Max.max a b, lt_max_of_lt_right hb0, by rw [ha, hb, coe_max]⟩
theorem IsFin.max_zero_nonneg {x : EReal} : IsFin x → IsNonneg (Max.max x 0)
  | ⟨a, ha⟩ => ⟨Max.max a 0, le_max_right a 0, by rw [ha, ← EReal.coe_zero, coe_max]⟩
theorem IsPos.rsqrt {x : EReal} : IsPos x → IsFin (Ideal.rsqrt x)
  | ⟨a, ha0, ha⟩ => ⟨(Real.sqrt a)⁻¹, by rw [ha, rsqrt_coe a ha0]⟩
theorem IsNonneg.div_pos {x y : EReal} : IsNonneg x → IsPos y → IsNonneg (Ideal.div x y)
  | ⟨a, ha0, ha⟩, ⟨b, hb0, hb⟩ => ⟨a / b, div_nonneg ha0 hb0.le, by rw [ha, hb, div_coe_coe a b hb0.ne']⟩
theorem IsFin.div_pos {x y : EReal} (hx : IsFin x) (hy : IsPos y) : IsFin (Ideal.div x y) :=
  hx.div hy.isFin hy.ne_zero

/-- Multiplying by the reciprocal of a nonzero divisor is dividing by it. -/
theorem mul_one_div (x y : EReal) (hy : y ≠ 0) : x * Ideal.div 1 y = Ideal.div x y := by
  rw [Ideal.div, Ideal.div, if_neg hy, if_neg hy, one_mul]

end Cert.LibStats

end
-- ==== Proof.GcnMath.lean ====
/-
  The arithmetic that joins the two programs, on the extended reals.

  * The biased variance of finitely many real numbers is both "mean of squares less the squared mean" and "mean of the
    squared deviations from the mean"; on extended reals the two agree when every entry is a real.
  * That variance is a non-negative real, so adding a positive epsilon and taking the reciprocal square root stays real,
    and the normalised, scaled, shifted and rectified entry is real.
-/
import proofs.«111771_j80977313399687_1_alg».proof.Proof.LibStats

noncomputable section

namespace Cert.GcnMath

open Idealize.ShloMosaic Cert.LibStats
open scoped BigOperators

/-- Mean of squares less the squared mean is the mean of squared deviations, for real entries. -/
theorem var_forms_ereal {ι : Type*} [Fintype ι] (x : ι → EReal) (hx : ∀ i, IsFin (x i)) (N : ℝ)
    (hN : (Fintype.card ι : ℝ) = N) (hN0 : N ≠ 0) :
    Ideal.div (∑ i, x i * x i) (N : EReal) - Ideal.div (∑ i, x i) (N : EReal) * Ideal.div (∑ i, x i) (N : EReal)
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0, ← EReal.coe_sub]
  exact congrArg _ (var_forms p N hN hN0)

/-- The mean of real entries is real. -/
theorem mean_fin {ι : Type*} [Fintype ι] (x : ι → EReal) (hx : ∀ i, IsFin (x i)) (N : ℝ) (hN0 : 0 < N) :
    IsFin (Ideal.div (∑ i, x i) (N : EReal)) :=
  (IsFin.sum _ _ fun i _ => hx i).div_pos ⟨N, hN0, rfl⟩

/-- The mean of squared deviations of real entries is a non-negative real. -/
theorem var_nonneg_ereal {ι : Type*} [Fintype ι] (x : ι → EReal) (hx : ∀ i, IsFin (x i)) (μ : EReal) (hμ : IsFin μ) (N : ℝ) (hN0 : 0 < N) :
    IsNonneg (Ideal.div (∑ i, (x i - μ) * (x i - μ)) (N : EReal)) :=
  (IsNonneg.sum _ _ fun i _ => ((hx i).sub hμ).mul_self_nonneg).div_pos ⟨N, hN0, rfl⟩

/-- One normalised, scaled, shifted and rectified entry is real when its ingredients are and the variance is a
    non-negative real and the epsilon a positive one. -/
theorem bn_entry_fin {g h μ v e β : EReal} (hg : IsFin g) (hh : IsFin h) (hμ : IsFin μ) (hv : IsNonneg v) (he : IsPos e) (hβ : IsFin β) :
    IsFin (max (g * (h - μ) * Ideal.rsqrt (v + e) + β) 0) :=
  ((((hg.mul (hh.sub hμ)).mul (hv.add_pos he).rsqrt).add hβ).max IsFin.zero)

end Cert.GcnMath

end
-- ==== Proof.RefFin.lean ====
/-
  Every stage of the reference keeps real entries real: a gather reads entries of its operand, an accumulating scatter
  adds finitely many of its updates to an entry of its operand, a degree is a finite count (so its clamped inverse
  square root is real), a linear map is a finite sum of products, and batch normalisation divides by the square root of
  a non-negative variance plus a positive epsilon.
-/
import proofs.«111771_j80977313399687_1_alg».proof.Proof.RefRead
import proofs.«111771_j80977313399687_1_alg».proof.Proof.GcnMath

noncomputable section

namespace Cert.ReferenceIdeal.RefFin

open Cert.ReferenceIdeal Cert.ReferenceIdeal.Gen Cert.ReferenceIdeal.RefValue Cert.ReferenceIdeal.RefRead
open Idealize.ShloMosaic Idealize.ShloMosaic.ValueIdx Cert.LibStats Cert.GcnMath
open scoped BigOperators

/-- Every entry of the array is a real. -/
def AllFin {s : Shape} (x : s.Idx → EReal) : Prop := ∀ i, IsFin (x i)

theorem zero_fin : IsFin (Ideal.ofBits .f32 0x00000000#32) := ⟨0, Cert.GcnConsts.ofBits_zero.trans EReal.coe_zero.symm⟩
theorem one_pos' : IsPos (Ideal.ofBits .f32 0x3F800000#32) := ⟨1, one_pos, Cert.GcnConsts.ofBits_one.trans EReal.coe_one.symm⟩
theorem eps_pos : IsPos eps := Cert.GcnConsts.ofBits_eps_pos
theorem nodes_pos : (0 : ℝ) < 50000 := by norm_num

theorem gather_fin {s si t : Shape} {w : ℕ} (d : GatherDims s si t) (x : s.Idx → EReal) (idx : IVec si w) (hx : AllFin x) :
    AllFin (Host.gather d x idx) := fun j => hx _

theorem scatterAdd_fin {s si su : Shape} {w : ℕ} (d : ScatterDims s si su) (x : FVec Ideal s .f32) (idx : IVec si w) (upd : FVec Ideal su .f32)
    (hx : AllFin x) (hu : AllFin upd) : AllFin (Host.scatterAdd d x idx upd) := fun i => by
  unfold Host.scatterAdd
  rw [Ideal.hostScatterAdd_def]
  exact (hx i).add (IsFin.sum _ _ fun j _ => hu j)

theorem spread_fin {s t : Shape} (dims : Fin s.rank → Fin t.rank) (h : s.BroadcastsInDim t dims) (x : s.Idx → EReal) (hx : AllFin x) :
    AllFin (broadcastInDim t dims h x) := fun j => hx _

theorem zeros_fin {t : Shape} (h : (S_ : Shape).BroadcastsInDim t ![]) :
    AllFin (broadcastInDim t ![] h (constant (F := Ideal) S_ .f32 0x00000000#32)) := fun j => zero_fin

theorem scatterAdd_nonneg {s si su : Shape} {w : ℕ} (d : ScatterDims s si su) (x : FVec Ideal s .f32) (idx : IVec si w) (upd : FVec Ideal su .f32)
    (hx : ∀ i, IsNonneg (x i)) (hu : ∀ j, IsNonneg (upd j)) (i : s.Idx) : IsNonneg (Host.scatterAdd d x idx upd i) := by
  unfold Host.scatterAdd
  rw [Ideal.hostScatterAdd_def]
  exact (hx i).add (IsNonneg.sum _ _ fun j _ => hu j)

theorem zero_nonneg : IsNonneg (Ideal.ofBits .f32 0x00000000#32) := ⟨0, le_rfl, Cert.GcnConsts.ofBits_zero.trans EReal.coe_zero.symm⟩

/-- A degree is a non-negative real: zero plus a finite sum of ones. -/
theorem deg_nonneg (d : IVec S850000 32) (i : S50000.Idx) : IsNonneg (deg (F := Ideal) d i) := by
  unfold deg
  exact scatterAdd_nonneg _ _ _ _ (fun _ => zero_nonneg) (fun _ => one_pos'.isNonneg) i

/-- The clamped inverse square root of non-negative reals is real. -/
theorem dis_fin (dg : FVec Ideal S50000 .f32) (hdg : ∀ i, IsNonneg (dg i)) : AllFin (dis (F := Ideal) dg) := fun i => by
  unfold dis
  rw [select_apply]
  unfold Scalar.select
  split
  · unfold Host.rsqrt
    rw [Ideal.hostUnary_rsqrt_def, maximumf_apply]
    exact ((hdg i).max_pos one_pos').rsqrt
  · exact zero_fin

theorem norm_fin (s d : IVec S850000 32) : AllFin (RefValue.norm (F := Ideal) s d) := fun e => by
  unfold RefValue.norm normFrom
  rw [mulf_apply]
  exact (gather_fin _ _ _ (dis_fin _ (deg_nonneg d)) e).mul (gather_fin _ _ _ (dis_fin _ (deg_nonneg d)) e)

theorem linear128_fin (h : FVec Ideal S50000x128 .f32) (W : FVec Ideal S128x128 .f32) (hh : AllFin h) (hW : AllFin W) : AllFin (linear128 (F := Ideal) h W) := fun i => by
  obtain ⟨p, q, rfl⟩ : ∃ (p : Fin 50000) (q : Fin 128), i = ix2 p q := ⟨i 0, i 1, eq_ix2 i⟩
  rw [linear128_apply]
  exact IsFin.sum _ _ fun k _ => (hh _).mul (hW _)

theorem linear64_fin (h : FVec Ideal S50000x128 .f32) (W : FVec Ideal S128x64 .f32) (hh : AllFin h) (hW : AllFin W) : AllFin (linear64 (F := Ideal) h W) := fun i => by
  obtain ⟨p, q, rfl⟩ : ∃ (p : Fin 50000) (q : Fin 64), i = ix2 p q := ⟨i 0, i 1, eq_ix2 i⟩
  rw [linear64_apply]
  exact IsFin.sum _ _ fun k _ => (hh _).mul (hW _)

theorem aggregate128_fin (s d : IVec S850000 32) (nrm : FVec Ideal S850000 .f32) (h : FVec Ideal S50000x128 .f32) (hn : AllFin nrm) (hh : AllFin h) :
    AllFin (aggregate128 (F := Ideal) s d nrm h) := by
  unfold aggregate128 edgeCols128
  exact scatterAdd_fin _ _ _ _ (zeros_fin _) fun j => by
    rw [mulf_apply]; exact (gather_fin _ _ _ hh j).mul (spread_fin _ _ _ (spread_fin _ _ _ hn) j)

theorem aggregate64_fin (s d : IVec S850000 32) (nrm : FVec Ideal S850000 .f32) (h : FVec Ideal S50000x64 .f32) (hn : AllFin nrm) (hh : AllFin h) :
    AllFin (aggregate64 (F := Ideal) s d nrm h) := by
  unfold aggregate64 edgeCols64
  exact scatterAdd_fin _ _ _ _ (zeros_fin _) fun j => by
    rw [mulf_apply]; exact (gather_fin _ _ _ hh j).mul (spread_fin _ _ _ (spread_fin _ _ _ hn) j)

theorem conv128_fin (ei : IVec S2x800000 32) (h : FVec Ideal S50000x128 .f32) (W : FVec Ideal S128x128 .f32) (b : FVec Ideal S128 .f32)
    (hh : AllFin h) (hW : AllFin W) (hb : AllFin b) : AllFin (conv128 (F := Ideal) ei h W b) := fun i => by
  obtain ⟨p, q, rfl⟩ : ∃ (p : Fin 50000) (q : Fin 128), i = ix2 p q := ⟨i 0, i 1, eq_ix2 i⟩
  unfold conv128
  rw [addBias128_apply]
  exact (aggregate128_fin _ _ _ _ (norm_fin _ _) (linear128_fin _ _ hh hW) _).add (hb _)

theorem conv64_fin (ei : IVec S2x800000 32) (h : FVec Ideal S50000x128 .f32) (W : FVec Ideal S128x64 .f32) (b : FVec Ideal S64 .f32)
    (hh : AllFin h) (hW : AllFin W) (hb : AllFin b) : AllFin (conv64 (F := Ideal) ei h W b) := fun i => by
  obtain ⟨p, q, rfl⟩ : ∃ (p : Fin 50000) (q : Fin 64), i = ix2 p q := ⟨i 0, i 1, eq_ix2 i⟩
  unfold conv64
  rw [addBias64_apply]
  exact (aggregate64_fin _ _ _ _ (norm_fin _ _) (linear64_fin _ _ hh hW) _).add (hb _)

theorem bnLayer_fin (h : FVec Ideal S50000x128 .f32) (g beta : FVec Ideal S128 .f32) (hh : AllFin h) (hg : AllFin g) (hb : AllFin beta) :
    AllFin (bnLayer (F := Ideal) h g beta) := fun i => by
  obtain ⟨p, q, rfl⟩ : ∃ (p : Fin 50000) (q : Fin 128), i = ix2 p q := ⟨i 0, i 1, eq_ix2 i⟩
  rw [bnLayer_apply, colMean_apply, colVar_apply]
  exact bn_entry_fin (hg _) (hh _) (mean_fin _ (fun p => hh _) _ nodes_pos)
    (var_nonneg_ereal _ (fun p => hh _) _ (mean_fin _ (fun p => hh _) _ nodes_pos) _ nodes_pos) eps_pos (hb _)

end Cert.ReferenceIdeal.RefFin

end
-- ==== Proof.KI.Value.LayerAlg.lean ====
/-
  One batch-normalised layer, from what the kernel program's pieces leave, is the reference's layer.

  The kernel program forms the batch statistics from two accumulated rows: the column sums `s` and the column sums of
  squares `sq` of the convolution's output `y`.  Its mean is `s / N` and its variance `sq / N - (s / N)²`; the
  reference's mean is the same quotient and its variance the mean of the squared deviations from the mean.  For real
  entries the two variances are one number, so an array whose entries are the normalised, scaled, shifted and
  rectified entries of `y` under the kernel program's statistics is the reference's layer applied to `y`.
  A vector read as a one-row matrix has the vector's entries; the row of node counts has the number of nodes on every
  column.
-/
import proofs.«111771_j80977313399687_1_alg».proof.Proof.KI.HostRead.Stages
import proofs.«111771_j80977313399687_1_alg».proof.Proof.RefRead
import proofs.«111771_j80977313399687_1_alg».proof.Proof.RefFin
import proofs.«111771_j80977313399687_1_alg».proof.Proof.GcnMath
import proofs.«111771_j80977313399687_1_alg».proof.Proof.Consts
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx Idealize.SL.Sem
open Cert.ReferenceIdeal.RefValue Cert.ReferenceIdeal.RefRead Cert.ReferenceIdeal.RefFin Cert.LibStats
open scoped BigOperators

/-! ## The rows the host stretches form, read at an entry -/

/-- A vector read as a one-row matrix has the vector's entries. -/
theorem rowOf128_apply (b : FVec Ideal S128 .f32) (q : Fin 128) :
    rowOf128 (F := Ideal) b (ix2 (0 : Fin 1) q) = b (ix1 q) := by
  unfold rowOf128
  exact shapeCast_a_1a_apply b shapeCasts_S128_S1x128 (0 : Fin 1) q

/-- The row of node counts has the number of nodes on every column. -/
theorem countRowK_apply (q : Fin 128) : countRowK (F := Ideal) (ix2 (0 : Fin 1) q) = nodes := by
  unfold countRowK
  rw [broadcastInDim_apply ![] bcast_S_S1x128 _ (ix2 (0 : Fin 1) q) ix0 (fun a => a.elim0), constant_apply]
  exact Cert.GcnConsts.ofBits_50000

/-- The mean row: the column sum over the number of nodes. -/
theorem meanK_apply (s : FVec Ideal S1x128 .f32) (q : Fin 128) :
    meanK (F := Ideal) s (ix2 (0 : Fin 1) q) = Ideal.div (s (ix2 (0 : Fin 1) q)) nodes := by
  unfold meanK Host.divf
  rw [Ideal.hostDivf_def, countRowK_apply]

/-- The variance row: the mean of the squares less the square of the mean. -/
theorem varK_apply (s sq : FVec Ideal S1x128 .f32) (q : Fin 128) :
    varK (F := Ideal) s sq (ix2 (0 : Fin 1) q)
      = Ideal.div (sq (ix2 (0 : Fin 1) q)) nodes - Ideal.div (s (ix2 (0 : Fin 1) q)) nodes * Ideal.div (s (ix2 (0 : Fin 1) q)) nodes := by
  unfold varK
  rw [subf_apply, mulf_apply, meanK_apply]
  unfold Host.divf
  rw [Ideal.hostDivf_def, countRowK_apply]

/-! ## The kernel program's statistics are the reference's -/

/-- The mean from the accumulated column sums is the reference's column mean. -/
theorem mean_of_sums (y : FVec Ideal S50000x128 .f32) (s : FVec Ideal S1x128 .f32)
    (hs : ∀ q : Fin 128, s (ix2 (0 : Fin 1) q) = ∑ p : Fin 50000, y (ix2 p q)) (q : Fin 128) :
    meanK (F := Ideal) s (ix2 (0 : Fin 1) q) = colMean (F := Ideal) y (ix1 q) := by
  rw [meanK_apply, hs, colMean_apply]

/-- The variance from the accumulated column sums and sums of squares is the reference's column variance, when the
    entries are real: mean of squares less squared mean is the mean of the squared deviations. -/
theorem var_of_sums (y : FVec Ideal S50000x128 .f32) (hy : AllFin y) (s sq : FVec Ideal S1x128 .f32)
    (hs : ∀ q : Fin 128, s (ix2 (0 : Fin 1) q) = ∑ p : Fin 50000, y (ix2 p q))
    (hsq : ∀ q : Fin 128, sq (ix2 (0 : Fin 1) q) = ∑ p : Fin 50000, y (ix2 p q) * y (ix2 p q)) (q : Fin 128) :
    varK (F := Ideal) s sq (ix2 (0 : Fin 1) q) = colVar (F := Ideal) y (ix1 q) := by
  rw [varK_apply, hs, hsq, colVar_apply]
  exact Cert.GcnMath.var_forms_ereal (fun p : Fin 50000 => y (ix2 p q)) (fun p => hy _) 50000 (by simp) (by norm_num)

/-! ## The layer -/

/-- An array whose entries are the normalised, scaled, shifted and rectified entries of `y` under the statistics the
    kernel program forms from the accumulated sums of `y`, with the scale and the shift read as rows, is the reference's
    batch-normalised and rectified layer applied to `y`. -/
theorem bn_of_entries (y : FVec Ideal S50000x128 .f32) (hy : AllFin y) (g beta : FVec Ideal S128 .f32)
    (Y out : S50000x128.Idx → EReal) (M Vr G B : S1x128.Idx → EReal) (s sq : FVec Ideal S1x128 .f32)
    (hY : Y = y) (hM : M = meanK (F := Ideal) s) (hV : Vr = varK (F := Ideal) s sq)
    (hG : G = rowOf128 (F := Ideal) g) (hB : B = rowOf128 (F := Ideal) beta)
    (hs : ∀ q : Fin 128, s (ix2 (0 : Fin 1) q) = ∑ p : Fin 50000, y (ix2 p q))
    (hsq : ∀ q : Fin 128, sq (ix2 (0 : Fin 1) q) = ∑ p : Fin 50000, y (ix2 p q) * y (ix2 p q))
    (hout : ∀ (p : Fin 50000) (q : Fin 128), out (ix2 p q)
      = max (G (ix2 (0 : Fin 1) q) * (Y (ix2 p q) - M (ix2 (0 : Fin 1) q)) * Ideal.rsqrt (Vr (ix2 (0 : Fin 1) q) + Ideal.ofBits .f32 0x3727C5AC#32)
          + B (ix2 (0 : Fin 1) q)) (Ideal.ofBits .f32 0x00000000#32)) :
    out = bnLayer (F := Ideal) y g beta := by
  subst hY hM hV hG hB
  funext i
  obtain ⟨p, q, rfl⟩ : ∃ (p : Fin 50000) (q : Fin 128), i = ix2 p q := ⟨i 0, i 1, eq_ix2 i⟩
  rw [hout, bnLayer_apply, mean_of_sums Y s hs q, var_of_sums Y hy s sq hs hsq q, rowOf128_apply, rowOf128_apply,
    Cert.GcnConsts.ofBits_zero]

/-- An array whose entries are an array's entries plus a bias row's is the reference's bias step. -/
theorem addBias_of_entries (a : FVec Ideal S50000x128 .f32) (b : FVec Ideal S128 .f32) (A out : S50000x128.Idx → EReal)
    (Br : S1x128.Idx → EReal) (hA : A = a) (hB : Br = rowOf128 (F := Ideal) b)
    (hout : ∀ (p : Fin 50000) (q : Fin 128), out (ix2 p q) = A (ix2 p q) + Br (ix2 (0 : Fin 1) q)) :
    out = addBias128 (F := Ideal) a b := by
  subst hA hB
  funext i
  obtain ⟨p, q, rfl⟩ : ∃ (p : Fin 50000) (q : Fin 128), i = ix2 p q := ⟨i 0, i 1, eq_ix2 i⟩
  rw [hout, addBias128_apply, rowOf128_apply]

/-- An array whose entries are the sums over the contracted axis of two arrays' products is the reference's dense layer. -/
theorem linear_of_entries (h : FVec Ideal S50000x128 .f32) (W : FVec Ideal S128x128 .f32) (H out : S50000x128.Idx → EReal)
    (Wm : S128x128.Idx → EReal) (hH : H = h) (hW : Wm = W)
    (hout : ∀ (p : Fin 50000) (q : Fin 128), out (ix2 p q) = ∑ k : Fin 128, H (ix2 p k) * Wm (ix2 k q)) :
    out = linear128 (F := Ideal) h W := by
  subst hH hW
  funext i
  obtain ⟨p, q, rfl⟩ : ∃ (p : Fin 50000) (q : Fin 128), i = ix2 p q := ⟨i 0, i 1, eq_ix2 i⟩
  rw [hout, linear128_apply]

end Cert.KernelIdeal.Hand

end
-- ==== Proof.KI.Value.Layer1.lean ====
/-
  The kernel program's first layer is the reference's first layer.

  From the layer's input array (where the chain of boundary contents has it) to its output array, piece by piece:
  the dense region leaves the sums over the contracted axis of input times weights, which is the reference's dense
  layer; the host stretch after it aggregates over the edges with the index vectors and edge weights computed once
  from the edge table, which are the reference's; the statistics region adds the bias row and leaves, beside the
  biased rows, their column sums and column sums of squares — so the biased rows are the reference's convolution and
  the two rows its column sums; the next stretch forms the mean and the variance from the two rows, which for real
  entries are the reference's mean and variance; and the normalising region leaves the normalised, scaled, shifted
  and rectified entries, which is the reference's batch-normalised layer.
-/
import proofs.«111771_j80977313399687_1_alg».proof.Proof.KI.HostRead
import proofs.«111771_j80977313399687_1_alg».proof.Proof.KI.HostRead.RefEq
import proofs.«111771_j80977313399687_1_alg».proof.Proof.KI.Val0
import proofs.«111771_j80977313399687_1_alg».proof.Proof.KI.Val2
import proofs.«111771_j80977313399687_1_alg».proof.Proof.KI.Stats1Value
import proofs.«111771_j80977313399687_1_alg».proof.Proof.KI.Value.LayerAlg

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.ReferenceIdeal.RefValue Cert.ReferenceIdeal.RefRead Cert.ReferenceIdeal.RefFin Cert.LibStats
open scoped BigOperators

variable (m : (ℓ : Loc nD τ sig) → Buf (Elt Ideal) ℓ) (ρ : Dev nD → PrngReg) (c : Dev nD)

/-- The dense region's output is the reference's dense layer of the layer's input. -/
theorem layer1_linear (h0 : FVec Ideal S50000x128 .f32) (hin : W3 m ρ c main_arg0 = h0) :
    W4 m ρ c main_v32 = linear128 (F := Ideal) h0 (m ((c : Thread nD τ).loc main_arg2)) :=
  linear_of_entries h0 (m ((c : Thread nD τ).loc main_arg2)) (arr0_0 (V3 m ρ) c) (W4 m ρ c main_v32) (arr0_1 (V3 m ρ) c)
    hin (W3_arg2 m ρ c)
    fun p q => (congrFun (W4_arr m ρ c 2) (ix2 p q)).trans (val0 (V3 m ρ) c p q)

/-- The aggregation the next stretch leaves is the reference's, of the reference's dense layer. -/
theorem layer1_agg (h0 : FVec Ideal S50000x128 .f32) (hin : W3 m ρ c main_arg0 = h0) :
    W5 m ρ c main_v45
      = aggregate128 (F := Ideal) (src (m ((c : Thread nD τ).loc main_arg1))) (dst (m ((c : Thread nD τ).loc main_arg1)))
          (norm (src (m ((c : Thread nD τ).loc main_arg1))) (dst (m ((c : Thread nD τ).loc main_arg1))))
          (linear128 (F := Ideal) h0 (m ((c : Thread nD τ).loc main_arg2))) := by
  rw [W5_v45', layer1_linear m ρ c h0 hin, aggK128_eq, srcK_eq, dstK_eq, normK_eq]

/-- The statistics region's stored rows are the reference's convolution. -/
theorem layer1_conv (h0 : FVec Ideal S50000x128 .f32) (hin : W3 m ρ c main_arg0 = h0) :
    W6 m ρ c main_v47_0
      = conv128 (F := Ideal) (m ((c : Thread nD τ).loc main_arg1)) h0 (m ((c : Thread nD τ).loc main_arg2)) (m ((c : Thread nD τ).loc main_arg3)) :=
  addBias_of_entries _ (m ((c : Thread nD τ).loc main_arg3)) (agg1 (V5 m ρ) c) (W6 m ρ c main_v47_0) (bias1 (V5 m ρ) c)
    (layer1_agg m ρ c h0 hin) (W5_v46' m ρ c)
    fun p q => (congrFun (W6_arr m ρ c 2) (ix2 p q)).trans (rows1_final (V5 m ρ) c p q)

/-- An entry of the convolution, from the statistics region's two input arrays. -/
theorem layer1_entry (h0 : FVec Ideal S50000x128 .f32) (hin : W3 m ρ c main_arg0 = h0) (p : Fin 50000) (q : Fin 128) :
    agg1 (V5 m ρ) c (ix2 p q) + bias1 (V5 m ρ) c (ix2 (0 : Fin 1) q)
      = conv128 (F := Ideal) (m ((c : Thread nD τ).loc main_arg1)) h0 (m ((c : Thread nD τ).loc main_arg2)) (m ((c : Thread nD τ).loc main_arg3)) (ix2 p q) :=
  (rows1_final (V5 m ρ) c p q).symm.trans
    ((congrFun (W6_arr m ρ c 2) (ix2 p q)).symm.trans (congrFun (layer1_conv m ρ c h0 hin) (ix2 p q)))

/-- The row of column sums the statistics region leaves is the convolution's column sums, -/
theorem layer1_sums (h0 : FVec Ideal S50000x128 .f32) (hin : W3 m ρ c main_arg0 = h0) (q : Fin 128) :
    (W6 m ρ c main_v47_1 : S1x128.Idx → EReal) (ix2 (0 : Fin 1) q)
      = ∑ p : Fin 50000, conv128 (F := Ideal) (m ((c : Thread nD τ).loc main_arg1)) h0 (m ((c : Thread nD τ).loc main_arg2)) (m ((c : Thread nD τ).loc main_arg3)) (ix2 p q) :=
  @Eq.trans EReal _ _ _ (congrFun (W6_arr m ρ c 3) (ix2 (0 : Fin 1) q))
    (@Eq.trans EReal _ _ _ (sums1_final (V5 m ρ) c q)
      (Finset.sum_congr rfl fun p _ => layer1_entry m ρ c h0 hin p q))

/-- and the row of column sums of squares its column sums of squares. -/
theorem layer1_squares (h0 : FVec Ideal S50000x128 .f32) (hin : W3 m ρ c main_arg0 = h0) (q : Fin 128) :
    (W6 m ρ c main_v47_2 : S1x128.Idx → EReal) (ix2 (0 : Fin 1) q)
      = ∑ p : Fin 50000, conv128 (F := Ideal) (m ((c : Thread nD τ).loc main_arg1)) h0 (m ((c : Thread nD τ).loc main_arg2)) (m ((c : Thread nD τ).loc main_arg3)) (ix2 p q)
          * conv128 (F := Ideal) (m ((c : Thread nD τ).loc main_arg1)) h0 (m ((c : Thread nD τ).loc main_arg2)) (m ((c : Thread nD τ).loc main_arg3)) (ix2 p q) :=
  @Eq.trans EReal _ _ _ (congrFun (W6_arr m ρ c 4) (ix2 (0 : Fin 1) q))
    (@Eq.trans EReal _ _ _ (squares1_final (V5 m ρ) c q)
      (Finset.sum_congr rfl fun p _ =>
        congrArg₂ (fun (x y : EReal) => x * y) (layer1_entry m ρ c h0 hin p q) (layer1_entry m ρ c h0 hin p q)))

/-- THE LAYER: the normalising region's output is the reference's batch-normalised and rectified convolution of the
    layer's input, when the input, the weights, the bias, the scale and the shift have real entries. -/
theorem layer1 (h0 : FVec Ideal S50000x128 .f32) (hin : W3 m ρ c main_arg0 = h0) (hh : AllFin h0)
    (hW : AllFin (m ((c : Thread nD τ).loc main_arg2) : S128x128.Idx → EReal))
    (hb : AllFin (m ((c : Thread nD τ).loc main_arg3) : S128.Idx → EReal))
    (hg : AllFin (m ((c : Thread nD τ).loc main_arg4) : S128.Idx → EReal))
    (hbeta : AllFin (m ((c : Thread nD τ).loc main_arg5) : S128.Idx → EReal)) :
    W8 m ρ c main_v56
      = bnLayer (F := Ideal) (conv128 (F := Ideal) (m ((c : Thread nD τ).loc main_arg1)) h0 (m ((c : Thread nD τ).loc main_arg2)) (m ((c : Thread nD τ).loc main_arg3)))
          (m ((c : Thread nD τ).loc main_arg4)) (m ((c : Thread nD τ).loc main_arg5)) :=
  bn_of_entries _ (conv128_fin _ h0 _ _ hh hW hb) (m ((c : Thread nD τ).loc main_arg4)) (m ((c : Thread nD τ).loc main_arg5))
    (arr2_0 (V7 m ρ) c) (W8 m ρ c main_v56) (arr2_1 (V7 m ρ) c) (arr2_2 (V7 m ρ) c) (arr2_3 (V7 m ρ) c) (arr2_4 (V7 m ρ) c)
    (W6 m ρ c main_v47_1) (W6 m ρ c main_v47_2)
    ((W7_v47_0_keep m ρ c).trans (layer1_conv m ρ c h0 hin))
    (W7_v49 m ρ c) (W7_v53 m ρ c) (W7_v54' m ρ c) (W7_v55' m ρ c)
    (layer1_sums m ρ c h0 hin) (layer1_squares m ρ c h0 hin)
    fun p q => (congrFun (W8_arr m ρ c 5) (ix2 p q)).trans (val2 (V7 m ρ) c p q)

end Cert.KernelIdeal.Hand

end
-- ==== Proof.KI.Val3.lean ====
/-
  Region 3 of @main, read on the extended reals: the array the row-block products leave, entry by entry.

  At grid point t the body multiplies rows 2000 t … 2000 t + 1999 of the activations by the whole weight matrix and
  stores the product as rows 2000 t … 2000 t + 1999 of the output. Rounding an operand to a narrower format is the
  identity on the extended reals and the accumulator starts at zero, so entry (p, q) of that block is the sum over the
  contracted axis k of activations (2000 t + p, k) times weights (k, q). The 25 blocks tile the 50000 rows, so the
  array ends holding, at every (p, q), the sum over k of activations (p, k) times weights (k, q).
-/
import proofs.«111771_j80977313399687_1_alg».proof.Proof.KI.R3
import proofs.«111771_j80977313399687_1_alg».proof.Proof.LibPlainMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The zero offsets of a whole-block access, as a constant function. -/
theorem zeroOff3 : (![0, 0] : Fin 2 → Nat) = fun _ => 0 := funext fun a => by fin_cases a <;> rfl

/-- The body's value at an entry of the block: the sum over the contracted axis of the operands' products. -/
theorem pay3_apply (x0 : Vec Ideal S2000x128 .f32) (x1 : Vec Ideal S128x128 .f32) (p : Fin 2000) (q : Fin 128) :
    k3_pay1 x0 x1 (ix2 p q) = ∑ k : Fin 128, x0 (ix2 p k) * x1 (ix2 k q) := by
  unfold k3_pay1
  refine (LibPlainMatmul.matmul_plain_zero_apply none
    (truncf .bf16 (shapeCast S2000x128 x0 shapeCasts_S2000x128_S2000x128) bitsLt_bf16_f32) (truncf .bf16 x1 bitsLt_bf16_f32) p q).trans ?_
  rw [shapeCast_self]
  rfl

/-- The block indices of the three windows at every grid point: the activations' and the output's row block is the
    point, the weights are one block. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The activations and the weights as the region finds them, as arrays of extended reals. -/
abbrev arr3_0 (c : Dev nD) : S50000x128.Idx → EReal := V c (Pipeline.arrRef spec3 0)
abbrev arr3_1 (c : Dev nD) : S128x128.Idx → EReal := V c (Pipeline.arrRef spec3 1)

/-- The sum of products at entry (p, q). -/
def prod3 (c : Dev nD) (p : Fin 50000) (q : Fin 128) : EReal :=
  ∑ k : Fin 128, arr3_0 V c (ix2 p k) * arr3_1 V c (ix2 k q)

/-- The product array. -/
def G3 (c : Dev nD) : S50000x128.Idx → Elt Ideal .f32 := fun i => prod3 V c (i 0) (i 1)

/-- Row p of the activations' block at point t is row 2000 t + p of the activations. -/
theorem iblk3_0_apply (c : Dev nD) (t : Fin cfg3.N) (p : Fin 2000) (k : Fin 128) (P : Fin 50000)
    (hP : P.val = 2000 * t.val + p.val) :
    (iblk3 V c 0 t : Vec Ideal S2000x128 .f32) (ix2 p k) = arr3_0 V c (ix2 P k) := by
  obtain ⟨e0, e1, -⟩ := blockIdx3 t
  unfold iblk3
  rw [View.read_apply]
  refine congrArg (arr3_0 V c) ?_
  funext a
  apply Fin.ext
  match a with
  | ⟨0, _⟩ => show win3_0.index t (0 : Fin 2) * 2000 + 1 * p.val = P.val; omega
  | ⟨1, _⟩ => show win3_0.index t (1 : Fin 2) * 128 + 1 * k.val = k.val; omega

/-- The weights' block at every point is the weights. -/
theorem iblk3_1_apply (c : Dev nD) (t : Fin cfg3.N) (k : Fin 128) (q : Fin 128) :
    (iblk3 V c 1 t : Vec Ideal S128x128 .f32) (ix2 k q) = arr3_1 V c (ix2 k q) := by
  obtain ⟨-, -, e0, e1, -⟩ := blockIdx3 t
  unfold iblk3
  rw [View.read_apply]
  refine congrArg (arr3_1 V c) ?_
  funext a
  apply Fin.ext
  match a with
  | ⟨0, _⟩ => show win3_1.index t (0 : Fin 2) * 128 + 1 * k.val = k.val; omega
  | ⟨1, _⟩ => show win3_1.index t (1 : Fin 2) * 128 + 1 * q.val = q.val; omega

/-- Entry (p, q) of the output's block at point t sits at (2000 t + p, q) of the output. -/
theorem emb3_2 (t : Fin cfg3.N) (p : Fin 2000) (q : Fin 128) (P : Fin 50000) (hP : P.val = 2000 * t.val + p.val) :
    ((cfg3.win 2).blk t).view.emb (ix2 p q) = (ix2 P q : S50000x128.Idx) := by
  obtain ⟨-, -, -, -, e0, e1⟩ := blockIdx3 t
  funext a
  apply Fin.ext
  match a with
  | ⟨0, _⟩ => show win3_2.index t (0 : Fin 2) * 2000 + 1 * p.val = P.val; omega
  | ⟨1, _⟩ => show win3_2.index t (1 : Fin 2) * 128 + 1 * q.val = q.val; omega

/-- What point t writes back is block t of the product array. -/
theorem flushed3_eq (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero zeroOff3]
  simp only [View.ld_unit_zero (S := S2000x128) zeroOff3, View.ld_unit_zero (S := S128x128) zeroOff3]
  funext j
  obtain ⟨p, q, rfl⟩ : ∃ (p : Fin 2000) (q : Fin 128), j = ix2 p q := ⟨j 0, j 1, eq_ix2 j⟩
  have hN : cfg3.N = 25 := N_3
  have ht : t.val < 25 := hN ▸ t.isLt
  have hP : 2000 * t.val + p.val < 50000 := by have := p.isLt; omega
  rw [View.read_apply, emb3_2 t p q ⟨2000 * t.val + p.val, hP⟩ rfl]
  refine (pay3_apply (iblk3 V c 0 t) (iblk3 V c 1 t) p q).trans ?_
  show _ = prod3 V c ⟨2000 * t.val + p.val, hP⟩ q
  unfold prod3
  refine Finset.sum_congr rfl fun k _ => ?_
  rw [iblk3_0_apply V c t p k ⟨2000 * t.val + p.val, hP⟩ rfl, iblk3_1_apply V c t k q]

/-- An index of the output is in point t's block iff each coordinate is in the block's range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v57).slice (win3_2.rect t)).set ↔ _
  rw [View.set_slice_whole, Rect.mem_set_unit]
  exact Iff.rfl

/-- Every index of the output is in some point's block: row r is in block r / 2000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_2 _, ?_⟩
  rw [mem_blk3]
  obtain ⟨-, -, -, -, e0, e1⟩ := blockIdx3 ⟨(i 0).val / 2000, by rw [hN]; omega⟩
  intro a
  match a with
  | ⟨0, _⟩ =>
    show win3_2.index _ (0 : Fin 2) * 2000 ≤ (i 0).val ∧ (i 0).val < win3_2.index _ (0 : Fin 2) * 2000 + 2000
    rw [e0]; show (i 0).val / 2000 * 2000 ≤ (i 0).val ∧ (i 0).val < (i 0).val / 2000 * 2000 + 2000; omega
  | ⟨1, _⟩ =>
    show win3_2.index _ (1 : Fin 2) * 128 ≤ (i 1).val ∧ (i 1).val < win3_2.index _ (1 : Fin 2) * 128 + 128
    rw [e1]; omega

/-- The output after the region is the product array. -/
theorem final3 (c : Dev nD) : (dat3 V c).arrAt 2 cfg3.N = G3 V c :=
  (dat3 V c).arrAt_eq_of_cover 2 (G3 V c) (fun t _ => flushed3_eq V c t) cover3

/-- Entry (p, q) of the output after the region: the sum over k of activations (p, k) times weights (k, q). -/
theorem val3 (c : Dev nD) (p : Fin 50000) (q : Fin 128) :
    (dat3 (F := Ideal) V c).arrAt 2 cfg3.N (ix2 p q) = ∑ k : Fin 128, arr3_0 V c (ix2 p k) * arr3_1 V c (ix2 k q) :=
  congrFun (final3 V c) (ix2 p q)

end Cert.KernelIdeal.Hand

end
-- ==== Proof.KI.Val5.lean ====
/-
  Region 5 of @main, read on the extended reals: the array the normalise-scale-shift-clamp body leaves, entry by entry.

  At grid point t the body takes rows 2000 t … 2000 t + 1999 of the activations h and the four one-row arrays (mean,
  variance, scale, shift), and stores, at (p, q) of the output's row block, the larger of zero and
  scale (0, q) * (h (p, q) - mean (0, q)) * rsqrt (variance (0, q) + ε) + shift (0, q): every operation is pointwise and a
  one-row array is repeated down the rows. The 25 blocks tile the 50000 rows, so the array ends holding that value at
  every (p, q).
-/
import proofs.«111771_j80977313399687_1_alg».proof.Proof.KI.R5
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-block access, as a constant function. -/
theorem zeroOff5 : (![0, 0] : Fin 2 → Nat) = fun _ => 0 := funext fun a => by fin_cases a <;> rfl

/-- The value at an entry from the five operands' entries. -/
def bn5 (h m v g b : EReal) : EReal :=
  max (g * (h - m) * Ideal.rsqrt (v + Ideal.ofBits .f32 0x3727C5AC#32) + b) (Ideal.ofBits .f32 0x00000000#32)

/-- The body's value at an entry of the block. -/
theorem pay5_apply (x0 : Vec Ideal S2000x128 .f32) (x1 x2 x3 x4 : Vec Ideal S1x128 .f32) (p : Fin 2000) (q : Fin 128) :
    k5_pay1 x0 x1 x2 x3 x4 (ix2 p q)
      = bn5 (x0 (ix2 p q)) (x1 (ix2 (0 : Fin 1) q)) (x2 (ix2 (0 : Fin 1) q)) (x3 (ix2 (0 : Fin 1) q)) (x4 (ix2 (0 : Fin 1) q)) := by
  unfold k5_pay1
  simp only [shapeCast_self]
  show max (broadcastTo S2000x128 x3 broadcasts_S1x128_S2000x128 (ix2 p q)
        * (x0 (ix2 p q) - broadcastTo S2000x128 x1 broadcasts_S1x128_S2000x128 (ix2 p q))
        * broadcastTo S2000x128 (rsqrt (addf x2 (broadcast S1x128 (Scalar.ofBits .f32 0x3727C5AC#32))) : FVec Ideal S1x128 .f32) broadcasts_S1x128_S2000x128 (ix2 p q)
        + broadcastTo S2000x128 x4 broadcasts_S1x128_S2000x128 (ix2 p q)) (Ideal.ofBits .f32 0x00000000#32) = _
  rw [broadcastTo_1b_ab_apply x3, broadcastTo_1b_ab_apply x1, broadcastTo_1b_ab_apply x4,
    broadcastTo_1b_ab_apply (rsqrt (addf x2 (broadcast S1x128 (Scalar.ofBits .f32 0x3727C5AC#32))) : FVec Ideal S1x128 .f32)]
  rfl

/-- The block indices of the six windows at every grid point: the activations' and the output's row block is the
    point, each one-row array is one block. -/
theorem blockIdx5 : ∀ t : Fin cfg5.N, (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0) :=
  (by decide +kernel : ∀ t : Fin grid5.N, _)

/-- The activations and the four one-row arrays (mean, variance, scale, shift) as the region finds them, as arrays of
    extended reals. -/
abbrev arr5_0 (c : Dev nD) : S50000x128.Idx → EReal := V c (Pipeline.arrRef spec5 0)
abbrev arr5_1 (c : Dev nD) : S1x128.Idx → EReal := V c (Pipeline.arrRef spec5 1)
abbrev arr5_2 (c : Dev nD) : S1x128.Idx → EReal := V c (Pipeline.arrRef spec5 2)
abbrev arr5_3 (c : Dev nD) : S1x128.Idx → EReal := V c (Pipeline.arrRef spec5 3)
abbrev arr5_4 (c : Dev nD) : S1x128.Idx → EReal := V c (Pipeline.arrRef spec5 4)

/-- The value at entry (p, q). -/
def ent5 (c : Dev nD) (p : Fin 50000) (q : Fin 128) : EReal :=
  bn5 (arr5_0 V c (ix2 p q)) (arr5_1 V c (ix2 (0 : Fin 1) q)) (arr5_2 V c (ix2 (0 : Fin 1) q))
    (arr5_3 V c (ix2 (0 : Fin 1) q)) (arr5_4 V c (ix2 (0 : Fin 1) q))

/-- The array of those values. -/
def G5 (c : Dev nD) : S50000x128.Idx → Elt Ideal .f32 := fun i => ent5 V c (i 0) (i 1)

/-- Row p of the activations' block at point t is row 2000 t + p of the activations. -/
theorem iblk5_0_apply (c : Dev nD) (t : Fin cfg5.N) (p : Fin 2000) (q : Fin 128) (P : Fin 50000)
    (hP : P.val = 2000 * t.val + p.val) :
    (iblk5 V c 0 t : Vec Ideal S2000x128 .f32) (ix2 p q) = arr5_0 V c (ix2 P q) := by
  have e0 := (blockIdx5 t).1.1
  have e1 := (blockIdx5 t).1.2
  unfold iblk5
  rw [View.read_apply]
  refine congrArg (arr5_0 V c) ?_
  funext a
  apply Fin.ext
  match a with
  | ⟨0, _⟩ => show win5_0.index t (0 : Fin 2) * 2000 + 1 * p.val = P.val; omega
  | ⟨1, _⟩ => show win5_0.index t (1 : Fin 2) * 128 + 1 * q.val = q.val; omega

/-- The mean's block at every point is the mean. -/
theorem iblk5_1_apply (c : Dev nD) (t : Fin cfg5.N) (q : Fin 128) :
    (iblk5 V c 1 t : Vec Ideal S1x128 .f32) (ix2 (0 : Fin 1) q) = arr5_1 V c (ix2 (0 : Fin 1) q) := by
  have e0 := (blockIdx5 t).2.1.1
  have e1 := (blockIdx5 t).2.1.2
  unfold iblk5
  rw [View.read_apply]
  refine congrArg (arr5_1 V c) ?_
  funext a
  apply Fin.ext
  match a with
  | ⟨0, _⟩ => show win5_1.index t (0 : Fin 2) * 1 + 1 * 0 = 0; omega
  | ⟨1, _⟩ => show win5_1.index t (1 : Fin 2) * 128 + 1 * q.val = q.val; omega

/-- The variance's block at every point is the variance. -/
theorem iblk5_2_apply (c : Dev nD) (t : Fin cfg5.N) (q : Fin 128) :
    (iblk5 V c 2 t : Vec Ideal S1x128 .f32) (ix2 (0 : Fin 1) q) = arr5_2 V c (ix2 (0 : Fin 1) q) := by
  have e0 := (blockIdx5 t).2.2.1.1
  have e1 := (blockIdx5 t).2.2.1.2
  unfold iblk5
  rw [View.read_apply]
  refine congrArg (arr5_2 V c) ?_
  funext a
  apply Fin.ext
  match a with
  | ⟨0, _⟩ => show win5_2.index t (0 : Fin 2) * 1 + 1 * 0 = 0; omega
  | ⟨1, _⟩ => show win5_2.index t (1 : Fin 2) * 128 + 1 * q.val = q.val; omega

/-- The scale's block at every point is the scale. -/
theorem iblk5_3_apply (c : Dev nD) (t : Fin cfg5.N) (q : Fin 128) :
    (iblk5 V c 3 t : Vec Ideal S1x128 .f32) (ix2 (0 : Fin 1) q) = arr5_3 V c (ix2 (0 : Fin 1) q) := by
  have e0 := (blockIdx5 t).2.2.2.1.1
  have e1 := (blockIdx5 t).2.2.2.1.2
  unfold iblk5
  rw [View.read_apply]
  refine congrArg (arr5_3 V c) ?_
  funext a
  apply Fin.ext
  match a with
  | ⟨0, _⟩ => show win5_3.index t (0 : Fin 2) * 1 + 1 * 0 = 0; omega
  | ⟨1, _⟩ => show win5_3.index t (1 : Fin 2) * 128 + 1 * q.val = q.val; omega

/-- The shift's block at every point is the shift. -/
theorem iblk5_4_apply (c : Dev nD) (t : Fin cfg5.N) (q : Fin 128) :
    (iblk5 V c 4 t : Vec Ideal S1x128 .f32) (ix2 (0 : Fin 1) q) = arr5_4 V c (ix2 (0 : Fin 1) q) := by
  have e0 := (blockIdx5 t).2.2.2.2.1.1
  have e1 := (blockIdx5 t).2.2.2.2.1.2
  unfold iblk5
  rw [View.read_apply]
  refine congrArg (arr5_4 V c) ?_
  funext a
  apply Fin.ext
  match a with
  | ⟨0, _⟩ => show win5_4.index t (0 : Fin 2) * 1 + 1 * 0 = 0; omega
  | ⟨1, _⟩ => show win5_4.index t (1 : Fin 2) * 128 + 1 * q.val = q.val; omega

/-- Entry (p, q) of the output's block at point t sits at (2000 t + p, q) of the output. -/
theorem emb5_5 (t : Fin cfg5.N) (p : Fin 2000) (q : Fin 128) (P : Fin 50000) (hP : P.val = 2000 * t.val + p.val) :
    ((cfg5.win 5).blk t).view.emb (ix2 p q) = (ix2 P q : S50000x128.Idx) := by
  have e0 := (blockIdx5 t).2.2.2.2.2.1
  have e1 := (blockIdx5 t).2.2.2.2.2.2
  funext a
  apply Fin.ext
  match a with
  | ⟨0, _⟩ => show win5_5.index t (0 : Fin 2) * 2000 + 1 * p.val = P.val; omega
  | ⟨1, _⟩ => show win5_5.index t (1 : Fin 2) * 128 + 1 * q.val = q.val; omega

/-- What point t writes back is block t of the array of those values. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero zeroOff5]
  simp only [View.ld_unit_zero (S := S2000x128) zeroOff5, View.ld_unit_zero (S := S1x128) zeroOff5]
  funext j
  obtain ⟨p, q, rfl⟩ : ∃ (p : Fin 2000) (q : Fin 128), j = ix2 p q := ⟨j 0, j 1, eq_ix2 j⟩
  have hN : cfg5.N = 25 := N_5
  have ht : t.val < 25 := hN ▸ t.isLt
  have hP : 2000 * t.val + p.val < 50000 := by have := p.isLt; omega
  rw [View.read_apply, emb5_5 t p q ⟨2000 * t.val + p.val, hP⟩ rfl]
  refine (pay5_apply (iblk5 V c 0 t) (iblk5 V c 1 t) (iblk5 V c 2 t) (iblk5 V c 3 t) (iblk5 V c 4 t) p q).trans ?_
  show _ = ent5 V c ⟨2000 * t.val + p.val, hP⟩ q
  unfold ent5
  rw [iblk5_0_apply V c t p q ⟨2000 * t.val + p.val, hP⟩ rfl, iblk5_1_apply V c t q, iblk5_2_apply V c t q,
    iblk5_3_apply V c t q, iblk5_4_apply V c t q]

/-- An index of the output is in point t's block iff each coordinate is in the block's range on its axis. -/
theorem mem_blk5 (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v81).slice (win5_5.rect t)).set ↔ _
  rw [View.set_slice_whole, Rect.mem_set_unit]
  exact Iff.rfl

/-- Every index of the output is in some point's block: row r is in block r / 2000. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_5 _, ?_⟩
  rw [mem_blk5]
  have e0 := (blockIdx5 ⟨(i 0).val / 2000, by rw [hN]; omega⟩).2.2.2.2.2.1
  have e1 := (blockIdx5 ⟨(i 0).val / 2000, by rw [hN]; omega⟩).2.2.2.2.2.2
  intro a
  match a with
  | ⟨0, _⟩ =>
    show win5_5.index _ (0 : Fin 2) * 2000 ≤ (i 0).val ∧ (i 0).val < win5_5.index _ (0 : Fin 2) * 2000 + 2000
    rw [e0]; show (i 0).val / 2000 * 2000 ≤ (i 0).val ∧ (i 0).val < (i 0).val / 2000 * 2000 + 2000; omega
  | ⟨1, _⟩ =>
    show win5_5.index _ (1 : Fin 2) * 128 ≤ (i 1).val ∧ (i 1).val < win5_5.index _ (1 : Fin 2) * 128 + 128
    rw [e1]; omega

/-- The output after the region is the array of those values. -/
theorem final5 (c : Dev nD) : (dat5 V c).arrAt 5 cfg5.N = G5 V c :=
  (dat5 V c).arrAt_eq_of_cover 5 (G5 V c) (fun t _ => flushed5_eq V c t) cover5

/-- Entry (p, q) of the output after the region. -/
theorem val5 (c : Dev nD) (p : Fin 50000) (q : Fin 128) :
    (dat5 (F := Ideal) V c).arrAt 5 cfg5.N (ix2 p q)
      = max (arr5_3 V c (ix2 (0 : Fin 1) q) * (arr5_0 V c (ix2 p q) - arr5_1 V c (ix2 (0 : Fin 1) q))
            * Ideal.rsqrt (arr5_2 V c (ix2 (0 : Fin 1) q) + Ideal.ofBits .f32 0x3727C5AC#32) + arr5_4 V c (ix2 (0 : Fin 1) q))
          (Ideal.ofBits .f32 0x00000000#32) :=
  congrFun (final5 V c) (ix2 p q)

end Cert.KernelIdeal.Hand

end
-- ==== Proof.KI.Stats4Value.lean ====
/-
  What the column-statistics kernel (the fifth pallas_call of @main) leaves in its three result arrays, read at the
  extended reals, as functions of the two arrays it is given: the [50000, 128] array `agg` and the [1, 128] bias row
  `b`.

    rows   :  out (p, q)  = agg (p, q) + b (0, q)
    sums   :  s   (0, q)  = Σ_p  (agg (p, q) + b (0, q))
    squares:  ss  (0, q)  = Σ_p  (agg (p, q) + b (0, q)) * (agg (p, q) + b (0, q))

  The rows' output is written back block by block: point t's block is rows 2000·t … 2000·t + 1999, the 25 blocks tile
  the array, and each is the biased block of the same rows of `agg`.  The two sums are carried in a buffer that is
  written back once, after the last point; after point n it holds the sum over the first 2000·(n + 1) rows (the block
  sums added point by point, a sum over consecutive blocks of rows), so after the last point the sum over all rows.
  Sums of extended reals are reordered freely (a commutative monoid), so nothing here needs the entries to be finite.
-/
import proofs.«111771_j80977313399687_1_alg».proof.Proof.KI.Stats4
import proofs.«111771_j80977313399687_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The body's arithmetic at an index -/

/-- The sum over the first axis of an `[a, b]` array is, at column `q`, the sum over the rows `k` of the entry `(k, q)`. -/
theorem colSum4_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction (F := Ideal) .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src ?_
  funext c
  refine Fin.ext ?_
  match c with
  | ⟨0, _⟩ => rfl
  | ⟨1, _⟩ => rfl

/-- The stored block: the block of rows plus the bias row, entry by entry. -/
theorem pay4_1_apply (x0 : Vec Ideal S2000x128 .f32) (x1 : Vec Ideal S1x128 .f32) (r : Fin 2000) (q : Fin 128) :
    k4_pay1 x0 x1 (ix2 r q) = x0 (ix2 r q) + x1 (ix2 (0 : Fin 1) q) := by
  have e0 : shapeCast S2000x128 x0 shapeCasts_S2000x128_S2000x128 = x0 := shapeCast_self _ _
  have e1 : shapeCast S1x128 x1 shapeCasts_S1x128_S1x128 = x1 := shapeCast_self _ _
  show (shapeCast S2000x128 x0 shapeCasts_S2000x128_S2000x128 (ix2 r q) : EReal)
      + broadcastTo S2000x128 (shapeCast S1x128 x1 shapeCasts_S1x128_S1x128) broadcasts_S1x128_S2000x128 (ix2 r q) = _
  rw [e0, e1]
  exact congrArg (x0 (ix2 r q) + ·) (broadcastTo_1b_ab_apply x1 broadcasts_S1x128_S2000x128 r q)

/-- The block's column sums. -/
theorem pay4_2_apply (x0 : Vec Ideal S2000x128 .f32) (x1 : Vec Ideal S1x128 .f32) (q : Fin 128) :
    k4_pay2 x0 x1 (ix2 (0 : Fin 1) q) = ∑ r : Fin 2000, (x0 (ix2 r q) + x1 (ix2 (0 : Fin 1) q)) := by
  unfold k4_pay2
  refine (shapeCast_a_1a_apply _ shapeCasts_S128_S1x128 (0 : Fin 1) q).trans ?_
  refine (colSum4_apply (k4_pay1 x0 x1) _ reduces_S2000x128_S128 _ _ q).trans ?_
  exact Finset.sum_congr rfl fun r _ => pay4_1_apply x0 x1 r q

/-- The block's column sums of squares. -/
theorem pay4_3_apply (x0 : Vec Ideal S2000x128 .f32) (x1 : Vec Ideal S1x128 .f32) (q : Fin 128) :
    k4_pay3 x0 x1 (ix2 (0 : Fin 1) q)
      = ∑ r : Fin 2000, (x0 (ix2 r q) + x1 (ix2 (0 : Fin 1) q)) * (x0 (ix2 r q) + x1 (ix2 (0 : Fin 1) q)) := by
  unfold k4_pay3
  refine (shapeCast_a_1a_apply _ shapeCasts_S128_S1x128 (0 : Fin 1) q).trans ?_
  refine (colSum4_apply (mulf (k4_pay1 x0 x1) (k4_pay1 x0 x1)) _ reduces_S2000x128_S128 _ _ q).trans ?_
  refine Finset.sum_congr rfl fun r _ => ?_
  refine (mulf_apply _ _ _).trans ?_
  rw [pay4_1_apply x0 x1 r q]

/-- A later point's sums: what the buffer held plus the block's. -/
theorem pay4_4_apply (x0 : Vec Ideal S2000x128 .f32) (x1 : Vec Ideal S1x128 .f32) (xo : Vec Ideal S1x128 .f32) (q : Fin 128) :
    k4_pay4 x0 x1 xo (ix2 (0 : Fin 1) q) = xo (ix2 (0 : Fin 1) q) + k4_pay2 x0 x1 (ix2 (0 : Fin 1) q) := by
  have e : shapeCast S1x128 xo shapeCasts_S1x128_S1x128 = xo := shapeCast_self _ _
  show (shapeCast S1x128 xo shapeCasts_S1x128_S1x128 (ix2 (0 : Fin 1) q) : EReal) + k4_pay2 x0 x1 (ix2 (0 : Fin 1) q) = _
  rw [e]

theorem pay4_5_apply (x0 : Vec Ideal S2000x128 .f32) (x1 : Vec Ideal S1x128 .f32) (xo : Vec Ideal S1x128 .f32) (q : Fin 128) :
    k4_pay5 x0 x1 xo (ix2 (0 : Fin 1) q) = xo (ix2 (0 : Fin 1) q) + k4_pay3 x0 x1 (ix2 (0 : Fin 1) q) := by
  have e : shapeCast S1x128 xo shapeCasts_S1x128_S1x128 = xo := shapeCast_self _ _
  show (shapeCast S1x128 xo shapeCasts_S1x128_S1x128 (ix2 (0 : Fin 1) q) : EReal) + k4_pay3 x0 x1 (ix2 (0 : Fin 1) q) = _
  rw [e]

variable (V : (c : Dev nD) → (b : Ref sig .tc) → Buf (Elt Ideal) ((c : Thread nD τ).loc b))

/-! ## The two arrays the region is given, and the windows' blocks read off them -/

/-- The [50000, 128] array of rows, as the region finds it, -/
abbrev agg4 (c : Dev nD) : S50000x128.Idx → EReal := V c (Pipeline.arrRef spec4 0)
/-- and the [1, 128] bias row. -/
abbrev bias4 (c : Dev nD) : S1x128.Idx → EReal := V c (Pipeline.arrRef spec4 1)

/-- The printed index maps, decided over the grid: the rows' windows move one block of rows per point, the bias row's
    and the two sums' windows stay at block (0, 0). -/
theorem idx4_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Row `r` of the rows' block at point `t` is row `2000 t + r` of the array. -/
theorem iblk4_0_apply (c : Dev nD) (t : Fin cfg4.N) (r : Fin 2000) (q : Fin 128) (p : Fin 50000)
    (hp : p.val = 2000 * t.val + r.val) :
    (iblk4 V c 0 t : Vec Ideal S2000x128 .f32) (ix2 r q) = agg4 V c (ix2 p q) := by
  obtain ⟨e0, e1, -⟩ := idx4_facts t
  unfold iblk4
  rw [View.read_apply]
  show V c (Pipeline.arrRef spec4 0) _ = V c (Pipeline.arrRef spec4 0) _
  congr 1
  funext a
  apply Fin.ext
  match a with
  | ⟨0, _⟩ => show win4_0.index t 0 * 2000 + 1 * r.val = p.val; rw [e0, hp]; omega
  | ⟨1, _⟩ => show win4_0.index t 1 * 128 + 1 * q.val = q.val; rw [e1]; omega

/-- The bias row's block is the bias row at every point. -/
theorem iblk4_1_apply (c : Dev nD) (t : Fin cfg4.N) (z : Fin 1) (q : Fin 128) :
    (iblk4 V c 1 t : Vec Ideal S1x128 .f32) (ix2 z q) = bias4 V c (ix2 (0 : Fin 1) q) := by
  obtain ⟨-, -, e0, e1, -⟩ := idx4_facts t
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * z.val = 0; rw [e0]; omega
  | ⟨1, _⟩ => show win4_1.index t 1 * 128 + 1 * q.val = q.val; rw [e1]; omega

/-! ## The rows' output -/

/-- The biased array: every row plus the bias row. -/
def rows4 (agg : S50000x128.Idx → EReal) (b : S1x128.Idx → EReal) : S50000x128.Idx → EReal :=
  fun i => agg i + b (ix2 (0 : Fin 1) (⟨(i 1).val, (i 1).isLt⟩ : Fin 128))

theorem rows4_apply (agg : S50000x128.Idx → EReal) (b : S1x128.Idx → EReal) (p : Fin 50000) (q : Fin 128) :
    rows4 agg b (ix2 p q) = agg (ix2 p q) + b (ix2 (0 : Fin 1) q) := rfl

/-- What the body leaves in the rows' buffer at point `t`, at the block's index `j`, is the biased array at the
    array's index `i` that `j` sits at. -/
theorem after4_2_apply (c : Dev nD) (t : Fin cfg4.N) (j : S2000x128.Idx) (i : S50000x128.Idx)
    (h0 : (i 0).val = 2000 * t.val + (j 0).val) (h1 : (i 1).val = (j 1).val) :
    k4_pay1 (iblk4 V c 0 t) (iblk4 V c 1 t) j = rows4 (agg4 V c) (bias4 V c) i := by
  obtain ⟨r, q, rfl⟩ : ∃ (r : Fin 2000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext h1
  refine (pay4_1_apply (iblk4 V c 0 t) (iblk4 V c 1 t) r q').trans ?_
  exact congrArg₂ (· + ·) (iblk4_0_apply V c t r q' p h0) (iblk4_1_apply V c t 0 q')

/-- WHAT POINT `t` WRITES BACK is block `t` of the biased array. -/
theorem flushed4_2 (c : Dev nD) (t : Fin cfg4.N) :
    (dat4 V c).flushed 2 t = ((cfg4.win 2).blk t).view.read (Elt Ideal) (rows4 (agg4 V c) (bias4 V c)) := by
  obtain ⟨-, -, -, -, e0, e1, -⟩ := idx4_facts t
  show (cfg4.win 2).cut (grid4.coords t) ((dat4 V c).after 2 t) = _
  rw [after4_2]
  funext j
  show k4_pay1 (iblk4 V c 0 t) (iblk4 V c 1 t) j = rows4 (agg4 V c) (bias4 V c) (((cfg4.win 2).blk t).view.emb j)
  refine after4_2_apply V c t j _ ?_ ?_
  · show win4_2.index t 0 * 2000 + 1 * (j 0).val = 2000 * t.val + (j 0).val
    rw [e0]; omega
  · show win4_2.index t 1 * 128 + 1 * (j 1).val = (j 1).val
    rw [e1]; omega

/-- An index of the array is in point `t`'s block iff each coordinate is in the block's range on its axis. -/
theorem mem_blk4_2 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v72_0).slice (win4_2.rect t)).set ↔ _
  rw [View.set_slice_whole, Rect.mem_set_unit]
  exact Iff.rfl

/-- THE ROWS' ARRAY after the region: the biased array (row `p` is in the block of point `p / 2000`). -/
theorem final4_2 (c : Dev nD) : (dat4 V c).arrAt 2 cfg4.N = rows4 (agg4 V c) (bias4 V c) :=
  (dat4 V c).arrAt_eq_of_cover 2 (rows4 (agg4 V c) (bias4 V c)) (fun t _ => flushed4_2 V c t) fun i => by
    have hi0 : (i 0).val < 50000 := (i 0).isLt
    have hi1 : (i 1).val < 128 := (i 1).isLt
    have hN : cfg4.N = 25 := N_4
    have ht : (i 0).val / 2000 < cfg4.N := by rw [hN]; omega
    refine ⟨⟨(i 0).val / 2000, ht⟩, flush4_2 _, ?_⟩
    rw [mem_blk4_2]
    obtain ⟨-, -, -, -, e0, e1, -⟩ := idx4_facts ⟨(i 0).val / 2000, ht⟩
    intro a
    match a with
    | ⟨0, _⟩ =>
      show win4_2.index ⟨(i 0).val / 2000, ht⟩ 0 * 2000 ≤ (i 0).val ∧ (i 0).val < win4_2.index ⟨(i 0).val / 2000, ht⟩ 0 * 2000 + 2000
      rw [e0]; dsimp only; omega
    | ⟨1, _⟩ =>
      show win4_2.index ⟨(i 0).val / 2000, ht⟩ 1 * 128 ≤ (i 1).val ∧ (i 1).val < win4_2.index ⟨(i 0).val / 2000, ht⟩ 1 * 128 + 128
      rw [e1]; omega

/-- The rows' array, entry by entry. -/
theorem rows4_final (c : Dev nD) (p : Fin 50000) (q : Fin 128) :
    ((dat4 V c).arrAt 2 cfg4.N : S50000x128.Idx → EReal) (ix2 p q) = agg4 V c (ix2 p q) + bias4 V c (ix2 (0 : Fin 1) q) :=
  congrFun (final4_2 V c) (ix2 p q)

/-- The two arrays the region is given are as it found them. -/
theorem kept4_0 (c : Dev nD) : (dat4 V c).arrAt 0 cfg4.N = V c (Pipeline.arrRef spec4 0) :=
  ((dat4 V c).arrAt_in 0 rfl _).trans (A_eq4 V c 0)
theorem kept4_1 (c : Dev nD) : (dat4 V c).arrAt 1 cfg4.N = V c (Pipeline.arrRef spec4 1) :=
  ((dat4 V c).arrAt_in 1 rfl _).trans (A_eq4 V c 1)

/-! ## The two sums -/

/-- Column `q`'s term at row `p`: the biased entry, -/
def colTerm4 (c : Dev nD) (q : Fin 128) : Fin 50000 → EReal :=
  fun p => agg4 V c (ix2 p q) + bias4 V c (ix2 (0 : Fin 1) q)
/-- and its square. -/
def sqTerm4 (c : Dev nD) (q : Fin 128) : Fin 50000 → EReal :=
  fun p => (agg4 V c (ix2 p q) + bias4 V c (ix2 (0 : Fin 1) q)) * (agg4 V c (ix2 p q) + bias4 V c (ix2 (0 : Fin 1) q))

/-- The sum of the terms of the first `k` blocks of 2000 rows, block by block. -/
def partial4 (f : Fin 50000 → EReal) : ℕ → EReal
  | 0 => 0
  | k + 1 => partial4 f k + (if h : k < 25 then ∑ a : Fin 2000, f ⟨2000 * k + a.val, by have := a.isLt; omega⟩ else 0)

/-- After all 25 blocks it is the sum over all 50000 rows. -/
theorem partial4_all (f : Fin 50000 → EReal) : partial4 f 25 = ∑ p : Fin 50000, f p :=
  Cert.Lib.sum_by_blocks (n := 25) (b := 2000) (N := 50000) rfl f (partial4 f) rfl fun k hk => by
    show partial4 f k + _ = _
    rw [dif_pos hk]

/-- The column sums of the block at point `t` are the sums of the terms of rows `2000 t … 2000 t + 1999`. -/
theorem blk4_sum (c : Dev nD) (t : Fin cfg4.N) (ht : t.val < 25) (q : Fin 128) :
    k4_pay2 (iblk4 V c 0 t) (iblk4 V c 1 t) (ix2 (0 : Fin 1) q)
      = ∑ r : Fin 2000, colTerm4 V c q ⟨2000 * t.val + r.val, by have := r.isLt; omega⟩ := by
  refine (pay4_2_apply (iblk4 V c 0 t) (iblk4 V c 1 t) q).trans ?_
  refine Finset.sum_congr rfl fun r _ => ?_
  exact congrArg₂ (· + ·) (iblk4_0_apply V c t r q _ rfl) (iblk4_1_apply V c t 0 q)

theorem blk4_sq (c : Dev nD) (t : Fin cfg4.N) (ht : t.val < 25) (q : Fin 128) :
    k4_pay3 (iblk4 V c 0 t) (iblk4 V c 1 t) (ix2 (0 : Fin 1) q)
      = ∑ r : Fin 2000, sqTerm4 V c q ⟨2000 * t.val + r.val, by have := r.isLt; omega⟩ := by
  refine (pay4_3_apply (iblk4 V c 0 t) (iblk4 V c 1 t) q).trans ?_
  refine Finset.sum_congr rfl fun r _ => ?_
  exact congrArg₂ (fun (x y : EReal) => (x + y) * (x + y))
    (iblk4_0_apply V c t r q ⟨2000 * t.val + r.val, by have := r.isLt; omega⟩ rfl) (iblk4_1_apply V c t 0 q)

/-- THE RUNNING SUMS: after point `n` the column sums' buffer holds the sum over the first `n + 1` blocks of rows. -/
theorem acc4_3_apply (c : Dev nD) (q : Fin 128) : ∀ (n : ℕ) (hn : n < cfg4.N),
    acc4_3 V c n hn (ix2 (0 : Fin 1) q) = partial4 (colTerm4 V c q) (n + 1)
  | 0, hn => by
    have h25 : (0 : ℕ) < 25 := by omega
    show k4_pay2 (iblk4 V c 0 ⟨0, hn⟩) (iblk4 V c 1 ⟨0, hn⟩) (ix2 (0 : Fin 1) q)
      = 0 + (if h : 0 < 25 then ∑ a : Fin 2000, colTerm4 V c q ⟨2000 * 0 + a.val, by have := a.isLt; omega⟩ else 0)
    rw [dif_pos h25, zero_add]
    exact blk4_sum V c ⟨0, hn⟩ h25 q
  | n + 1, hn => by
    have hN : cfg4.N = 25 := N_4
    have h25 : n + 1 < 25 := by omega
    show k4_pay4 (iblk4 V c 0 ⟨n + 1, hn⟩) (iblk4 V c 1 ⟨n + 1, hn⟩) (acc4_3 V c n (Nat.lt_of_succ_lt hn)) (ix2 (0 : Fin 1) q)
      = partial4 (colTerm4 V c q) (n + 1)
        + (if h : n + 1 < 25 then ∑ a : Fin 2000, colTerm4 V c q ⟨2000 * (n + 1) + a.val, by have := a.isLt; omega⟩ else 0)
    rw [dif_pos h25]
    refine (pay4_4_apply (iblk4 V c 0 ⟨n + 1, hn⟩) (iblk4 V c 1 ⟨n + 1, hn⟩) (acc4_3 V c n (Nat.lt_of_succ_lt hn)) q).trans ?_
    exact congrArg₂ (· + ·) (acc4_3_apply c q n (Nat.lt_of_succ_lt hn)) (blk4_sum V c ⟨n + 1, hn⟩ h25 q)

/-- The sums of squares likewise. -/
theorem acc4_4_apply (c : Dev nD) (q : Fin 128) : ∀ (n : ℕ) (hn : n < cfg4.N),
    acc4_4 V c n hn (ix2 (0 : Fin 1) q) = partial4 (sqTerm4 V c q) (n + 1)
  | 0, hn => by
    have h25 : (0 : ℕ) < 25 := by omega
    show k4_pay3 (iblk4 V c 0 ⟨0, hn⟩) (iblk4 V c 1 ⟨0, hn⟩) (ix2 (0 : Fin 1) q)
      = 0 + (if h : 0 < 25 then ∑ a : Fin 2000, sqTerm4 V c q ⟨2000 * 0 + a.val, by have := a.isLt; omega⟩ else 0)
    rw [dif_pos h25, zero_add]
    exact blk4_sq V c ⟨0, hn⟩ h25 q
  | n + 1, hn => by
    have hN : cfg4.N = 25 := N_4
    have h25 : n + 1 < 25 := by omega
    show k4_pay5 (iblk4 V c 0 ⟨n + 1, hn⟩) (iblk4 V c 1 ⟨n + 1, hn⟩) (acc4_4 V c n (Nat.lt_of_succ_lt hn)) (ix2 (0 : Fin 1) q)
      = partial4 (sqTerm4 V c q) (n + 1)
        + (if h : n + 1 < 25 then ∑ a : Fin 2000, sqTerm4 V c q ⟨2000 * (n + 1) + a.val, by have := a.isLt; omega⟩ else 0)
    rw [dif_pos h25]
    refine (pay4_5_apply (iblk4 V c 0 ⟨n + 1, hn⟩) (iblk4 V c 1 ⟨n + 1, hn⟩) (acc4_4 V c n (Nat.lt_of_succ_lt hn)) q).trans ?_
    exact congrArg₂ (· + ·) (acc4_4_apply c q n (Nat.lt_of_succ_lt hn)) (blk4_sq V c ⟨n + 1, hn⟩ h25 q)

/-- The row of column sums, -/
def sums4 (c : Dev nD) : S1x128.Idx → EReal :=
  fun i => ∑ p : Fin 50000, colTerm4 V c (⟨(i 1).val, (i 1).isLt⟩ : Fin 128) p
/-- and of column sums of squares. -/
def squares4 (c : Dev nD) : S1x128.Idx → EReal :=
  fun i => ∑ p : Fin 50000, sqTerm4 V c (⟨(i 1).val, (i 1).isLt⟩ : Fin 128) p

theorem sums4_of (c : Dev nD) (i : S1x128.Idx) (q : Fin 128) (h : (i 1).val = q.val) :
    sums4 V c i = ∑ p : Fin 50000, colTerm4 V c q p := by
  have e : (⟨(i 1).val, (i 1).isLt⟩ : Fin 128) = q := Fin.ext h
  unfold sums4
  rw [e]
theorem squares4_of (c : Dev nD) (i : S1x128.Idx) (q : Fin 128) (h : (i 1).val = q.val) :
    squares4 V c i = ∑ p : Fin 50000, sqTerm4 V c q p := by
  have e : (⟨(i 1).val, (i 1).isLt⟩ : Fin 128) = q := Fin.ext h
  unfold squares4
  rw [e]

/-- A one-row buffer written back through the column sums' window at point `t` is, read back through that block, any
    row `G` it agrees with entry by entry (the block is the whole one-row array: its index is (0, 0)). -/
theorem flushed_row4_3 (G : S1x128.Idx → EReal) (X : Vec Ideal S1x128 .f32) (t : Fin cfg4.N)
    (h : ∀ q : Fin 128, X (ix2 (0 : Fin 1) q) = G (ix2 (0 : Fin 1) q)) :
    (cfg4.win 3).cut (grid4.coords t) X = ((cfg4.win 3).blk t).view.read (Elt Ideal) G := by
  obtain ⟨-, -, -, -, -, -, e0, e1, -⟩ := idx4_facts t
  funext j
  show X j = G (((cfg4.win 3).blk t).view.emb j)
  obtain ⟨z, q, rfl⟩ : ∃ (z : Fin 1) (q : Fin 128), j = ix2 z q := ⟨j 0, j 1, eq_ix2 j⟩
  obtain rfl : z = 0 := Subsingleton.elim _ _
  rw [h q]
  congr 1
  funext a
  apply Fin.ext
  match a with
  | ⟨0, _⟩ => show 0 = win4_3.index t 0 * 1 + 1 * 0; rw [e0]
  | ⟨1, _⟩ => show q.val = win4_3.index t 1 * 128 + 1 * q.val; rw [e1]; omega

theorem flushed_row4_4 (G : S1x128.Idx → EReal) (X : Vec Ideal S1x128 .f32) (t : Fin cfg4.N)
    (h : ∀ q : Fin 128, X (ix2 (0 : Fin 1) q) = G (ix2 (0 : Fin 1) q)) :
    (cfg4.win 4).cut (grid4.coords t) X = ((cfg4.win 4).blk t).view.read (Elt Ideal) G := by
  obtain ⟨-, -, -, -, -, -, -, -, e0, e1⟩ := idx4_facts t
  funext j
  show X j = G (((cfg4.win 4).blk t).view.emb j)
  obtain ⟨z, q, rfl⟩ : ∃ (z : Fin 1) (q : Fin 128), j = ix2 z q := ⟨j 0, j 1, eq_ix2 j⟩
  obtain rfl : z = 0 := Subsingleton.elim _ _
  rw [h q]
  congr 1
  funext a
  apply Fin.ext
  match a with
  | ⟨0, _⟩ => show 0 = win4_4.index t 0 * 1 + 1 * 0; rw [e0]
  | ⟨1, _⟩ => show q.val = win4_4.index t 1 * 128 + 1 * q.val; rw [e1]; omega

/-- The one write-back of the column sums, after the last point, writes the sums over all rows. -/
theorem flushed4_3 (c : Dev nD) (t : Fin cfg4.N) (hf : (cfg4.win 3).flush t = true) :
    (dat4 V c).flushed 3 t = ((cfg4.win 3).blk t).view.read (Elt Ideal) (sums4 V c) := by
  have hN : cfg4.N = 25 := N_4
  have h24 : t.val = 24 := by have := (flush4_3 t).mp hf; have := t.isLt; omega
  show (cfg4.win 3).cut (grid4.coords t) ((dat4 V c).after 3 t) = _
  rw [after4_3]
  refine flushed_row4_3 (sums4 V c) (acc4_3 V c t.val t.isLt) t fun q => ?_
  rw [sums4_of V c (ix2 (0 : Fin 1) q) q rfl, acc4_3_apply V c q t.val t.isLt, ← partial4_all]
  exact congrArg (partial4 (colTerm4 V c q)) (by omega)

theorem flushed4_4 (c : Dev nD) (t : Fin cfg4.N) (hf : (cfg4.win 4).flush t = true) :
    (dat4 V c).flushed 4 t = ((cfg4.win 4).blk t).view.read (Elt Ideal) (squares4 V c) := by
  have hN : cfg4.N = 25 := N_4
  have h24 : t.val = 24 := by have := (flush4_4 t).mp hf; have := t.isLt; omega
  show (cfg4.win 4).cut (grid4.coords t) ((dat4 V c).after 4 t) = _
  rw [after4_4]
  refine flushed_row4_4 (squares4 V c) (acc4_4 V c t.val t.isLt) t fun q => ?_
  rw [squares4_of V c (ix2 (0 : Fin 1) q) q rfl, acc4_4_apply V c q t.val t.isLt, ← partial4_all]
  exact congrArg (partial4 (sqTerm4 V c q)) (by omega)

/-- The last point's block is the whole one-row array. -/
theorem mem_blk4_3 (t : Fin cfg4.N) (i : S1x128.Idx) :
    i ∈ ((cfg4.win 3).blk t).view.set ↔ ∀ a : Fin 2, win4_3.index t a * S1x128.size a ≤ (i a).val ∧ (i a).val < win4_3.index t a * S1x128.size a + S1x128.size a := by
  show i ∈ ((View.whole main_v72_1).slice (win4_3.rect t)).set ↔ _
  rw [View.set_slice_whole, Rect.mem_set_unit]
  exact Iff.rfl
theorem mem_blk4_4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v72_2).slice (win4_4.rect t)).set ↔ _
  rw [View.set_slice_whole, Rect.mem_set_unit]
  exact Iff.rfl

/-- The last grid point. -/
abbrev last4 : Fin cfg4.N := ⟨24, by rw [show cfg4.N = 25 from N_4]; omega⟩

/-- THE COLUMN SUMS' ARRAY after the region. -/
theorem final4_3 (c : Dev nD) : (dat4 V c).arrAt 3 cfg4.N = sums4 V c :=
  (dat4 V c).arrAt_eq_of_cover 3 (sums4 V c) (flushed4_3 V c) fun i => by
    have hi0 : (i 0).val < 1 := (i 0).isLt
    have hi1 : (i 1).val < 128 := (i 1).isLt
    refine ⟨last4, (flush4_3 last4).mpr rfl, ?_⟩
    rw [mem_blk4_3]
    obtain ⟨-, -, -, -, -, -, e0, e1, -⟩ := idx4_facts last4
    intro a
    match a with
    | ⟨0, _⟩ =>
      show win4_3.index last4 0 * 1 ≤ (i 0).val ∧ (i 0).val < win4_3.index last4 0 * 1 + 1
      rw [e0]; omega
    | ⟨1, _⟩ =>
      show win4_3.index last4 1 * 128 ≤ (i 1).val ∧ (i 1).val < win4_3.index last4 1 * 128 + 128
      rw [e1]; omega

/-- THE COLUMN SUMS OF SQUARES' ARRAY after the region. -/
theorem final4_4 (c : Dev nD) : (dat4 V c).arrAt 4 cfg4.N = squares4 V c :=
  (dat4 V c).arrAt_eq_of_cover 4 (squares4 V c) (flushed4_4 V c) fun i => by
    have hi0 : (i 0).val < 1 := (i 0).isLt
    have hi1 : (i 1).val < 128 := (i 1).isLt
    refine ⟨last4, (flush4_4 last4).mpr rfl, ?_⟩
    rw [mem_blk4_4]
    obtain ⟨-, -, -, -, -, -, -, -, e0, e1⟩ := idx4_facts last4
    intro a
    match a with
    | ⟨0, _⟩ =>
      show win4_4.index last4 0 * 1 ≤ (i 0).val ∧ (i 0).val < win4_4.index last4 0 * 1 + 1
      rw [e0]; omega
    | ⟨1, _⟩ =>
      show win4_4.index last4 1 * 128 ≤ (i 1).val ∧ (i 1).val < win4_4.index last4 1 * 128 + 128
      rw [e1]; omega

/-- The column sums, entry by entry, -/
theorem sums4_final (c : Dev nD) (q : Fin 128) :
    ((dat4 V c).arrAt 3 cfg4.N : S1x128.Idx → EReal) (ix2 (0 : Fin 1) q)
      = ∑ p : Fin 50000, (agg4 V c (ix2 p q) + bias4 V c (ix2 (0 : Fin 1) q)) :=
  congrFun (final4_3 V c) (ix2 (0 : Fin 1) q)

/-- and the column sums of squares. -/
theorem squares4_final (c : Dev nD) (q : Fin 128) :
    ((dat4 V c).arrAt 4 cfg4.N : S1x128.Idx → EReal) (ix2 (0 : Fin 1) q)
      = ∑ p : Fin 50000, (agg4 V c (ix2 p q) + bias4 V c (ix2 (0 : Fin 1) q)) * (agg4 V c (ix2 p q) + bias4 V c (ix2 (0 : Fin 1) q)) :=
  congrFun (final4_4 V c) (ix2 (0 : Fin 1) q)

end Cert.KernelIdeal.Hand

end
-- ==== Proof.KI.Value.Layer2.lean ====
/-
  The kernel program's second layer is the reference's second layer.

  From the layer's input array (where the chain of boundary contents has it) to its output array, piece by piece:
  the dense region leaves the sums over the contracted axis of input times weights, which is the reference's dense
  layer; the host stretch after it aggregates over the edges with the index vectors and edge weights computed once
  from the edge table, which are the reference's; the statistics region adds the bias row and leaves, beside the
  biased rows, their column sums and column sums of squares — so the biased rows are the reference's convolution and
  the two rows its column sums; the next stretch forms the mean and the variance from the two rows, which for real
  entries are the reference's mean and variance; and the normalising region leaves the normalised, scaled, shifted
  and rectified entries, which is the reference's batch-normalised layer.
-/
import proofs.«111771_j80977313399687_1_alg».proof.Proof.KI.HostRead
import proofs.«111771_j80977313399687_1_alg».proof.Proof.KI.HostRead.RefEq
import proofs.«111771_j80977313399687_1_alg».proof.Proof.KI.Val3
import proofs.«111771_j80977313399687_1_alg».proof.Proof.KI.Val5
import proofs.«111771_j80977313399687_1_alg».proof.Proof.KI.Stats4Value
import proofs.«111771_j80977313399687_1_alg».proof.Proof.KI.Value.LayerAlg

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.ReferenceIdeal.RefValue Cert.ReferenceIdeal.RefRead Cert.ReferenceIdeal.RefFin Cert.LibStats
open scoped BigOperators

variable (m : (ℓ : Loc nD τ sig) → Buf (Elt Ideal) ℓ) (ρ : Dev nD → PrngReg) (c : Dev nD)

/-- The dense region's output is the reference's dense layer of the layer's input. -/
theorem layer2_linear (h0 : FVec Ideal S50000x128 .f32) (hin : W8 m ρ c main_v56 = h0) :
    W9 m ρ c main_v57 = linear128 (F := Ideal) h0 (m ((c : Thread nD τ).loc main_arg6)) :=
  linear_of_entries h0 (m ((c : Thread nD τ).loc main_arg6)) (arr3_0 (V8 m ρ) c) (W9 m ρ c main_v57) (arr3_1 (V8 m ρ) c)
    hin (W8_arg6 m ρ c)
    fun p q => (congrFun (W9_arr m ρ c 2) (ix2 p q)).trans (val3 (V8 m ρ) c p q)

/-- The aggregation the next stretch leaves is the reference's, of the reference's dense layer. -/
theorem layer2_agg (h0 : FVec Ideal S50000x128 .f32) (hin : W8 m ρ c main_v56 = h0) :
    W10 m ρ c main_v70
      = aggregate128 (F := Ideal) (src (m ((c : Thread nD τ).loc main_arg1))) (dst (m ((c : Thread nD τ).loc main_arg1)))
          (norm (src (m ((c : Thread nD τ).loc main_arg1))) (dst (m ((c : Thread nD τ).loc main_arg1))))
          (linear128 (F := Ideal) h0 (m ((c : Thread nD τ).loc main_arg6))) := by
  rw [W10_v70', layer2_linear m ρ c h0 hin, aggK128_eq, srcK_eq, dstK_eq, normK_eq]

/-- The statistics region's stored rows are the reference's convolution. -/
theorem layer2_conv (h0 : FVec Ideal S50000x128 .f32) (hin : W8 m ρ c main_v56 = h0) :
    W11 m ρ c main_v72_0
      = conv128 (F := Ideal) (m ((c : Thread nD τ).loc main_arg1)) h0 (m ((c : Thread nD τ).loc main_arg6)) (m ((c : Thread nD τ).loc main_arg7)) :=
  addBias_of_entries _ (m ((c : Thread nD τ).loc main_arg7)) (agg4 (V10 m ρ) c) (W11 m ρ c main_v72_0) (bias4 (V10 m ρ) c)
    (layer2_agg m ρ c h0 hin) (W10_v71' m ρ c)
    fun p q => (congrFun (W11_arr m ρ c 2) (ix2 p q)).trans (rows4_final (V10 m ρ) c p q)

/-- An entry of the convolution, from the statistics region's two input arrays. -/
theorem layer2_entry (h0 : FVec Ideal S50000x128 .f32) (hin : W8 m ρ c main_v56 = h0) (p : Fin 50000) (q : Fin 128) :
    agg4 (V10 m ρ) c (ix2 p q) + bias4 (V10 m ρ) c (ix2 (0 : Fin 1) q)
      = conv128 (F := Ideal) (m ((c : Thread nD τ).loc main_arg1)) h0 (m ((c : Thread nD τ).loc main_arg6)) (m ((c : Thread nD τ).loc main_arg7)) (ix2 p q) :=
  (rows4_final (V10 m ρ) c p q).symm.trans
    ((congrFun (W11_arr m ρ c 2) (ix2 p q)).symm.trans (congrFun (layer2_conv m ρ c h0 hin) (ix2 p q)))

/-- The row of column sums the statistics region leaves is the convolution's column sums, -/
theorem layer2_sums (h0 : FVec Ideal S50000x128 .f32) (hin : W8 m ρ c main_v56 = h0) (q : Fin 128) :
    (W11 m ρ c main_v72_1 : S1x128.Idx → EReal) (ix2 (0 : Fin 1) q)
      = ∑ p : Fin 50000, conv128 (F := Ideal) (m ((c : Thread nD τ).loc main_arg1)) h0 (m ((c : Thread nD τ).loc main_arg6)) (m ((c : Thread nD τ).loc main_arg7)) (ix2 p q) :=
  @Eq.trans EReal _ _ _ (congrFun (W11_arr m ρ c 3) (ix2 (0 : Fin 1) q))
    (@Eq.trans EReal _ _ _ (sums4_final (V10 m ρ) c q)
      (Finset.sum_congr rfl fun p _ => layer2_entry m ρ c h0 hin p q))

/-- and the row of column sums of squares its column sums of squares. -/
theorem layer2_squares (h0 : FVec Ideal S50000x128 .f32) (hin : W8 m ρ c main_v56 = h0) (q : Fin 128) :
    (W11 m ρ c main_v72_2 : S1x128.Idx → EReal) (ix2 (0 : Fin 1) q)
      = ∑ p : Fin 50000, conv128 (F := Ideal) (m ((c : Thread nD τ).loc main_arg1)) h0 (m ((c : Thread nD τ).loc main_arg6)) (m ((c : Thread nD τ).loc main_arg7)) (ix2 p q)
          * conv128 (F := Ideal) (m ((c : Thread nD τ).loc main_arg1)) h0 (m ((c : Thread nD τ).loc main_arg6)) (m ((c : Thread nD τ).loc main_arg7)) (ix2 p q) :=
  @Eq.trans EReal _ _ _ (congrFun (W11_arr m ρ c 4) (ix2 (0 : Fin 1) q))
    (@Eq.trans EReal _ _ _ (squares4_final (V10 m ρ) c q)
      (Finset.sum_congr rfl fun p _ =>
        congrArg₂ (fun (x y : EReal) => x * y) (layer2_entry m ρ c h0 hin p q) (layer2_entry m ρ c h0 hin p q)))

/-- THE LAYER: the normalising region's output is the reference's batch-normalised and rectified convolution of the
    layer's input, when the input, the weights, the bias, the scale and the shift have real entries. -/
theorem layer2 (h0 : FVec Ideal S50000x128 .f32) (hin : W8 m ρ c main_v56 = h0) (hh : AllFin h0)
    (hW : AllFin (m ((c : Thread nD τ).loc main_arg6) : S128x128.Idx → EReal))
    (hb : AllFin (m ((c : Thread nD τ).loc main_arg7) : S128.Idx → EReal))
    (hg : AllFin (m ((c : Thread nD τ).loc main_arg8) : S128.Idx → EReal))
    (hbeta : AllFin (m ((c : Thread nD τ).loc main_arg9) : S128.Idx → EReal)) :
    W13 m ρ c main_v81
      = bnLayer (F := Ideal) (conv128 (F := Ideal) (m ((c : Thread nD τ).loc main_arg1)) h0 (m ((c : Thread nD τ).loc main_arg6)) (m ((c : Thread nD τ).loc main_arg7)))
          (m ((c : Thread nD τ).loc main_arg8)) (m ((c : Thread nD τ).loc main_arg9)) :=
  bn_of_entries _ (conv128_fin _ h0 _ _ hh hW hb) (m ((c : Thread nD τ).loc main_arg8)) (m ((c : Thread nD τ).loc main_arg9))
    (arr5_0 (V12 m ρ) c) (W13 m ρ c main_v81) (arr5_1 (V12 m ρ) c) (arr5_2 (V12 m ρ) c) (arr5_3 (V12 m ρ) c) (arr5_4 (V12 m ρ) c)
    (W11 m ρ c main_v72_1) (W11 m ρ c main_v72_2)
    ((W12_v72_0_keep m ρ c).trans (layer2_conv m ρ c h0 hin))
    (W12_v74 m ρ c) (W12_v78 m ρ c) (W12_v79' m ρ c) (W12_v80' m ρ c)
    (layer2_sums m ρ c h0 hin) (layer2_squares m ρ c h0 hin)
    fun p q => (congrFun (W13_arr m ρ c 5) (ix2 p q)).trans (val5 (V12 m ρ) c p q)

end Cert.KernelIdeal.Hand

end
-- ==== Proof.KI.Val6.lean ====
/-
  Region 6 of @main, read on the extended reals: the array the row-block products leave, entry by entry.

  At grid point t the body multiplies rows 2000 t … 2000 t + 1999 of the activations by the whole weight matrix and
  stores the product as rows 2000 t … 2000 t + 1999 of the output. Rounding an operand to a narrower format is the
  identity on the extended reals and the accumulator starts at zero, so entry (p, q) of that block is the sum over the
  contracted axis k of activations (2000 t + p, k) times weights (k, q). The 25 blocks tile the 50000 rows, so the
  array ends holding, at every (p, q), the sum over k of activations (p, k) times weights (k, q).
-/
import proofs.«111771_j80977313399687_1_alg».proof.Proof.KI.R6
import proofs.«111771_j80977313399687_1_alg».proof.Proof.LibPlainMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The zero offsets of a whole-block access, as a constant function. -/
theorem zeroOff6 : (![0, 0] : Fin 2 → Nat) = fun _ => 0 := funext fun a => by fin_cases a <;> rfl

/-- The body's value at an entry of the block: the sum over the contracted axis of the operands' products. -/
theorem pay6_apply (x0 : Vec Ideal S2000x128 .f32) (x1 : Vec Ideal S128x64 .f32) (p : Fin 2000) (q : Fin 64) :
    k6_pay1 x0 x1 (ix2 p q) = ∑ k : Fin 128, x0 (ix2 p k) * x1 (ix2 k q) := by
  unfold k6_pay1
  refine (LibPlainMatmul.matmul_plain_zero_apply none
    (truncf .bf16 (shapeCast S2000x128 x0 shapeCasts_S2000x128_S2000x128) bitsLt_bf16_f32) (truncf .bf16 x1 bitsLt_bf16_f32) p q).trans ?_
  rw [shapeCast_self]
  rfl

/-- The block indices of the three windows at every grid point: the activations' and the output's row block is the
    point, the weights are one block. -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The activations and the weights as the region finds them, as arrays of extended reals. -/
abbrev arr6_0 (c : Dev nD) : S50000x128.Idx → EReal := V c (Pipeline.arrRef spec6 0)
abbrev arr6_1 (c : Dev nD) : S128x64.Idx → EReal := V c (Pipeline.arrRef spec6 1)

/-- The sum of products at entry (p, q). -/
def prod6 (c : Dev nD) (p : Fin 50000) (q : Fin 64) : EReal :=
  ∑ k : Fin 128, arr6_0 V c (ix2 p k) * arr6_1 V c (ix2 k q)

/-- The product array. -/
def G6 (c : Dev nD) : S50000x64.Idx → Elt Ideal .f32 := fun i => prod6 V c (i 0) (i 1)

/-- Row p of the activations' block at point t is row 2000 t + p of the activations. -/
theorem iblk6_0_apply (c : Dev nD) (t : Fin cfg6.N) (p : Fin 2000) (k : Fin 128) (P : Fin 50000)
    (hP : P.val = 2000 * t.val + p.val) :
    (iblk6 V c 0 t : Vec Ideal S2000x128 .f32) (ix2 p k) = arr6_0 V c (ix2 P k) := by
  obtain ⟨e0, e1, -⟩ := blockIdx6 t
  unfold iblk6
  rw [View.read_apply]
  refine congrArg (arr6_0 V c) ?_
  funext a
  apply Fin.ext
  match a with
  | ⟨0, _⟩ => show win6_0.index t (0 : Fin 2) * 2000 + 1 * p.val = P.val; omega
  | ⟨1, _⟩ => show win6_0.index t (1 : Fin 2) * 128 + 1 * k.val = k.val; omega

/-- The weights' block at every point is the weights. -/
theorem iblk6_1_apply (c : Dev nD) (t : Fin cfg6.N) (k : Fin 128) (q : Fin 64) :
    (iblk6 V c 1 t : Vec Ideal S128x64 .f32) (ix2 k q) = arr6_1 V c (ix2 k q) := by
  obtain ⟨-, -, e0, e1, -⟩ := blockIdx6 t
  unfold iblk6
  rw [View.read_apply]
  refine congrArg (arr6_1 V c) ?_
  funext a
  apply Fin.ext
  match a with
  | ⟨0, _⟩ => show win6_1.index t (0 : Fin 2) * 128 + 1 * k.val = k.val; omega
  | ⟨1, _⟩ => show win6_1.index t (1 : Fin 2) * 64 + 1 * q.val = q.val; omega

/-- Entry (p, q) of the output's block at point t sits at (2000 t + p, q) of the output. -/
theorem emb6_2 (t : Fin cfg6.N) (p : Fin 2000) (q : Fin 64) (P : Fin 50000) (hP : P.val = 2000 * t.val + p.val) :
    ((cfg6.win 2).blk t).view.emb (ix2 p q) = (ix2 P q : S50000x64.Idx) := by
  obtain ⟨-, -, -, -, e0, e1⟩ := blockIdx6 t
  funext a
  apply Fin.ext
  match a with
  | ⟨0, _⟩ => show win6_2.index t (0 : Fin 2) * 2000 + 1 * p.val = P.val; omega
  | ⟨1, _⟩ => show win6_2.index t (1 : Fin 2) * 64 + 1 * q.val = q.val; omega

/-- What point t writes back is block t of the product array. -/
theorem flushed6_eq (c : Dev nD) (t : Fin cfg6.N) :
    (dat6 V c).flushed 2 t = ((cfg6.win 2).blk t).view.read (Elt Ideal) (G6 V c) := by
  show (cfg6.win 2).cut (grid6.coords t) ((dat6 V c).after 2 t) = _
  rw [after6_2]
  unfold out6_2
  rw [View.canon_unit_zero zeroOff6]
  simp only [View.ld_unit_zero (S := S2000x128) zeroOff6, View.ld_unit_zero (S := S128x64) zeroOff6]
  funext j
  obtain ⟨p, q, rfl⟩ : ∃ (p : Fin 2000) (q : Fin 64), j = ix2 p q := ⟨j 0, j 1, eq_ix2 j⟩
  have hN : cfg6.N = 25 := N_6
  have ht : t.val < 25 := hN ▸ t.isLt
  have hP : 2000 * t.val + p.val < 50000 := by have := p.isLt; omega
  rw [View.read_apply, emb6_2 t p q ⟨2000 * t.val + p.val, hP⟩ rfl]
  refine (pay6_apply (iblk6 V c 0 t) (iblk6 V c 1 t) p q).trans ?_
  show _ = prod6 V c ⟨2000 * t.val + p.val, hP⟩ q
  unfold prod6
  refine Finset.sum_congr rfl fun k _ => ?_
  rw [iblk6_0_apply V c t p k ⟨2000 * t.val + p.val, hP⟩ rfl, iblk6_1_apply V c t k q]

/-- An index of the output is in point t's block iff each coordinate is in the block's range on its axis. -/
theorem mem_blk6 (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v82).slice (win6_2.rect t)).set ↔ _
  rw [View.set_slice_whole, Rect.mem_set_unit]
  exact Iff.rfl

/-- Every index of the output is in some point's block: row r is in block r / 2000. -/
theorem cover6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 25 := N_6
  refine ⟨⟨(i 0).val / 2000, by rw [hN]; omega⟩, flush6_2 _, ?_⟩
  rw [mem_blk6]
  obtain ⟨-, -, -, -, e0, e1⟩ := blockIdx6 ⟨(i 0).val / 2000, by rw [hN]; omega⟩
  intro a
  match a with
  | ⟨0, _⟩ =>
    show win6_2.index _ (0 : Fin 2) * 2000 ≤ (i 0).val ∧ (i 0).val < win6_2.index _ (0 : Fin 2) * 2000 + 2000
    rw [e0]; show (i 0).val / 2000 * 2000 ≤ (i 0).val ∧ (i 0).val < (i 0).val / 2000 * 2000 + 2000; omega
  | ⟨1, _⟩ =>
    show win6_2.index _ (1 : Fin 2) * 64 ≤ (i 1).val ∧ (i 1).val < win6_2.index _ (1 : Fin 2) * 64 + 64
    rw [e1]; omega

/-- The output after the region is the product array. -/
theorem final6 (c : Dev nD) : (dat6 V c).arrAt 2 cfg6.N = G6 V c :=
  (dat6 V c).arrAt_eq_of_cover 2 (G6 V c) (fun t _ => flushed6_eq V c t) cover6

/-- Entry (p, q) of the output after the region: the sum over k of activations (p, k) times weights (k, q). -/
theorem val6 (c : Dev nD) (p : Fin 50000) (q : Fin 64) :
    (dat6 (F := Ideal) V c).arrAt 2 cfg6.N (ix2 p q) = ∑ k : Fin 128, arr6_0 V c (ix2 p k) * arr6_1 V c (ix2 k q) :=
  congrFun (final6 V c) (ix2 p q)

end Cert.KernelIdeal.Hand

end
-- ==== Proof.LibColumnSpread.lean ====
/-
  A column and a row spread over a matrix, read at an entry.

  Spreading a one-column array over b columns gives, at (p, q), the column's entry of row p; spreading a vector of
  length b over a rows (first viewed as one row, then repeated) gives, at (p, q), the vector's entry q. Both hold for
  any element type and any extents.
-/
import Idealize.ShloMosaic.Lib.Pipeline.Value
import Idealize.ShloMosaic.Lib.ValueIdx
import Idealize.ShloMosaic.Lib.ValueLayout

namespace Cert.LibColumnSpread

open Idealize.ShloMosaic Idealize.ShloMosaic.ValueIdx

variable {α : Type}

/-- A column [a, 1] spread to [a, b] reads, at (p, q), the column's entry of row p: on the row axis the coordinate is
    kept (also when a = 1, where it can only be 0), on the unit axis it is 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] viewed as one row [1, b] and spread to [a, b] reads, at (p, q), the vector's entry q: the repeated
    row is the vector, whatever the row p. -/
theorem broadcastTo_shapeCast_b_ab_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) := by
  rw [broadcastTo_1b_ab_apply, shapeCast_a_1a_apply]

end Cert.LibColumnSpread
-- ==== Proof.KI.Val7.lean ====
/-
  Region 7 of @main, read on the extended reals: the array the shift-and-log-softmax body leaves, entry by entry.

  At grid point t the body takes rows 2000 t … 2000 t + 1999 of the activations h and the one-row shift b, forms
  z (p, q) = h (p, q) + b (0, q), takes each row's maximum m (p) (the fold of max over the row's 64 entries from the
  initial word), and stores z (p, q) - m (p) - log (the sum over k of exp (z (p, k) - m (p))) at (p, q) of the output's
  row block. The 25 blocks tile the 50000 rows, so the array ends holding that value at every (p, q).
-/
import proofs.«111771_j80977313399687_1_alg».proof.Proof.KI.R7
import proofs.«111771_j80977313399687_1_alg».proof.Proof.LibPlainMatmul
import proofs.«111771_j80977313399687_1_alg».proof.Proof.LibColumnSpread
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The zero offsets of a whole-block access, as a constant function. -/
theorem zeroOff7 : (![0, 0] : Fin 2 → Nat) = fun _ => 0 := funext fun a => by fin_cases a <;> rfl

/-! ## Two readings at an entry, for any extents -/

/-- A vector of length a cast to one column [a, 1] reads, at (p, 0), the vector's entry p. -/
theorem castColumn_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The maximum along the second axis of an [a, b] array is, at row p, the fold of max from the initial word's value
    over the columns k of the entry (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction (F := Ideal) .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine Finset.fold_congr (g := fun k => src (ix2 p k)) fun k _ => ?_
  refine congrArg src ?_
  funext c
  refine Fin.ext ?_
  match c with
  | ⟨0, _⟩ => rfl
  | ⟨1, _⟩ => rfl

/-! ## The body's value at an entry -/

/-- A row's maximum: the fold of max over its 64 entries from the value of the initial word. -/
def rowMax7 (z : Fin 64 → EReal) : EReal :=
  (Finset.univ : Finset (Fin 64)).fold max (Ideal.ofBits .f32 0xFF800000#32) z

/-- The value at column q of a row z: z (q) less the row's maximum, less the logarithm of the sum of the exponentials of
    the row's entries less that maximum. -/
def lse7 (z : Fin 64 → EReal) (q : Fin 64) : EReal :=
  (z q - rowMax7 z) - Ideal.log (∑ k : Fin 64, Ideal.exp (z k - rowMax7 z))

/-- The shifted block. -/
def z7 (x0 : Vec Ideal S2000x64 .f32) (x1 : Vec Ideal S1x64 .f32) : FVec Ideal S2000x64 .f32 :=
  addf (shapeCast S2000x64 x0 shapeCasts_S2000x64_S2000x64)
    (broadcastTo S2000x64 (shapeCast S1x64 x1 shapeCasts_S1x64_S1x64) broadcasts_S1x64_S2000x64)

/-- The rows' maxima, as one column. -/
def m7 (Z : FVec Ideal S2000x64 .f32) : FVec Ideal S2000x1 .f32 :=
  shapeCast S2000x1 (multiReduction .maximumf [1] S2000 Z 0xFF800000#32 reduces_S2000x64_S2000 (.inl rfl) rfl) shapeCasts_S2000_S2000x1

/-- The rows' sums of exponentials, as one column. -/
def s7 (Z : FVec Ideal S2000x64 .f32) : FVec Ideal S2000x1 .f32 :=
  shapeCast S2000x1 (multiReduction .add [1] S2000 (exp (subf Z (broadcastTo S2000x64 (m7 Z) broadcasts_S2000x1_S2000x64)))
    0x00000000#32 reduces_S2000x64_S2000 (.inl rfl) rfl) shapeCasts_S2000_S2000x1

/-- The body's value is built of those three. -/
theorem k7_pay1_eq (x0 : Vec Ideal S2000x64 .f32) (x1 : Vec Ideal S1x64 .f32) :
    k7_pay1 x0 x1 = subf (subf (z7 x0 x1) (broadcastTo S2000x64 (m7 (z7 x0 x1)) broadcasts_S2000x1_S2000x64))
      (broadcastTo S2000x64 (log (s7 (z7 x0 x1))) broadcasts_S2000x1_S2000x64) := rfl

theorem z7_apply (x0 : Vec Ideal S2000x64 .f32) (x1 : Vec Ideal S1x64 .f32) (p : Fin 2000) (k : Fin 64) :
    z7 x0 x1 (ix2 p k) = x0 (ix2 p k) + x1 (ix2 (0 : Fin 1) k) := by
  unfold z7
  rw [shapeCast_self, shapeCast_self, addf_apply, broadcastTo_1b_ab_apply]

theorem m7_apply (Z : FVec Ideal S2000x64 .f32) (p : Fin 2000) (u : Fin 1) :
    m7 Z (ix2 p u) = rowMax7 fun k => Z (ix2 p k) := by
  unfold m7
  rw [castColumn_apply]
  exact rowMax_apply Z 0xFF800000#32 reduces_S2000x64_S2000 (.inl rfl) rfl p

theorem s7_apply (Z : FVec Ideal S2000x64 .f32) (p : Fin 2000) (u : Fin 1) :
    s7 Z (ix2 p u) = ∑ k : Fin 64, Ideal.exp (Z (ix2 p k) - rowMax7 fun k => Z (ix2 p k)) := by
  unfold s7
  rw [castColumn_apply]
  refine (LibPlainMatmul.rowSum_apply _ 0x00000000#32 reduces_S2000x64_S2000 (.inl rfl) rfl p).trans ?_
  refine Finset.sum_congr rfl fun k _ => ?_
  show Ideal.exp (Z (ix2 p k) - broadcastTo S2000x64 (m7 Z) broadcasts_S2000x1_S2000x64 (ix2 p k)) = _
  rw [Cert.LibColumnSpread.broadcastTo_a1_ab_apply, m7_apply]

/-- The body's value at an entry of the block. -/
theorem pay7_apply (x0 : Vec Ideal S2000x64 .f32) (x1 : Vec Ideal S1x64 .f32) (p : Fin 2000) (q : Fin 64) :
    k7_pay1 x0 x1 (ix2 p q) = lse7 (fun k => x0 (ix2 p k) + x1 (ix2 (0 : Fin 1) k)) q := by
  rw [k7_pay1_eq]
  show (z7 x0 x1 (ix2 p q) - broadcastTo S2000x64 (m7 (z7 x0 x1)) broadcasts_S2000x1_S2000x64 (ix2 p q))
      - broadcastTo S2000x64 (log (s7 (z7 x0 x1))) broadcasts_S2000x1_S2000x64 (ix2 p q) = _
  rw [Cert.LibColumnSpread.broadcastTo_a1_ab_apply, Cert.LibColumnSpread.broadcastTo_a1_ab_apply, m7_apply]
  show (z7 x0 x1 (ix2 p q) - _) - Ideal.log (s7 (z7 x0 x1) (ix2 p (0 : Fin 1))) = _
  rw [s7_apply]
  simp only [z7_apply]
  rfl

/-! ## From the blocks to the array -/

/-- The block indices of the three windows at every grid point: the activations' and the output's row block is the
    point, the shift is one block. -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The activations and the shift as the region finds them, as arrays of extended reals. -/
abbrev arr7_0 (c : Dev nD) : S50000x64.Idx → EReal := V c (Pipeline.arrRef spec7 0)
abbrev arr7_1 (c : Dev nD) : S1x64.Idx → EReal := V c (Pipeline.arrRef spec7 1)

/-- Row p of the shifted activations. -/
def logit7 (c : Dev nD) (p : Fin 50000) (k : Fin 64) : EReal := arr7_0 V c (ix2 p k) + arr7_1 V c (ix2 (0 : Fin 1) k)

/-- The array of the values. -/
def G7 (c : Dev nD) : S50000x64.Idx → Elt Ideal .f32 := fun i => lse7 (logit7 V c (i 0)) (i 1)

/-- Row p of the activations' block at point t is row 2000 t + p of the activations. -/
theorem iblk7_0_apply (c : Dev nD) (t : Fin cfg7.N) (p : Fin 2000) (k : Fin 64) (P : Fin 50000)
    (hP : P.val = 2000 * t.val + p.val) :
    (iblk7 V c 0 t : Vec Ideal S2000x64 .f32) (ix2 p k) = arr7_0 V c (ix2 P k) := by
  obtain ⟨e0, e1, -⟩ := blockIdx7 t
  unfold iblk7
  rw [View.read_apply]
  refine congrArg (arr7_0 V c) ?_
  funext a
  apply Fin.ext
  match a with
  | ⟨0, _⟩ => show win7_0.index t (0 : Fin 2) * 2000 + 1 * p.val = P.val; omega
  | ⟨1, _⟩ => show win7_0.index t (1 : Fin 2) * 64 + 1 * k.val = k.val; omega

/-- The shift's block at every point is the shift. -/
theorem iblk7_1_apply (c : Dev nD) (t : Fin cfg7.N) (k : Fin 64) :
    (iblk7 V c 1 t : Vec Ideal S1x64 .f32) (ix2 (0 : Fin 1) k) = arr7_1 V c (ix2 (0 : Fin 1) k) := by
  obtain ⟨-, -, e0, e1, -⟩ := blockIdx7 t
  unfold iblk7
  rw [View.read_apply]
  refine congrArg (arr7_1 V c) ?_
  funext a
  apply Fin.ext
  match a with
  | ⟨0, _⟩ => show win7_1.index t (0 : Fin 2) * 1 + 1 * 0 = 0; omega
  | ⟨1, _⟩ => show win7_1.index t (1 : Fin 2) * 64 + 1 * k.val = k.val; omega

/-- Entry (p, q) of the output's block at point t sits at (2000 t + p, q) of the output. -/
theorem emb7_2 (t : Fin cfg7.N) (p : Fin 2000) (q : Fin 64) (P : Fin 50000) (hP : P.val = 2000 * t.val + p.val) :
    ((cfg7.win 2).blk t).view.emb (ix2 p q) = (ix2 P q : S50000x64.Idx) := by
  obtain ⟨-, -, -, -, e0, e1⟩ := blockIdx7 t
  funext a
  apply Fin.ext
  match a with
  | ⟨0, _⟩ => show win7_2.index t (0 : Fin 2) * 2000 + 1 * p.val = P.val; omega
  | ⟨1, _⟩ => show win7_2.index t (1 : Fin 2) * 64 + 1 * q.val = q.val; omega

/-- What point t writes back is block t of the array of the values. -/
theorem flushed7_eq (c : Dev nD) (t : Fin cfg7.N) :
    (dat7 V c).flushed 2 t = ((cfg7.win 2).blk t).view.read (Elt Ideal) (G7 V c) := by
  show (cfg7.win 2).cut (grid7.coords t) ((dat7 V c).after 2 t) = _
  rw [after7_2]
  unfold out7_2
  rw [View.canon_unit_zero zeroOff7]
  simp only [View.ld_unit_zero (S := S2000x64) zeroOff7, View.ld_unit_zero (S := S1x64) zeroOff7]
  funext j
  obtain ⟨p, q, rfl⟩ : ∃ (p : Fin 2000) (q : Fin 64), j = ix2 p q := ⟨j 0, j 1, eq_ix2 j⟩
  have hN : cfg7.N = 25 := N_7
  have ht : t.val < 25 := hN ▸ t.isLt
  have hP : 2000 * t.val + p.val < 50000 := by have := p.isLt; omega
  rw [View.read_apply, emb7_2 t p q ⟨2000 * t.val + p.val, hP⟩ rfl]
  refine (pay7_apply (iblk7 V c 0 t) (iblk7 V c 1 t) p q).trans ?_
  show _ = lse7 (logit7 V c ⟨2000 * t.val + p.val, hP⟩) q
  refine congrArg (fun z => lse7 z q) (funext fun k => ?_)
  unfold logit7
  rw [iblk7_0_apply V c t p k ⟨2000 * t.val + p.val, hP⟩ rfl, iblk7_1_apply V c t k]

/-- An index of the output is in point t's block iff each coordinate is in the block's range on its axis. -/
theorem mem_blk7 (t : Fin cfg7.N) (i : S50000x64.Idx) :
    i ∈ ((cfg7.win 2).blk t).view.set ↔ ∀ a : Fin 2, win7_2.index t a * S2000x64.size a ≤ (i a).val ∧ (i a).val < win7_2.index t a * S2000x64.size a + S2000x64.size a := by
  show i ∈ ((View.whole main_v97).slice (win7_2.rect t)).set ↔ _
  rw [View.set_slice_whole, Rect.mem_set_unit]
  exact Iff.rfl

/-- Every index of the output is in some point's block: row r is in block r / 2000. -/
theorem cover7 (i : S50000x64.Idx) : ∃ t : Fin cfg7.N, (cfg7.win 2).flush t = true ∧ i ∈ ((cfg7.win 2).blk t).view.set := by
  have hi0 : (i 0).val < 50000 := (i 0).isLt
  have hi1 : (i 1).val < 64 := (i 1).isLt
  have hN : cfg7.N = 25 := N_7
  refine ⟨⟨(i 0).val / 2000, by rw [hN]; omega⟩, flush7_2 _, ?_⟩
  rw [mem_blk7]
  obtain ⟨-, -, -, -, e0, e1⟩ := blockIdx7 ⟨(i 0).val / 2000, by rw [hN]; omega⟩
  intro a
  match a with
  | ⟨0, _⟩ =>
    show win7_2.index _ (0 : Fin 2) * 2000 ≤ (i 0).val ∧ (i 0).val < win7_2.index _ (0 : Fin 2) * 2000 + 2000
    rw [e0]; show (i 0).val / 2000 * 2000 ≤ (i 0).val ∧ (i 0).val < (i 0).val / 2000 * 2000 + 2000; omega
  | ⟨1, _⟩ =>
    show win7_2.index _ (1 : Fin 2) * 64 ≤ (i 1).val ∧ (i 1).val < win7_2.index _ (1 : Fin 2) * 64 + 64
    rw [e1]; omega

/-- The output after the region is the array of the values. -/
theorem final7 (c : Dev nD) : (dat7 V c).arrAt 2 cfg7.N = G7 V c :=
  (dat7 V c).arrAt_eq_of_cover 2 (G7 V c) (fun t _ => flushed7_eq V c t) cover7

/-- Entry (p, q) of the output after the region. -/
theorem val7 (c : Dev nD) (p : Fin 50000) (q : Fin 64) :
    (dat7 (F := Ideal) V c).arrAt 2 cfg7.N (ix2 p q)
      = (logit7 V c p q - rowMax7 (logit7 V c p)) - Ideal.log (∑ k : Fin 64, Ideal.exp (logit7 V c p k - rowMax7 (logit7 V c p))) :=
  congrFun (final7 V c) (ix2 p q)

end Cert.KernelIdeal.Hand

end
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.KI.Value.Layer3.lean ====
/-
  The kernel program's last layer, composed, on the extended reals. From the second layer's output h2 the last
  matmul region leaves h2 times the third weight matrix; the host stretch after it gathers those rows along the
  message sources, weighs them, and sums them at the aggregation targets; the last region adds the bias row and
  takes the log-softmax of every row. Stage by stage these are the reference's dense layer, aggregation, bias and
  log-softmax, so the program's result array is the reference's log-softmax of its third convolution of h2. The
  two row maxima are one fold: the region's initial word denotes the least extended real.
-/
import proofs.«111771_j80977313399687_1_alg».proof.Proof.KI.Run.Chain
import proofs.«111771_j80977313399687_1_alg».proof.Proof.KI.HostRead
import proofs.«111771_j80977313399687_1_alg».proof.Proof.KI.HostRead.RefEq
import proofs.«111771_j80977313399687_1_alg».proof.Proof.KI.Val6
import proofs.«111771_j80977313399687_1_alg».proof.Proof.KI.Val7
import proofs.«111771_j80977313399687_1_alg».proof.Proof.RefRead
import proofs.«111771_j80977313399687_1_alg».proof.Proof.LibRow
import proofs.«111771_j80977313399687_1_alg».proof.Proof.Consts

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg) (c : Dev nD)

/-- The last matmul region leaves the dense layer of its input: entry (p, q) is the sum over k of h2 (p, k) times
    the weights' (k, q). -/
theorem W14_v82 (h2 : FVec Ideal S50000x128 .f32) (hin : W13 m ρ c main_v81 = h2) :
    W14 m ρ c main_v82 = (Cert.ReferenceIdeal.RefValue.linear64 (F := Ideal) h2 (m ((c : Thread nD τ).loc main_arg10))) := by
  have hA : W14 m ρ c main_v82 = (dat6 (V13 m ρ) c).arrAt 2 cfg6.N := W14_arr m ρ c 2
  rw [hA]
  show ((dat6 (V13 m ρ) c).arrAt 2 cfg6.N : S50000x64.Idx → EReal) = _
  funext i
  obtain ⟨p, q, rfl⟩ : ∃ (p : Fin 50000) (q : Fin 64), i = ix2 p q := ⟨i 0, i 1, eq_ix2 i⟩
  rw [val6 (V13 m ρ) c p q, Cert.ReferenceIdeal.RefRead.linear64_apply]
  rw [show arr6_0 (V13 m ρ) c = h2 from hin, show arr6_1 (V13 m ρ) c = (m ((c : Thread nD τ).loc main_arg10)) from W13_arg10 m ρ c]

/-- The aggregation after it is the reference's, of the reference's dense layer. -/
theorem W15_v95_ref (h2 : FVec Ideal S50000x128 .f32) (hin : W13 m ρ c main_v81 = h2) :
    W15 m ρ c main_v95 = Cert.ReferenceIdeal.RefValue.aggregate64 (F := Ideal) (Cert.ReferenceIdeal.RefValue.src (m ((c : Thread nD τ).loc main_arg1))) (Cert.ReferenceIdeal.RefValue.dst (m ((c : Thread nD τ).loc main_arg1))) (Cert.ReferenceIdeal.RefValue.norm (Cert.ReferenceIdeal.RefValue.src (m ((c : Thread nD τ).loc main_arg1))) (Cert.ReferenceIdeal.RefValue.dst (m ((c : Thread nD τ).loc main_arg1)))) (Cert.ReferenceIdeal.RefValue.linear64 (F := Ideal) h2 (m ((c : Thread nD τ).loc main_arg10))) := by
  rw [W15_v95' m ρ c, W14_v82 m ρ c h2 hin, srcK_eq, dstK_eq, normK_eq, aggK64_eq]

/-- The bias as a row: entry (0, q) of the row is the bias's entry q. -/
theorem W15_v96_apply (q : Fin 64) :
    (W15 m ρ c main_v96 : S1x64.Idx → EReal) (ix2 (0 : Fin 1) q) = ((m ((c : Thread nD τ).loc main_arg11)) : S64.Idx → EReal) (ix1 q) := by
  rw [W15_v96' m ρ c]
  unfold rowOf64
  refine (Cert.LibRow.shapeCast_row_apply _ _ _).trans ?_
  refine congrArg _ ?_
  funext a
  match a with
  | ⟨0, _⟩ => rfl

/-- The rows the last region shifts by the bias are the reference's third convolution. -/
theorem logit7_eq (h2 : FVec Ideal S50000x128 .f32) (hin : W13 m ρ c main_v81 = h2) (p : Fin 50000) (k : Fin 64) :
    logit7 (V15 m ρ) c p k = (Cert.ReferenceIdeal.RefValue.conv64 (F := Ideal) (m ((c : Thread nD τ).loc main_arg1)) h2 (m ((c : Thread nD τ).loc main_arg10)) (m ((c : Thread nD τ).loc main_arg11))) (ix2 p k) := by
  unfold logit7 Cert.ReferenceIdeal.RefValue.conv64
  rw [Cert.ReferenceIdeal.RefRead.addBias64_apply]
  rw [show arr7_0 (V15 m ρ) c = _ from W15_v95_ref m ρ c h2 hin]
  exact congrArg _ (W15_v96_apply m ρ c k)

/-- The last layer: from the second layer's output `h2`, the program's result array is the reference's log-softmax of
    its third convolution of `h2`. -/
theorem layer3 (h2 : FVec Ideal S50000x128 .f32) (hin : W13 m ρ c main_v81 = h2) :
    W16 m ρ c main_v97 = Cert.ReferenceIdeal.RefValue.logSoftmax (F := Ideal) (Cert.ReferenceIdeal.RefValue.conv64 (F := Ideal) (m ((c : Thread nD τ).loc main_arg1)) h2 (m ((c : Thread nD τ).loc main_arg10)) (m ((c : Thread nD τ).loc main_arg11))) := by
  have hA : W16 m ρ c main_v97 = (dat7 (V15 m ρ) c).arrAt 2 cfg7.N := W16_arr m ρ c 2
  rw [hA]
  show ((dat7 (V15 m ρ) c).arrAt 2 cfg7.N : S50000x64.Idx → EReal) = _
  funext i
  obtain ⟨p, q, rfl⟩ : ∃ (p : Fin 50000) (q : Fin 64), i = ix2 p q := ⟨i 0, i 1, eq_ix2 i⟩
  rw [val7 (V15 m ρ) c p q, Cert.ReferenceIdeal.RefRead.logSoftmax_apply]
  have hz : logit7 (V15 m ρ) c p = fun k => (Cert.ReferenceIdeal.RefValue.conv64 (F := Ideal) (m ((c : Thread nD τ).loc main_arg1)) h2 (m ((c : Thread nD τ).loc main_arg10)) (m ((c : Thread nD τ).loc main_arg11))) (ix2 p k) :=
    funext fun k => logit7_eq m ρ c h2 hin p k
  have hmax : rowMax7 (logit7 (V15 m ρ) c p) = Cert.ReferenceIdeal.RefRead.rowSup (Cert.ReferenceIdeal.RefValue.conv64 (F := Ideal) (m ((c : Thread nD τ).loc main_arg1)) h2 (m ((c : Thread nD τ).loc main_arg10)) (m ((c : Thread nD τ).loc main_arg11))) p := by
    rw [hz]
    unfold rowMax7 Cert.ReferenceIdeal.RefRead.rowSup
    rw [Cert.GcnConsts.ofBits_neg_inf]
  rw [hmax]
  simp only [logit7_eq m ρ c h2 hin]

end Cert.KernelIdeal.Hand

end
-- ==== Proof.KI.Value.Final.lean ====
/-
  The kernel program's result array on the extended reals is the reference's result of the same arguments, when every
  float argument holds only real numbers: the three layers in turn, each fed the layer before it. Real entries stay real
  through a graph convolution and through batch normalisation, which is what the second layer's variance needs.
-/
import proofs.«111771_j80977313399687_1_alg».proof.Proof.KI.Value.Layer1
import proofs.«111771_j80977313399687_1_alg».proof.Proof.KI.Value.Layer2
import proofs.«111771_j80977313399687_1_alg».proof.Proof.KI.Value.Layer3
import proofs.«111771_j80977313399687_1_alg».proof.Proof.KI.HostRead
import proofs.«111771_j80977313399687_1_alg».proof.Proof.RefFin

noncomputable section

namespace Cert.KernelIdeal.Hand

open Cert.KernelIdeal Cert.KernelIdeal.Gen
open Idealize.ShloMosaic Idealize.ShloMosaic.TcCoe Idealize.SL.Sem
open Cert.ReferenceIdeal.RefFin (AllFin)

variable (m : (ℓ : Loc nD τ sig) → Buf (Elt Ideal) ℓ) (ρ : Dev nD → PrngReg) (c : Dev nD)

theorem kernel_value
    (h0 : AllFin (s := S50000x128) (m ((c : Thread nD τ).loc main_arg0)))
    (h2 : AllFin (s := S128x128) (m ((c : Thread nD τ).loc main_arg2)))
    (h3 : AllFin (s := S128) (m ((c : Thread nD τ).loc main_arg3)))
    (h4 : AllFin (s := S128) (m ((c : Thread nD τ).loc main_arg4)))
    (h5 : AllFin (s := S128) (m ((c : Thread nD τ).loc main_arg5)))
    (h6 : AllFin (s := S128x128) (m ((c : Thread nD τ).loc main_arg6)))
    (h7 : AllFin (s := S128) (m ((c : Thread nD τ).loc main_arg7)))
    (h8 : AllFin (s := S128) (m ((c : Thread nD τ).loc main_arg8)))
    (h9 : AllFin (s := S128) (m ((c : Thread nD τ).loc main_arg9)))
    (h10 : AllFin (s := S128x64) (m ((c : Thread nD τ).loc main_arg10)))
    (h11 : AllFin (s := S64) (m ((c : Thread nD τ).loc main_arg11))) :
    W16 m ρ c main_v97 = Cert.ReferenceIdeal.RefValue.result (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) := by
  have e1 := layer1 m ρ c _ (W3_arg0 m ρ c) h0 h2 h3 h4 h5
  have f1 := Cert.ReferenceIdeal.RefFin.bnLayer_fin _ _ _
    (Cert.ReferenceIdeal.RefFin.conv128_fin (m ((c : Thread nD τ).loc main_arg1)) _ _ _ h0 h2 h3) h4 h5
  have e2 := layer2 m ρ c _ e1 f1 h6 h7 h8 h9
  exact layer3 m ρ c _ e2

end Cert.KernelIdeal.Hand

end
-- ==== Proof.PreFinite.lean ====
/-
  The precondition read back: every float argument array holds only real numbers. The predicate is a conjunction, one
  conjunct per float argument, of "every entry's absolute value is below +inf"; on the extended reals that excludes the
  two infinities.
-/
import proofs.«111771_j80977313399687_1_alg».proof.Pre_finite_inputs
import proofs.«111771_j80977313399687_1_alg».proof.Proof.LibStats
import proofs.«111771_j80977313399687_1_alg».proof.Proof.Consts
import Idealize.ShloMosaic.Lib.ReduceAll
import Idealize.ShloMosaic.Lib.ValueIdx
import Idealize.ShloMosaic.PureOps.Ideal

noncomputable section

namespace Cert.PreFinite

open Idealize.ShloMosaic Cert.Pre_finite_inputs Cert.LibStats

instance : Subsingleton S_.Idx := ⟨fun a b => funext fun d => d.elim0⟩

/-- An extended real whose absolute value is below `+inf` is a real. -/
theorem isFin_of_lt_top (x : EReal) (h : Ideal.cmp .olt (max x (-x)) (Ideal.ofBits .f32 0x7F800000#32) = 1#1) : IsFin x := by
  rw [Cert.GcnConsts.ofBits_pos_inf] at h
  induction x using EReal.rec with
  | bot => exact absurd h (by simp [Ideal.cmp])
  | top => exact absurd h (by simp [Ideal.cmp])
  | coe r => exact ⟨r, rfl⟩

/-- The same for every entry of an array. -/
theorem allFin {s : Shape} (x : FVec Ideal s .f32) (hb : S_.BroadcastsInDim s ![])
    (h : ∀ i, cmpf .olt (Host.absf x) (broadcastInDim s ![] hb (constant (F := Ideal) S_ .f32 0x7F800000#32)) i = 1#1) (i : s.Idx) : IsFin (x i) :=
  isFin_of_lt_top (x i) (h i)

/-- Under the precondition every entry of every float argument is a real. -/
theorem finite_of_pre [hP : Cert.Pre_finite_inputs.Facts] (a0 : FVec Ideal S50000x128 .f32) (a1 : IVec S2x800000 32) (a2 : FVec Ideal S128x128 .f32) (a3 a4 a5 : FVec Ideal S128 .f32) (a6 : FVec Ideal S128x128 .f32) (a7 a8 a9 : FVec Ideal S128 .f32) (a10 : FVec Ideal S128x64 .f32) (a11 : FVec Ideal S64 .f32)
    (h : fn (F := Ideal) a0 a1 a2 a3 a4 a5 a6 a7 a8 a9 a10 a11 = fun _ => 1#1) :
    (∀ i, IsFin (a0 i)) ∧ (∀ i, IsFin (a2 i)) ∧ (∀ i, IsFin (a3 i)) ∧ (∀ i, IsFin (a4 i)) ∧ (∀ i, IsFin (a5 i)) ∧ (∀ i, IsFin (a6 i))
      ∧ (∀ i, IsFin (a7 i)) ∧ (∀ i, IsFin (a8 i)) ∧ (∀ i, IsFin (a9 i)) ∧ (∀ i, IsFin (a10 i)) ∧ (∀ i, IsFin (a11 i)) := by
  have h0 := congrFun h ValueIdx.ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allFin a0 _ (Host.reduce_andi_all _ _ _ _ _ e0), allFin a2 _ (Host.reduce_andi_all _ _ _ _ _ e2),
    allFin a3 _ (Host.reduce_andi_all _ _ _ _ _ e3), allFin a4 _ (Host.reduce_andi_all _ _ _ _ _ e4),
    allFin a5 _ (Host.reduce_andi_all _ _ _ _ _ e5), allFin a6 _ (Host.reduce_andi_all _ _ _ _ _ e6),
    allFin a7 _ (Host.reduce_andi_all _ _ _ _ _ e7), allFin a8 _ (Host.reduce_andi_all _ _ _ _ _ e8),
    allFin a9 _ (Host.reduce_andi_all _ _ _ _ _ e9), allFin a10 _ (Host.reduce_andi_all _ _ _ _ _ e10),
    allFin a11 _ (Host.reduce_andi_all _ _ _ _ _ e11)⟩

end Cert.PreFinite

end
-- ==== Proof.Algebraic.lean ====
/- The algebraic claim: on the extended reals, from memories that agree on the twelve arguments, the kernel program and
   the reference both run, end with equal results and leave their arguments unchanged. The common result is the
   reference's stage composition `result` of the kernel's argument arrays: the kernel's run ends every unscoped buffer at
   its last boundary's contents, whose result array is that value when every float argument holds only real numbers
   (which the precondition says), and whose argument arrays are as launched; the reference's run ends its result
   buffer at `result` of its own arguments, which the agreement turns into the kernel's. -/
import proofs.«111771_j80977313399687_1_alg».proof.Defs
import proofs.«111771_j80977313399687_1_alg».proof.Proof.Gen.KernelIdeal
import proofs.«111771_j80977313399687_1_alg».proof.Proof.Gen.ReferenceIdeal
import proofs.«111771_j80977313399687_1_alg».proof.Proof.Gen.Pre_finite_inputs
import proofs.«111771_j80977313399687_1_alg».proof.Proof.KI.Run.Main
import proofs.«111771_j80977313399687_1_alg».proof.Proof.KI.Value.Final
import proofs.«111771_j80977313399687_1_alg».proof.Proof.PreFinite
import proofs.«111771_j80977313399687_1_alg».proof.Proof.RefRun

noncomputable section

namespace Cert.Proof

open Idealize.ShloMosaic Idealize.ShloMosaic.TcCoe Idealize.SL.Sem

set_option maxRecDepth 16384 in
/-- At the extended reals the kernel program and the reference end with equal results and unchanged arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.RefValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run (Cert.KernelIdeal.defs (F := Ideal)) _ _).mono (fun r h c => ?_) (Cert.KernelIdeal.Hand.run_all m ρ)
    obtain ⟨f0, f2, f3, f4, f5, f6, f7, f8, f9, f10, f11⟩ :=
      Cert.PreFinite.finite_of_pre (hP := Cert.Pre_finite_inputs.Gen.facts) _ _ _ _ _ _ _ _ _ _ _ _ (hpre c)
    exact ⟨(h c _ (Cert.KernelIdeal.Hand.mem_uc Cert.KernelIdeal.main_v97 (by decide))).trans (Cert.KernelIdeal.Hand.kernel_value m ρ c f0 f2 f3 f4 f5 f6 f7 f8 f9 f10 f11),
      (h c _ (Cert.KernelIdeal.Hand.mem_uc Cert.KernelIdeal.main_arg0 (by decide))).trans (Cert.KernelIdeal.Hand.W16_main_arg0 m ρ c),
      (h c _ (Cert.KernelIdeal.Hand.mem_uc Cert.KernelIdeal.main_arg1 (by decide))).trans (Cert.KernelIdeal.Hand.W16_main_arg1 m ρ c),
      (h c _ (Cert.KernelIdeal.Hand.mem_uc Cert.KernelIdeal.main_arg2 (by decide))).trans (Cert.KernelIdeal.Hand.W16_main_arg2 m ρ c),
      (h c _ (Cert.KernelIdeal.Hand.mem_uc Cert.KernelIdeal.main_arg3 (by decide))).trans (Cert.KernelIdeal.Hand.W16_main_arg3 m ρ c),
      (h c _ (Cert.KernelIdeal.Hand.mem_uc Cert.KernelIdeal.main_arg4 (by decide))).trans (Cert.KernelIdeal.Hand.W16_main_arg4 m ρ c),
      (h c _ (Cert.KernelIdeal.Hand.mem_uc Cert.KernelIdeal.main_arg5 (by decide))).trans (Cert.KernelIdeal.Hand.W16_main_arg5 m ρ c),
      (h c _ (Cert.KernelIdeal.Hand.mem_uc Cert.KernelIdeal.main_arg6 (by decide))).trans (Cert.KernelIdeal.Hand.W16_main_arg6 m ρ c),
      (h c _ (Cert.KernelIdeal.Hand.mem_uc Cert.KernelIdeal.main_arg7 (by decide))).trans (Cert.KernelIdeal.Hand.W16_main_arg7 m ρ c),
      (h c _ (Cert.KernelIdeal.Hand.mem_uc Cert.KernelIdeal.main_arg8 (by decide))).trans (Cert.KernelIdeal.Hand.W16_main_arg8 m ρ c),
      (h c _ (Cert.KernelIdeal.Hand.mem_uc Cert.KernelIdeal.main_arg9 (by decide))).trans (Cert.KernelIdeal.Hand.W16_main_arg9 m ρ c),
      (h c _ (Cert.KernelIdeal.Hand.mem_uc Cert.KernelIdeal.main_arg10 (by decide))).trans (Cert.KernelIdeal.Hand.W16_main_arg10 m ρ c),
      (h c _ (Cert.KernelIdeal.Hand.mem_uc Cert.KernelIdeal.main_arg11 (by decide))).trans (Cert.KernelIdeal.Hand.W16_main_arg11 m ρ c)⟩
  · refine (θ_run (Cert.ReferenceIdeal.defs (F := Ideal)) _ _).mono (fun r h c => ⟨(h c).1.trans ?_, (h c).2⟩) (Cert.ReferenceIdeal.RefValue.run m' ρ')
    obtain ⟨e0, e1, e2, e3, e4, e5, e6, e7, e8, e9, e10, e11⟩ := hagree c
    rw [e0, e1, e2, e3, e4, e5, e6, e7, e8, e9, e10, e11]

end Cert.Proof

end
-- ==== Proof.lean ====
/-
  The certificate of a three-layer graph convolutional network computed by eight tiled kernels (three linear maps, two
  passes of bias and column statistics, two passes of batch normalisation with rectification, one bias and log-softmax)
  around host gathers and accumulating scatters, against its plain array reference.

  Frames. Each kernel program's run is @main's sixteen segments (eight stretches of host operations, eight kernel regions)
  chained from the launch memory, every buffer's contents at every boundary named by a fold; no segment writes an
  argument array. The reference's run is its host operations in order.

  Values, on the extended reals. Each kernel's output array is read index by index: a linear map as a sum over the
  contracted axis, the bias pass as a sum of a row and a bias and two column sums accumulated block by block over the
  grid, batch normalisation entry by entry, log-softmax row by row. The kernels' host stretches are the reference's own
  stages. The one difference of arrangement is the variance, mean of squares less the squared mean in the kernels
  against the mean of squared deviations in the reference: equal on real entries, and under the precondition every
  intermediate entry is real (a degree is a finite count of at least one self-loop, so its inverse square root is real;
  a variance is non-negative and the epsilon positive, so the normalisation divides by a positive real).
-/
import proofs.«111771_j80977313399687_1_alg».proof.Defs
import proofs.«111771_j80977313399687_1_alg».proof.Proof.Gen.Kernel
import proofs.«111771_j80977313399687_1_alg».proof.Proof.Gen.KernelIdeal
import proofs.«111771_j80977313399687_1_alg».proof.Proof.Gen.ReferenceIdeal
import proofs.«111771_j80977313399687_1_alg».proof.Proof.Gen.Pre_finite_inputs
import proofs.«111771_j80977313399687_1_alg».proof.Proof.K.Run.Main
import proofs.«111771_j80977313399687_1_alg».proof.Proof.KI.Run.Main
import proofs.«111771_j80977313399687_1_alg».proof.Proof.RefRun
import proofs.«111771_j80977313399687_1_alg».proof.Proof.Algebraic

noncomputable section

namespace Cert.Proof

open Idealize.ShloMosaic Idealize.SL.Sem

/-- The word-level kernel program runs to the end, nothing faulting, and its argument arrays end as launched. -/
theorem frame_k : @Cert.frame_Kernel Cert.Kernel.Gen.facts Cert.Pre_finite_inputs.Gen.facts :=
  fun m ρ _ => Cert.Kernel.Hand.frame m ρ

/-- The same for the kernel program read on the extended reals. -/
theorem frame_ki : @Cert.frame_KernelIdeal Cert.KernelIdeal.Gen.facts Cert.Pre_finite_inputs.Gen.facts :=
  fun m ρ _ => Cert.KernelIdeal.Hand.frame m ρ

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame, trivial, Cert.Proof.algebraic⟩

end Cert.Proof

end
